-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S2x64x64 : Shape := ⟨3, ![2, 64, 64]⟩
abbrev S2x64 : Shape := ⟨2, ![2, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part3 {F : FTy → Type} [FloatOps F] (main_arg13 : FVec F S2x64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  main_v58

def fn_part2 {F : FTy → Type} [FloatOps F] (main_arg9 : FVec F S2x64x64 .f32) (main_arg10 : FVec F S2x64 .f32) (main_arg11 : FVec F S2x64 .f32) (main_arg12 : FVec F S2x64 .f32) (main_arg13 : FVec F S2x64 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg13 main_v48 main_v49 main_v50

def fn_part1 {F : FTy → Type} [FloatOps F] (main_arg6 : FVec F S2x64 .f32) (main_arg7 : FVec F S2x64x64 .f32) (main_arg8 : FVec F S2x64 .f32) (main_arg9 : FVec F S2x64x64 .f32) (main_arg10 : FVec F S2x64 .f32) (main_arg11 : FVec F S2x64 .f32) (main_arg12 : FVec F S2x64 .f32) (main_arg13 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1250000 32) (main_arg2 : IVec S100000 32) (main_arg3 : FVec F S2x64x64 .f32) (main_arg4 : FVec F S2x64 .f32) (main_arg5 : FVec F S2x64x64 .f32) (main_arg6 : FVec F S2x64 .f32) (main_arg7 : FVec F S2x64x64 .f32) (main_arg8 : FVec F S2x64 .f32) (main_arg9 : FVec F S2x64x64 .f32) (main_arg10 : FVec F S2x64 .f32) (main_arg11 : FVec F S2x64 .f32) (main_arg12 : FVec F S2x64 .f32) (main_arg13 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2x64x64 .f32 := Host.absf main_arg3
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S2x64x64 .f32 := Host.absf main_arg5
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S2x64x64 : Shape := ⟨3, ![2, 64, 64]⟩
abbrev S2x64 : Shape := ⟨2, ![2, 64]⟩
abbrev S1x1250000 : Shape := ⟨2, ![1, 1250000]⟩
abbrev S1250000 : Shape := ⟨1, ![1250000]⟩
abbrev S1x64x64 : Shape := ⟨3, ![1, 64, 64]⟩
abbrev S64x64 : Shape := ⟨2, ![64, 64]⟩
abbrev S64x256 : Shape := ⟨2, ![64, 256]⟩
abbrev S1x64 : Shape := ⟨2, ![1, 64]⟩
abbrev S64 : Shape := ⟨1, ![64]⟩
abbrev S256 : Shape := ⟨1, ![256]⟩
abbrev S1x256 : Shape := ⟨2, ![1, 256]⟩
abbrev S100000x256 : Shape := ⟨2, ![100000, 256]⟩
abbrev S4000x64 : Shape := ⟨2, ![4000, 64]⟩
abbrev S4000x256 : Shape := ⟨2, ![4000, 256]⟩
abbrev S_ : Shape := ⟨0, ![]⟩
abbrev S1250000x1 : Shape := ⟨2, ![1250000, 1]⟩
abbrev S1250000x64 : Shape := ⟨2, ![1250000, 64]⟩

abbrev nBuf : Space → Nat
  | .hbm => 212
  | .vmem => 46
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S2x64x64, .f32⟩
  | 4 => ⟨S2x64, .f32⟩
  | 5 => ⟨S2x64x64, .f32⟩
  | 6 => ⟨S2x64, .f32⟩
  | 7 => ⟨S2x64x64, .f32⟩
  | 8 => ⟨S2x64, .f32⟩
  | 9 => ⟨S2x64x64, .f32⟩
  | 10 => ⟨S2x64, .f32⟩
  | 11 => ⟨S2x64, .f32⟩
  | 12 => ⟨S2x64, .f32⟩
  | 13 => ⟨S2x64, .f32⟩
  | 14 => ⟨S1x1250000, .i32⟩
  | 15 => ⟨S1250000, .i32⟩
  | 16 => ⟨S1x1250000, .i32⟩
  | 17 => ⟨S1250000, .i32⟩
  | 18 => ⟨S1x64x64, .f32⟩
  | 19 => ⟨S64x64, .f32⟩
  | 20 => ⟨S1x64x64, .f32⟩
  | 21 => ⟨S64x64, .f32⟩
  | 22 => ⟨S1x64x64, .f32⟩
  | 23 => ⟨S64x64, .f32⟩
  | 24 => ⟨S1x64x64, .f32⟩
  | 25 => ⟨S64x64, .f32⟩
  | 26 => ⟨S64x256, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S64, .f32⟩
  | 35 => ⟨S256, .f32⟩
  | 36 => ⟨S1x256, .f32⟩
  | 37 => ⟨S100000x256, .f32⟩
  | 38 => ⟨S100000x64, .f32⟩
  | 39 => ⟨S100000x64, .f32⟩
  | 40 => ⟨S100000x64, .f32⟩
  | 41 => ⟨S100000x64, .f32⟩
  | 42 => ⟨S_, .i32⟩
  | 43 => ⟨S1250000, .i32⟩
  | 44 => ⟨S1250000, .i1⟩
  | 45 => ⟨S_, .i32⟩
  | 46 => ⟨S1250000, .i32⟩
  | 47 => ⟨S1250000, .i32⟩
  | 48 => ⟨S1250000, .i32⟩
  | 49 => ⟨S1250000x1, .i32⟩
  | 50 => ⟨S1250000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S1250000x64, .f32⟩
  | 61 => ⟨S1250000x64, .f32⟩
  | 62 => ⟨S1250000x64, .f32⟩
  | 63 => ⟨S_, .f32⟩
  | 64 => ⟨S1250000x64, .f32⟩
  | 65 => ⟨S1250000x64, .f32⟩
  | 66 => ⟨S_, .f32⟩
  | 67 => ⟨S1250000x64, .f32⟩
  | 68 => ⟨S1250000x64, .f32⟩
  | 69 => ⟨S_, .i32⟩
  | 70 => ⟨S1250000, .i32⟩
  | 71 => ⟨S1250000, .i1⟩
  | 72 => ⟨S_, .i32⟩
  | 73 => ⟨S1250000, .i32⟩
  | 74 => ⟨S1250000, .i32⟩
  | 75 => ⟨S1250000, .i32⟩
  | 76 => ⟨S1250000x1, .i32⟩
  | 77 => ⟨S1250000x64, .f32⟩
  | 78 => ⟨S1250000x64, .f32⟩
  | 79 => ⟨S_, .f32⟩
  | 80 => ⟨S100000x64, .f32⟩
  | 81 => ⟨S_, .i32⟩
  | 82 => ⟨S1250000, .i32⟩
  | 83 => ⟨S1250000, .i1⟩
  | 84 => ⟨S_, .i32⟩
  | 85 => ⟨S1250000, .i32⟩
  | 86 => ⟨S1250000, .i32⟩
  | 87 => ⟨S1250000, .i32⟩
  | 88 => ⟨S1250000x1, .i32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S64, .f32⟩
  | 106 => ⟨S1x64, .f32⟩
  | 107 => ⟨S1x64, .f32⟩
  | 108 => ⟨S64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S100000x64, .f32⟩
  | 115 => ⟨S1x64x64, .f32⟩
  | 116 => ⟨S64x64, .f32⟩
  | 117 => ⟨S1x64x64, .f32⟩
  | 118 => ⟨S64x64, .f32⟩
  | 119 => ⟨S1x64x64, .f32⟩
  | 120 => ⟨S64x64, .f32⟩
  | 121 => ⟨S1x64x64, .f32⟩
  | 122 => ⟨S64x64, .f32⟩
  | 123 => ⟨S64x256, .f32⟩
  | 124 => ⟨S1x64, .f32⟩
  | 125 => ⟨S64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S256, .f32⟩
  | 5 => ⟨S1x256, .f32⟩
  | 6 => ⟨S100000x256, .f32⟩
  | 7 => ⟨S100000x64, .f32⟩
  | 8 => ⟨S100000x64, .f32⟩
  | 9 => ⟨S100000x64, .f32⟩
  | 10 => ⟨S100000x64, .f32⟩
  | 11 => ⟨S_, .i32⟩
  | 12 => ⟨S1250000, .i32⟩
  | 13 => ⟨S1250000, .i1⟩
  | 14 => ⟨S_, .i32⟩
  | 15 => ⟨S1250000, .i32⟩
  | 16 => ⟨S1250000, .i32⟩
  | 17 => ⟨S1250000, .i32⟩
  | 18 => ⟨S1250000x1, .i32⟩
  | 19 => ⟨S1250000x64, .f32⟩
  | 20 => ⟨S_, .i32⟩
  | 21 => ⟨S1250000, .i32⟩
  | 22 => ⟨S1250000, .i1⟩
  | 23 => ⟨S_, .i32⟩
  | 24 => ⟨S1250000, .i32⟩
  | 25 => ⟨S1250000, .i32⟩
  | 26 => ⟨S1250000, .i32⟩
  | 27 => ⟨S1250000x1, .i32⟩
  | 28 => ⟨S1250000x64, .f32⟩
  | 29 => ⟨S1250000x64, .f32⟩
  | 30 => ⟨S1250000x64, .f32⟩
  | 31 => ⟨S1250000x64, .f32⟩
  | 32 => ⟨S_, .f32⟩
  | 33 => ⟨S1250000x64, .f32⟩
  | 34 => ⟨S1250000x64, .f32⟩
  | 35 => ⟨S_, .f32⟩
  | 36 => ⟨S1250000x64, .f32⟩
  | 37 => ⟨S1250000x64, .f32⟩
  | 38 => ⟨S_, .i32⟩
  | 39 => ⟨S1250000, .i32⟩
  | 40 => ⟨S1250000, .i1⟩
  | 41 => ⟨S_, .i32⟩
  | 42 => ⟨S1250000, .i32⟩
  | 43 => ⟨S1250000, .i32⟩
  | 44 => ⟨S1250000, .i32⟩
  | 45 => ⟨S1250000x1, .i32⟩
  | 46 => ⟨S1250000x64, .f32⟩
  | 47 => ⟨S1250000x64, .f32⟩
  | 48 => ⟨S_, .f32⟩
  | 49 => ⟨S100000x64, .f32⟩
  | 50 => ⟨S_, .i32⟩
  | 51 => ⟨S1250000, .i32⟩
  | 52 => ⟨S1250000, .i1⟩
  | 53 => ⟨S_, .i32⟩
  | 54 => ⟨S1250000, .i32⟩
  | 55 => ⟨S1250000, .i32⟩
  | 56 => ⟨S1250000, .i32⟩
  | 57 => ⟨S1250000x1, .i32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S1x64, .f32⟩
  | 73 => ⟨S1x64, .f32⟩
  | 74 => ⟨S64, .f32⟩
  | 75 => ⟨S1x64, .f32⟩
  | 76 => ⟨S1x64, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S1x64, .f32⟩
  | .local _ .vmem, ⟨11, _⟩ => ⟨S4000x64, .f32⟩
  | .local _ .vmem, ⟨12, _⟩ => ⟨S4000x64, .f32⟩
  | .local _ .vmem, ⟨13, _⟩ => ⟨S1x64, .f32⟩
  | .local _ .vmem, ⟨14, _⟩ => ⟨S1x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S64x256, .f32⟩
  | .local _ .vmem, ⟨26, _⟩ => ⟨S1x256, .f32⟩
  | .local _ .vmem, ⟨27, _⟩ => ⟨S4000x256, .f32⟩
  | .local _ .vmem, ⟨28, _⟩ => ⟨S4000x256, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | .local _ .vmem, ⟨36, _⟩ => ⟨S1x64, .f32⟩
  | .local _ .vmem, ⟨37, _⟩ => ⟨S1x64, .f32⟩
  | .local _ .vmem, ⟨38, _⟩ => ⟨S4000x64, .f32⟩
  | .local _ .vmem, ⟨39, _⟩ => ⟨S4000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S4000x64, .f32⟩
  | .local _ .vmem, ⟨45, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_1 : Ref sig .tc := ⟨.hbm, 51, rfl⟩
abbrev main_v35 : Ref sig .tc := ⟨.hbm, 52, rfl⟩
abbrev main_v36 : Ref sig .tc := ⟨.hbm, 53, rfl⟩
abbrev main_c_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_c_7 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68_0 : Ref sig .tc := ⟨.hbm, 93, rfl⟩
abbrev main_v68_1 : Ref sig .tc := ⟨.hbm, 94, rfl⟩
abbrev main_v68_2 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_12 : Ref sig .tc := ⟨.hbm, 139, rfl⟩
abbrev main_v109 : Ref sig .tc := ⟨.hbm, 140, rfl⟩
abbrev main_v110 : Ref sig .tc := ⟨.hbm, 141, rfl⟩
abbrev main_c_13 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_14 : Ref sig .tc := ⟨.hbm, 148, rfl⟩
abbrev main_v116 : Ref sig .tc := ⟨.hbm, 149, rfl⟩
abbrev main_v117 : Ref sig .tc := ⟨.hbm, 150, rfl⟩
abbrev main_c_15 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_16 : Ref sig .tc := ⟨.hbm, 160, rfl⟩
abbrev main_v126 : Ref sig .tc := ⟨.hbm, 161, rfl⟩
abbrev main_v127 : Ref sig .tc := ⟨.hbm, 162, rfl⟩
abbrev main_cst_17 : Ref sig .tc := ⟨.hbm, 163, rfl⟩
abbrev main_v128 : Ref sig .tc := ⟨.hbm, 164, rfl⟩
abbrev main_v129 : Ref sig .tc := ⟨.hbm, 165, rfl⟩
abbrev main_c_18 : Ref sig .tc := ⟨.hbm, 166, rfl⟩
abbrev main_v130 : Ref sig .tc := ⟨.hbm, 167, rfl⟩
abbrev main_v131 : Ref sig .tc := ⟨.hbm, 168, rfl⟩
abbrev main_c_19 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_20 : Ref sig .tc := ⟨.hbm, 176, rfl⟩
abbrev main_v138 : Ref sig .tc := ⟨.hbm, 177, rfl⟩
abbrev main_c_21 : Ref sig .tc := ⟨.hbm, 178, rfl⟩
abbrev main_v139 : Ref sig .tc := ⟨.hbm, 179, rfl⟩
abbrev main_v140 : Ref sig .tc := ⟨.hbm, 180, rfl⟩
abbrev main_c_22 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149_0 : Ref sig .tc := ⟨.hbm, 190, rfl⟩
abbrev main_v149_1 : Ref sig .tc := ⟨.hbm, 191, rfl⟩
abbrev main_v149_2 : Ref sig .tc := ⟨.hbm, 192, rfl⟩
abbrev main_cst_23 : Ref sig .tc := ⟨.hbm, 193, rfl⟩
abbrev main_v150 : Ref sig .tc := ⟨.hbm, 194, rfl⟩
abbrev main_v151 : Ref sig .tc := ⟨.hbm, 195, rfl⟩
abbrev main_cst_24 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_25 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg5_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  slices_S2x64x64_S1x64x64_0_0_0 : S2x64x64.Slices ![0, 0, 0] S1x64x64
  shapeCasts_S1x64x64_S64x64 : S1x64x64.ShapeCasts S64x64
  concatenates_S64x64_S64x64_S64x64_S64x64_S64x256_d1 : Shape.Concatenates [S64x64, S64x64, S64x64, S64x64] S64x256 1
  slices_S2x64_S1x64_0_0 : S2x64.Slices ![0, 0] S1x64
  shapeCasts_S1x64_S64 : S1x64.ShapeCasts S64
  concatenates_S64_S64_S64_S64_S256_d0 : Shape.Concatenates [S64, S64, S64, S64] S256 0
  shapeCasts_S256_S1x256 : S256.ShapeCasts S1x256
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S64 : S4000x64.Reduces [0] S64
  bcast_S_S1x64 : S_.BroadcastsInDim S1x64 (![] : Fin 0 → Fin S1x64.rank)
  slices_S2x64x64_S1x64x64_1_0_0 : S2x64x64.Slices ![1, 0, 0] S1x64x64
  slices_S2x64_S1x64_1_0 : S2x64.Slices ![1, 0] S1x64
  dot_S4000x64_S64x256_S4000x256_1_0_0_1_n_n_wf : DotDims.WF S4000x64 S64x256 S4000x256 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x256.size a ≤ S100000x256.size a
  hwx3_3 : ∀ i : grid3.Coords, EltTy.bits .f32 = 32 ∨ (Rect.block (s := S100000x256) S4000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S100000x64.size a
  hwx4_1 : ∀ i : grid4.Coords, EltTy.bits .f32 = 32 ∨ (Rect.block (s := S100000x64) S4000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x64.size a ≤ S100000x64.size a
  hwx5_5 : ∀ i : grid5.Coords, EltTy.bits .f32 = 32 ∨ (Rect.block (s := S100000x64) S4000x64.size (cc5_transform_5 i) (hinb5_5 i)).WholeWords (EltTy.packing .f32)

variable [Facts₀]

def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v64) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68_0) S4000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v68_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S4000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v145) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v108) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v148) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v149_0) S4000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v149_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v149_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v149_0) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v151) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v164) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v158) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v161) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v165) S4000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S2x64x64 : Shape := ⟨3, ![2, 64, 64]⟩
abbrev S2x64 : Shape := ⟨2, ![2, 64]⟩
abbrev S1x1250000 : Shape := ⟨2, ![1, 1250000]⟩
abbrev S1250000 : Shape := ⟨1, ![1250000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩

abbrev nBuf : Space → Nat
  | .hbm => 264
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S2x64x64, .f32⟩
  | 4 => ⟨S2x64, .f32⟩
  | 5 => ⟨S2x64x64, .f32⟩
  | 6 => ⟨S2x64, .f32⟩
  | 7 => ⟨S2x64x64, .f32⟩
  | 8 => ⟨S2x64, .f32⟩
  | 9 => ⟨S2x64x64, .f32⟩
  | 10 => ⟨S2x64, .f32⟩
  | 11 => ⟨S2x64, .f32⟩
  | 12 => ⟨S2x64, .f32⟩
  | 13 => ⟨S2x64, .f32⟩
  | 14 => ⟨S1x1250000, .i32⟩
  | 15 => ⟨S1250000, .i32⟩
  | 16 => ⟨S1x1250000, .i32⟩
  | 17 => ⟨S1250000, .i32⟩
  | 18 => ⟨S1x64x64, .f32⟩
  | 19 => ⟨S64x64, .f32⟩
  | 20 => ⟨S1x64, .f32⟩
  | 21 => ⟨S64, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S64, .f32⟩
  | 36 => ⟨S100000x64, .f32⟩
  | 37 => ⟨S1x64, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x64, .f32⟩
  | 57 => ⟨S_, .i32⟩
  | 58 => ⟨S1250000, .i32⟩
  | 59 => ⟨S1250000, .i1⟩
  | 60 => ⟨S_, .i32⟩
  | 61 => ⟨S1250000, .i32⟩
  | 62 => ⟨S1250000, .i32⟩
  | 63 => ⟨S1250000, .i32⟩
  | 64 => ⟨S1250000x1, .i32⟩
  | 65 => ⟨S1250000x64, .f32⟩
  | 66 => ⟨S1250000x64, .f32⟩
  | 67 => ⟨S1250000x64, .f32⟩
  | 68 => ⟨S1250000x64, .f32⟩
  | 69 => ⟨S_, .f32⟩
  | 70 => ⟨S1250000x64, .f32⟩
  | 71 => ⟨S1250000x64, .f32⟩
  | 72 => ⟨S_, .f32⟩
  | 73 => ⟨S1250000x64, .f32⟩
  | 74 => ⟨S1250000x64, .f32⟩
  | 75 => ⟨S_, .i32⟩
  | 76 => ⟨S1250000, .i32⟩
  | 77 => ⟨S1250000, .i1⟩
  | 78 => ⟨S_, .i32⟩
  | 79 => ⟨S1250000, .i32⟩
  | 80 => ⟨S1250000, .i32⟩
  | 81 => ⟨S1250000, .i32⟩
  | 82 => ⟨S1250000x1, .i32⟩
  | 83 => ⟨S1250000x64, .f32⟩
  | 84 => ⟨S1250000x64, .f32⟩
  | 85 => ⟨S_, .f32⟩
  | 86 => ⟨S100000x64, .f32⟩
  | 87 => ⟨S_, .i32⟩
  | 88 => ⟨S1250000, .i32⟩
  | 89 => ⟨S1250000, .i1⟩
  | 90 => ⟨S_, .i32⟩
  | 91 => ⟨S1250000, .i32⟩
  | 92 => ⟨S1250000, .i32⟩
  | 93 => ⟨S1250000, .i32⟩
  | 94 => ⟨S1250000x1, .i32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S1x64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S64, .f32⟩
  | 31 => ⟨S100000x64, .f32⟩
  | 32 => ⟨S1x64, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000x64, .f32⟩
  | 52 => ⟨S_, .i32⟩
  | 53 => ⟨S1250000, .i32⟩
  | 54 => ⟨S1250000, .i1⟩
  | 55 => ⟨S_, .i32⟩
  | 56 => ⟨S1250000, .i32⟩
  | 57 => ⟨S1250000, .i32⟩
  | 58 => ⟨S1250000, .i32⟩
  | 59 => ⟨S1250000x1, .i32⟩
  | 60 => ⟨S1250000x64, .f32⟩
  | 61 => ⟨S1250000x64, .f32⟩
  | 62 => ⟨S1250000x64, .f32⟩
  | 63 => ⟨S1250000x64, .f32⟩
  | 64 => ⟨S_, .f32⟩
  | 65 => ⟨S1250000x64, .f32⟩
  | 66 => ⟨S1250000x64, .f32⟩
  | 67 => ⟨S_, .f32⟩
  | 68 => ⟨S1250000x64, .f32⟩
  | 69 => ⟨S1250000x64, .f32⟩
  | 70 => ⟨S_, .i32⟩
  | 71 => ⟨S1250000, .i32⟩
  | 72 => ⟨S1250000, .i1⟩
  | 73 => ⟨S_, .i32⟩
  | 74 => ⟨S1250000, .i32⟩
  | 75 => ⟨S1250000, .i32⟩
  | 76 => ⟨S1250000, .i32⟩
  | 77 => ⟨S1250000x1, .i32⟩
  | 78 => ⟨S1250000x64, .f32⟩
  | 79 => ⟨S1250000x64, .f32⟩
  | 80 => ⟨S_, .f32⟩
  | 81 => ⟨S100000x64, .f32⟩
  | 82 => ⟨S_, .i32⟩
  | 83 => ⟨S1250000, .i32⟩
  | 84 => ⟨S1250000, .i1⟩
  | 85 => ⟨S_, .i32⟩
  | 86 => ⟨S1250000, .i32⟩
  | 87 => ⟨S1250000, .i32⟩
  | 88 => ⟨S1250000, .i32⟩
  | 89 => ⟨S1250000x1, .i32⟩
  | 90 => ⟨S100000x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x64, .f32⟩
  | 103 => ⟨S64, .f32⟩
  | 104 => ⟨S1x64, .f32⟩
  | 105 => ⟨S64, .f32⟩
  | 106 => ⟨S_, .f32⟩
  | 107 => ⟨S64, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S100000x64, .f32⟩
  | 115 => ⟨S_, .f32⟩
  | 116 => ⟨S64, .f32⟩
  | 117 => ⟨S_, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S_, .f32⟩
  | 124 => ⟨S64, .f32⟩
  | 125 => ⟨S64, .f32⟩
  | 126 => ⟨S64, .f32⟩
  | 127 => ⟨S1x64, .f32⟩
  | _ => ⟨S100000x64, .f32⟩

abbrev hbmTy0_2 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_v35 : Ref sig .tc := ⟨.hbm, 50, rfl⟩
abbrev main_c_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_1 : Ref sig .tc := ⟨.hbm, 57, rfl⟩
abbrev main_v41 : Ref sig .tc := ⟨.hbm, 58, rfl⟩
abbrev main_v42 : Ref sig .tc := ⟨.hbm, 59, rfl⟩
abbrev main_c_2 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst : Ref sig .tc := ⟨.hbm, 69, rfl⟩
abbrev main_v51 : Ref sig .tc := ⟨.hbm, 70, rfl⟩
abbrev main_v52 : Ref sig .tc := ⟨.hbm, 71, rfl⟩
abbrev main_cst_3 : Ref sig .tc := ⟨.hbm, 72, rfl⟩
abbrev main_v53 : Ref sig .tc := ⟨.hbm, 73, rfl⟩
abbrev main_v54 : Ref sig .tc := ⟨.hbm, 74, rfl⟩
abbrev main_c_4 : Ref sig .tc := ⟨.hbm, 75, rfl⟩
abbrev main_v55 : Ref sig .tc := ⟨.hbm, 76, rfl⟩
abbrev main_v56 : Ref sig .tc := ⟨.hbm, 77, rfl⟩
abbrev main_c_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_c_7 : Ref sig .tc := ⟨.hbm, 87, rfl⟩
abbrev main_v64 : Ref sig .tc := ⟨.hbm, 88, rfl⟩
abbrev main_v65 : Ref sig .tc := ⟨.hbm, 89, rfl⟩
abbrev main_c_8 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call0_cst : Ref sig .tc := ⟨.hbm, 104, rfl⟩
abbrev main_call0_v0 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_cst_10 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_11 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_13 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_c_14 : Ref sig .tc := ⟨.hbm, 171, rfl⟩
abbrev main_v139 : Ref sig .tc := ⟨.hbm, 172, rfl⟩
abbrev main_v140 : Ref sig .tc := ⟨.hbm, 173, rfl⟩
abbrev main_c_15 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_c_16 : Ref sig .tc := ⟨.hbm, 180, rfl⟩
abbrev main_v146 : Ref sig .tc := ⟨.hbm, 181, rfl⟩
abbrev main_v147 : Ref sig .tc := ⟨.hbm, 182, rfl⟩
abbrev main_c_17 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_18 : Ref sig .tc := ⟨.hbm, 192, rfl⟩
abbrev main_v156 : Ref sig .tc := ⟨.hbm, 193, rfl⟩
abbrev main_v157 : Ref sig .tc := ⟨.hbm, 194, rfl⟩
abbrev main_cst_19 : Ref sig .tc := ⟨.hbm, 195, rfl⟩
abbrev main_v158 : Ref sig .tc := ⟨.hbm, 196, rfl⟩
abbrev main_v159 : Ref sig .tc := ⟨.hbm, 197, rfl⟩
abbrev main_c_20 : Ref sig .tc := ⟨.hbm, 198, rfl⟩
abbrev main_v160 : Ref sig .tc := ⟨.hbm, 199, rfl⟩
abbrev main_v161 : Ref sig .tc := ⟨.hbm, 200, rfl⟩
abbrev main_c_21 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_22 : Ref sig .tc := ⟨.hbm, 208, rfl⟩
abbrev main_v168 : Ref sig .tc := ⟨.hbm, 209, rfl⟩
abbrev main_c_23 : Ref sig .tc := ⟨.hbm, 210, rfl⟩
abbrev main_v169 : Ref sig .tc := ⟨.hbm, 211, rfl⟩
abbrev main_v170 : Ref sig .tc := ⟨.hbm, 212, rfl⟩
abbrev main_c_24 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_call1_cst : Ref sig .tc := ⟨.hbm, 227, rfl⟩
abbrev main_call1_v0 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_25 : Ref sig .tc := ⟨.hbm, 234, rfl⟩
abbrev main_v189 : Ref sig .tc := ⟨.hbm, 235, rfl⟩
abbrev main_cst_26 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_27 : Ref sig .tc := ⟨.hbm, 243, rfl⟩
abbrev main_v196 : Ref sig .tc := ⟨.hbm, 244, rfl⟩
abbrev main_cst_28 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_cst_29 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.K.Region0.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The linear layer's region 0: one row block times the weights, plus the bias row

Each of the 25 grid points takes a 4000x64 block of rows (window 0), the whole 64x256 weight matrix
(window 1) and the 1x256 bias row (window 2), and overwrites the matching 4000x256 block of the result
(window 3) with `block · weights + bias`. Nothing is carried from one point to the next: the result block
is a function of the three input blocks alone. The weights and the bias have a constant block index, so the
pipeline copies them in once, at the first point; their staging buffers still hold them at every later
point because the body never writes them. -/

-- the TensorCore's buffer contents when the region is entered
variable (V : (c : Dev nD) → (b : Ref sig .tc) → Buf (Elt F) ((c : Thread nD τ).loc b))

/-- Window `w`'s block at grid point `t`, read off the array as it stands when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point

For proof data whose array for the window is the entry contents and whose body leaves the block where it
found it, the buffer the body is handed holds the block of the point: either the pipeline has just copied
it in, or the block index has not moved since the last copy and the buffer is untouched. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev r0_0 : Rect S4000x64 := Rect.unit (s := S4000x64) ![0, 0] S4000x64.size inb_S4000x64_S4000x64_0_0
abbrev r0_1 : Rect S64x256 := Rect.unit (s := S64x256) ![0, 0] S64x256.size inb_S64x256_S64x256_0_0
abbrev r0_2 : Rect S1x256 := Rect.unit (s := S1x256) ![0, 0] S1x256.size inb_S1x256_S1x256_0_0
abbrev r0_3 : Rect S4000x256 := Rect.unit (s := S4000x256) ![0, 0] S4000x256.size inb_S4000x256_S4000x256_0_0

/-- What the body leaves in the result block's buffer, from the three input blocks: its single whole-buffer
    store of the matrix product plus the broadcast bias. -/
def out0_3 (x0 : Vec F S4000x64 .f32) (x1 : Vec F S64x256 .f32) (x2 : Vec F S1x256 .f32) : Vec F S4000x256 .f32 :=
  View.canon [⟨r0_3, k0_pay1 (View.ld x0 r0_0) (View.ld x1 r0_1) (View.ld x2 r0_2)⟩]

/-- The single store spans the whole 4000x256 buffer, so every index of the buffer lies in it. -/
theorem cover0_3 (p0 : Vec F S4000x256 .f32) (y : S4000x256.Idx) :
    ∃ pc ∈ ([⟨r0_3, p0⟩] : List (View.Piece (Elt F) S4000x256 .f32)), y ∈ pc.1.set :=
  View.cover_of_tiled [⟨r0_3, p0⟩] S4000x256.size (by rfl) y

/-! ## The body's triple

On whole staging memrefs whose inputs read `x0 x1 x2` and whose output holds anything, the body runs to a
state with the inputs unchanged and the output at `out0_3 x0 x1 x2`. The grid coordinate is not read. -/

set_option maxHeartbeats 1000000 in
theorem sound_kernel0 (c : Dev nD) (E : Set ℕ) (i : grid0.Coords)
    (arg1 : Memref sig .tc .vmem S4000x64 .f32) (harg1 : arg1.IsWhole)
    (arg2 : Memref sig .tc .vmem S64x256 .f32) (harg2 : arg2.IsWhole)
    (arg3 : Memref sig .tc .vmem S1x256 .f32) (harg3 : arg3.IsWhole)
    (arg4 : Memref sig .tc .vmem S4000x256 .f32) (harg4 : arg4.IsWhole)
    (x0 : Vec F S4000x64 .f32) (x1 : Vec F S64x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays are the entry contents; after the body at point `t` each input's buffer still holds its block
    and the output's holds `out0_3` of the three blocks; the invariant is the stateless class's (the scoped
    rest and the generator register pass through); full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Region1.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 of @main: `cc1__bn_stats_kernel` on its grid of 25 row blocks, at the entry contents `V`

The body reads the row block of two `4000x64` arrays and a `1x64` bias row, stores `y = max(agg + s + bias, 0)` whole into
output window 3 (written back at every point), and accumulates the column sums of `y` and of `y * y` into the two `1x64`
output windows 4 and 5, which stay resident over the whole grid: point 0 zeroes them first (an `scf.if` on the grid
coordinate), every point adds its block's column sums onto what the buffer holds, and only the last point writes them back. -/

section Region1

variable (V : (c : Dev nD) → (b : Ref sig .tc) → Buf (Elt F) ((c : Thread nD τ).loc b))

/-- The offset of every access of the body: the origin. -/
theorem hz_r1 : (![0, 0] : Fin 2 → Nat) = fun _ => 0 := funext fun a => by fin_cases a <;> rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the pipeline fetched it
    there or not (an unfetched point has the same block index as the point that fetched it), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether the pipeline fetched it
    there or not (an unfetched point has the same block index as the point that fetched it), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether the pipeline fetched it
    there or not (an unfetched point has the same block index as the point that fetched it), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch condition -/

/-- The condition of the body's `scf.if`, as a function of the grid coordinate: `program_id == 0`. -/
abbrev cond1_0 (i : grid1.Coords) : Prop := (Scalar.cmpi .ne (Scalar.extui (Scalar.cmpi .eq (BitVec.ofNat 32 (i 0).val) 0#32)) 0#32) = 1#1
/-- It holds at the first point only (decided over the 25 points). -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The body's triple, per control case

Every load and store of the body is of the WHOLE staging buffer (offset `(0, 0)`, the buffer's own extents), so a load reads
the buffer's contents and the last store into a buffer leaves exactly its payload: the posts are the skeleton's payloads
at the inputs' contents. -/

set_option maxHeartbeats 1000000 in
/-- CASE A (the condition holds: point 0). The accumulators may hold anything: the body stores the zero row into each,
    reads it back and stores it plus the block's column sums. -/
theorem sound_kernel1_A (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : cond1_0 i) (x0 x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)
            ∗ owns (c : Thread nD τ) arg5 fullShare (k1_pay4 x0 x1 x2 (k1_pay2 (F := F)))
            ∗ owns (c : Thread nD τ) arg6 fullShare (k1_pay5 x0 x1 x2 (k1_pay3 (F := F)))) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r1 inb_S4000x64_S4000x64_0_0 y⟩),
      View.canon_unit_zero hz_r1]
    simp only [View.readAt_eq_ld, View.ld_unit_zero (S := S4000x64) hz_r1, View.ld_unit_zero (S := S1x64) hz_r1]
  isplitl [H4]
  · iexists _; isplitr
    swap; · iexact H4
    ipureintro
    rw [View.read_writes_eq_canon _ _ _ (fun y => ⟨_, List.mem_cons_self .., View.mem_set_unit_zero hz_r1 inb_S1x64_S1x64_0_0 y⟩),
      View.canon_cons_unit_zero hz_r1]
    sl_unfold_words
    rw [View.readCov_unit_zero (S := S1x64) _ hz_r1]
    simp only [View.readAt_eq_ld, View.ld_unit_zero (S := S4000x64) hz_r1, View.ld_unit_zero (S := S1x64) hz_r1]
  · iexists _; isplitr
    swap; · iexact H5
    ipureintro
    rw [View.read_writes_eq_canon _ _ _ (fun y => ⟨_, List.mem_cons_self .., View.mem_set_unit_zero hz_r1 inb_S1x64_S1x64_0_0 y⟩),
      View.canon_cons_unit_zero hz_r1]
    sl_unfold_words
    rw [View.readCov_unit_zero (S := S1x64) _ hz_r1]
    simp only [View.readAt_eq_ld, View.ld_unit_zero (S := S4000x64) hz_r1, View.ld_unit_zero (S := S1x64) hz_r1]

set_option maxHeartbeats 1000000 in
/-- CASE B (the condition fails: points 1 … 24). The accumulators hold `xo4`, `xo5`: the body reads each and stores it plus
    the block's column sums. -/
theorem sound_kernel1_B (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond1_0 i) (x0 x1 : Vec F S4000x64 .f32) (x2 : Vec F S1x64 .f32) (xo4 xo5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)
            ∗ owns (c : Thread nD τ) arg5 fullShare (k1_pay4 x0 x1 x2 xo4)
            ∗ owns (c : Thread nD τ) arg6 fullShare (k1_pay5 x0 x1 x2 xo5)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r1 inb_S4000x64_S4000x64_0_0 y⟩),
      View.canon_unit_zero hz_r1]
    simp only [View.readAt_eq_ld, View.ld_unit_zero (S := S4000x64) hz_r1, View.ld_unit_zero (S := S1x64) hz_r1]
  isplitl [H4]
  · iexists _; isplitr
    swap; · iexact H4
    ipureintro
    rw [View.read_writes_eq_canon _ _ _ (fun y => ⟨_, List.mem_cons_self .., View.mem_set_unit_zero hz_r1 inb_S1x64_S1x64_0_0 y⟩),
      View.canon_unit_zero hz_r1]
    simp only [View.readAt_eq_ld, View.ld_unit_zero (S := S4000x64) hz_r1, View.ld_unit_zero (S := S1x64) hz_r1]
  · iexists _; isplitr
    swap; · iexact H5
    ipureintro
    rw [View.read_writes_eq_canon _ _ _ (fun y => ⟨_, List.mem_cons_self .., View.mem_set_unit_zero hz_r1 inb_S1x64_S1x64_0_0 y⟩),
      View.canon_unit_zero hz_r1]
    simp only [View.readAt_eq_ld, View.ld_unit_zero (S := S4000x64) hz_r1, View.ld_unit_zero (S := S1x64) hz_r1]

/-! ## What the two carried outputs hold after each point -/

/-- THE RUNNING COLUMN SUM held in output window 4's staging buffer after the body at point `n`: at point 0 the zero row plus
    the block's column sums, at point `n + 1` what point `n` left plus the block's (the buffer is not written back between). -/
def acc1_4 (c : Dev nD) : (n : ℕ) → n < cfg1.N → Vec F S1x64 .f32
  | 0, h => k1_pay4 (iblk1 V c 0 ⟨0, h⟩) (iblk1 V c 1 ⟨0, h⟩) (iblk1 V c 2 ⟨0, h⟩) (k1_pay2 (F := F))
  | n + 1, h => k1_pay4 (iblk1 V c 0 ⟨n + 1, h⟩) (iblk1 V c 1 ⟨n + 1, h⟩) (iblk1 V c 2 ⟨n + 1, h⟩) (acc1_4 c n (Nat.lt_of_succ_lt h))

/-- At the first point: the zero row plus the block's. -/
theorem acc1_4_A (c : Dev nD) (t : Fin cfg1.N) (h0 : t.val % 25 = 0) :
    acc1_4 V c t.val t.isLt = k1_pay4 (iblk1 V c 0 t) (iblk1 V c 1 t) (iblk1 V c 2 t) (k1_pay2 (F := F)) := by
  have hN : t.val < 25 := lt_of_lt_of_eq t.isLt (show cfg1.N = 25 from N_1)
  obtain ⟨n, hn⟩ := t
  cases n with
  | zero => exact rfl
  | succ n => exact (by exfalso; dsimp only at h0 hN; omega)

/-- At a later point: what the point before left plus the block's. -/
theorem acc1_4_B (c : Dev nD) (t : Fin cfg1.N) (h0 : ¬t.val % 25 = 0) :
    acc1_4 V c t.val t.isLt = k1_pay4 (iblk1 V c 0 t) (iblk1 V c 1 t) (iblk1 V c 2 t) (acc1_4 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- THE RUNNING COLUMN SUM OF SQUARES held in output window 5's staging buffer after the body at point `n`: at point 0 the zero row plus
    the block's column sums of squares, at point `n + 1` what point `n` left plus the block's (the buffer is not written back between). -/
def acc1_5 (c : Dev nD) : (n : ℕ) → n < cfg1.N → Vec F S1x64 .f32
  | 0, h => k1_pay5 (iblk1 V c 0 ⟨0, h⟩) (iblk1 V c 1 ⟨0, h⟩) (iblk1 V c 2 ⟨0, h⟩) (k1_pay3 (F := F))
  | n + 1, h => k1_pay5 (iblk1 V c 0 ⟨n + 1, h⟩) (iblk1 V c 1 ⟨n + 1, h⟩) (iblk1 V c 2 ⟨n + 1, h⟩) (acc1_5 c n (Nat.lt_of_succ_lt h))

/-- At the first point: the zero row plus the block's. -/
theorem acc1_5_A (c : Dev nD) (t : Fin cfg1.N) (h0 : t.val % 25 = 0) :
    acc1_5 V c t.val t.isLt = k1_pay5 (iblk1 V c 0 t) (iblk1 V c 1 t) (iblk1 V c 2 t) (k1_pay3 (F := F)) := by
  have hN : t.val < 25 := lt_of_lt_of_eq t.isLt (show cfg1.N = 25 from N_1)
  obtain ⟨n, hn⟩ := t
  cases n with
  | zero => exact rfl
  | succ n => exact (by exfalso; dsimp only at h0 hN; omega)

/-- At a later point: what the point before left plus the block's. -/
theorem acc1_5_B (c : Dev nD) (t : Fin cfg1.N) (h0 : ¬t.val % 25 = 0) :
    acc1_5 V c t.val t.isLt = k1_pay5 (iblk1 V c 0 t) (iblk1 V c 1 t) (iblk1 V c 2 t) (acc1_5 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-! ## The pipeline's proof data -/

/-- The proof data of pipeline 1 on core `c`: the arrays as the region finds them (`V`); after the body at point `t` each
    input's buffer at its block, window 3's at `y` of the three blocks, windows 4 and 5's at the running sums; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- Window 3 after any point: `y` of the point's three input blocks. -/
theorem after1_3 (c : Dev nD) (t : Fin cfg1.N) : (dat1 V c).after 3 t = k1_pay1 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
/-- Window 4 after point 0: the zero row plus the first block's column sums. -/
theorem after1_4_zero (c : Dev nD) (h0 : 0 < cfg1.N) :
    (dat1 V c).after 4 ⟨0, h0⟩ = k1_pay4 (iblk1 V c 0 ⟨0, h0⟩) (iblk1 V c 1 ⟨0, h0⟩) (iblk1 V c 2 ⟨0, h0⟩) (k1_pay2 (F := F)) := by
  rw [after1_4]; exact rfl
/-- Window 4 after point `n + 1`: what it held after point `n` plus the block's column sums. -/
theorem after1_4_succ (c : Dev nD) (n : ℕ) (h : n + 1 < cfg1.N) :
    (dat1 V c).after 4 ⟨n + 1, h⟩ = k1_pay4 (iblk1 V c 0 ⟨n + 1, h⟩) (iblk1 V c 1 ⟨n + 1, h⟩) (iblk1 V c 2 ⟨n + 1, h⟩) ((dat1 V c).after 4 ⟨n, Nat.lt_of_succ_lt h⟩) := by
  rw [after1_4, after1_4]; exact rfl

theorem after1_5 (c : Dev nD) (t : Fin cfg1.N) : (dat1 V c).after 5 t = acc1_5 V c t.val t.isLt := by dsimp only [dat1]
/-- Window 5 after point 0: the zero row plus the first block's column sums of squares. -/
theorem after1_5_zero (c : Dev nD) (h0 : 0 < cfg1.N) :
    (dat1 V c).after 5 ⟨0, h0⟩ = k1_pay5 (iblk1 V c 0 ⟨0, h0⟩) (iblk1 V c 1 ⟨0, h0⟩) (iblk1 V c 2 ⟨0, h0⟩) (k1_pay3 (F := F)) := by
  rw [after1_5]; exact rfl
/-- Window 5 after point `n + 1`: what it held after point `n` plus the block's column sums of squares. -/
theorem after1_5_succ (c : Dev nD) (n : ℕ) (h : n + 1 < cfg1.N) :
    (dat1 V c).after 5 ⟨n + 1, h⟩ = k1_pay5 (iblk1 V c 0 ⟨n + 1, h⟩) (iblk1 V c 1 ⟨n + 1, h⟩) (iblk1 V c 2 ⟨n + 1, h⟩) ((dat1 V c).after 5 ⟨n, Nat.lt_of_succ_lt h⟩) := by
  rw [after1_5, after1_5]; exact rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point other than the first, output window 4's current staging buffer holds what the body left at the point before:
    the window is written back after the last point only, is live at every point and is not cut. -/
theorem before1_4_B (c : Dev nD) (t : Fin cfg1.N) (h0 : ¬t.val % 25 = 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point other than the first, output window 5's current staging buffer holds what the body left at the point before:
    the window is written back after the last point only, is live at every point and is not cut. -/
theorem before1_5_B (c : Dev nD) (t : Fin cfg1.N) (h0 : ¬t.val % 25 = 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' buffers hold their blocks; the point is the first or not, which decides the
    `scf.if`; at a later point the two accumulators hold what the point before left; so the case's triple applies. The
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 25 = 0
  · rw [acc1_4_A V c t h0, acc1_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_0 t).mpr h0) (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_B V c t h0, acc1_5_B V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1_0 t).mp h)) (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frame

end
-- ==== Proof.K.Region2.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The normalisation region 2: scale and shift a row block column by column

Each of the 25 grid points takes a 4000x64 block of rows (window 0) and four 1x64 rows (windows 1 to 4: the
column means, the reciprocal deviations, the scales and the shifts) and overwrites the matching 4000x64
block of the result (window 5) with `((block − mean) · rdev) · scale + shift`, each row broadcast down the
block. Nothing is carried between points. The four rows have a constant block index, so the pipeline copies
them in at the first point only; the body never writes them, so their staging buffers hold them throughout. -/

-- the TensorCore's buffer contents when the region is entered
variable (V : (c : Dev nD) → (b : Ref sig .tc) → Buf (Elt F) ((c : Thread nD τ).loc b))

/-- Window `w`'s block at grid point `t`, read off the array as it stands when the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point

Either the pipeline has just copied the block in, or the block index has not moved since the last copy and
the body has left the buffer as it found it. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each staging buffer whole -/

abbrev r2_0 : Rect S4000x64 := Rect.unit (s := S4000x64) ![0, 0] S4000x64.size inb_S4000x64_S4000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S4000x64 := Rect.unit (s := S4000x64) ![0, 0] S4000x64.size inb_S4000x64_S4000x64_0_0

/-- What the body leaves in the result block's buffer, from the five input blocks: its single whole-buffer
    store of the scaled and shifted block. -/
def out2_5 (x0 : Vec F S4000x64 .f32) (x1 x2 x3 x4 : Vec F S1x64 .f32) : Vec F S4000x64 .f32 :=
  View.canon [⟨r2_5, k2_pay1 (View.ld x0 r2_0) (View.ld x1 r2_1) (View.ld x2 r2_2) (View.ld x3 r2_3) (View.ld x4 r2_4)⟩]

/-- The single store spans the whole 4000x64 buffer, so every index of the buffer lies in it. -/
theorem cover2_5 (p0 : Vec F S4000x64 .f32) (y : S4000x64.Idx) :
    ∃ pc ∈ ([⟨r2_5, p0⟩] : List (View.Piece (Elt F) S4000x64 .f32)), y ∈ pc.1.set :=
  View.cover_of_tiled [⟨r2_5, p0⟩] S4000x64.size (by rfl) y

/-! ## The body's triple

On whole staging memrefs whose inputs read `x0 … x4` and whose output holds anything, the body runs to a
state with the inputs unchanged and the output at `out2_5 x0 … x4`. The grid coordinate is not read. -/

set_option maxHeartbeats 1000000 in
theorem sound_kernel2 (c : Dev nD) (E : Set ℕ) (i : grid2.Coords)
    (arg1 : Memref sig .tc .vmem S4000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S4000x64 .f32) (harg6 : arg6.IsWhole)
    (x0 : Vec F S4000x64 .f32) (x1 x2 x3 x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays are the entry contents; after the body at point `t` each input's buffer still holds its block
    and the output's holds `out2_5` of the five blocks; the invariant is the stateless class's (the scoped
    rest and the generator register pass through); full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Region3.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The linear layer's region 3: one row block times the weights, plus the bias row

Each of the 25 grid points takes a 4000x64 block of rows (window 0), the whole 64x256 weight matrix
(window 1) and the 1x256 bias row (window 2), and overwrites the matching 4000x256 block of the result
(window 3) with `block · weights + bias`. Nothing is carried from one point to the next: the result block
is a function of the three input blocks alone. The weights and the bias have a constant block index, so the
pipeline copies them in once, at the first point; their staging buffers still hold them at every later
point because the body never writes them. -/

-- the TensorCore's buffer contents when the region is entered
variable (V : (c : Dev nD) → (b : Ref sig .tc) → Buf (Elt F) ((c : Thread nD τ).loc b))

/-- Window `w`'s block at grid point `t`, read off the array as it stands when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block at every point

For proof data whose array for the window is the entry contents and whose body leaves the block where it
found it, the buffer the body is handed holds the block of the point: either the pipeline has just copied
it in, or the block index has not moved since the last copy and the buffer is untouched. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body touches: each staging buffer whole -/

abbrev r3_0 : Rect S4000x64 := Rect.unit (s := S4000x64) ![0, 0] S4000x64.size inb_S4000x64_S4000x64_0_0
abbrev r3_1 : Rect S64x256 := Rect.unit (s := S64x256) ![0, 0] S64x256.size inb_S64x256_S64x256_0_0
abbrev r3_2 : Rect S1x256 := Rect.unit (s := S1x256) ![0, 0] S1x256.size inb_S1x256_S1x256_0_0
abbrev r3_3 : Rect S4000x256 := Rect.unit (s := S4000x256) ![0, 0] S4000x256.size inb_S4000x256_S4000x256_0_0

/-- What the body leaves in the result block's buffer, from the three input blocks: its single whole-buffer
    store of the matrix product plus the broadcast bias. -/
def out3_3 (x0 : Vec F S4000x64 .f32) (x1 : Vec F S64x256 .f32) (x2 : Vec F S1x256 .f32) : Vec F S4000x256 .f32 :=
  View.canon [⟨r3_3, k3_pay1 (View.ld x0 r3_0) (View.ld x1 r3_1) (View.ld x2 r3_2)⟩]

/-- The single store spans the whole 4000x256 buffer, so every index of the buffer lies in it. -/
theorem cover3_3 (p0 : Vec F S4000x256 .f32) (y : S4000x256.Idx) :
    ∃ pc ∈ ([⟨r3_3, p0⟩] : List (View.Piece (Elt F) S4000x256 .f32)), y ∈ pc.1.set :=
  View.cover_of_tiled [⟨r3_3, p0⟩] S4000x256.size (by rfl) y

/-! ## The body's triple

On whole staging memrefs whose inputs read `x0 x1 x2` and whose output holds anything, the body runs to a
state with the inputs unchanged and the output at `out3_3 x0 x1 x2`. The grid coordinate is not read. -/

set_option maxHeartbeats 1000000 in
theorem sound_kernel3 (c : Dev nD) (E : Set ℕ) (i : grid3.Coords)
    (arg1 : Memref sig .tc .vmem S4000x64 .f32) (harg1 : arg1.IsWhole)
    (arg2 : Memref sig .tc .vmem S64x256 .f32) (harg2 : arg2.IsWhole)
    (arg3 : Memref sig .tc .vmem S1x256 .f32) (harg3 : arg3.IsWhole)
    (arg4 : Memref sig .tc .vmem S4000x256 .f32) (harg4 : arg4.IsWhole)
    (x0 : Vec F S4000x64 .f32) (x1 : Vec F S64x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E
          (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays are the entry contents; after the body at point `t` each input's buffer still holds its block
    and the output's holds `out3_3` of the three blocks; the invariant is the stateless class's (the scoped
    rest and the generator register pass through); full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the pipeline hands the body at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Region4.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 4 of @main: `cc4__bn_stats_kernel` on its grid of 25 row blocks, at the entry contents `V`

The body reads the row block of two `4000x64` arrays and a `1x64` bias row, stores `y = max(agg + s + bias, 0)` whole into
output window 3 (written back at every point), and accumulates the column sums of `y` and of `y * y` into the two `1x64`
output windows 4 and 5, which stay resident over the whole grid: point 0 zeroes them first (an `scf.if` on the grid
coordinate), every point adds its block's column sums onto what the buffer holds, and only the last point writes them back. -/

section Region4

variable (V : (c : Dev nD) → (b : Ref sig .tc) → Buf (Elt F) ((c : Thread nD τ).loc b))

/-- The offset of every access of the body: the origin. -/
theorem hz_r4 : (![0, 0] : Fin 2 → Nat) = fun _ => 0 := funext fun a => by fin_cases a <;> rfl

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block of the array at every point, whether the pipeline fetched it
    there or not (an unfetched point has the same block index as the point that fetched it), for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block of the array at every point, whether the pipeline fetched it
    there or not (an unfetched point has the same block index as the point that fetched it), for any proof data whose
    array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block of the array at every point, whether the pipeline fetched it
    there or not (an unfetched point has the same block index as the point that fetched it), for any proof data whose
    array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one branch condition -/

/-- The condition of the body's `scf.if`, as a function of the grid coordinate: `program_id == 0`. -/
abbrev cond4_0 (i : grid4.Coords) : Prop := (Scalar.cmpi .ne (Scalar.extui (Scalar.cmpi .eq (BitVec.ofNat 32 (i 0).val) 0#32)) 0#32) = 1#1
/-- It holds at the first point only (decided over the 25 points). -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The body's triple, per control case

Every load and store of the body is of the WHOLE staging buffer (offset `(0, 0)`, the buffer's own extents), so a load reads
the buffer's contents and the last store into a buffer leaves exactly its payload: the posts are the skeleton's payloads
at the inputs' contents. -/

set_option maxHeartbeats 1000000 in
/-- CASE A (the condition holds: point 0). The accumulators may hold anything: the body stores the zero row into each,
    reads it back and stores it plus the block's column sums. -/
theorem sound_kernel4_A (c : Dev nD) (E : Set ℕ) (i : grid4.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : cond4_0 i) (x0 x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)
            ∗ owns (c : Thread nD τ) arg5 fullShare (k4_pay4 x0 x1 x2 (k4_pay2 (F := F)))
            ∗ owns (c : Thread nD τ) arg6 fullShare (k4_pay5 x0 x1 x2 (k4_pay3 (F := F)))) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r4 inb_S4000x64_S4000x64_0_0 y⟩),
      View.canon_unit_zero hz_r4]
    simp only [View.readAt_eq_ld, View.ld_unit_zero (S := S4000x64) hz_r4, View.ld_unit_zero (S := S1x64) hz_r4]
  isplitl [H4]
  · iexists _; isplitr
    swap; · iexact H4
    ipureintro
    rw [View.read_writes_eq_canon _ _ _ (fun y => ⟨_, List.mem_cons_self .., View.mem_set_unit_zero hz_r4 inb_S1x64_S1x64_0_0 y⟩),
      View.canon_cons_unit_zero hz_r4]
    sl_unfold_words
    rw [View.readCov_unit_zero (S := S1x64) _ hz_r4]
    simp only [View.readAt_eq_ld, View.ld_unit_zero (S := S4000x64) hz_r4, View.ld_unit_zero (S := S1x64) hz_r4]
  · iexists _; isplitr
    swap; · iexact H5
    ipureintro
    rw [View.read_writes_eq_canon _ _ _ (fun y => ⟨_, List.mem_cons_self .., View.mem_set_unit_zero hz_r4 inb_S1x64_S1x64_0_0 y⟩),
      View.canon_cons_unit_zero hz_r4]
    sl_unfold_words
    rw [View.readCov_unit_zero (S := S1x64) _ hz_r4]
    simp only [View.readAt_eq_ld, View.ld_unit_zero (S := S4000x64) hz_r4, View.ld_unit_zero (S := S1x64) hz_r4]

set_option maxHeartbeats 1000000 in
/-- CASE B (the condition fails: points 1 … 24). The accumulators hold `xo4`, `xo5`: the body reads each and stores it plus
    the block's column sums. -/
theorem sound_kernel4_B (c : Dev nD) (E : Set ℕ) (i : grid4.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond4_0 i) (x0 x1 : Vec F S4000x64 .f32) (x2 : Vec F S1x64 .f32) (xo4 xo5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)
            ∗ owns (c : Thread nD τ) arg5 fullShare (k4_pay4 x0 x1 x2 xo4)
            ∗ owns (c : Thread nD τ) arg6 fullShare (k4_pay5 x0 x1 x2 xo5)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r4 inb_S4000x64_S4000x64_0_0 y⟩),
      View.canon_unit_zero hz_r4]
    simp only [View.readAt_eq_ld, View.ld_unit_zero (S := S4000x64) hz_r4, View.ld_unit_zero (S := S1x64) hz_r4]
  isplitl [H4]
  · iexists _; isplitr
    swap; · iexact H4
    ipureintro
    rw [View.read_writes_eq_canon _ _ _ (fun y => ⟨_, List.mem_cons_self .., View.mem_set_unit_zero hz_r4 inb_S1x64_S1x64_0_0 y⟩),
      View.canon_unit_zero hz_r4]
    simp only [View.readAt_eq_ld, View.ld_unit_zero (S := S4000x64) hz_r4, View.ld_unit_zero (S := S1x64) hz_r4]
  · iexists _; isplitr
    swap; · iexact H5
    ipureintro
    rw [View.read_writes_eq_canon _ _ _ (fun y => ⟨_, List.mem_cons_self .., View.mem_set_unit_zero hz_r4 inb_S1x64_S1x64_0_0 y⟩),
      View.canon_unit_zero hz_r4]
    simp only [View.readAt_eq_ld, View.ld_unit_zero (S := S4000x64) hz_r4, View.ld_unit_zero (S := S1x64) hz_r4]

/-! ## What the two carried outputs hold after each point -/

/-- THE RUNNING COLUMN SUM held in output window 4's staging buffer after the body at point `n`: at point 0 the zero row plus
    the block's column sums, at point `n + 1` what point `n` left plus the block's (the buffer is not written back between). -/
def acc4_4 (c : Dev nD) : (n : ℕ) → n < cfg4.N → Vec F S1x64 .f32
  | 0, h => k4_pay4 (iblk4 V c 0 ⟨0, h⟩) (iblk4 V c 1 ⟨0, h⟩) (iblk4 V c 2 ⟨0, h⟩) (k4_pay2 (F := F))
  | n + 1, h => k4_pay4 (iblk4 V c 0 ⟨n + 1, h⟩) (iblk4 V c 1 ⟨n + 1, h⟩) (iblk4 V c 2 ⟨n + 1, h⟩) (acc4_4 c n (Nat.lt_of_succ_lt h))

/-- At the first point: the zero row plus the block's. -/
theorem acc4_4_A (c : Dev nD) (t : Fin cfg4.N) (h0 : t.val % 25 = 0) :
    acc4_4 V c t.val t.isLt = k4_pay4 (iblk4 V c 0 t) (iblk4 V c 1 t) (iblk4 V c 2 t) (k4_pay2 (F := F)) := by
  have hN : t.val < 25 := lt_of_lt_of_eq t.isLt (show cfg4.N = 25 from N_4)
  obtain ⟨n, hn⟩ := t
  cases n with
  | zero => exact rfl
  | succ n => exact (by exfalso; dsimp only at h0 hN; omega)

/-- At a later point: what the point before left plus the block's. -/
theorem acc4_4_B (c : Dev nD) (t : Fin cfg4.N) (h0 : ¬t.val % 25 = 0) :
    acc4_4 V c t.val t.isLt = k4_pay4 (iblk4 V c 0 t) (iblk4 V c 1 t) (iblk4 V c 2 t) (acc4_4 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- THE RUNNING COLUMN SUM OF SQUARES held in output window 5's staging buffer after the body at point `n`: at point 0 the zero row plus
    the block's column sums of squares, at point `n + 1` what point `n` left plus the block's (the buffer is not written back between). -/
def acc4_5 (c : Dev nD) : (n : ℕ) → n < cfg4.N → Vec F S1x64 .f32
  | 0, h => k4_pay5 (iblk4 V c 0 ⟨0, h⟩) (iblk4 V c 1 ⟨0, h⟩) (iblk4 V c 2 ⟨0, h⟩) (k4_pay3 (F := F))
  | n + 1, h => k4_pay5 (iblk4 V c 0 ⟨n + 1, h⟩) (iblk4 V c 1 ⟨n + 1, h⟩) (iblk4 V c 2 ⟨n + 1, h⟩) (acc4_5 c n (Nat.lt_of_succ_lt h))

/-- At the first point: the zero row plus the block's. -/
theorem acc4_5_A (c : Dev nD) (t : Fin cfg4.N) (h0 : t.val % 25 = 0) :
    acc4_5 V c t.val t.isLt = k4_pay5 (iblk4 V c 0 t) (iblk4 V c 1 t) (iblk4 V c 2 t) (k4_pay3 (F := F)) := by
  have hN : t.val < 25 := lt_of_lt_of_eq t.isLt (show cfg4.N = 25 from N_4)
  obtain ⟨n, hn⟩ := t
  cases n with
  | zero => exact rfl
  | succ n => exact (by exfalso; dsimp only at h0 hN; omega)

/-- At a later point: what the point before left plus the block's. -/
theorem acc4_5_B (c : Dev nD) (t : Fin cfg4.N) (h0 : ¬t.val % 25 = 0) :
    acc4_5 V c t.val t.isLt = k4_pay5 (iblk4 V c 0 t) (iblk4 V c 1 t) (iblk4 V c 2 t) (acc4_5 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-! ## The pipeline's proof data -/

/-- The proof data of pipeline 4 on core `c`: the arrays as the region finds them (`V`); after the body at point `t` each
    input's buffer at its block, window 3's at `y` of the three blocks, windows 4 and 5's at the running sums; the
    invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
/-- Window 3 after any point: `y` of the point's three input blocks. -/
theorem after4_3 (c : Dev nD) (t : Fin cfg4.N) : (dat4 V c).after 3 t = k4_pay1 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
/-- Window 4 after point 0: the zero row plus the first block's column sums. -/
theorem after4_4_zero (c : Dev nD) (h0 : 0 < cfg4.N) :
    (dat4 V c).after 4 ⟨0, h0⟩ = k4_pay4 (iblk4 V c 0 ⟨0, h0⟩) (iblk4 V c 1 ⟨0, h0⟩) (iblk4 V c 2 ⟨0, h0⟩) (k4_pay2 (F := F)) := by
  rw [after4_4]; exact rfl
/-- Window 4 after point `n + 1`: what it held after point `n` plus the block's column sums. -/
theorem after4_4_succ (c : Dev nD) (n : ℕ) (h : n + 1 < cfg4.N) :
    (dat4 V c).after 4 ⟨n + 1, h⟩ = k4_pay4 (iblk4 V c 0 ⟨n + 1, h⟩) (iblk4 V c 1 ⟨n + 1, h⟩) (iblk4 V c 2 ⟨n + 1, h⟩) ((dat4 V c).after 4 ⟨n, Nat.lt_of_succ_lt h⟩) := by
  rw [after4_4, after4_4]; exact rfl

theorem after4_5 (c : Dev nD) (t : Fin cfg4.N) : (dat4 V c).after 5 t = acc4_5 V c t.val t.isLt := by dsimp only [dat4]
/-- Window 5 after point 0: the zero row plus the first block's column sums of squares. -/
theorem after4_5_zero (c : Dev nD) (h0 : 0 < cfg4.N) :
    (dat4 V c).after 5 ⟨0, h0⟩ = k4_pay5 (iblk4 V c 0 ⟨0, h0⟩) (iblk4 V c 1 ⟨0, h0⟩) (iblk4 V c 2 ⟨0, h0⟩) (k4_pay3 (F := F)) := by
  rw [after4_5]; exact rfl
/-- Window 5 after point `n + 1`: what it held after point `n` plus the block's column sums of squares. -/
theorem after4_5_succ (c : Dev nD) (n : ℕ) (h : n + 1 < cfg4.N) :
    (dat4 V c).after 5 ⟨n + 1, h⟩ = k4_pay5 (iblk4 V c 0 ⟨n + 1, h⟩) (iblk4 V c 1 ⟨n + 1, h⟩) (iblk4 V c 2 ⟨n + 1, h⟩) ((dat4 V c).after 5 ⟨n, Nat.lt_of_succ_lt h⟩) := by
  rw [after4_5, after4_5]; exact rfl

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a point other than the first, output window 4's current staging buffer holds what the body left at the point before:
    the window is written back after the last point only, is live at every point and is not cut. -/
theorem before4_4_B (c : Dev nD) (t : Fin cfg4.N) (h0 : ¬t.val % 25 = 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_out_kept _ 4 rfl t (by omega) (Bool.eq_false_iff.mpr fun h => by have := (flush4_4 _).mp h; dsimp only at this; omega)
    (fun _ => rfl) (fun _ _ => rfl)]
  dsimp only [dat4]

/-- At a point other than the first, output window 5's current staging buffer holds what the body left at the point before:
    the window is written back after the last point only, is live at every point and is not cut. -/
theorem before4_5_B (c : Dev nD) (t : Fin cfg4.N) (h0 : ¬t.val % 25 = 0) (d) :
    (dat4 V c).before 5 t d = acc4_5 V c (t.val - 1) (Nat.lt_of_le_of_lt (Nat.sub_le _ _) t.isLt) := by
  have hN : t.val < 25 := lt_of_lt_of_eq t.isLt (show cfg4.N = 25 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 800000 in
/-- The body at any point: the inputs' buffers hold their blocks; the point is the first or not, which decides the
    `scf.if`; at a later point the two accumulators hold what the point before left; so the case's triple applies. The
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  by_cases h0 : t.val % 25 = 0
  · rw [acc4_4_A V c t h0, acc4_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel4_A c Set.univ (grid4.coords t) _ _ _ _ _ _ _ _ _ _ _ _ ((hcond4_0 t).mpr h0) (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_B V c t h0, acc4_5_B V c t h0]
    simp only [before4_4_B V c t h0, before4_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel4_B c Set.univ (grid4.coords t) _ _ _ _ _ _ _ _ _ _ _ _ (fun h => h0 ((hcond4_0 t).mp h)) (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Frame

end
-- ==== Proof.K.Region5.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The normalisation region 5: scale and shift a row block column by column

Each of the 25 grid points takes a 4000x64 block of rows (window 0) and four 1x64 rows (windows 1 to 4: the
column means, the reciprocal deviations, the scales and the shifts) and overwrites the matching 4000x64
block of the result (window 5) with `((block − mean) · rdev) · scale + shift`, each row broadcast down the
block. Nothing is carried between points. The four rows have a constant block index, so the pipeline copies
them in at the first point only; the body never writes them, so their staging buffers hold them throughout. -/

-- the TensorCore's buffer contents when the region is entered
variable (V : (c : Dev nD) → (b : Ref sig .tc) → Buf (Elt F) ((c : Thread nD τ).loc b))

/-- Window `w`'s block at grid point `t`, read off the array as it stands when the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## An input's staging buffer holds its block at every point

Either the pipeline has just copied the block in, or the block index has not moved since the last copy and
the body has left the buffer as it found it. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body touches: each staging buffer whole -/

abbrev r5_0 : Rect S4000x64 := Rect.unit (s := S4000x64) ![0, 0] S4000x64.size inb_S4000x64_S4000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S4000x64 := Rect.unit (s := S4000x64) ![0, 0] S4000x64.size inb_S4000x64_S4000x64_0_0

/-- What the body leaves in the result block's buffer, from the five input blocks: its single whole-buffer
    store of the scaled and shifted block. -/
def out5_5 (x0 : Vec F S4000x64 .f32) (x1 x2 x3 x4 : Vec F S1x64 .f32) : Vec F S4000x64 .f32 :=
  View.canon [⟨r5_5, k5_pay1 (View.ld x0 r5_0) (View.ld x1 r5_1) (View.ld x2 r5_2) (View.ld x3 r5_3) (View.ld x4 r5_4)⟩]

/-- The single store spans the whole 4000x64 buffer, so every index of the buffer lies in it. -/
theorem cover5_5 (p0 : Vec F S4000x64 .f32) (y : S4000x64.Idx) :
    ∃ pc ∈ ([⟨r5_5, p0⟩] : List (View.Piece (Elt F) S4000x64 .f32)), y ∈ pc.1.set :=
  View.cover_of_tiled [⟨r5_5, p0⟩] S4000x64.size (by rfl) y

/-! ## The body's triple

On whole staging memrefs whose inputs read `x0 … x4` and whose output holds anything, the body runs to a
state with the inputs unchanged and the output at `out5_5 x0 … x4`. The grid coordinate is not read. -/

set_option maxHeartbeats 1000000 in
theorem sound_kernel5 (c : Dev nD) (E : Set ℕ) (i : grid5.Coords)
    (arg1 : Memref sig .tc .vmem S4000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S4000x64 .f32) (harg6 : arg6.IsWhole)
    (x0 : Vec F S4000x64 .f32) (x1 x2 x3 x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The arrays are the entry contents; after the body at point `t` each input's buffer still holds its block
    and the output's holds `out5_5` of the five blocks; the invariant is the stateless class's (the scoped
    rest and the generator register pass through); full shares, nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation at a generic point -/

/-- What the pipeline hands the body at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it must hand back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.K.Run.lean ====
import proofs.«178820_j816043786337_1_alg».proof.Proof.Gen.Kernel.Launch
import proofs.«178820_j816043786337_1_alg».proof.Proof.Gen.Kernel.Skeleton
import proofs.«178820_j816043786337_1_alg».proof.Proof.Gen.Kernel.Points
import proofs.«178820_j816043786337_1_alg».proof.Proof.Gen.Kernel.Regions
import proofs.«178820_j816043786337_1_alg».proof.Proof.K.Region0
import proofs.«178820_j816043786337_1_alg».proof.Proof.K.Region1
import proofs.«178820_j816043786337_1_alg».proof.Proof.K.Region2
import proofs.«178820_j816043786337_1_alg».proof.Proof.K.Region3
import proofs.«178820_j816043786337_1_alg».proof.Proof.K.Region4
import proofs.«178820_j816043786337_1_alg».proof.Proof.K.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main and its frame

@main is six stretches of host operations alternating with six kernel regions. The contents of every unscoped buffer of a
core at each of the thirteen boundaries between them are a fold from the launch memory: a host stretch takes the
contents to what its operations leave (`StableHlo.after`), a region changes its windows' arrays only — an input stays as
entered, an output ends with its write-backs folded in (`Dat.arrAt … N`). Over that fold each stretch and each region is
a segment of one thread state, "every unscoped buffer at the boundary's contents, the generator register at some state,
nothing owed", and the launch over the twelve segments gives: every weakly fair execution terminates with every unscoped
buffer at the last boundary's contents (`run_all`). No stretch and no region's output touches an argument, so each
argument reads back through the fold to its launch contents (`frame`); the result array reads as the last boundary's
contents there (`run_value`). Everything is generic in the float type `F`. -/

-- deciding that a reference is none of a region's window arrays, and none of the references a host stretch
-- writes, recurses once per reference of the signature
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six host stretches and six kernel regions, from the launch to the return

## The buffer contents at each of the 13 segment boundaries: a fold through @main -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After the host stretch `hostOps0`: what region 0 is entered from. -/
abbrev W1 : Dev nD → Valuation τ sig (Elt F) := fun c => StableHlo.after hostOps0 (W0 m ρ c)
/-- The same contents read at the TensorCore's references (what region 0's proof data take). -/
abbrev U1 : (c : Dev nD) → (b : Ref sig .tc) → Buf (Elt F) ((c : Thread nD τ).loc b) := fun c b => W1 m ρ c b
/-- At region 0's exit: each of its windows' arrays at what the pipeline leaves there (an input as entered, an
    output with its write-backs folded in), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references (region 0's exit contents). -/
abbrev U2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same contents read at the TensorCore's references (what region 1's proof data take). -/
abbrev U3 : (c : Dev nD) → (b : Ref sig .tc) → Buf (Elt F) ((c : Thread nD τ).loc b) := fun c b => W3 m ρ c b
/-- At region 1's exit: each of its windows' arrays at what the pipeline leaves there (an input as entered, an
    output with its write-backs folded in), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references (region 1's exit contents). -/
abbrev U4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same contents read at the TensorCore's references (what region 2's proof data take). -/
abbrev U5 : (c : Dev nD) → (b : Ref sig .tc) → Buf (Elt F) ((c : Thread nD τ).loc b) := fun c b => W5 m ρ c b
/-- At region 2's exit: each of its windows' arrays at what the pipeline leaves there (an input as entered, an
    output with its write-backs folded in), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references (region 2's exit contents). -/
abbrev U6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
/-- The same contents read at the TensorCore's references (what region 3's proof data take). -/
abbrev U7 : (c : Dev nD) → (b : Ref sig .tc) → Buf (Elt F) ((c : Thread nD τ).loc b) := fun c b => W7 m ρ c b
/-- At region 3's exit: each of its windows' arrays at what the pipeline leaves there (an input as entered, an
    output with its write-backs folded in), every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references (region 3's exit contents). -/
abbrev U8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same contents read at the TensorCore's references (what region 4's proof data take). -/
abbrev U9 : (c : Dev nD) → (b : Ref sig .tc) → Buf (Elt F) ((c : Thread nD τ).loc b) := fun c b => W9 m ρ c b
/-- At region 4's exit: each of its windows' arrays at what the pipeline leaves there (an input as entered, an
    output with its write-backs folded in), every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents read at the TensorCore's references (region 4's exit contents). -/
abbrev U10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
/-- The same contents read at the TensorCore's references (what region 5's proof data take). -/
abbrev U11 : (c : Dev nD) → (b : Ref sig .tc) → Buf (Elt F) ((c : Thread nD τ).loc b) := fun c b => W11 m ρ c b
/-- At region 5's exit: each of its windows' arrays at what the pipeline leaves there (an input as entered, an
    output with its write-backs folded in), every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents read at the TensorCore's references (region 5's exit contents). -/
abbrev U12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)

/-! ## The proof data family and the thread state -/

/-- Every pipeline's proof data, each at its region's entry contents — a literal `match` on the pipeline's index, so
    that the data at a numeral reduce to that region's. -/
def pdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
/-- No core owes another anything: no level is assigned. -/
abbrev lvlPairs : GSem nD τ sig → Finset Unit := fun _ => ∅
abbrev lvlOf : GSem nD τ sig → Unit → ℕ := fun _ _ => 0
/-- What rides beside the buffers through every segment: the core's generator register at some state (every region's
    invariant takes it in and gives it back) and what the core owes, which is nothing. -/
abbrev riding (c : Dev nD) : sProp 𝕄 := iprop((∃ r, prngReg c r) ∗ ∃ W, owes (c : Thread nD τ) (0 : CellTallies nD τ sig Unit) W)
/-- A host stretch as a segment over the unscoped references from the contents `W`, `riding` beside them: it is left
    with those references at `StableHlo.after ops (W c)`, the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ lvlPairs lvlOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W12`, the
    generator register at some state. -/
abbrev Tlast (c : Dev nD) : sProp 𝕄 := iprop(StableHlo.held (c : Thread nD τ) (Pipeline.ucRefs τ sig) (W12 m ρ c) ∗ ∃ r, prngReg c r)

/-! ## The regions as segments

Every region's invariant is the scoped rest beside the generator register, so the four entailments around a region are the
same for all six: at ENTRY the region's arrays are split out of the unscoped buffers held at the entry contents and the
register goes into the invariant; at EXIT the arrays, now at what the pipeline leaves, go back among the unscoped buffers at
the next boundary's contents, which differ from the entry contents at those arrays only. -/

-- a library lemma stated over the pinned configuration unifies with the printed one only when unification may unfold
-- plain definitions in a metavariable's type
set_option backward.isDefEq.respectTransparency.types false in
/-- REGION 0 over the thread state: entered from every unscoped buffer at `W1`, left at `W2`. -/
def reg0 : Pipeline.RegionSeg (pcfgs (F := F)) adm (pdats m ρ) () defs₀ 𝒱₀ lvlPairs lvlOf 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ lvlPairs lvlOf 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. -/
def reg1 : Pipeline.RegionSeg (pcfgs (F := F)) adm (pdats m ρ) () defs₀ 𝒱₀ lvlPairs lvlOf 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ lvlPairs lvlOf 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. -/
def reg2 : Pipeline.RegionSeg (pcfgs (F := F)) adm (pdats m ρ) () defs₀ 𝒱₀ lvlPairs lvlOf 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ lvlPairs lvlOf 2 fun _ _ => rfl
  pre c := iprop(StableHlo.held (c : Thread nD τ) (Pipeline.ucRefs τ sig) (W5 m ρ c) ∗ riding c)
  post c := iprop(StableHlo.held (c : Thread nD τ) (Pipeline.ucRefs τ sig) (W6 m ρ c) ∗ riding c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. -/
def reg3 : Pipeline.RegionSeg (pcfgs (F := F)) adm (pdats m ρ) () defs₀ 𝒱₀ lvlPairs lvlOf 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ lvlPairs lvlOf 3 fun _ _ => rfl
  pre c := iprop(StableHlo.held (c : Thread nD τ) (Pipeline.ucRefs τ sig) (W7 m ρ c) ∗ riding c)
  post c := iprop(StableHlo.held (c : Thread nD τ) (Pipeline.ucRefs τ sig) (W8 m ρ c) ∗ riding c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. -/
def reg4 : Pipeline.RegionSeg (pcfgs (F := F)) adm (pdats m ρ) () defs₀ 𝒱₀ lvlPairs lvlOf 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ lvlPairs lvlOf 4 fun _ _ => rfl
  pre c := iprop(StableHlo.held (c : Thread nD τ) (Pipeline.ucRefs τ sig) (W9 m ρ c) ∗ riding c)
  post c := iprop(StableHlo.held (c : Thread nD τ) (Pipeline.ucRefs τ sig) (W10 m ρ c) ∗ riding c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at `W11`, left at `W12`. -/
def reg5 : Pipeline.RegionSeg (pcfgs (F := F)) adm (pdats m ρ) () defs₀ 𝒱₀ lvlPairs lvlOf 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ lvlPairs lvlOf 5 fun _ _ => rfl
  pre c := iprop(StableHlo.held (c : Thread nD τ) (Pipeline.ucRefs τ sig) (W11 m ρ c) ∗ riding c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per kernel call. -/
abbrev segs : List (Pipeline.Seg (pcfgs (F := F)) adm (pdats m ρ) () defs₀ 𝒱₀ lvlPairs lvlOf) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]
/-- @main IS the run of the segments: @main is the chain of its twelve items, and the segments' run is the chain of their
    fragments, which are those items one for one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  rfl

-- the launch lemma's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and in every final state each unscoped buffer of each core holds the last
    boundary's contents `W12`: the launch over the twelve segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ lvlPairs lvlOf m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach lvlPairs lvlOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-! ## The arguments end as launched

No host stretch writes an argument's buffer, and no region's output window is one: the fold at such a buffer walks back to
the launch memory, one step per segment. The walk is made once, for any reference with those two properties; main_arg0
is region 0's first INPUT window, which the pipeline leaves as it found it, so its walk takes that one step differently. -/

/-- A reference that none of the last five host stretches writes and that is no window array of regions 1 to 5 holds at
    the last boundary what it held at region 0's exit. -/
theorem W12_eq_W2 (c : Dev nD) (r : Ref sig .tc)
    (h1 : r ∉ hostOps1_W) (h2 : r ∉ hostOps2_W) (h3 : r ∉ hostOps3_W) (h4 : r ∉ hostOps4_W) (h5 : r ∉ hostOps5_W)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) :
    W12 m ρ c (Proc.devRef .tc r) = W2 m ρ c (Proc.devRef .tc r) :=
  calc W12 m ρ c (Proc.devRef .tc r)
    _ = W11 m ρ c (Proc.devRef .tc r) := W12_of_ne m ρ c r n5
    _ = W10 m ρ c (Proc.devRef .tc r) := StableHlo.after_of_writes_sub hostOps5 _ hostOps5_writes h5
    _ = W9 m ρ c (Proc.devRef .tc r) := W10_of_ne m ρ c r n4
    _ = W8 m ρ c (Proc.devRef .tc r) := StableHlo.after_of_writes_sub hostOps4 _ hostOps4_writes h4
    _ = W7 m ρ c (Proc.devRef .tc r) := W8_of_ne m ρ c r n3
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1

/-- A reference that no host stretch writes and that is no window array of any region holds at the last boundary what the
    launch memory holds. -/
theorem W12_keeps (c : Dev nD) (r : Ref sig .tc) (h0 : r ∉ hostOps0_W)
    (h1 : r ∉ hostOps1_W) (h2 : r ∉ hostOps2_W) (h3 : r ∉ hostOps3_W) (h4 : r ∉ hostOps4_W) (h5 : r ∉ hostOps5_W)
    (n0 : ∀ w, Pipeline.arrRef spec0 w ≠ r)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) :
    W12 m ρ c (Proc.devRef .tc r) = m ((c : Thread nD τ).loc r) :=
  calc W12 m ρ c (Proc.devRef .tc r)
    _ = W2 m ρ c (Proc.devRef .tc r) := W12_eq_W2 m ρ c r h1 h2 h3 h4 h5 n1 n2 n3 n4 n5
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-- main_arg0 is region 0's window 0, an input: at region 0's exit it holds the entry contents, which no stretch wrote. -/
theorem W12_main_arg0 (c : Dev nD) : W12 m ρ c (Proc.devRef .tc main_arg0) = m ((c : Thread nD τ).loc main_arg0) :=
  calc W12 m ρ c (Proc.devRef .tc main_arg0)
    _ = W2 m ρ c (Proc.devRef .tc main_arg0) :=
        W12_eq_W2 m ρ c main_arg0 (by decide) (by decide) (by decide) (by decide) (by decide) (by decide) (by decide) (by decide) (by decide) (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl
theorem W12_main_arg1 (c : Dev nD) : W12 m ρ c (Proc.devRef .tc main_arg1) = m ((c : Thread nD τ).loc main_arg1) :=
  W12_keeps m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_keeps m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_keeps m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_keeps m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_keeps m ρ c main_arg5 (by decide) (by decide) (by decide) (by decide) (by decide) (by decide) (by decide) (by decide) (by decide) (by decide) (by decide) (by decide)
theorem W12_main_arg6 (c : Dev nD) : W12 m ρ c (Proc.devRef .tc main_arg6) = m ((c : Thread nD τ).loc main_arg6) :=
  W12_keeps m ρ c main_arg6 (by decide) (by decide) (by decide) (by decide) (by decide) (by decide) (by decide) (by decide) (by decide) (by decide) (by decide) (by decide)
theorem W12_main_arg7 (c : Dev nD) : W12 m ρ c (Proc.devRef .tc main_arg7) = m ((c : Thread nD τ).loc main_arg7) :=
  W12_keeps m ρ c main_arg7 (by decide) (by decide) (by decide) (by decide) (by decide) (by decide) (by decide) (by decide) (by decide) (by decide) (by decide) (by decide)
theorem W12_main_arg8 (c : Dev nD) : W12 m ρ c (Proc.devRef .tc main_arg8) = m ((c : Thread nD τ).loc main_arg8) :=
  W12_keeps m ρ c main_arg8 (by decide) (by decide) (by decide) (by decide) (by decide) (by decide) (by decide) (by decide) (by decide) (by decide) (by decide) (by decide)
theorem W12_main_arg9 (c : Dev nD) : W12 m ρ c (Proc.devRef .tc main_arg9) = m ((c : Thread nD τ).loc main_arg9) :=
  W12_keeps m ρ c main_arg9 (by decide) (by decide) (by decide) (by decide) (by decide) (by decide) (by decide) (by decide) (by decide) (by decide) (by decide) (by decide)
theorem W12_main_arg10 (c : Dev nD) : W12 m ρ c (Proc.devRef .tc main_arg10) = m ((c : Thread nD τ).loc main_arg10) :=
  W12_keeps m ρ c main_arg10 (by decide) (by decide) (by decide) (by decide) (by decide) (by decide) (by decide) (by decide) (by decide) (by decide) (by decide) (by decide)
theorem W12_main_arg11 (c : Dev nD) : W12 m ρ c (Proc.devRef .tc main_arg11) = m ((c : Thread nD τ).loc main_arg11) :=
  W12_keeps m ρ c main_arg11 (by decide) (by decide) (by decide) (by decide) (by decide) (by decide) (by decide) (by decide) (by decide) (by decide) (by decide) (by decide)
theorem W12_main_arg12 (c : Dev nD) : W12 m ρ c (Proc.devRef .tc main_arg12) = m ((c : Thread nD τ).loc main_arg12) :=
  W12_keeps m ρ c main_arg12 (by decide) (by decide) (by decide) (by decide) (by decide) (by decide) (by decide) (by decide) (by decide) (by decide) (by decide) (by decide)
theorem W12_main_arg13 (c : Dev nD) : W12 m ρ c (Proc.devRef .tc main_arg13) = m ((c : Thread nD τ).loc main_arg13) :=
  W12_keeps m ρ c main_arg13 (by decide) (by decide) (by decide) (by decide) (by decide) (by decide) (by decide) (by decide) (by decide) (by decide) (by decide) (by decide)

/-! ## The frame, and the run's value -/

/-- THE FRAME: every weakly fair execution of @main terminates, nothing faulting, and every final state has each of the
    fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c)⟩) (run_all m ρ)

/-- THE RUN'S VALUE: the same run, and in every final state the result array `main_v165` holds the last boundary's
    contents there (region 5's output as its pipeline leaves it), beside the arguments as launched. -/
theorem run_value : θ_run defs (onTc (τ := τ) (main (F := F))) ⟨m, fun _ => 0, ρ⟩ (fun r => ∀ c : Dev nD,
      r.2.mem ((c.tc : Thread nD τ).loc main_v165) = W12 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨h c _ (mem_uc main_v165 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c)⟩) (run_all m ρ)

end Cert.Kernel.Frame

end
-- ==== Proof.KI.Region0.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The linear layer's region 0: one row block times the weights, plus the bias row

Each of the 25 grid points takes a 4000x64 block of rows (window 0), the whole 64x256 weight matrix
(window 1) and the 1x256 bias row (window 2), and overwrites the matching 4000x256 block of the result
(window 3) with `block · weights + bias`. Nothing is carried from one point to the next: the result block
is a function of the three input blocks alone. The weights and the bias have a constant block index, so the
pipeline copies them in once, at the first point; their staging buffers still hold them at every later
point because the body never writes them. -/

-- the TensorCore's buffer contents when the region is entered
variable (V : (c : Dev nD) → (b : Ref sig .tc) → Buf (Elt F) ((c : Thread nD τ).loc b))

/-- Window `w`'s block at grid point `t`, read off the array as it stands when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point

For proof data whose array for the window is the entry contents and whose body leaves the block where it
found it, the buffer the body is handed holds the block of the point: either the pipeline has just copied
it in, or the block index has not moved since the last copy and the buffer is untouched. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev r0_0 : Rect S4000x64 := Rect.unit (s := S4000x64) ![0, 0] S4000x64.size inb_S4000x64_S4000x64_0_0
abbrev r0_1 : Rect S64x256 := Rect.unit (s := S64x256) ![0, 0] S64x256.size inb_S64x256_S64x256_0_0
abbrev r0_2 : Rect S1x256 := Rect.unit (s := S1x256) ![0, 0] S1x256.size inb_S1x256_S1x256_0_0
abbrev r0_3 : Rect S4000x256 := Rect.unit (s := S4000x256) ![0, 0] S4000x256.size inb_S4000x256_S4000x256_0_0

/-- What the body leaves in the result block's buffer, from the three input blocks: its single whole-buffer
    store of the matrix product plus the broadcast bias. -/
def out0_3 (x0 : Vec F S4000x64 .f32) (x1 : Vec F S64x256 .f32) (x2 : Vec F S1x256 .f32) : Vec F S4000x256 .f32 :=
  View.canon [⟨r0_3, k0_pay1 (View.ld x0 r0_0) (View.ld x1 r0_1) (View.ld x2 r0_2)⟩]

/-- The single store spans the whole 4000x256 buffer, so every index of the buffer lies in it. -/
theorem cover0_3 (p0 : Vec F S4000x256 .f32) (y : S4000x256.Idx) :
    ∃ pc ∈ ([⟨r0_3, p0⟩] : List (View.Piece (Elt F) S4000x256 .f32)), y ∈ pc.1.set :=
  View.cover_of_tiled [⟨r0_3, p0⟩] S4000x256.size (by rfl) y

/-! ## The body's triple

On whole staging memrefs whose inputs read `x0 x1 x2` and whose output holds anything, the body runs to a
state with the inputs unchanged and the output at `out0_3 x0 x1 x2`. The grid coordinate is not read. -/

set_option maxHeartbeats 1000000 in
theorem sound_kernel0 (c : Dev nD) (E : Set ℕ) (i : grid0.Coords)
    (arg1 : Memref sig .tc .vmem S4000x64 .f32) (harg1 : arg1.IsWhole)
    (arg2 : Memref sig .tc .vmem S64x256 .f32) (harg2 : arg2.IsWhole)
    (arg3 : Memref sig .tc .vmem S1x256 .f32) (harg3 : arg3.IsWhole)
    (arg4 : Memref sig .tc .vmem S4000x256 .f32) (harg4 : arg4.IsWhole)
    (x0 : Vec F S4000x64 .f32) (x1 : Vec F S64x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays are the entry contents; after the body at point `t` each input's buffer still holds its block
    and the output's holds `out0_3` of the three blocks; the invariant is the stateless class's (the scoped
    rest and the generator register pass through); full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 of @main: `cc1__bn_stats_kernel` on its grid of 25 row blocks, at the entry contents `V`

The body reads the row block of two `4000x64` arrays and a `1x64` bias row, stores `y = max(agg + s + bias, 0)` whole into
output window 3 (written back at every point), and accumulates the column sums of `y` and of `y * y` into the two `1x64`
output windows 4 and 5, which stay resident over the whole grid: point 0 zeroes them first (an `scf.if` on the grid
coordinate), every point adds its block's column sums onto what the buffer holds, and only the last point writes them back. -/

section Region1

variable (V : (c : Dev nD) → (b : Ref sig .tc) → Buf (Elt F) ((c : Thread nD τ).loc b))

/-- The offset of every access of the body: the origin. -/
theorem hz_r1 : (![0, 0] : Fin 2 → Nat) = fun _ => 0 := funext fun a => by fin_cases a <;> rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the pipeline fetched it
    there or not (an unfetched point has the same block index as the point that fetched it), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether the pipeline fetched it
    there or not (an unfetched point has the same block index as the point that fetched it), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether the pipeline fetched it
    there or not (an unfetched point has the same block index as the point that fetched it), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch condition -/

/-- The condition of the body's `scf.if`, as a function of the grid coordinate: `program_id == 0`. -/
abbrev cond1_0 (i : grid1.Coords) : Prop := (Scalar.cmpi .ne (Scalar.extui (Scalar.cmpi .eq (BitVec.ofNat 32 (i 0).val) 0#32)) 0#32) = 1#1
/-- It holds at the first point only (decided over the 25 points). -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The body's triple, per control case

Every load and store of the body is of the WHOLE staging buffer (offset `(0, 0)`, the buffer's own extents), so a load reads
the buffer's contents and the last store into a buffer leaves exactly its payload: the posts are the skeleton's payloads
at the inputs' contents. -/

set_option maxHeartbeats 1000000 in
/-- CASE A (the condition holds: point 0). The accumulators may hold anything: the body stores the zero row into each,
    reads it back and stores it plus the block's column sums. -/
theorem sound_kernel1_A (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : cond1_0 i) (x0 x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)
            ∗ owns (c : Thread nD τ) arg5 fullShare (k1_pay4 x0 x1 x2 (k1_pay2 (F := F)))
            ∗ owns (c : Thread nD τ) arg6 fullShare (k1_pay5 x0 x1 x2 (k1_pay3 (F := F)))) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r1 inb_S4000x64_S4000x64_0_0 y⟩),
      View.canon_unit_zero hz_r1]
    simp only [View.readAt_eq_ld, View.ld_unit_zero (S := S4000x64) hz_r1, View.ld_unit_zero (S := S1x64) hz_r1]
  isplitl [H4]
  · iexists _; isplitr
    swap; · iexact H4
    ipureintro
    rw [View.read_writes_eq_canon _ _ _ (fun y => ⟨_, List.mem_cons_self .., View.mem_set_unit_zero hz_r1 inb_S1x64_S1x64_0_0 y⟩),
      View.canon_cons_unit_zero hz_r1]
    sl_unfold_words
    rw [View.readCov_unit_zero (S := S1x64) _ hz_r1]
    simp only [View.readAt_eq_ld, View.ld_unit_zero (S := S4000x64) hz_r1, View.ld_unit_zero (S := S1x64) hz_r1]
  · iexists _; isplitr
    swap; · iexact H5
    ipureintro
    rw [View.read_writes_eq_canon _ _ _ (fun y => ⟨_, List.mem_cons_self .., View.mem_set_unit_zero hz_r1 inb_S1x64_S1x64_0_0 y⟩),
      View.canon_cons_unit_zero hz_r1]
    sl_unfold_words
    rw [View.readCov_unit_zero (S := S1x64) _ hz_r1]
    simp only [View.readAt_eq_ld, View.ld_unit_zero (S := S4000x64) hz_r1, View.ld_unit_zero (S := S1x64) hz_r1]

set_option maxHeartbeats 1000000 in
/-- CASE B (the condition fails: points 1 … 24). The accumulators hold `xo4`, `xo5`: the body reads each and stores it plus
    the block's column sums. -/
theorem sound_kernel1_B (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond1_0 i) (x0 x1 : Vec F S4000x64 .f32) (x2 : Vec F S1x64 .f32) (xo4 xo5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)
            ∗ owns (c : Thread nD τ) arg5 fullShare (k1_pay4 x0 x1 x2 xo4)
            ∗ owns (c : Thread nD τ) arg6 fullShare (k1_pay5 x0 x1 x2 xo5)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r1 inb_S4000x64_S4000x64_0_0 y⟩),
      View.canon_unit_zero hz_r1]
    simp only [View.readAt_eq_ld, View.ld_unit_zero (S := S4000x64) hz_r1, View.ld_unit_zero (S := S1x64) hz_r1]
  isplitl [H4]
  · iexists _; isplitr
    swap; · iexact H4
    ipureintro
    rw [View.read_writes_eq_canon _ _ _ (fun y => ⟨_, List.mem_cons_self .., View.mem_set_unit_zero hz_r1 inb_S1x64_S1x64_0_0 y⟩),
      View.canon_unit_zero hz_r1]
    simp only [View.readAt_eq_ld, View.ld_unit_zero (S := S4000x64) hz_r1, View.ld_unit_zero (S := S1x64) hz_r1]
  · iexists _; isplitr
    swap; · iexact H5
    ipureintro
    rw [View.read_writes_eq_canon _ _ _ (fun y => ⟨_, List.mem_cons_self .., View.mem_set_unit_zero hz_r1 inb_S1x64_S1x64_0_0 y⟩),
      View.canon_unit_zero hz_r1]
    simp only [View.readAt_eq_ld, View.ld_unit_zero (S := S4000x64) hz_r1, View.ld_unit_zero (S := S1x64) hz_r1]

/-! ## What the two carried outputs hold after each point -/

/-- THE RUNNING COLUMN SUM held in output window 4's staging buffer after the body at point `n`: at point 0 the zero row plus
    the block's column sums, at point `n + 1` what point `n` left plus the block's (the buffer is not written back between). -/
def acc1_4 (c : Dev nD) : (n : ℕ) → n < cfg1.N → Vec F S1x64 .f32
  | 0, h => k1_pay4 (iblk1 V c 0 ⟨0, h⟩) (iblk1 V c 1 ⟨0, h⟩) (iblk1 V c 2 ⟨0, h⟩) (k1_pay2 (F := F))
  | n + 1, h => k1_pay4 (iblk1 V c 0 ⟨n + 1, h⟩) (iblk1 V c 1 ⟨n + 1, h⟩) (iblk1 V c 2 ⟨n + 1, h⟩) (acc1_4 c n (Nat.lt_of_succ_lt h))

/-- At the first point: the zero row plus the block's. -/
theorem acc1_4_A (c : Dev nD) (t : Fin cfg1.N) (h0 : t.val % 25 = 0) :
    acc1_4 V c t.val t.isLt = k1_pay4 (iblk1 V c 0 t) (iblk1 V c 1 t) (iblk1 V c 2 t) (k1_pay2 (F := F)) := by
  have hN : t.val < 25 := lt_of_lt_of_eq t.isLt (show cfg1.N = 25 from N_1)
  obtain ⟨n, hn⟩ := t
  cases n with
  | zero => exact rfl
  | succ n => exact (by exfalso; dsimp only at h0 hN; omega)

/-- At a later point: what the point before left plus the block's. -/
theorem acc1_4_B (c : Dev nD) (t : Fin cfg1.N) (h0 : ¬t.val % 25 = 0) :
    acc1_4 V c t.val t.isLt = k1_pay4 (iblk1 V c 0 t) (iblk1 V c 1 t) (iblk1 V c 2 t) (acc1_4 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- THE RUNNING COLUMN SUM OF SQUARES held in output window 5's staging buffer after the body at point `n`: at point 0 the zero row plus
    the block's column sums of squares, at point `n + 1` what point `n` left plus the block's (the buffer is not written back between). -/
def acc1_5 (c : Dev nD) : (n : ℕ) → n < cfg1.N → Vec F S1x64 .f32
  | 0, h => k1_pay5 (iblk1 V c 0 ⟨0, h⟩) (iblk1 V c 1 ⟨0, h⟩) (iblk1 V c 2 ⟨0, h⟩) (k1_pay3 (F := F))
  | n + 1, h => k1_pay5 (iblk1 V c 0 ⟨n + 1, h⟩) (iblk1 V c 1 ⟨n + 1, h⟩) (iblk1 V c 2 ⟨n + 1, h⟩) (acc1_5 c n (Nat.lt_of_succ_lt h))

/-- At the first point: the zero row plus the block's. -/
theorem acc1_5_A (c : Dev nD) (t : Fin cfg1.N) (h0 : t.val % 25 = 0) :
    acc1_5 V c t.val t.isLt = k1_pay5 (iblk1 V c 0 t) (iblk1 V c 1 t) (iblk1 V c 2 t) (k1_pay3 (F := F)) := by
  have hN : t.val < 25 := lt_of_lt_of_eq t.isLt (show cfg1.N = 25 from N_1)
  obtain ⟨n, hn⟩ := t
  cases n with
  | zero => exact rfl
  | succ n => exact (by exfalso; dsimp only at h0 hN; omega)

/-- At a later point: what the point before left plus the block's. -/
theorem acc1_5_B (c : Dev nD) (t : Fin cfg1.N) (h0 : ¬t.val % 25 = 0) :
    acc1_5 V c t.val t.isLt = k1_pay5 (iblk1 V c 0 t) (iblk1 V c 1 t) (iblk1 V c 2 t) (acc1_5 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-! ## The pipeline's proof data -/

/-- The proof data of pipeline 1 on core `c`: the arrays as the region finds them (`V`); after the body at point `t` each
    input's buffer at its block, window 3's at `y` of the three blocks, windows 4 and 5's at the running sums; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- Window 3 after any point: `y` of the point's three input blocks. -/
theorem after1_3 (c : Dev nD) (t : Fin cfg1.N) : (dat1 V c).after 3 t = k1_pay1 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
/-- Window 4 after point 0: the zero row plus the first block's column sums. -/
theorem after1_4_zero (c : Dev nD) (h0 : 0 < cfg1.N) :
    (dat1 V c).after 4 ⟨0, h0⟩ = k1_pay4 (iblk1 V c 0 ⟨0, h0⟩) (iblk1 V c 1 ⟨0, h0⟩) (iblk1 V c 2 ⟨0, h0⟩) (k1_pay2 (F := F)) := by
  rw [after1_4]; exact rfl
/-- Window 4 after point `n + 1`: what it held after point `n` plus the block's column sums. -/
theorem after1_4_succ (c : Dev nD) (n : ℕ) (h : n + 1 < cfg1.N) :
    (dat1 V c).after 4 ⟨n + 1, h⟩ = k1_pay4 (iblk1 V c 0 ⟨n + 1, h⟩) (iblk1 V c 1 ⟨n + 1, h⟩) (iblk1 V c 2 ⟨n + 1, h⟩) ((dat1 V c).after 4 ⟨n, Nat.lt_of_succ_lt h⟩) := by
  rw [after1_4, after1_4]; exact rfl

theorem after1_5 (c : Dev nD) (t : Fin cfg1.N) : (dat1 V c).after 5 t = acc1_5 V c t.val t.isLt := by dsimp only [dat1]
/-- Window 5 after point 0: the zero row plus the first block's column sums of squares. -/
theorem after1_5_zero (c : Dev nD) (h0 : 0 < cfg1.N) :
    (dat1 V c).after 5 ⟨0, h0⟩ = k1_pay5 (iblk1 V c 0 ⟨0, h0⟩) (iblk1 V c 1 ⟨0, h0⟩) (iblk1 V c 2 ⟨0, h0⟩) (k1_pay3 (F := F)) := by
  rw [after1_5]; exact rfl
/-- Window 5 after point `n + 1`: what it held after point `n` plus the block's column sums of squares. -/
theorem after1_5_succ (c : Dev nD) (n : ℕ) (h : n + 1 < cfg1.N) :
    (dat1 V c).after 5 ⟨n + 1, h⟩ = k1_pay5 (iblk1 V c 0 ⟨n + 1, h⟩) (iblk1 V c 1 ⟨n + 1, h⟩) (iblk1 V c 2 ⟨n + 1, h⟩) ((dat1 V c).after 5 ⟨n, Nat.lt_of_succ_lt h⟩) := by
  rw [after1_5, after1_5]; exact rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point other than the first, output window 4's current staging buffer holds what the body left at the point before:
    the window is written back after the last point only, is live at every point and is not cut. -/
theorem before1_4_B (c : Dev nD) (t : Fin cfg1.N) (h0 : ¬t.val % 25 = 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point other than the first, output window 5's current staging buffer holds what the body left at the point before:
    the window is written back after the last point only, is live at every point and is not cut. -/
theorem before1_5_B (c : Dev nD) (t : Fin cfg1.N) (h0 : ¬t.val % 25 = 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' buffers hold their blocks; the point is the first or not, which decides the
    `scf.if`; at a later point the two accumulators hold what the point before left; so the case's triple applies. The
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 25 = 0
  · rw [acc1_4_A V c t h0, acc1_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_0 t).mpr h0) (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_B V c t h0, acc1_5_B V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1_0 t).mp h)) (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.KI.Region2.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The normalisation region 2: scale and shift a row block column by column

Each of the 25 grid points takes a 4000x64 block of rows (window 0) and four 1x64 rows (windows 1 to 4: the
column means, the reciprocal deviations, the scales and the shifts) and overwrites the matching 4000x64
block of the result (window 5) with `((block − mean) · rdev) · scale + shift`, each row broadcast down the
block. Nothing is carried between points. The four rows have a constant block index, so the pipeline copies
them in at the first point only; the body never writes them, so their staging buffers hold them throughout. -/

-- the TensorCore's buffer contents when the region is entered
variable (V : (c : Dev nD) → (b : Ref sig .tc) → Buf (Elt F) ((c : Thread nD τ).loc b))

/-- Window `w`'s block at grid point `t`, read off the array as it stands when the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point

Either the pipeline has just copied the block in, or the block index has not moved since the last copy and
the body has left the buffer as it found it. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each staging buffer whole -/

abbrev r2_0 : Rect S4000x64 := Rect.unit (s := S4000x64) ![0, 0] S4000x64.size inb_S4000x64_S4000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S4000x64 := Rect.unit (s := S4000x64) ![0, 0] S4000x64.size inb_S4000x64_S4000x64_0_0

/-- What the body leaves in the result block's buffer, from the five input blocks: its single whole-buffer
    store of the scaled and shifted block. -/
def out2_5 (x0 : Vec F S4000x64 .f32) (x1 x2 x3 x4 : Vec F S1x64 .f32) : Vec F S4000x64 .f32 :=
  View.canon [⟨r2_5, k2_pay1 (View.ld x0 r2_0) (View.ld x1 r2_1) (View.ld x2 r2_2) (View.ld x3 r2_3) (View.ld x4 r2_4)⟩]

/-- The single store spans the whole 4000x64 buffer, so every index of the buffer lies in it. -/
theorem cover2_5 (p0 : Vec F S4000x64 .f32) (y : S4000x64.Idx) :
    ∃ pc ∈ ([⟨r2_5, p0⟩] : List (View.Piece (Elt F) S4000x64 .f32)), y ∈ pc.1.set :=
  View.cover_of_tiled [⟨r2_5, p0⟩] S4000x64.size (by rfl) y

/-! ## The body's triple

On whole staging memrefs whose inputs read `x0 … x4` and whose output holds anything, the body runs to a
state with the inputs unchanged and the output at `out2_5 x0 … x4`. The grid coordinate is not read. -/

set_option maxHeartbeats 1000000 in
theorem sound_kernel2 (c : Dev nD) (E : Set ℕ) (i : grid2.Coords)
    (arg1 : Memref sig .tc .vmem S4000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S4000x64 .f32) (harg6 : arg6.IsWhole)
    (x0 : Vec F S4000x64 .f32) (x1 x2 x3 x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays are the entry contents; after the body at point `t` each input's buffer still holds its block
    and the output's holds `out2_5` of the five blocks; the invariant is the stateless class's (the scoped
    rest and the generator register pass through); full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Region3.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The linear layer's region 3: one row block times the weights, plus the bias row

Each of the 25 grid points takes a 4000x64 block of rows (window 0), the whole 64x256 weight matrix
(window 1) and the 1x256 bias row (window 2), and overwrites the matching 4000x256 block of the result
(window 3) with `block · weights + bias`. Nothing is carried from one point to the next: the result block
is a function of the three input blocks alone. The weights and the bias have a constant block index, so the
pipeline copies them in once, at the first point; their staging buffers still hold them at every later
point because the body never writes them. -/

-- the TensorCore's buffer contents when the region is entered
variable (V : (c : Dev nD) → (b : Ref sig .tc) → Buf (Elt F) ((c : Thread nD τ).loc b))

/-- Window `w`'s block at grid point `t`, read off the array as it stands when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block at every point

For proof data whose array for the window is the entry contents and whose body leaves the block where it
found it, the buffer the body is handed holds the block of the point: either the pipeline has just copied
it in, or the block index has not moved since the last copy and the buffer is untouched. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body touches: each staging buffer whole -/

abbrev r3_0 : Rect S4000x64 := Rect.unit (s := S4000x64) ![0, 0] S4000x64.size inb_S4000x64_S4000x64_0_0
abbrev r3_1 : Rect S64x256 := Rect.unit (s := S64x256) ![0, 0] S64x256.size inb_S64x256_S64x256_0_0
abbrev r3_2 : Rect S1x256 := Rect.unit (s := S1x256) ![0, 0] S1x256.size inb_S1x256_S1x256_0_0
abbrev r3_3 : Rect S4000x256 := Rect.unit (s := S4000x256) ![0, 0] S4000x256.size inb_S4000x256_S4000x256_0_0

/-- What the body leaves in the result block's buffer, from the three input blocks: its single whole-buffer
    store of the matrix product plus the broadcast bias. -/
def out3_3 (x0 : Vec F S4000x64 .f32) (x1 : Vec F S64x256 .f32) (x2 : Vec F S1x256 .f32) : Vec F S4000x256 .f32 :=
  View.canon [⟨r3_3, k3_pay1 (View.ld x0 r3_0) (View.ld x1 r3_1) (View.ld x2 r3_2)⟩]

/-- The single store spans the whole 4000x256 buffer, so every index of the buffer lies in it. -/
theorem cover3_3 (p0 : Vec F S4000x256 .f32) (y : S4000x256.Idx) :
    ∃ pc ∈ ([⟨r3_3, p0⟩] : List (View.Piece (Elt F) S4000x256 .f32)), y ∈ pc.1.set :=
  View.cover_of_tiled [⟨r3_3, p0⟩] S4000x256.size (by rfl) y

/-! ## The body's triple

On whole staging memrefs whose inputs read `x0 x1 x2` and whose output holds anything, the body runs to a
state with the inputs unchanged and the output at `out3_3 x0 x1 x2`. The grid coordinate is not read. -/

set_option maxHeartbeats 1000000 in
theorem sound_kernel3 (c : Dev nD) (E : Set ℕ) (i : grid3.Coords)
    (arg1 : Memref sig .tc .vmem S4000x64 .f32) (harg1 : arg1.IsWhole)
    (arg2 : Memref sig .tc .vmem S64x256 .f32) (harg2 : arg2.IsWhole)
    (arg3 : Memref sig .tc .vmem S1x256 .f32) (harg3 : arg3.IsWhole)
    (arg4 : Memref sig .tc .vmem S4000x256 .f32) (harg4 : arg4.IsWhole)
    (x0 : Vec F S4000x64 .f32) (x1 : Vec F S64x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E
          (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays are the entry contents; after the body at point `t` each input's buffer still holds its block
    and the output's holds `out3_3` of the three blocks; the invariant is the stateless class's (the scoped
    rest and the generator register pass through); full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the pipeline hands the body at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Region4.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 4 of @main: `cc4__bn_stats_kernel` on its grid of 25 row blocks, at the entry contents `V`

The body reads the row block of two `4000x64` arrays and a `1x64` bias row, stores `y = max(agg + s + bias, 0)` whole into
output window 3 (written back at every point), and accumulates the column sums of `y` and of `y * y` into the two `1x64`
output windows 4 and 5, which stay resident over the whole grid: point 0 zeroes them first (an `scf.if` on the grid
coordinate), every point adds its block's column sums onto what the buffer holds, and only the last point writes them back. -/

section Region4

variable (V : (c : Dev nD) → (b : Ref sig .tc) → Buf (Elt F) ((c : Thread nD τ).loc b))

/-- The offset of every access of the body: the origin. -/
theorem hz_r4 : (![0, 0] : Fin 2 → Nat) = fun _ => 0 := funext fun a => by fin_cases a <;> rfl

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block of the array at every point, whether the pipeline fetched it
    there or not (an unfetched point has the same block index as the point that fetched it), for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block of the array at every point, whether the pipeline fetched it
    there or not (an unfetched point has the same block index as the point that fetched it), for any proof data whose
    array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block of the array at every point, whether the pipeline fetched it
    there or not (an unfetched point has the same block index as the point that fetched it), for any proof data whose
    array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one branch condition -/

/-- The condition of the body's `scf.if`, as a function of the grid coordinate: `program_id == 0`. -/
abbrev cond4_0 (i : grid4.Coords) : Prop := (Scalar.cmpi .ne (Scalar.extui (Scalar.cmpi .eq (BitVec.ofNat 32 (i 0).val) 0#32)) 0#32) = 1#1
/-- It holds at the first point only (decided over the 25 points). -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The body's triple, per control case

Every load and store of the body is of the WHOLE staging buffer (offset `(0, 0)`, the buffer's own extents), so a load reads
the buffer's contents and the last store into a buffer leaves exactly its payload: the posts are the skeleton's payloads
at the inputs' contents. -/

set_option maxHeartbeats 1000000 in
/-- CASE A (the condition holds: point 0). The accumulators may hold anything: the body stores the zero row into each,
    reads it back and stores it plus the block's column sums. -/
theorem sound_kernel4_A (c : Dev nD) (E : Set ℕ) (i : grid4.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : cond4_0 i) (x0 x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)
            ∗ owns (c : Thread nD τ) arg5 fullShare (k4_pay4 x0 x1 x2 (k4_pay2 (F := F)))
            ∗ owns (c : Thread nD τ) arg6 fullShare (k4_pay5 x0 x1 x2 (k4_pay3 (F := F)))) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r4 inb_S4000x64_S4000x64_0_0 y⟩),
      View.canon_unit_zero hz_r4]
    simp only [View.readAt_eq_ld, View.ld_unit_zero (S := S4000x64) hz_r4, View.ld_unit_zero (S := S1x64) hz_r4]
  isplitl [H4]
  · iexists _; isplitr
    swap; · iexact H4
    ipureintro
    rw [View.read_writes_eq_canon _ _ _ (fun y => ⟨_, List.mem_cons_self .., View.mem_set_unit_zero hz_r4 inb_S1x64_S1x64_0_0 y⟩),
      View.canon_cons_unit_zero hz_r4]
    sl_unfold_words
    rw [View.readCov_unit_zero (S := S1x64) _ hz_r4]
    simp only [View.readAt_eq_ld, View.ld_unit_zero (S := S4000x64) hz_r4, View.ld_unit_zero (S := S1x64) hz_r4]
  · iexists _; isplitr
    swap; · iexact H5
    ipureintro
    rw [View.read_writes_eq_canon _ _ _ (fun y => ⟨_, List.mem_cons_self .., View.mem_set_unit_zero hz_r4 inb_S1x64_S1x64_0_0 y⟩),
      View.canon_cons_unit_zero hz_r4]
    sl_unfold_words
    rw [View.readCov_unit_zero (S := S1x64) _ hz_r4]
    simp only [View.readAt_eq_ld, View.ld_unit_zero (S := S4000x64) hz_r4, View.ld_unit_zero (S := S1x64) hz_r4]

set_option maxHeartbeats 1000000 in
/-- CASE B (the condition fails: points 1 … 24). The accumulators hold `xo4`, `xo5`: the body reads each and stores it plus
    the block's column sums. -/
theorem sound_kernel4_B (c : Dev nD) (E : Set ℕ) (i : grid4.Coords)
    (arg1 : Memref sig .tc .vmem S4000x64 .f32) (harg1 : arg1.IsWhole) (arg2 : Memref sig .tc .vmem S4000x64 .f32) (harg2 : arg2.IsWhole)
    (arg3 : Memref sig .tc .vmem S1x64 .f32) (harg3 : arg3.IsWhole) (arg4 : Memref sig .tc .vmem S4000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond4_0 i) (x0 x1 : Vec F S4000x64 .f32) (x2 : Vec F S1x64 .f32) (xo4 xo5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)
            ∗ owns (c : Thread nD τ) arg5 fullShare (k4_pay4 x0 x1 x2 xo4)
            ∗ owns (c : Thread nD τ) arg6 fullShare (k4_pay5 x0 x1 x2 xo5)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz_r4 inb_S4000x64_S4000x64_0_0 y⟩),
      View.canon_unit_zero hz_r4]
    simp only [View.readAt_eq_ld, View.ld_unit_zero (S := S4000x64) hz_r4, View.ld_unit_zero (S := S1x64) hz_r4]
  isplitl [H4]
  · iexists _; isplitr
    swap; · iexact H4
    ipureintro
    rw [View.read_writes_eq_canon _ _ _ (fun y => ⟨_, List.mem_cons_self .., View.mem_set_unit_zero hz_r4 inb_S1x64_S1x64_0_0 y⟩),
      View.canon_unit_zero hz_r4]
    simp only [View.readAt_eq_ld, View.ld_unit_zero (S := S4000x64) hz_r4, View.ld_unit_zero (S := S1x64) hz_r4]
  · iexists _; isplitr
    swap; · iexact H5
    ipureintro
    rw [View.read_writes_eq_canon _ _ _ (fun y => ⟨_, List.mem_cons_self .., View.mem_set_unit_zero hz_r4 inb_S1x64_S1x64_0_0 y⟩),
      View.canon_unit_zero hz_r4]
    simp only [View.readAt_eq_ld, View.ld_unit_zero (S := S4000x64) hz_r4, View.ld_unit_zero (S := S1x64) hz_r4]

/-! ## What the two carried outputs hold after each point -/

/-- THE RUNNING COLUMN SUM held in output window 4's staging buffer after the body at point `n`: at point 0 the zero row plus
    the block's column sums, at point `n + 1` what point `n` left plus the block's (the buffer is not written back between). -/
def acc4_4 (c : Dev nD) : (n : ℕ) → n < cfg4.N → Vec F S1x64 .f32
  | 0, h => k4_pay4 (iblk4 V c 0 ⟨0, h⟩) (iblk4 V c 1 ⟨0, h⟩) (iblk4 V c 2 ⟨0, h⟩) (k4_pay2 (F := F))
  | n + 1, h => k4_pay4 (iblk4 V c 0 ⟨n + 1, h⟩) (iblk4 V c 1 ⟨n + 1, h⟩) (iblk4 V c 2 ⟨n + 1, h⟩) (acc4_4 c n (Nat.lt_of_succ_lt h))

/-- At the first point: the zero row plus the block's. -/
theorem acc4_4_A (c : Dev nD) (t : Fin cfg4.N) (h0 : t.val % 25 = 0) :
    acc4_4 V c t.val t.isLt = k4_pay4 (iblk4 V c 0 t) (iblk4 V c 1 t) (iblk4 V c 2 t) (k4_pay2 (F := F)) := by
  have hN : t.val < 25 := lt_of_lt_of_eq t.isLt (show cfg4.N = 25 from N_4)
  obtain ⟨n, hn⟩ := t
  cases n with
  | zero => exact rfl
  | succ n => exact (by exfalso; dsimp only at h0 hN; omega)

/-- At a later point: what the point before left plus the block's. -/
theorem acc4_4_B (c : Dev nD) (t : Fin cfg4.N) (h0 : ¬t.val % 25 = 0) :
    acc4_4 V c t.val t.isLt = k4_pay4 (iblk4 V c 0 t) (iblk4 V c 1 t) (iblk4 V c 2 t) (acc4_4 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- THE RUNNING COLUMN SUM OF SQUARES held in output window 5's staging buffer after the body at point `n`: at point 0 the zero row plus
    the block's column sums of squares, at point `n + 1` what point `n` left plus the block's (the buffer is not written back between). -/
def acc4_5 (c : Dev nD) : (n : ℕ) → n < cfg4.N → Vec F S1x64 .f32
  | 0, h => k4_pay5 (iblk4 V c 0 ⟨0, h⟩) (iblk4 V c 1 ⟨0, h⟩) (iblk4 V c 2 ⟨0, h⟩) (k4_pay3 (F := F))
  | n + 1, h => k4_pay5 (iblk4 V c 0 ⟨n + 1, h⟩) (iblk4 V c 1 ⟨n + 1, h⟩) (iblk4 V c 2 ⟨n + 1, h⟩) (acc4_5 c n (Nat.lt_of_succ_lt h))

/-- At the first point: the zero row plus the block's. -/
theorem acc4_5_A (c : Dev nD) (t : Fin cfg4.N) (h0 : t.val % 25 = 0) :
    acc4_5 V c t.val t.isLt = k4_pay5 (iblk4 V c 0 t) (iblk4 V c 1 t) (iblk4 V c 2 t) (k4_pay3 (F := F)) := by
  have hN : t.val < 25 := lt_of_lt_of_eq t.isLt (show cfg4.N = 25 from N_4)
  obtain ⟨n, hn⟩ := t
  cases n with
  | zero => exact rfl
  | succ n => exact (by exfalso; dsimp only at h0 hN; omega)

/-- At a later point: what the point before left plus the block's. -/
theorem acc4_5_B (c : Dev nD) (t : Fin cfg4.N) (h0 : ¬t.val % 25 = 0) :
    acc4_5 V c t.val t.isLt = k4_pay5 (iblk4 V c 0 t) (iblk4 V c 1 t) (iblk4 V c 2 t) (acc4_5 V c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-! ## The pipeline's proof data -/

/-- The proof data of pipeline 4 on core `c`: the arrays as the region finds them (`V`); after the body at point `t` each
    input's buffer at its block, window 3's at `y` of the three blocks, windows 4 and 5's at the running sums; the
    invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
/-- Window 3 after any point: `y` of the point's three input blocks. -/
theorem after4_3 (c : Dev nD) (t : Fin cfg4.N) : (dat4 V c).after 3 t = k4_pay1 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
/-- Window 4 after point 0: the zero row plus the first block's column sums. -/
theorem after4_4_zero (c : Dev nD) (h0 : 0 < cfg4.N) :
    (dat4 V c).after 4 ⟨0, h0⟩ = k4_pay4 (iblk4 V c 0 ⟨0, h0⟩) (iblk4 V c 1 ⟨0, h0⟩) (iblk4 V c 2 ⟨0, h0⟩) (k4_pay2 (F := F)) := by
  rw [after4_4]; exact rfl
/-- Window 4 after point `n + 1`: what it held after point `n` plus the block's column sums. -/
theorem after4_4_succ (c : Dev nD) (n : ℕ) (h : n + 1 < cfg4.N) :
    (dat4 V c).after 4 ⟨n + 1, h⟩ = k4_pay4 (iblk4 V c 0 ⟨n + 1, h⟩) (iblk4 V c 1 ⟨n + 1, h⟩) (iblk4 V c 2 ⟨n + 1, h⟩) ((dat4 V c).after 4 ⟨n, Nat.lt_of_succ_lt h⟩) := by
  rw [after4_4, after4_4]; exact rfl

theorem after4_5 (c : Dev nD) (t : Fin cfg4.N) : (dat4 V c).after 5 t = acc4_5 V c t.val t.isLt := by dsimp only [dat4]
/-- Window 5 after point 0: the zero row plus the first block's column sums of squares. -/
theorem after4_5_zero (c : Dev nD) (h0 : 0 < cfg4.N) :
    (dat4 V c).after 5 ⟨0, h0⟩ = k4_pay5 (iblk4 V c 0 ⟨0, h0⟩) (iblk4 V c 1 ⟨0, h0⟩) (iblk4 V c 2 ⟨0, h0⟩) (k4_pay3 (F := F)) := by
  rw [after4_5]; exact rfl
/-- Window 5 after point `n + 1`: what it held after point `n` plus the block's column sums of squares. -/
theorem after4_5_succ (c : Dev nD) (n : ℕ) (h : n + 1 < cfg4.N) :
    (dat4 V c).after 5 ⟨n + 1, h⟩ = k4_pay5 (iblk4 V c 0 ⟨n + 1, h⟩) (iblk4 V c 1 ⟨n + 1, h⟩) (iblk4 V c 2 ⟨n + 1, h⟩) ((dat4 V c).after 5 ⟨n, Nat.lt_of_succ_lt h⟩) := by
  rw [after4_5, after4_5]; exact rfl

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a point other than the first, output window 4's current staging buffer holds what the body left at the point before:
    the window is written back after the last point only, is live at every point and is not cut. -/
theorem before4_4_B (c : Dev nD) (t : Fin cfg4.N) (h0 : ¬t.val % 25 = 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_out_kept _ 4 rfl t (by omega) (Bool.eq_false_iff.mpr fun h => by have := (flush4_4 _).mp h; dsimp only at this; omega)
    (fun _ => rfl) (fun _ _ => rfl)]
  dsimp only [dat4]

/-- At a point other than the first, output window 5's current staging buffer holds what the body left at the point before:
    the window is written back after the last point only, is live at every point and is not cut. -/
theorem before4_5_B (c : Dev nD) (t : Fin cfg4.N) (h0 : ¬t.val % 25 = 0) (d) :
    (dat4 V c).before 5 t d = acc4_5 V c (t.val - 1) (Nat.lt_of_le_of_lt (Nat.sub_le _ _) t.isLt) := by
  have hN : t.val < 25 := lt_of_lt_of_eq t.isLt (show cfg4.N = 25 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 800000 in
/-- The body at any point: the inputs' buffers hold their blocks; the point is the first or not, which decides the
    `scf.if`; at a later point the two accumulators hold what the point before left; so the case's triple applies. The
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  by_cases h0 : t.val % 25 = 0
  · rw [acc4_4_A V c t h0, acc4_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel4_A c Set.univ (grid4.coords t) _ _ _ _ _ _ _ _ _ _ _ _ ((hcond4_0 t).mpr h0) (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_B V c t h0, acc4_5_B V c t h0]
    simp only [before4_4_B V c t h0, before4_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel4_B c Set.univ (grid4.coords t) _ _ _ _ _ _ _ _ _ _ _ _ (fun h => h0 ((hcond4_0 t).mp h)) (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Frame

end
-- ==== Proof.KI.Region5.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with a 4000-long axis recurses once per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The normalisation region 5: scale and shift a row block column by column

Each of the 25 grid points takes a 4000x64 block of rows (window 0) and four 1x64 rows (windows 1 to 4: the
column means, the reciprocal deviations, the scales and the shifts) and overwrites the matching 4000x64
block of the result (window 5) with `((block − mean) · rdev) · scale + shift`, each row broadcast down the
block. Nothing is carried between points. The four rows have a constant block index, so the pipeline copies
them in at the first point only; the body never writes them, so their staging buffers hold them throughout. -/

-- the TensorCore's buffer contents when the region is entered
variable (V : (c : Dev nD) → (b : Ref sig .tc) → Buf (Elt F) ((c : Thread nD τ).loc b))

/-- Window `w`'s block at grid point `t`, read off the array as it stands when the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## An input's staging buffer holds its block at every point

Either the pipeline has just copied the block in, or the block index has not moved since the last copy and
the body has left the buffer as it found it. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body touches: each staging buffer whole -/

abbrev r5_0 : Rect S4000x64 := Rect.unit (s := S4000x64) ![0, 0] S4000x64.size inb_S4000x64_S4000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S4000x64 := Rect.unit (s := S4000x64) ![0, 0] S4000x64.size inb_S4000x64_S4000x64_0_0

/-- What the body leaves in the result block's buffer, from the five input blocks: its single whole-buffer
    store of the scaled and shifted block. -/
def out5_5 (x0 : Vec F S4000x64 .f32) (x1 x2 x3 x4 : Vec F S1x64 .f32) : Vec F S4000x64 .f32 :=
  View.canon [⟨r5_5, k5_pay1 (View.ld x0 r5_0) (View.ld x1 r5_1) (View.ld x2 r5_2) (View.ld x3 r5_3) (View.ld x4 r5_4)⟩]

/-- The single store spans the whole 4000x64 buffer, so every index of the buffer lies in it. -/
theorem cover5_5 (p0 : Vec F S4000x64 .f32) (y : S4000x64.Idx) :
    ∃ pc ∈ ([⟨r5_5, p0⟩] : List (View.Piece (Elt F) S4000x64 .f32)), y ∈ pc.1.set :=
  View.cover_of_tiled [⟨r5_5, p0⟩] S4000x64.size (by rfl) y

/-! ## The body's triple

On whole staging memrefs whose inputs read `x0 … x4` and whose output holds anything, the body runs to a
state with the inputs unchanged and the output at `out5_5 x0 … x4`. The grid coordinate is not read. -/

set_option maxHeartbeats 1000000 in
theorem sound_kernel5 (c : Dev nD) (E : Set ℕ) (i : grid5.Coords)
    (arg1 : Memref sig .tc .vmem S4000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S4000x64 .f32) (harg6 : arg6.IsWhole)
    (x0 : Vec F S4000x64 .f32) (x1 x2 x3 x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The arrays are the entry contents; after the body at point `t` each input's buffer still holds its block
    and the output's holds `out5_5` of the five blocks; the invariant is the stateless class's (the scoped
    rest and the generator register pass through); full shares, nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation at a generic point -/

/-- What the pipeline hands the body at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it must hand back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KI.Run.lean ====
import proofs.«178820_j816043786337_1_alg».proof.Proof.Gen.KernelIdeal.Launch
import proofs.«178820_j816043786337_1_alg».proof.Proof.Gen.KernelIdeal.Skeleton
import proofs.«178820_j816043786337_1_alg».proof.Proof.Gen.KernelIdeal.Points
import proofs.«178820_j816043786337_1_alg».proof.Proof.Gen.KernelIdeal.Regions
import proofs.«178820_j816043786337_1_alg».proof.Proof.KI.Region0
import proofs.«178820_j816043786337_1_alg».proof.Proof.KI.Region1
import proofs.«178820_j816043786337_1_alg».proof.Proof.KI.Region2
import proofs.«178820_j816043786337_1_alg».proof.Proof.KI.Region3
import proofs.«178820_j816043786337_1_alg».proof.Proof.KI.Region4
import proofs.«178820_j816043786337_1_alg».proof.Proof.KI.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main and its frame

@main is six stretches of host operations alternating with six kernel regions. The contents of every unscoped buffer of a
core at each of the thirteen boundaries between them are a fold from the launch memory: a host stretch takes the
contents to what its operations leave (`StableHlo.after`), a region changes its windows' arrays only — an input stays as
entered, an output ends with its write-backs folded in (`Dat.arrAt … N`). Over that fold each stretch and each region is
a segment of one thread state, "every unscoped buffer at the boundary's contents, the generator register at some state,
nothing owed", and the launch over the twelve segments gives: every weakly fair execution terminates with every unscoped
buffer at the last boundary's contents (`run_all`). No stretch and no region's output touches an argument, so each
argument reads back through the fold to its launch contents (`frame`); the result array reads as the last boundary's
contents there (`run_value`). Everything is generic in the float type `F`. -/

-- deciding that a reference is none of a region's window arrays, and none of the references a host stretch
-- writes, recurses once per reference of the signature
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six host stretches and six kernel regions, from the launch to the return

## The buffer contents at each of the 13 segment boundaries: a fold through @main -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After the host stretch `hostOps0`: what region 0 is entered from. -/
abbrev W1 : Dev nD → Valuation τ sig (Elt F) := fun c => StableHlo.after hostOps0 (W0 m ρ c)
/-- The same contents read at the TensorCore's references (what region 0's proof data take). -/
abbrev U1 : (c : Dev nD) → (b : Ref sig .tc) → Buf (Elt F) ((c : Thread nD τ).loc b) := fun c b => W1 m ρ c b
/-- At region 0's exit: each of its windows' arrays at what the pipeline leaves there (an input as entered, an
    output with its write-backs folded in), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references (region 0's exit contents). -/
abbrev U2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same contents read at the TensorCore's references (what region 1's proof data take). -/
abbrev U3 : (c : Dev nD) → (b : Ref sig .tc) → Buf (Elt F) ((c : Thread nD τ).loc b) := fun c b => W3 m ρ c b
/-- At region 1's exit: each of its windows' arrays at what the pipeline leaves there (an input as entered, an
    output with its write-backs folded in), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references (region 1's exit contents). -/
abbrev U4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same contents read at the TensorCore's references (what region 2's proof data take). -/
abbrev U5 : (c : Dev nD) → (b : Ref sig .tc) → Buf (Elt F) ((c : Thread nD τ).loc b) := fun c b => W5 m ρ c b
/-- At region 2's exit: each of its windows' arrays at what the pipeline leaves there (an input as entered, an
    output with its write-backs folded in), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references (region 2's exit contents). -/
abbrev U6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
/-- The same contents read at the TensorCore's references (what region 3's proof data take). -/
abbrev U7 : (c : Dev nD) → (b : Ref sig .tc) → Buf (Elt F) ((c : Thread nD τ).loc b) := fun c b => W7 m ρ c b
/-- At region 3's exit: each of its windows' arrays at what the pipeline leaves there (an input as entered, an
    output with its write-backs folded in), every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references (region 3's exit contents). -/
abbrev U8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same contents read at the TensorCore's references (what region 4's proof data take). -/
abbrev U9 : (c : Dev nD) → (b : Ref sig .tc) → Buf (Elt F) ((c : Thread nD τ).loc b) := fun c b => W9 m ρ c b
/-- At region 4's exit: each of its windows' arrays at what the pipeline leaves there (an input as entered, an
    output with its write-backs folded in), every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents read at the TensorCore's references (region 4's exit contents). -/
abbrev U10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
/-- The same contents read at the TensorCore's references (what region 5's proof data take). -/
abbrev U11 : (c : Dev nD) → (b : Ref sig .tc) → Buf (Elt F) ((c : Thread nD τ).loc b) := fun c b => W11 m ρ c b
/-- At region 5's exit: each of its windows' arrays at what the pipeline leaves there (an input as entered, an
    output with its write-backs folded in), every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents read at the TensorCore's references (region 5's exit contents). -/
abbrev U12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)

/-! ## The proof data family and the thread state -/

/-- Every pipeline's proof data, each at its region's entry contents — a literal `match` on the pipeline's index, so
    that the data at a numeral reduce to that region's. -/
def pdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
/-- No core owes another anything: no level is assigned. -/
abbrev lvlPairs : GSem nD τ sig → Finset Unit := fun _ => ∅
abbrev lvlOf : GSem nD τ sig → Unit → ℕ := fun _ _ => 0
/-- What rides beside the buffers through every segment: the core's generator register at some state (every region's
    invariant takes it in and gives it back) and what the core owes, which is nothing. -/
abbrev riding (c : Dev nD) : sProp 𝕄 := iprop((∃ r, prngReg c r) ∗ ∃ W, owes (c : Thread nD τ) (0 : CellTallies nD τ sig Unit) W)
/-- A host stretch as a segment over the unscoped references from the contents `W`, `riding` beside them: it is left
    with those references at `StableHlo.after ops (W c)`, the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ lvlPairs lvlOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W12`, the
    generator register at some state. -/
abbrev Tlast (c : Dev nD) : sProp 𝕄 := iprop(StableHlo.held (c : Thread nD τ) (Pipeline.ucRefs τ sig) (W12 m ρ c) ∗ ∃ r, prngReg c r)

/-! ## The regions as segments

Every region's invariant is the scoped rest beside the generator register, so the four entailments around a region are the
same for all six: at ENTRY the region's arrays are split out of the unscoped buffers held at the entry contents and the
register goes into the invariant; at EXIT the arrays, now at what the pipeline leaves, go back among the unscoped buffers at
the next boundary's contents, which differ from the entry contents at those arrays only. -/

-- a library lemma stated over the pinned configuration unifies with the printed one only when unification may unfold
-- plain definitions in a metavariable's type
set_option backward.isDefEq.respectTransparency.types false in
/-- REGION 0 over the thread state: entered from every unscoped buffer at `W1`, left at `W2`. -/
def reg0 : Pipeline.RegionSeg (pcfgs (F := F)) adm (pdats m ρ) () defs₀ 𝒱₀ lvlPairs lvlOf 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ lvlPairs lvlOf 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. -/
def reg1 : Pipeline.RegionSeg (pcfgs (F := F)) adm (pdats m ρ) () defs₀ 𝒱₀ lvlPairs lvlOf 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ lvlPairs lvlOf 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. -/
def reg2 : Pipeline.RegionSeg (pcfgs (F := F)) adm (pdats m ρ) () defs₀ 𝒱₀ lvlPairs lvlOf 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ lvlPairs lvlOf 2 fun _ _ => rfl
  pre c := iprop(StableHlo.held (c : Thread nD τ) (Pipeline.ucRefs τ sig) (W5 m ρ c) ∗ riding c)
  post c := iprop(StableHlo.held (c : Thread nD τ) (Pipeline.ucRefs τ sig) (W6 m ρ c) ∗ riding c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. -/
def reg3 : Pipeline.RegionSeg (pcfgs (F := F)) adm (pdats m ρ) () defs₀ 𝒱₀ lvlPairs lvlOf 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ lvlPairs lvlOf 3 fun _ _ => rfl
  pre c := iprop(StableHlo.held (c : Thread nD τ) (Pipeline.ucRefs τ sig) (W7 m ρ c) ∗ riding c)
  post c := iprop(StableHlo.held (c : Thread nD τ) (Pipeline.ucRefs τ sig) (W8 m ρ c) ∗ riding c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. -/
def reg4 : Pipeline.RegionSeg (pcfgs (F := F)) adm (pdats m ρ) () defs₀ 𝒱₀ lvlPairs lvlOf 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ lvlPairs lvlOf 4 fun _ _ => rfl
  pre c := iprop(StableHlo.held (c : Thread nD τ) (Pipeline.ucRefs τ sig) (W9 m ρ c) ∗ riding c)
  post c := iprop(StableHlo.held (c : Thread nD τ) (Pipeline.ucRefs τ sig) (W10 m ρ c) ∗ riding c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at `W11`, left at `W12`. -/
def reg5 : Pipeline.RegionSeg (pcfgs (F := F)) adm (pdats m ρ) () defs₀ 𝒱₀ lvlPairs lvlOf 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ lvlPairs lvlOf 5 fun _ _ => rfl
  pre c := iprop(StableHlo.held (c : Thread nD τ) (Pipeline.ucRefs τ sig) (W11 m ρ c) ∗ riding c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per kernel call. -/
abbrev segs : List (Pipeline.Seg (pcfgs (F := F)) adm (pdats m ρ) () defs₀ 𝒱₀ lvlPairs lvlOf) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]
/-- @main IS the run of the segments: @main is the chain of its twelve items, and the segments' run is the chain of their
    fragments, which are those items one for one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  rfl

-- the launch lemma's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and in every final state each unscoped buffer of each core holds the last
    boundary's contents `W12`: the launch over the twelve segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ lvlPairs lvlOf m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach lvlPairs lvlOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-! ## The arguments end as launched

No host stretch writes an argument's buffer, and no region's output window is one: the fold at such a buffer walks back to
the launch memory, one step per segment. The walk is made once, for any reference with those two properties; main_arg0
is region 0's first INPUT window, which the pipeline leaves as it found it, so its walk takes that one step differently. -/

/-- A reference that none of the last five host stretches writes and that is no window array of regions 1 to 5 holds at
    the last boundary what it held at region 0's exit. -/
theorem W12_eq_W2 (c : Dev nD) (r : Ref sig .tc)
    (h1 : r ∉ hostOps1_W) (h2 : r ∉ hostOps2_W) (h3 : r ∉ hostOps3_W) (h4 : r ∉ hostOps4_W) (h5 : r ∉ hostOps5_W)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) :
    W12 m ρ c (Proc.devRef .tc r) = W2 m ρ c (Proc.devRef .tc r) :=
  calc W12 m ρ c (Proc.devRef .tc r)
    _ = W11 m ρ c (Proc.devRef .tc r) := W12_of_ne m ρ c r n5
    _ = W10 m ρ c (Proc.devRef .tc r) := StableHlo.after_of_writes_sub hostOps5 _ hostOps5_writes h5
    _ = W9 m ρ c (Proc.devRef .tc r) := W10_of_ne m ρ c r n4
    _ = W8 m ρ c (Proc.devRef .tc r) := StableHlo.after_of_writes_sub hostOps4 _ hostOps4_writes h4
    _ = W7 m ρ c (Proc.devRef .tc r) := W8_of_ne m ρ c r n3
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1

/-- A reference that no host stretch writes and that is no window array of any region holds at the last boundary what the
    launch memory holds. -/
theorem W12_keeps (c : Dev nD) (r : Ref sig .tc) (h0 : r ∉ hostOps0_W)
    (h1 : r ∉ hostOps1_W) (h2 : r ∉ hostOps2_W) (h3 : r ∉ hostOps3_W) (h4 : r ∉ hostOps4_W) (h5 : r ∉ hostOps5_W)
    (n0 : ∀ w, Pipeline.arrRef spec0 w ≠ r)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) :
    W12 m ρ c (Proc.devRef .tc r) = m ((c : Thread nD τ).loc r) :=
  calc W12 m ρ c (Proc.devRef .tc r)
    _ = W2 m ρ c (Proc.devRef .tc r) := W12_eq_W2 m ρ c r h1 h2 h3 h4 h5 n1 n2 n3 n4 n5
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-- main_arg0 is region 0's window 0, an input: at region 0's exit it holds the entry contents, which no stretch wrote. -/
theorem W12_main_arg0 (c : Dev nD) : W12 m ρ c (Proc.devRef .tc main_arg0) = m ((c : Thread nD τ).loc main_arg0) :=
  calc W12 m ρ c (Proc.devRef .tc main_arg0)
    _ = W2 m ρ c (Proc.devRef .tc main_arg0) :=
        W12_eq_W2 m ρ c main_arg0 (by decide) (by decide) (by decide) (by decide) (by decide) (by decide) (by decide) (by decide) (by decide) (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl
theorem W12_main_arg1 (c : Dev nD) : W12 m ρ c (Proc.devRef .tc main_arg1) = m ((c : Thread nD τ).loc main_arg1) :=
  W12_keeps m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_keeps m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_keeps m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_keeps m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_keeps m ρ c main_arg5 (by decide) (by decide) (by decide) (by decide) (by decide) (by decide) (by decide) (by decide) (by decide) (by decide) (by decide) (by decide)
theorem W12_main_arg6 (c : Dev nD) : W12 m ρ c (Proc.devRef .tc main_arg6) = m ((c : Thread nD τ).loc main_arg6) :=
  W12_keeps m ρ c main_arg6 (by decide) (by decide) (by decide) (by decide) (by decide) (by decide) (by decide) (by decide) (by decide) (by decide) (by decide) (by decide)
theorem W12_main_arg7 (c : Dev nD) : W12 m ρ c (Proc.devRef .tc main_arg7) = m ((c : Thread nD τ).loc main_arg7) :=
  W12_keeps m ρ c main_arg7 (by decide) (by decide) (by decide) (by decide) (by decide) (by decide) (by decide) (by decide) (by decide) (by decide) (by decide) (by decide)
theorem W12_main_arg8 (c : Dev nD) : W12 m ρ c (Proc.devRef .tc main_arg8) = m ((c : Thread nD τ).loc main_arg8) :=
  W12_keeps m ρ c main_arg8 (by decide) (by decide) (by decide) (by decide) (by decide) (by decide) (by decide) (by decide) (by decide) (by decide) (by decide) (by decide)
theorem W12_main_arg9 (c : Dev nD) : W12 m ρ c (Proc.devRef .tc main_arg9) = m ((c : Thread nD τ).loc main_arg9) :=
  W12_keeps m ρ c main_arg9 (by decide) (by decide) (by decide) (by decide) (by decide) (by decide) (by decide) (by decide) (by decide) (by decide) (by decide) (by decide)
theorem W12_main_arg10 (c : Dev nD) : W12 m ρ c (Proc.devRef .tc main_arg10) = m ((c : Thread nD τ).loc main_arg10) :=
  W12_keeps m ρ c main_arg10 (by decide) (by decide) (by decide) (by decide) (by decide) (by decide) (by decide) (by decide) (by decide) (by decide) (by decide) (by decide)
theorem W12_main_arg11 (c : Dev nD) : W12 m ρ c (Proc.devRef .tc main_arg11) = m ((c : Thread nD τ).loc main_arg11) :=
  W12_keeps m ρ c main_arg11 (by decide) (by decide) (by decide) (by decide) (by decide) (by decide) (by decide) (by decide) (by decide) (by decide) (by decide) (by decide)
theorem W12_main_arg12 (c : Dev nD) : W12 m ρ c (Proc.devRef .tc main_arg12) = m ((c : Thread nD τ).loc main_arg12) :=
  W12_keeps m ρ c main_arg12 (by decide) (by decide) (by decide) (by decide) (by decide) (by decide) (by decide) (by decide) (by decide) (by decide) (by decide) (by decide)
theorem W12_main_arg13 (c : Dev nD) : W12 m ρ c (Proc.devRef .tc main_arg13) = m ((c : Thread nD τ).loc main_arg13) :=
  W12_keeps m ρ c main_arg13 (by decide) (by decide) (by decide) (by decide) (by decide) (by decide) (by decide) (by decide) (by decide) (by decide) (by decide) (by decide)

/-! ## The frame, and the run's value -/

/-- THE FRAME: every weakly fair execution of @main terminates, nothing faulting, and every final state has each of the
    fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c)⟩) (run_all m ρ)

/-- THE RUN'S VALUE: the same run, and in every final state the result array `main_v165` holds the last boundary's
    contents there (region 5's output as its pipeline leaves it), beside the arguments as launched. -/
theorem run_value : θ_run defs (onTc (τ := τ) (main (F := F))) ⟨m, fun _ => 0, ρ⟩ (fun r => ∀ c : Dev nD,
      r.2.mem ((c.tc : Thread nD τ).loc main_v165) = W12 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨h c _ (mem_uc main_v165 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c)⟩) (run_all m ρ)

end Cert.KernelIdeal.Frame

end
-- ==== Proof.Val.Spec.lean ====
/-
  One layer of the gated graph convolution with training-mode batch normalisation, entry by entry on the
  extended reals, in the two arrangements the two programs compute.

  A layer takes the node features `x` (100000 rows of 64), forms four affine images `x·W + b` (key, query,
  value, skip), aggregates gated messages along the edges (`G`, the gather / logistic gate / scatter-add
  stage: the same function in both programs, so it stays a parameter here), adds the skip image and a bias,
  rectifies, and normalises every column by its mean and variance over the 100000 rows.

  The arrangements differ in two places only. The pre-activation is grouped `(agg + (x·Ws + bs)) + bias`
  in one and `((agg + x·Ws) + bs) + bias` in the other: equal by associativity of the sum. The variance is
  `E[y²] − (E y)²` in one and `E[(y − E y)²]` in the other: equal when every `y` is a real number, by
  expanding the square — and NOT for an infinite entry, which is why the equality of the two layers is
  stated for real inputs and carries the reality of every intermediate value along.
-/
import Idealize.ShloMosaic.PureOps.Ideal

noncomputable section

namespace Cert.Val

open Idealize.ShloMosaic

/-- An `a × b` array of extended reals, by row and column. -/
abbrev Mat (a b : ℕ) := Fin a → Fin b → EReal
/-- A row of `b` extended reals. -/
abbrev Row (b : ℕ) := Fin b → EReal

/-- The row count as both programs print it: the f32 word of 100000. -/
abbrev cntW : EReal := Ideal.ofBits .f32 0x47C35000#32
/-- The variance offset as both programs print it: the f32 word nearest to 1e-5. -/
abbrev epsW : EReal := Ideal.ofBits .f32 0x3727C5AC#32

/-- One layer's parameters: four 64×64 weight matrices with their bias rows, the convolution's bias, and
    the normalisation's scale and shift. -/
structure Params where
  Wk : Mat 64 64
  bk : Row 64
  Wq : Mat 64 64
  bq : Row 64
  Wv : Mat 64 64
  bv : Row 64
  Ws : Mat 64 64
  bs : Row 64
  bias : Row 64
  gamma : Row 64
  beta : Row 64

/-- `x·W`: the contraction over the 64 input columns. -/
def prod (x : Mat 100000 64) (W : Mat 64 64) : Mat 100000 64 := fun r j => ∑ k : Fin 64, x r k * W k j

/-- `x·W + b`. -/
def lin (x : Mat 100000 64) (W : Mat 64 64) (b : Row 64) : Mat 100000 64 := fun r j => prod x W r j + b j

/-- The edge stage: from the key, query and value images to the aggregated messages. -/
abbrev Agg := Mat 100000 64 → Mat 100000 64 → Mat 100000 64 → Mat 100000 64

/-- The aggregated messages of a layer. -/
def aggOf (G : Agg) (p : Params) (x : Mat 100000 64) : Mat 100000 64 :=
  G (lin x p.Wk p.bk) (lin x p.Wq p.bq) (lin x p.Wv p.bv)

/-- The rectified pre-activation, grouped `(agg + (x·Ws + bs)) + bias`. -/
def actK (G : Agg) (p : Params) (x : Mat 100000 64) : Mat 100000 64 :=
  fun r j => max ((aggOf G p x r j + lin x p.Ws p.bs r j) + p.bias j) 0

/-- The rectified pre-activation, grouped `((agg + x·Ws) + bs) + bias`. -/
def actR (G : Agg) (p : Params) (x : Mat 100000 64) : Mat 100000 64 :=
  fun r j => max (((aggOf G p x r j + prod x p.Ws r j) + p.bs j) + p.bias j) 0

/-- A column's mean over the 100000 rows. -/
def mean (y : Mat 100000 64) : Row 64 := fun j => Ideal.div (∑ r : Fin 100000, y r j) cntW

/-- A column's variance as the mean of the squares less the square of the mean. -/
def varK (y : Mat 100000 64) : Row 64 :=
  fun j => Ideal.div (∑ r : Fin 100000, y r j * y r j) cntW - mean y j * mean y j

/-- A column's variance as the mean of the squared deviations. -/
def varR (y : Mat 100000 64) : Row 64 :=
  fun j => Ideal.div (∑ r : Fin 100000, (y r j - mean y j) * (y r j - mean y j)) cntW

/-- The normalisation: `(y − mean) · rsqrt (var + ε) · γ + β`, in that order of operations. -/
def norm (p : Params) (y : Mat 100000 64) (var : Row 64) : Mat 100000 64 :=
  fun r j => ((y r j - mean y j) * Ideal.rsqrt (var j + epsW)) * p.gamma j + p.beta j

/-- A layer in the first arrangement. -/
def layerK (G : Agg) (p : Params) (x : Mat 100000 64) : Mat 100000 64 :=
  norm p (actK G p x) (varK (actK G p x))

/-- A layer in the second arrangement. -/
def layerR (G : Agg) (p : Params) (x : Mat 100000 64) : Mat 100000 64 :=
  norm p (actR G p x) (varR (actR G p x))

/-- Every entry of an array is a real number. -/
def IsReal {a b : ℕ} (x : Mat a b) : Prop := ∀ r j, ∃ v : ℝ, x r j = (v : EReal)
/-- Every entry of a row is a real number. -/
def IsRealRow {b : ℕ} (x : Row b) : Prop := ∀ j, ∃ v : ℝ, x j = (v : EReal)

/-- A layer's parameters are all real. -/
structure Params.IsReal (p : Params) : Prop where
  Wk : Cert.Val.IsReal p.Wk
  bk : IsRealRow p.bk
  Wq : Cert.Val.IsReal p.Wq
  bq : IsRealRow p.bq
  Wv : Cert.Val.IsReal p.Wv
  bv : IsRealRow p.bv
  Ws : Cert.Val.IsReal p.Ws
  bs : IsRealRow p.bs
  bias : IsRealRow p.bias
  gamma : IsRealRow p.gamma
  beta : IsRealRow p.beta

/-- The edge stage keeps reals real. -/
def Agg.KeepsReal (G : Agg) : Prop := ∀ k q v, IsReal k → IsReal q → IsReal v → IsReal (G k q v)

end Cert.Val

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.LibBnFold.lean ====
/-
  The folded inference BatchNorm on the extended reals.

  An inference BatchNorm applied to a biased product, g * ((z + b) - m) * rho + beta with rho = 1 / sqrt (v + eps), is
  commonly evaluated as ONE affine map s * z + t whose scale s = g * rho and shift t = (beta - s * m) + s * b are
  formed once, ahead of the product. Over the reals the two forms agree by distributivity. Over the extended reals
  distributivity fails as soon as a factor is infinite (0 * top = 0 and bot + top = bot), so the identity below asks
  every quantity to be a real number. The only quantity that is not an input is rho, and rho is real exactly when
  v + eps is positive: at v + eps = 0 it is top, below that it is the junk value bot. `fold_ne_of_scale_top` shows
  that the hypothesis cannot be dropped: at rho = top the two forms take the values bot and top.
-/
import Idealize.ShloMosaic.PureOps.Ideal

noncomputable section

namespace Idealize.ShloMosaic.BnFold

open Idealize.ShloMosaic

/-- The reciprocal square root of a positive real is the real (sqrt x)⁻¹. -/
theorem rsqrt_of_pos {x : ℝ} (hx : 0 < x) :
    Ideal.rsqrt (x : EReal) = (((Real.sqrt x)⁻¹ : ℝ) : EReal) := by
  rw [Ideal.rsqrt_coe, if_neg (not_lt.2 hx.le), if_neg hx.ne']

/-- With a non-negative variance and a positive epsilon the normalising factor 1 / sqrt (v + eps) is a real, the sum
    being taken on the extended reals as a program takes it. -/
theorem rsqrt_var_add_eps {v eps : ℝ} (hv : 0 ≤ v) (heps : 0 < eps) :
    Ideal.rsqrt ((v : EReal) + (eps : EReal)) = (((Real.sqrt (v + eps))⁻¹ : ℝ) : EReal) := by
  rw [← EReal.coe_add]
  exact rsqrt_of_pos (add_pos_of_nonneg_of_pos hv heps)

/-- That factor is positive. -/
theorem inv_sqrt_pos {v eps : ℝ} (hv : 0 ≤ v) (heps : 0 < eps) : 0 < (Real.sqrt (v + eps))⁻¹ :=
  inv_pos.2 (Real.sqrt_pos.2 (add_pos_of_nonneg_of_pos hv heps))

/-- THE FOLD. For real g, rho, z, b, m, beta the affine form with scale g * rho and shift
    (beta - (g * rho) * m) + (g * rho) * b is the BatchNorm (g * ((z + b) - m)) * rho + beta, every operation read on
    the extended reals in the order written. -/
theorem fold_eq (g rho z b m beta : ℝ) :
    ((g : EReal) * (rho : EReal)) * (z : EReal)
        + (((beta : EReal) - ((g : EReal) * (rho : EReal)) * (m : EReal)) + ((g : EReal) * (rho : EReal)) * (b : EReal))
      = ((g : EReal) * (((z : EReal) + (b : EReal)) - (m : EReal))) * (rho : EReal) + (beta : EReal) := by
  simp only [← EReal.coe_mul, ← EReal.coe_add, ← EReal.coe_sub]
  congr 1
  ring

/-- The same with the result named: both forms are the real g * ((z + b) - m) * rho + beta. -/
theorem fold_eq_coe (g rho z b m beta : ℝ) :
    ((g : EReal) * (rho : EReal)) * (z : EReal)
        + (((beta : EReal) - ((g : EReal) * (rho : EReal)) * (m : EReal)) + ((g : EReal) * (rho : EReal)) * (b : EReal))
      = ((g * ((z + b) - m) * rho + beta : ℝ) : EReal) := by
  rw [fold_eq]
  simp only [← EReal.coe_mul, ← EReal.coe_add, ← EReal.coe_sub]

/-- A rectifier keeps a real a real. -/
theorem max_zero_coe (x : ℝ) : max (x : EReal) 0 = ((max x 0 : ℝ) : EReal) := by
  rw [← EReal.coe_zero]
  exact (EReal.coe_strictMono.monotone.map_max).symm

/-- ONE LAYER. With a non-negative variance and a positive epsilon, the rectified affine form — scale g * rho, shift
    (beta - (g * rho) * m) + (g * rho) * b, the scale formed from rho = 1 / sqrt (v + eps) as a program forms it — is the
    rectified BatchNorm, and both are the real max (g * ((z + b) - m) / sqrt (v + eps) + beta) 0. -/
theorem layer_eq (g z b m beta v eps : ℝ) (hv : 0 ≤ v) (heps : 0 < eps) :
    max ((((g : EReal) * Ideal.rsqrt ((v : EReal) + (eps : EReal))) * (z : EReal))
          + (((beta : EReal) - ((g : EReal) * Ideal.rsqrt ((v : EReal) + (eps : EReal))) * (m : EReal))
              + ((g : EReal) * Ideal.rsqrt ((v : EReal) + (eps : EReal))) * (b : EReal))) 0
      = max (((g : EReal) * (((z : EReal) + (b : EReal)) - (m : EReal))) * Ideal.rsqrt ((v : EReal) + (eps : EReal)) + (beta : EReal)) 0 := by
  rw [rsqrt_var_add_eps hv heps, fold_eq]

/-- Its value, named. -/
theorem layer_eq_coe (g z b m beta v eps : ℝ) (hv : 0 ≤ v) (heps : 0 < eps) :
    max (((g : EReal) * (((z : EReal) + (b : EReal)) - (m : EReal))) * Ideal.rsqrt ((v : EReal) + (eps : EReal)) + (beta : EReal)) 0
      = ((max (g * ((z + b) - m) * (Real.sqrt (v + eps))⁻¹ + beta) 0 : ℝ) : EReal) := by
  rw [rsqrt_var_add_eps hv heps, ← max_zero_coe]
  simp only [← EReal.coe_mul, ← EReal.coe_add, ← EReal.coe_sub]

/-- The f32 word a program carries for the epsilon 1e-5 denotes a positive real, 10995116 / 2^40. -/
theorem eps_1e5 : Ideal.ofBits .f32 0x3727C5AC#32 = (((10995116 : ℝ) / 2 ^ 40 : ℝ) : EReal) ∧ (0 : ℝ) < (10995116 : ℝ) / 2 ^ 40 := by
  refine ⟨?_, by positivity⟩
  simp [Ideal.ofBits, Ideal.ieee]
  norm_num
  rw [← EReal.coe_mul]
  norm_num

/-- The hypothesis "rho is a real" cannot be dropped. At rho = top (a variance with v + eps = 0), with g = 1, z = 0,
    m = 1, b = 3, beta = 0, the affine form is top * 0 + ((0 - top * 1) + top * 3) = 0 + (bot + top) = bot, while the
    BatchNorm is (1 * ((0 + 3) - 1)) * top + 0 = 2 * top = top. -/
theorem fold_ne_of_scale_top :
    (((1 : ℝ) : EReal) * ⊤) * ((0 : ℝ) : EReal)
        + ((((0 : ℝ) : EReal) - (((1 : ℝ) : EReal) * ⊤) * ((1 : ℝ) : EReal)) + (((1 : ℝ) : EReal) * ⊤) * ((3 : ℝ) : EReal))
      ≠ (((1 : ℝ) : EReal) * ((((0 : ℝ) : EReal) + ((3 : ℝ) : EReal)) - ((1 : ℝ) : EReal))) * ⊤ + ((0 : ℝ) : EReal) := by
  have ht : ((1 : ℝ) : EReal) * ⊤ = ⊤ := EReal.coe_mul_top_of_pos one_pos
  have h0 : (⊤ : EReal) * ((0 : ℝ) : EReal) = 0 := by rw [EReal.coe_zero, mul_zero]
  have h1 : (⊤ : EReal) * ((1 : ℝ) : EReal) = ⊤ := EReal.top_mul_coe_of_pos one_pos
  have h3 : (⊤ : EReal) * ((3 : ℝ) : EReal) = ⊤ := EReal.top_mul_coe_of_pos (by norm_num)
  have hs : ((0 : ℝ) : EReal) - ⊤ = ⊥ := by rw [EReal.coe_zero, zero_sub, EReal.neg_top]
  have hb : (⊥ : EReal) + ⊤ = ⊥ := EReal.bot_add _
  have hr : ((1 : ℝ) : EReal) * ((((0 : ℝ) : EReal) + ((3 : ℝ) : EReal)) - ((1 : ℝ) : EReal)) = ((2 : ℝ) : EReal) := by
    rw [← EReal.coe_add, ← EReal.coe_sub, ← EReal.coe_mul]; norm_num
  have h2t : ((2 : ℝ) : EReal) * ⊤ = ⊤ := EReal.coe_mul_top_of_pos (by norm_num)
  rw [ht, h0, h1, h3, hs, hb, zero_add, hr, h2t, EReal.coe_zero, add_zero]
  exact bot_lt_top.ne

end Idealize.ShloMosaic.BnFold

end
-- ==== Proof.Val.Algebra.lean ====
/-
  The real algebra of the two arrangements of a layer.

  Both arrangements are the same function of real data. The pre-activation differs only by the grouping of a
  sum of four terms, and sums of extended reals are associative. The variance is E[y²] − (E y)² in one and
  E[(y − E y)²] in the other; on real entries these agree by expanding the square under the sum over the rows,
  with the constant (E y)² summed once per row. At an infinite entry they do not, so the equality of the layers
  is proved for real inputs, and each stage is shown to keep reals real: an affine image (a finite sum of
  products plus a bias), the edge stage (by hypothesis), the rectifier, the mean, the variance — a NON-NEGATIVE
  real, so that adding the positive offset gives a positive real whose reciprocal square root is again a real —
  and the final scale and shift. Two layers then agree because the first layers agree and hand a real array on.

  Sums over the 100000 rows are never enumerated: the one identity about them is proved over an arbitrary
  finite index set whose cardinality is the divisor.
-/
import proofs.«178820_j816043786337_1_alg».proof.Proof.Val.Spec
import proofs.«178820_j816043786337_1_alg».proof.Proof.LibRealOps
import proofs.«178820_j816043786337_1_alg».proof.Proof.LibBnFold
import Mathlib.Tactic

noncomputable section

namespace Cert.Val

open Idealize.ShloMosaic

/-! ## The two printed constants -/

/-- The word of the row count denotes the real 100000: exponent field 143, significand field 4411392,
    so (2^23 + 4411392) · 2^(143 − 127 − 23) = 12800000 / 128. -/
theorem cntW_eq : cntW = ((100000 : ℝ) : EReal) := by
  simp [Ideal.ofBits, Ideal.ieee]
  norm_num
  rw [← EReal.coe_mul]
  norm_num

/-- The word of the variance offset denotes the real 10995116 / 2^40. -/
theorem epsW_eq : epsW = (((10995116 : ℝ) / 2 ^ 40 : ℝ) : EReal) := BnFold.eps_1e5.1

/-- That real is positive. -/
theorem eps_pos : (0 : ℝ) < (10995116 : ℝ) / 2 ^ 40 := BnFold.eps_1e5.2

/-! ## The two groupings of the pre-activation agree -/

/-- (agg + (x·Ws + bs)) + bias is ((agg + x·Ws) + bs) + bias: the sum of the extended reals is associative,
    infinite entries included. -/
theorem actK_eq_actR (G : Agg) (p : Params) (x : Mat 100000 64) : actK G p x = actR G p x := by
  funext r j
  show max ((aggOf G p x r j + (prod x p.Ws r j + p.bs j)) + p.bias j) 0
      = max (((aggOf G p x r j + prod x p.Ws r j) + p.bs j) + p.bias j) 0
  rw [← add_assoc (aggOf G p x r j) (prod x p.Ws r j) (p.bs j)]

/-! ## Real arrays as coercions of real-valued functions -/

/-- A real array is the entrywise coercion of an array of reals. -/
theorem IsReal.exists_fun {a b : ℕ} {x : Mat a b} (h : IsReal x) :
    ∃ f : Fin a → Fin b → ℝ, x = fun r j => (f r j : EReal) := by
  choose f hf using h
  exact ⟨f, funext fun r => funext fun j => hf r j⟩

/-! ## Closure of the reals under the stages of a layer -/

/-- An entry of the product of two real matrices is a real. -/
theorem prod_real {x : Mat 100000 64} {W : Mat 64 64} (hx : IsReal x) (hW : IsReal W) : IsReal (prod x W) := by
  intro r j
  choose f hf using hx
  choose g hg using hW
  refine ⟨∑ k : Fin 64, f r k * g k j, ?_⟩
  show ∑ k : Fin 64, x r k * W k j = _
  simp only [hf, hg]
  exact RealOps.sum_mul_coe Finset.univ (fun k => f r k) (fun k => g k j)

/-- An affine image of a real array by real weights and a real bias row is real. -/
theorem lin_real {x : Mat 100000 64} {W : Mat 64 64} {b : Row 64} (hx : IsReal x) (hW : IsReal W)
    (hb : IsRealRow b) : IsReal (lin x W b) := by
  intro r j
  obtain ⟨s, hs⟩ := prod_real hx hW r j
  obtain ⟨c, hc⟩ := hb j
  refine ⟨s + c, ?_⟩
  show prod x W r j + b j = _
  rw [hs, hc, EReal.coe_add]

/-- The aggregated messages of real features under real parameters are real, the edge stage keeping reals real. -/
theorem aggOf_real {G : Agg} (hG : G.KeepsReal) {p : Params} (hp : p.IsReal) {x : Mat 100000 64}
    (hx : IsReal x) : IsReal (aggOf G p x) :=
  hG _ _ _ (lin_real hx hp.Wk hp.bk) (lin_real hx hp.Wq hp.bq) (lin_real hx hp.Wv hp.bv)

/-- The rectified pre-activation (second grouping) is real. -/
theorem actR_real {G : Agg} (hG : G.KeepsReal) {p : Params} (hp : p.IsReal) {x : Mat 100000 64}
    (hx : IsReal x) : IsReal (actR G p x) := by
  intro r j
  obtain ⟨a, ha⟩ := aggOf_real hG hp hx r j
  obtain ⟨s, hs⟩ := prod_real hx hp.Ws r j
  obtain ⟨c, hc⟩ := hp.bs j
  obtain ⟨d, hd⟩ := hp.bias j
  refine ⟨max (a + s + c + d) 0, ?_⟩
  show max (((aggOf G p x r j + prod x p.Ws r j) + p.bs j) + p.bias j) 0 = _
  rw [ha, hs, hc, hd, ← EReal.coe_add, ← EReal.coe_add, ← EReal.coe_add, BnFold.max_zero_coe]

/-- The rectified pre-activation (first grouping) is real. -/
theorem actK_real {G : Agg} (hG : G.KeepsReal) {p : Params} (hp : p.IsReal) {x : Mat 100000 64}
    (hx : IsReal x) : IsReal (actK G p x) := by
  rw [actK_eq_actR]
  exact actR_real hG hp hx

/-! ## Mean and the two variances of a real array, as reals -/

/-- The column mean of a real array is the real mean. -/
theorem mean_coe (f : Fin 100000 → Fin 64 → ℝ) (j : Fin 64) :
    mean (fun r j => (f r j : EReal)) j = (((∑ r : Fin 100000, f r j) / 100000 : ℝ) : EReal) := by
  show Ideal.div (∑ r : Fin 100000, (f r j : EReal)) cntW = _
  rw [cntW_eq, ← RealOps.coe_sum, RealOps.div_coe_coe _ (by norm_num)]

/-- The column mean of a real array is real. -/
theorem mean_real {y : Mat 100000 64} (hy : IsReal y) : IsRealRow (mean y) := by
  obtain ⟨f, rfl⟩ := hy.exists_fun
  exact fun j => ⟨_, mean_coe f j⟩

/-- The variance as mean of squares less squared mean, on a real array. -/
theorem varK_coe (f : Fin 100000 → Fin 64 → ℝ) (j : Fin 64) :
    varK (fun r j => (f r j : EReal)) j
      = (((∑ r : Fin 100000, f r j * f r j) / 100000
            - ((∑ r : Fin 100000, f r j) / 100000) * ((∑ r : Fin 100000, f r j) / 100000) : ℝ) : EReal) := by
  show Ideal.div (∑ r : Fin 100000, (f r j : EReal) * (f r j : EReal)) cntW
      - mean (fun r j => (f r j : EReal)) j * mean (fun r j => (f r j : EReal)) j = _
  rw [mean_coe, cntW_eq, RealOps.sum_mul_coe, RealOps.div_coe_coe _ (by norm_num), ← EReal.coe_mul,
    ← EReal.coe_sub]

/-- The variance as mean of squared deviations, on a real array. -/
theorem varR_coe (f : Fin 100000 → Fin 64 → ℝ) (j : Fin 64) :
    varR (fun r j => (f r j : EReal)) j
      = (((∑ r : Fin 100000, (f r j - (∑ r : Fin 100000, f r j) / 100000)
            * (f r j - (∑ r : Fin 100000, f r j) / 100000)) / 100000 : ℝ) : EReal) := by
  show Ideal.div (∑ r : Fin 100000, ((f r j : EReal) - mean (fun r j => (f r j : EReal)) j)
      * ((f r j : EReal) - mean (fun r j => (f r j : EReal)) j)) cntW = _
  rw [mean_coe, cntW_eq]
  simp only [← EReal.coe_sub, ← EReal.coe_mul]
  rw [← RealOps.coe_sum, RealOps.div_coe_coe _ (by norm_num)]

/-- THE REAL IDENTITY. Over a finite index set of n ≠ 0 elements, the mean of the squares less the square of the
    mean is the mean of the squared deviations from the mean: expand the square, sum term by term, and use
    that the constant m² summed n times is n·m². -/
theorem real_var_identity {ι : Type*} (s : Finset ι) (f : ι → ℝ) (n : ℝ) (hn : (s.card : ℝ) = n) (h0 : n ≠ 0) :
    (∑ i ∈ s, f i * f i) / n - ((∑ i ∈ s, f i) / n) * ((∑ i ∈ s, f i) / n)
      = (∑ i ∈ s, (f i - (∑ i ∈ s, f i) / n) * (f i - (∑ i ∈ s, f i) / n)) / n := by
  obtain ⟨S, hS⟩ : ∃ S : ℝ, S = ∑ i ∈ s, f i := ⟨_, rfl⟩
  obtain ⟨Q, hQ⟩ : ∃ Q : ℝ, Q = ∑ i ∈ s, f i * f i := ⟨_, rfl⟩
  have expand : ∀ m : ℝ, ∑ i ∈ s, (f i - m) * (f i - m) = Q - 2 * m * S + n * (m * m) := by
    intro m
    have h : ∀ i, (f i - m) * (f i - m) = f i * f i - 2 * m * f i + m * m := fun i => by ring
    simp only [h]
    rw [Finset.sum_add_distrib, Finset.sum_sub_distrib, ← Finset.mul_sum, Finset.sum_const, nsmul_eq_mul,
      hn, ← hS, ← hQ]
  rw [← hS, expand, ← hQ]
  field_simp
  ring

/-- The two variances of a real array agree. -/
theorem var_eq {y : Mat 100000 64} (hy : IsReal y) : varK y = varR y := by
  obtain ⟨f, rfl⟩ := hy.exists_fun
  funext j
  rw [varK_coe, varR_coe]
  congr 1
  exact real_var_identity Finset.univ (fun r => f r j) 100000
    (by rw [Finset.card_univ, Fintype.card_fin]; norm_num) (by norm_num)

/-- The variance of a real array (mean of squared deviations) is a non-negative real. -/
theorem varR_real_nonneg {y : Mat 100000 64} (hy : IsReal y) (j : Fin 64) :
    ∃ v : ℝ, 0 ≤ v ∧ varR y j = (v : EReal) := by
  obtain ⟨f, rfl⟩ := hy.exists_fun
  exact ⟨_, div_nonneg (Finset.sum_nonneg fun i _ => mul_self_nonneg _) (by norm_num), varR_coe f j⟩

/-! ## The normalisation and a whole layer -/

/-- The normalisation of a real array by a non-negative real variance row and real scale and shift is real:
    variance plus the positive offset is a positive real, so its reciprocal square root is a real. -/
theorem norm_real {p : Params} (hp : p.IsReal) {y : Mat 100000 64} (hy : IsReal y) {var : Row 64}
    (hv : ∀ j, ∃ v : ℝ, 0 ≤ v ∧ var j = (v : EReal)) : IsReal (norm p y var) := by
  obtain ⟨f, rfl⟩ := hy.exists_fun
  intro r j
  obtain ⟨v, hv0, hvj⟩ := hv j
  obtain ⟨g, hg⟩ := hp.gamma j
  obtain ⟨b, hb⟩ := hp.beta j
  refine ⟨((f r j - (∑ r : Fin 100000, f r j) / 100000) * (Real.sqrt (v + 10995116 / 2 ^ 40))⁻¹) * g + b, ?_⟩
  show (((f r j : EReal) - mean (fun r j => (f r j : EReal)) j) * Ideal.rsqrt (var j + epsW)) * p.gamma j
      + p.beta j = _
  rw [mean_coe, hvj, hg, hb, epsW_eq, BnFold.rsqrt_var_add_eps hv0 eps_pos]
  simp only [← EReal.coe_sub, ← EReal.coe_mul, ← EReal.coe_add]

/-- On real features under real parameters the two arrangements of a layer agree. -/
theorem layer_eq {G : Agg} (hG : G.KeepsReal) {p : Params} (hp : p.IsReal) {x : Mat 100000 64}
    (hx : IsReal x) : layerK G p x = layerR G p x := by
  unfold layerK layerR
  rw [actK_eq_actR, var_eq (actR_real hG hp hx)]

/-- A layer (second arrangement) of real features under real parameters is real. -/
theorem layerR_real {G : Agg} (hG : G.KeepsReal) {p : Params} (hp : p.IsReal) {x : Mat 100000 64}
    (hx : IsReal x) : IsReal (layerR G p x) :=
  norm_real hp (actR_real hG hp hx) (varR_real_nonneg (actR_real hG hp hx))

/-- A layer (first arrangement) of real features under real parameters is real. -/
theorem layerK_real {G : Agg} (hG : G.KeepsReal) {p : Params} (hp : p.IsReal) {x : Mat 100000 64}
    (hx : IsReal x) : IsReal (layerK G p x) := by
  rw [layer_eq hG hp hx]
  exact layerR_real hG hp hx

/-- TWO LAYERS. On real features, with real parameters in both layers and an edge stage that keeps reals real,
    the two arrangements of the two-layer network agree: the first layers agree and are real, so the second
    layers are fed the same real array. -/
theorem two_layers (G : Agg) (hG : G.KeepsReal) (p0 p1 : Params) (h0 : p0.IsReal) (h1 : p1.IsReal)
    (x : Mat 100000 64) (hx : IsReal x) :
    layerK G p1 (layerK G p0 x) = layerR G p1 (layerR G p0 x) := by
  rw [layer_eq hG h0 hx, layer_eq hG h1 (layerR_real hG h0 hx)]

end Cert.Val

end
-- ==== Proof.Val.Agg.lean ====
/-
  The edge stage both programs share, and the reading of the argument arrays as matrices and parameters.

  Node features are a 100000 × 64 array; an edge list gives, per edge, a source and a target row. The edge stage
  wraps a negative row number by 100000, gathers the key rows at the targets and the query and value rows at the
  sources, forms the logistic gate 1 / (1 + exp (−(k + q))), multiplies the gathered value rows by it, and adds
  each product row into the target's row of an array of zeros. Here it is written once, operation by operation
  as the host text states it, and then read as a function of matrices.
-/
import proofs.«178820_j816043786337_1_alg».proof.KernelIdeal
import proofs.«178820_j816043786337_1_alg».proof.Proof.Val.Spec
import Idealize.ShloMosaic.Lib.ValueIdx

noncomputable section

namespace Cert.Val

open Idealize.ShloMosaic Idealize.ShloMosaic.ValueIdx
open Cert.KernelIdeal

/-- Node features as the programs hold them: 100000 rows of 64. -/
abbrev VecNF := (⟨S100000x64, .f32⟩ : BufTy).Contents (Elt Ideal)
/-- One endpoint per edge. -/
abbrev VecE := (⟨S1250000, .i32⟩ : BufTy).Contents (Elt Ideal)

/-- An array of node features read by row and column. -/
def toMat (v : VecNF) : Mat 100000 64 := fun r j => v (ix2 r j)

/-- A matrix as an array of node features. -/
def toVec (f : Mat 100000 64) : VecNF := fun i => f (i 0) (i 1)

theorem toMat_toVec (f : Mat 100000 64) : toMat (toVec f) = f := rfl

theorem toVec_toMat (v : VecNF) : toVec (toMat v) = v := by
  funext i
  exact congrArg v (eq_ix2 i).symm

/-- One layer's parameters read off the stacked argument arrays: layer `l`'s slice of each. -/
def paramsOf (l : Fin 2) (aWk aWq aWv aWs : (⟨S2x64x64, .f32⟩ : BufTy).Contents (Elt Ideal))
    (abk abq abv abs' abias agamma abeta : (⟨S2x64, .f32⟩ : BufTy).Contents (Elt Ideal)) : Params where
  Wk := fun k j => aWk (ix3 l k j)
  bk := fun j => abk (ix2 l j)
  Wq := fun k j => aWq (ix3 l k j)
  bq := fun j => abq (ix2 l j)
  Wv := fun k j => aWv (ix3 l k j)
  bv := fun j => abv (ix2 l j)
  Ws := fun k j => aWs (ix3 l k j)
  bs := fun j => abs' (ix2 l j)
  bias := fun j => abias (ix2 l j)
  gamma := fun j => agamma (ix2 l j)
  beta := fun j => abeta (ix2 l j)

section
variable [Facts₀]
open Facts₀

/-- A row number per edge as a column of start indices: a negative number wrapped by 100000. -/
def rowIdx (i : VecE) : (⟨S1250000x1, .i32⟩ : BufTy).Contents (Elt Ideal) :=
  (broadcastInDim S1250000x1 ![0] bcast_S1250000_S1250000x1_0
    ((select
      ((cmpi .slt i
        ((broadcastInDim S1250000 ![] bcast_S_S1250000 (constantI S_ 32 0#32)
          : (⟨S1250000, .i32⟩ : BufTy).Contents (Elt Ideal)))
        : (⟨S1250000, .i1⟩ : BufTy).Contents (Elt Ideal)))
      ((addi i
        ((broadcastInDim S1250000 ![] bcast_S_S1250000 (constantI S_ 32 100000#32)
          : (⟨S1250000, .i32⟩ : BufTy).Contents (Elt Ideal)))
        : (⟨S1250000, .i32⟩ : BufTy).Contents (Elt Ideal)))
      i : (⟨S1250000, .i32⟩ : BufTy).Contents (Elt Ideal)))
    : (⟨S1250000x1, .i32⟩ : BufTy).Contents (Elt Ideal))

/-- The edge stage on arrays: gate the value rows gathered at the sources by the logistic of key-at-target plus
    query-at-source, and add each gated row into its target's row of the zero array. -/
def aggVec (src dst : VecE) (k q v : VecNF) : VecNF :=
  (Host.scatterAdd (F := Ideal) (φ := .f32) scatter_S100000x64_S1250000x1_S1250000x64_1_0_0_1
    ((broadcastInDim S100000x64 ![] bcast_S_S100000x64 (constant (F := Ideal) S_ .f32 0x00000000#32)
      : (⟨S100000x64, .f32⟩ : BufTy).Contents (Elt Ideal)))
    (rowIdx dst)
    ((mulf (F := Ideal) (φ := .f32)
      ((Host.divf (F := Ideal) (φ := .f32)
        ((broadcastInDim S1250000x64 ![] bcast_S_S1250000x64 (constant (F := Ideal) S_ .f32 0x3F800000#32)
          : (⟨S1250000x64, .f32⟩ : BufTy).Contents (Elt Ideal)))
        ((addf (F := Ideal) (φ := .f32)
          ((broadcastInDim S1250000x64 ![] bcast_S_S1250000x64 (constant (F := Ideal) S_ .f32 0x3F800000#32)
            : (⟨S1250000x64, .f32⟩ : BufTy).Contents (Elt Ideal)))
          ((Host.exp (F := Ideal) (φ := .f32)
            ((Host.negf (F := Ideal) (φ := .f32)
              ((addf (F := Ideal) (φ := .f32)
                ((Host.gather gather_S100000x64_S1250000x1_S1250000x64_1_0_n_n_0_1_164 k (rowIdx dst)
                  : (⟨S1250000x64, .f32⟩ : BufTy).Contents (Elt Ideal)))
                ((Host.gather gather_S100000x64_S1250000x1_S1250000x64_1_0_n_n_0_1_164 q (rowIdx src)
                  : (⟨S1250000x64, .f32⟩ : BufTy).Contents (Elt Ideal)))
                : (⟨S1250000x64, .f32⟩ : BufTy).Contents (Elt Ideal)))
              : (⟨S1250000x64, .f32⟩ : BufTy).Contents (Elt Ideal)))
            : (⟨S1250000x64, .f32⟩ : BufTy).Contents (Elt Ideal)))
          : (⟨S1250000x64, .f32⟩ : BufTy).Contents (Elt Ideal)))
        : (⟨S1250000x64, .f32⟩ : BufTy).Contents (Elt Ideal)))
      ((Host.gather gather_S100000x64_S1250000x1_S1250000x64_1_0_n_n_0_1_164 v (rowIdx src)
        : (⟨S1250000x64, .f32⟩ : BufTy).Contents (Elt Ideal)))
      : (⟨S1250000x64, .f32⟩ : BufTy).Contents (Elt Ideal)))
    : (⟨S100000x64, .f32⟩ : BufTy).Contents (Elt Ideal))

/-- The edge stage on matrices. -/
def aggI (src dst : VecE) : Agg := fun k q v => toMat (aggVec src dst (toVec k) (toVec q) (toVec v))

end

end Cert.Val

end
-- ==== Proof.Val.Finite.lean ====
/-
  From the printed precondition to "every float argument is a real number".

  The precondition is a conjunction, one conjunct per float argument x: all (|x| < +infinity), printed as a
  reduction by "and" of the elementwise comparison of max x (−x) with the word of +infinity. The conjunction being 1
  makes every conjunct 1; a reduction by "and" over all axes being 1 makes every compared element 1; and
  max x (−x) < +infinity on the extended reals says exactly that x is the coercion of a real.
-/
import proofs.«178820_j816043786337_1_alg».proof.Pre_finite_inputs
import proofs.«178820_j816043786337_1_alg».proof.Proof.LibRealOps
import Idealize.ShloMosaic.Lib.ReduceAll
import Idealize.ShloMosaic.Lib.ValueIdx
import proofs.«178820_j816043786337_1_alg».proof.Proof.Val.Agg

noncomputable section

namespace Cert.Val

open Idealize.ShloMosaic

/-- The rank-0 shape has one index. -/
instance subsingleton_scalar_idx : Subsingleton (Cert.Pre_finite_inputs.S_).Idx :=
  ⟨fun _ _ => funext fun d => d.elim0⟩

/-- ONE CONJUNCT. If the reduction by "and", over all axes, of the comparison |x| < +infinity is 1, every entry of x
    is a real. -/
theorem real_of_all_finite {s : Shape} {axes : List (Fin s.rank)} (x : FVec Ideal s .f32)
    (bc : (Cert.Pre_finite_inputs.S_).BroadcastsInDim s (![] : Fin 0 → Fin s.rank))
    (red : s.ReducesTo axes Cert.Pre_finite_inputs.S_) (hu : 0 < (Cert.Pre_finite_inputs.S_).numel)
    (j : (Cert.Pre_finite_inputs.S_).Idx)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) red hu j = 1#1) :
    ∀ i : s.Idx, ∃ r : ℝ, x i = (r : EReal) := by
  intro i
  have h := Host.reduce_andi_all _ _ red hu j e i
  exact (RealOps.cmp_abs_lt_inf (x i)).1 h

section
variable [Cert.Pre_finite_inputs.Facts]
open Cert.Pre_finite_inputs

/-- THE PRECONDITION READ BACK: if the printed test answers 1, each of the twelve float arguments has only real
    entries. -/
theorem finite_args
    (a0 : FVec Ideal S100000x64 .f32) (a1 : IVec S2x1250000 32) (a2 : IVec S100000 32)
    (a3 : FVec Ideal S2x64x64 .f32) (a4 : FVec Ideal S2x64 .f32) (a5 : FVec Ideal S2x64x64 .f32)
    (a6 : FVec Ideal S2x64 .f32) (a7 : FVec Ideal S2x64x64 .f32) (a8 : FVec Ideal S2x64 .f32)
    (a9 : FVec Ideal S2x64x64 .f32) (a10 : FVec Ideal S2x64 .f32) (a11 : FVec Ideal S2x64 .f32)
    (a12 : FVec Ideal S2x64 .f32) (a13 : FVec Ideal S2x64 .f32)
    (h : Cert.Pre_finite_inputs.fn (F := Ideal) a0 a1 a2 a3 a4 a5 a6 a7 a8 a9 a10 a11 a12 a13 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal))
      ∧ (∀ i, ∃ r : ℝ, a13 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all_finite a0 _ _ _ _ e0, real_of_all_finite a3 _ _ _ _ e3, real_of_all_finite a4 _ _ _ _ e4,
    real_of_all_finite a5 _ _ _ _ e5, real_of_all_finite a6 _ _ _ _ e6, real_of_all_finite a7 _ _ _ _ e7,
    real_of_all_finite a8 _ _ _ _ e8, real_of_all_finite a9 _ _ _ _ e9, real_of_all_finite a10 _ _ _ _ e10,
    real_of_all_finite a11 _ _ _ _ e11, real_of_all_finite a12 _ _ _ _ e12, real_of_all_finite a13 _ _ _ _ e13⟩

end

section
variable [Cert.Pre_finite_inputs.Facts]
open Cert.Pre_finite_inputs

/-- An array of node features with real entries is a real matrix. -/
theorem toMat_real (a : VecNF) (h : ∀ i, ∃ r : ℝ, a i = (r : EReal)) : IsReal (toMat a) :=
  fun _ _ => h _

/-- Layer l's slice of stacked parameter arrays with real entries is a real parameter set. -/
theorem paramsOf_real (l : Fin 2) (aWk aWq aWv aWs : FVec Ideal S2x64x64 .f32)
    (abk abq abv abs' abias agamma abeta : FVec Ideal S2x64 .f32)
    (hWk : ∀ i, ∃ r : ℝ, aWk i = (r : EReal)) (hWq : ∀ i, ∃ r : ℝ, aWq i = (r : EReal))
    (hWv : ∀ i, ∃ r : ℝ, aWv i = (r : EReal)) (hWs : ∀ i, ∃ r : ℝ, aWs i = (r : EReal))
    (hbk : ∀ i, ∃ r : ℝ, abk i = (r : EReal)) (hbq : ∀ i, ∃ r : ℝ, abq i = (r : EReal))
    (hbv : ∀ i, ∃ r : ℝ, abv i = (r : EReal)) (hbs : ∀ i, ∃ r : ℝ, abs' i = (r : EReal))
    (hbias : ∀ i, ∃ r : ℝ, abias i = (r : EReal)) (hgamma : ∀ i, ∃ r : ℝ, agamma i = (r : EReal))
    (hbeta : ∀ i, ∃ r : ℝ, abeta i = (r : EReal)) :
    (paramsOf l aWk aWq aWv aWs abk abq abv abs' abias agamma abeta).IsReal :=
  ⟨fun _ _ => hWk _, fun _ => hbk _, fun _ _ => hWq _, fun _ => hbq _, fun _ _ => hWv _, fun _ => hbv _,
    fun _ _ => hWs _, fun _ => hbs _, fun _ => hbias _, fun _ => hgamma _, fun _ => hbeta _⟩

/-- THE PRECONDITION AS REALITY. If the printed test answers 1, the node features are a real matrix and each
    layer's parameters (key, query, value and skip weights with their biases, the bias, scale and shift, in the
    order the arguments come) are real. -/
theorem pre_real
    (a0 : FVec Ideal S100000x64 .f32) (a1 : IVec S2x1250000 32) (a2 : IVec S100000 32)
    (a3 : FVec Ideal S2x64x64 .f32) (a4 : FVec Ideal S2x64 .f32) (a5 : FVec Ideal S2x64x64 .f32)
    (a6 : FVec Ideal S2x64 .f32) (a7 : FVec Ideal S2x64x64 .f32) (a8 : FVec Ideal S2x64 .f32)
    (a9 : FVec Ideal S2x64x64 .f32) (a10 : FVec Ideal S2x64 .f32) (a11 : FVec Ideal S2x64 .f32)
    (a12 : FVec Ideal S2x64 .f32) (a13 : FVec Ideal S2x64 .f32)
    (h : Cert.Pre_finite_inputs.fn (F := Ideal) a0 a1 a2 a3 a4 a5 a6 a7 a8 a9 a10 a11 a12 a13 = (fun _ => 1#1)) :
    IsReal (toMat a0) ∧ ∀ l : Fin 2, (paramsOf l a3 a5 a7 a9 a4 a6 a8 a10 a11 a12 a13).IsReal := by
  obtain ⟨h0, h3, h4, h5, h6, h7, h8, h9, h10, h11, h12, h13⟩ :=
    finite_args a0 a1 a2 a3 a4 a5 a6 a7 a8 a9 a10 a11 a12 a13 h
  exact ⟨toMat_real a0 h0, fun l => paramsOf_real l a3 a5 a7 a9 a4 a6 a8 a10 a11 a12 a13 h3 h5 h7 h9 h4 h6 h8 h10 h11 h12 h13⟩

end

end Cert.Val

end
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.Val.AggReal.lean ====
/-
  The edge stage keeps real numbers real.

  Every entry of the aggregated messages is the zero of the operand array plus a finite sum of gated value entries.
  A gathered entry is an entry of the array gathered from, so it is real when that array is. The gate is
  1 / (1 + exp (−(k + q))): the exponential of a real is a positive real, one plus it is a non-zero real, and its
  reciprocal is a real. A product of reals is real, and so is a finite sum of reals.
-/
import proofs.«178820_j816043786337_1_alg».proof.Proof.Val.Agg
import proofs.«178820_j816043786337_1_alg».proof.Proof.LibScatter
import proofs.«178820_j816043786337_1_alg».proof.Proof.LibBcast
import proofs.«178820_j816043786337_1_alg».proof.Proof.LibRealOps
import Idealize.ShloMosaic.PureOps.Ideal.Laws

noncomputable section

namespace Cert.Val

open Idealize.ShloMosaic Idealize.ShloMosaic.ValueIdx
open Cert.KernelIdeal

/-- The f32 word 0x3F800000 is the number one: sign 0, exponent 127, significand 0. -/
theorem ofBits_one_f32 : Ideal.ofBits .f32 0x3F800000#32 = 1 := by
  simp [Ideal.ofBits, Ideal.ieee]
  norm_num
  rw [← EReal.coe_mul]
  norm_num

/-- A finite sum of reals is a real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [RealOps.coe_sum]; exact Finset.sum_congr rfl fun i _ => hg i⟩

/-- A zero plus the sum of those terms of a family of reals that satisfy a condition is a real. -/
theorem real_zero_add_sum_ite {ι : Type*} [Fintype ι] (z : EReal) (hz : z = 0) (p : ι → Prop) [DecidablePred p]
    (f : ι → EReal) (hf : ∀ i, ∃ r : ℝ, f i = (r : EReal)) :
    ∃ r : ℝ, z + ∑ i, (if p i then f i else 0) = (r : EReal) := by
  obtain ⟨s, hs⟩ := real_sum Finset.univ (fun i => if p i then f i else 0) (fun i => by
    show ∃ r : ℝ, (if p i then f i else 0) = (r : EReal)
    by_cases h : p i
    · rw [if_pos h]; exact hf i
    · rw [if_neg h]; exact ⟨0, EReal.coe_zero.symm⟩)
  exact ⟨s, by rw [hz, zero_add, hs]⟩

/-- The logistic gate of two reals times a real is a real: exp is positive, so 1 + exp is not zero. -/
theorem real_gate_mul (a b c : EReal) (ha : ∃ r : ℝ, a = (r : EReal)) (hb : ∃ r : ℝ, b = (r : EReal))
    (hc : ∃ r : ℝ, c = (r : EReal)) :
    ∃ r : ℝ, Ideal.div 1 (1 + Ideal.exp (-(a + b))) * c = (r : EReal) := by
  obtain ⟨a, rfl⟩ := ha
  obtain ⟨b, rfl⟩ := hb
  obtain ⟨c, rfl⟩ := hc
  have hpos : (0 : ℝ) < 1 + Real.exp (-(a + b)) := by positivity
  refine ⟨1 / (1 + Real.exp (-(a + b))) * c, ?_⟩
  rw [← EReal.coe_add, ← EReal.coe_neg, Ideal.exp_coe, ← EReal.coe_one, ← EReal.coe_add,
    RealOps.div_coe_coe 1 hpos.ne', ← EReal.coe_mul]

section
variable [Facts₀]
open Facts₀

/-- The edge stage on arrays of reals gives an array of reals. -/
theorem aggVec_real (src dst : VecE) (k q v : VecNF) (hk : ∀ i, ∃ r : ℝ, k i = (r : EReal))
    (hq : ∀ i, ∃ r : ℝ, q i = (r : EReal)) (hv : ∀ i, ∃ r : ℝ, v i = (r : EReal)) (n : Fin 100000) (c : Fin 64) :
    ∃ r : ℝ, aggVec src dst k q v (ix2 n c) = (r : EReal) := by
  unfold aggVec
  rw [LibScatter.scatterAdd_rows_apply scatter_S100000x64_S1250000x1_S1250000x64_1_0_0_1 rfl rfl rfl rfl]
  rw [LibBcast.scalar_apply]
  have hone : ∀ i : S1250000x64.Idx,
      (broadcastInDim S1250000x64 ![] bcast_S_S1250000x64 (constant (F := Ideal) S_ .f32 0x3F800000#32)
        : (⟨S1250000x64, .f32⟩ : BufTy).Contents (Elt Ideal)) i = 1 := by
    intro i
    rw [LibBcast.scalar_apply]
    exact ofBits_one_f32
  refine real_zero_add_sum_ite _ ?_ _ _ (fun e => ?_)
  · exact Ideal.ofBits_zero_f32
  · show ∃ r : ℝ, Ideal.div _ (_ + Ideal.exp (-(_ + _))) * _ = (r : EReal)
    rw [hone]
    exact real_gate_mul _ _ _ (hk _) (hq _) (hv _)

/-- The edge stage keeps reals real. -/
theorem aggI_keepsReal (src dst : VecE) : (aggI src dst).KeepsReal := by
  intro k q v hk hq hv r j
  exact aggVec_real src dst (toVec k) (toVec q) (toVec v) (fun i => hk (i 0) (i 1)) (fun i => hq (i 0) (i 1))
    (fun i => hv (i 0) (i 1)) r j

end

end Cert.Val

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Val.Ref.lean ====
/-
  The reference program's result as two layers in the second arrangement.

  One layer is written once on whole arrays from the host operations the reference states: an affine image is a
  contraction over the 64 input columns plus a bias row repeated down the 100000 rows; the pre-activation adds the
  aggregated messages, the skip product, its bias row and the convolution's bias row and cuts the sum below at zero;
  a column's mean is its sum over the rows divided by the row count, its variance the mean of the squared
  deviations; the normalisation multiplies the deviation by the reciprocal root of variance plus offset, then by
  the scale row, and adds the shift row. Each operation is read at an index (row, column), which turns the layer
  on arrays into the layer on matrices of extended reals; the edge stage is never opened: it is the same function
  of the key, query and value images on both sides.

  The reference is this layer twice: first on the input features with slice 0 of every stacked parameter array,
  then on the first result with slice 1; the slices of the stacked arrays are read at an index here as well.
-/
import proofs.«178820_j816043786337_1_alg».proof.Proof.Gen.ReferenceIdeal
import proofs.«178820_j816043786337_1_alg».proof.Proof.Gen.KernelIdeal
import proofs.«178820_j816043786337_1_alg».proof.Proof.Val.Spec
import proofs.«178820_j816043786337_1_alg».proof.Proof.Val.Agg
import proofs.«178820_j816043786337_1_alg».proof.Proof.LibDot
import proofs.«178820_j816043786337_1_alg».proof.Proof.LibBcast
import Idealize.ShloMosaic.Lib.ValueIdx
import Idealize.ShloMosaic.Lib.Pipeline.Value
import Idealize.ShloMosaic.PureOps.Ideal.Laws

noncomputable section

namespace Cert.Val.Ref

open Idealize.ShloMosaic Idealize.ShloMosaic.ValueIdx
open Cert.ReferenceIdeal Cert.ReferenceIdeal.Gen Cert.Val

/-- Node features: 100000 rows of 64. -/
abbrev NF := FVec Ideal S100000x64 .f32
/-- A 64 × 64 weight matrix. -/
abbrev W64 := FVec Ideal S64x64 .f32
/-- A row of 64. -/
abbrev R64 := FVec Ideal S64 .f32

/-- A row of 64 repeated down the 100000 rows. -/
def rowB (b : R64) : NF :=
  broadcastInDim S100000x64 ![0, 1] bcast_S1x64_S100000x64_0_1 (broadcastInDim S1x64 ![1] bcast_S64_S1x64_1 b)

theorem rowB_apply (b : R64) (r : Fin 100000) (j : Fin 64) : rowB b (ix2 r j) = b (ix1 j) :=
  Cert.LibBcast.cols_apply b bcast_S64_S1x64_1 bcast_S1x64_S100000x64_0_1 r j

/-- The product of the features with a weight matrix. -/
def prodV (x : NF) (W : W64) : NF :=
  Host.dotGeneral dot_S100000x64_S64x64_S100000x64_1_0_0_1_n_n none x W

theorem prodV_apply (x : NF) (W : W64) (r : Fin 100000) (j : Fin 64) :
    prodV x W (ix2 r j) = ∑ k : Fin 64, x (ix2 r k) * W (ix2 k j) := by
  unfold prodV
  simp only [Host.dotGeneral]
  exact Cert.LibDot.dotGeneral_plain_apply dot_S100000x64_S64x64_S100000x64_1_0_0_1_n_n rfl rfl rfl rfl rfl rfl
    _ _ x W (ix2 r j)

/-- An affine image of the features: the product plus a bias row. -/
def linV (x : NF) (W : W64) (b : R64) : NF := addf (prodV x W) (rowB b)

theorem linV_apply (x : NF) (W : W64) (b : R64) (r : Fin 100000) (j : Fin 64) :
    linV x W b (ix2 r j) = (∑ k : Fin 64, x (ix2 r k) * W (ix2 k j)) + b (ix1 j) := by
  show prodV x W (ix2 r j) + rowB b (ix2 r j) = _
  rw [prodV_apply, rowB_apply]

/-- The array of zeros the rectifier compares with. -/
def zerosNF : NF := broadcastInDim S100000x64 ![] bcast_S_S100000x64 (constant (F := Ideal) S_ .f32 0x00000000#32)

theorem zerosNF_apply (i : S100000x64.Idx) : zerosNF i = 0 :=
  (Cert.LibBcast.scalar_apply S100000x64 _ bcast_S_S100000x64 i).trans Ideal.ofBits_zero_f32

/-- The rectified pre-activation: aggregated messages, plus the skip product, plus its bias row, plus the
    convolution's bias row, cut below at zero. -/
def preV (a x : NF) (Ws : W64) (bs bias : R64) : NF :=
  maximumf (addf (addf (addf a (prodV x Ws)) (rowB bs)) (rowB bias)) zerosNF

theorem preV_apply (a x : NF) (Ws : W64) (bs bias : R64) (r : Fin 100000) (j : Fin 64) :
    preV a x Ws bs bias (ix2 r j)
      = max (((a (ix2 r j) + ∑ k : Fin 64, x (ix2 r k) * Ws (ix2 k j)) + bs (ix1 j)) + bias (ix1 j)) 0 := by
  show max (((a (ix2 r j) + prodV x Ws (ix2 r j)) + rowB bs (ix2 r j)) + rowB bias (ix2 r j)) (zerosNF (ix2 r j)) = _
  rw [prodV_apply, rowB_apply, rowB_apply, zerosNF_apply]

/-- The sum of every column over the 100000 rows. -/
def colSum (y : NF) : R64 :=
  Host.reduceAdd y (constant (F := Ideal) S_ .f32 0x00000000#32) reducesTo_S100000x64_S64_d0 h_S_

theorem colSum_apply (y : NF) (j : Fin 64) : colSum y (ix1 j) = ∑ r : Fin 100000, y (ix2 r j) := by
  unfold colSum
  simp only [Host.reduceAdd, Ideal.hostReduceAdd_def]
  rw [Ideal.hostReduceAdd_single reducesTo_S100000x64_S64_d0 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The row count, in every column. -/
def cnt64 : R64 := broadcastInDim S64 ![] bcast_S_S64 (constant (F := Ideal) S_ .f32 0x47C35000#32)

theorem cnt64_apply (i : S64.Idx) : cnt64 i = cntW :=
  Cert.LibBcast.scalar_apply S64 _ bcast_S_S64 i

/-- The variance offset, in every column. -/
def eps64 : R64 := broadcastInDim S64 ![] bcast_S_S64 (constant (F := Ideal) S_ .f32 0x3727C5AC#32)

theorem eps64_apply (i : S64.Idx) : eps64 i = epsW :=
  Cert.LibBcast.scalar_apply S64 _ bcast_S_S64 i

/-- Every column's mean. -/
def meanV (y : NF) : R64 := Host.divf (colSum y) cnt64

theorem meanV_apply (y : NF) (j : Fin 64) :
    meanV y (ix1 j) = Ideal.div (∑ r : Fin 100000, y (ix2 r j)) cntW := by
  show Ideal.div (colSum y (ix1 j)) (cnt64 (ix1 j)) = _
  rw [colSum_apply, cnt64_apply]

/-- Every column's variance, as the mean of the squared deviations. -/
def varV (y : NF) : R64 :=
  Host.divf (colSum (mulf (subf y (rowB (meanV y))) (subf y (rowB (meanV y))))) cnt64

theorem varV_apply (y : NF) (j : Fin 64) :
    varV y (ix1 j)
      = Ideal.div (∑ r : Fin 100000, (y (ix2 r j) - Ideal.div (∑ r : Fin 100000, y (ix2 r j)) cntW)
          * (y (ix2 r j) - Ideal.div (∑ r : Fin 100000, y (ix2 r j)) cntW)) cntW := by
  show Ideal.div (colSum (mulf (subf y (rowB (meanV y))) (subf y (rowB (meanV y)))) (ix1 j)) (cnt64 (ix1 j)) = _
  rw [colSum_apply, cnt64_apply]
  refine congrArg (Ideal.div · cntW) (Finset.sum_congr rfl fun r _ => ?_)
  show (y (ix2 r j) - rowB (meanV y) (ix2 r j)) * (y (ix2 r j) - rowB (meanV y) (ix2 r j)) = _
  rw [rowB_apply, meanV_apply]

/-- The normalisation: deviation from the mean, times the reciprocal root of variance plus offset, times the
    scale row, plus the shift row. -/
def normV (y : NF) (g b : R64) : NF :=
  addf (mulf (mulf (subf y (rowB (meanV y))) (rowB (Host.rsqrt (addf (varV y) eps64)))) (rowB g)) (rowB b)

theorem normV_apply (y : NF) (g b : R64) (r : Fin 100000) (j : Fin 64) :
    normV y g b (ix2 r j)
      = ((y (ix2 r j) - meanV y (ix1 j)) * Ideal.rsqrt (varV y (ix1 j) + epsW)) * g (ix1 j) + b (ix1 j) := by
  show ((y (ix2 r j) - rowB (meanV y) (ix2 r j)) * rowB (Host.rsqrt (addf (varV y) eps64)) (ix2 r j))
      * rowB g (ix2 r j) + rowB b (ix2 r j) = _
  rw [rowB_apply, rowB_apply, rowB_apply, rowB_apply]
  show ((y (ix2 r j) - meanV y (ix1 j)) * Ideal.rsqrt (varV y (ix1 j) + eps64 (ix1 j))) * g (ix1 j) + b (ix1 j) = _
  rw [eps64_apply]

end Cert.Val.Ref

namespace Cert.Val.Ref

open Idealize.ShloMosaic Idealize.ShloMosaic.ValueIdx
open Cert.ReferenceIdeal Cert.ReferenceIdeal.Gen Cert.Val

/-- Row 0 of a stacked pair of rows. -/
def sliceRow0 (a : FVec Ideal S2x64 .f32) : R64 :=
  shapeCast _ (extractStridedSlice S1x64 ![0, 0] a slices_S2x64_S1x64_0_0) shapeCasts_S1x64_S64

/-- Row 1 of a stacked pair of rows. -/
def sliceRow1 (a : FVec Ideal S2x64 .f32) : R64 :=
  shapeCast _ (extractStridedSlice S1x64 ![1, 0] a slices_S2x64_S1x64_1_0) shapeCasts_S1x64_S64

/-- Matrix 0 of a stacked pair of matrices. -/
def sliceMat0 (a : FVec Ideal S2x64x64 .f32) : W64 :=
  shapeCast _ (extractStridedSlice S1x64x64 ![0, 0, 0] a slices_S2x64x64_S1x64x64_0_0_0) shapeCasts_S1x64x64_S64x64

/-- Matrix 1 of a stacked pair of matrices. -/
def sliceMat1 (a : FVec Ideal S2x64x64 .f32) : W64 :=
  shapeCast _ (extractStridedSlice S1x64x64 ![1, 0, 0] a slices_S2x64x64_S1x64x64_1_0_0) shapeCasts_S1x64x64_S64x64

theorem sliceRow0_apply (a : FVec Ideal S2x64 .f32) (j : Fin 64) : sliceRow0 a (ix1 j) = a (ix2 (0 : Fin 2) j) :=
  (Cert.LibBcast.row_reshape_apply _ shapeCasts_S1x64_S64 j).trans
    (extractStridedSlice_apply ![0, 0] a slices_S2x64_S1x64_0_0 (ix2 (0 : Fin 1) j) (ix2 (0 : Fin 2) j) (fun d => match d with
      | ⟨0, _⟩ => by show 0 = 0 + 0; rfl
      | ⟨1, _⟩ => by show j.val = 0 + j.val; omega))

theorem sliceRow1_apply (a : FVec Ideal S2x64 .f32) (j : Fin 64) : sliceRow1 a (ix1 j) = a (ix2 (1 : Fin 2) j) :=
  (Cert.LibBcast.row_reshape_apply _ shapeCasts_S1x64_S64 j).trans
    (extractStridedSlice_apply ![1, 0] a slices_S2x64_S1x64_1_0 (ix2 (0 : Fin 1) j) (ix2 (1 : Fin 2) j) (fun d => match d with
      | ⟨0, _⟩ => by show 1 = 1 + 0; rfl
      | ⟨1, _⟩ => by show j.val = 0 + j.val; omega))

theorem sliceMat0_apply (a : FVec Ideal S2x64x64 .f32) (k j : Fin 64) :
    sliceMat0 a (ix2 k j) = a (ix3 (0 : Fin 2) k j) := by
  have hk : k.val < 64 := k.isLt
  have hj : j.val < 64 := j.isLt
  refine (shapeCast_apply _ shapeCasts_S1x64x64_S64x64 (ix2 k j) (ix3 (0 : Fin 1) k j) (by
    rw [Shape.rowMajor_val_three, Shape.rowMajor_val_two]
    show (0 * 64 + k.val) * 64 + j.val = k.val * 64 + j.val
    omega)).trans ?_
  exact extractStridedSlice_apply ![0, 0, 0] a slices_S2x64x64_S1x64x64_0_0_0 (ix3 (0 : Fin 1) k j) (ix3 (0 : Fin 2) k j)
    (fun d => match d with
      | ⟨0, _⟩ => by show 0 = 0 + 0; rfl
      | ⟨1, _⟩ => by show k.val = 0 + k.val; omega
      | ⟨2, _⟩ => by show j.val = 0 + j.val; omega)

theorem sliceMat1_apply (a : FVec Ideal S2x64x64 .f32) (k j : Fin 64) :
    sliceMat1 a (ix2 k j) = a (ix3 (1 : Fin 2) k j) := by
  have hk : k.val < 64 := k.isLt
  have hj : j.val < 64 := j.isLt
  refine (shapeCast_apply _ shapeCasts_S1x64x64_S64x64 (ix2 k j) (ix3 (0 : Fin 1) k j) (by
    rw [Shape.rowMajor_val_three, Shape.rowMajor_val_two]
    show (0 * 64 + k.val) * 64 + j.val = k.val * 64 + j.val
    omega)).trans ?_
  exact extractStridedSlice_apply ![1, 0, 0] a slices_S2x64x64_S1x64x64_1_0_0 (ix3 (0 : Fin 1) k j) (ix3 (1 : Fin 2) k j)
    (fun d => match d with
      | ⟨0, _⟩ => by show 1 = 1 + 0; rfl
      | ⟨1, _⟩ => by show k.val = 0 + k.val; omega
      | ⟨2, _⟩ => by show j.val = 0 + j.val; omega)

/-- A weight array read by row and column. -/
def matOf (W : W64) : Mat 64 64 := fun k j => W (ix2 k j)
/-- A row array read by column. -/
def rowOf (b : R64) : Row 64 := fun j => b (ix1 j)

/-- One layer's parameters from its eleven arrays. -/
def paramsV (Wk : W64) (bk : R64) (Wq : W64) (bq : R64) (Wv : W64) (bv : R64) (Ws : W64)
    (bs bias gamma beta : R64) : Params :=
  ⟨matOf Wk, rowOf bk, matOf Wq, rowOf bq, matOf Wv, rowOf bv, matOf Ws, rowOf bs, rowOf bias, rowOf gamma, rowOf beta⟩

/-- One layer on arrays, in the order of operations of the second arrangement; the edge stage is the shared one. -/
def layerV (src dst : VecE) (x : NF) (Wk : W64) (bk : R64) (Wq : W64) (bq : R64) (Wv : W64) (bv : R64) (Ws : W64)
    (bs bias gamma beta : R64) : NF :=
  normV (preV (aggVec src dst (linV x Wk bk) (linV x Wq bq) (linV x Wv bv)) x Ws bs bias) gamma beta

theorem toMat_linV (x : NF) (W : W64) (b : R64) : toMat (linV x W b) = lin (toMat x) (matOf W) (rowOf b) :=
  funext fun r => funext fun j => linV_apply x W b r j

theorem toMat_layerV (src dst : VecE) (x : NF) (Wk : W64) (bk : R64) (Wq : W64) (bq : R64) (Wv : W64) (bv : R64)
    (Ws : W64) (bs bias gamma beta : R64) :
    toMat (layerV src dst x Wk bk Wq bq Wv bv Ws bs bias gamma beta)
      = layerR (aggI src dst) (paramsV Wk bk Wq bq Wv bv Ws bs bias gamma beta) (toMat x) := by
  have hA : aggOf (aggI src dst) (paramsV Wk bk Wq bq Wv bv Ws bs bias gamma beta) (toMat x)
      = toMat (aggVec src dst (linV x Wk bk) (linV x Wq bq) (linV x Wv bv)) := by
    show toMat (aggVec src dst (toVec (lin (toMat x) (matOf Wk) (rowOf bk)))
      (toVec (lin (toMat x) (matOf Wq) (rowOf bq))) (toVec (lin (toMat x) (matOf Wv) (rowOf bv)))) = _
    rw [← toMat_linV, ← toMat_linV, ← toMat_linV, toVec_toMat, toVec_toMat, toVec_toMat]
  have hY : toMat (preV (aggVec src dst (linV x Wk bk) (linV x Wq bq) (linV x Wv bv)) x Ws bs bias)
      = actR (aggI src dst) (paramsV Wk bk Wq bq Wv bv Ws bs bias gamma beta) (toMat x) := by
    funext r j
    show preV _ x Ws bs bias (ix2 r j)
      = max (((aggOf (aggI src dst) (paramsV Wk bk Wq bq Wv bv Ws bs bias gamma beta) (toMat x) r j
          + prod (toMat x) (matOf Ws) r j) + rowOf bs j) + rowOf bias j) 0
    rw [hA, preV_apply]
    rfl
  unfold layerV layerR
  rw [← hY]
  generalize preV (aggVec src dst (linV x Wk bk) (linV x Wq bq) (linV x Wv bv)) x Ws bs bias = y
  funext r j
  show normV y gamma beta (ix2 r j)
    = ((toMat y r j - mean (toMat y) j) * Ideal.rsqrt (varR (toMat y) j + epsW)) * rowOf gamma j + rowOf beta j
  rw [normV_apply, meanV_apply, varV_apply]
  rfl

end Cert.Val.Ref

namespace Cert.Val.Ref

open Idealize.ShloMosaic Idealize.ShloMosaic.ValueIdx
open Cert.ReferenceIdeal Cert.ReferenceIdeal.Gen Cert.Val

theorem matOf_slice0 (a : FVec Ideal S2x64x64 .f32) : matOf (sliceMat0 a) = fun k j => a (ix3 (0 : Fin 2) k j) :=
  funext fun k => funext fun j => sliceMat0_apply a k j
theorem matOf_slice1 (a : FVec Ideal S2x64x64 .f32) : matOf (sliceMat1 a) = fun k j => a (ix3 (1 : Fin 2) k j) :=
  funext fun k => funext fun j => sliceMat1_apply a k j
theorem rowOf_slice0 (a : FVec Ideal S2x64 .f32) : rowOf (sliceRow0 a) = fun j => a (ix2 (0 : Fin 2) j) :=
  funext fun j => sliceRow0_apply a j
theorem rowOf_slice1 (a : FVec Ideal S2x64 .f32) : rowOf (sliceRow1 a) = fun j => a (ix2 (1 : Fin 2) j) :=
  funext fun j => sliceRow1_apply a j

/-- The first layer's parameters are slice 0 of every stacked array. -/
theorem paramsV_slice0 (x3 x5 x7 x9 : FVec Ideal S2x64x64 .f32) (x4 x6 x8 x10 x11 x12 x13 : FVec Ideal S2x64 .f32) :
    paramsV (sliceMat0 x3) (sliceRow0 x4) (sliceMat0 x5) (sliceRow0 x6) (sliceMat0 x7) (sliceRow0 x8) (sliceMat0 x9)
        (sliceRow0 x10) (sliceRow0 x11) (sliceRow0 x12) (sliceRow0 x13)
      = paramsOf 0 x3 x5 x7 x9 x4 x6 x8 x10 x11 x12 x13 := by
  simp only [paramsV, paramsOf, matOf_slice0, rowOf_slice0]

/-- The second layer's parameters are slice 1 of every stacked array. -/
theorem paramsV_slice1 (x3 x5 x7 x9 : FVec Ideal S2x64x64 .f32) (x4 x6 x8 x10 x11 x12 x13 : FVec Ideal S2x64 .f32) :
    paramsV (sliceMat1 x3) (sliceRow1 x4) (sliceMat1 x5) (sliceRow1 x6) (sliceMat1 x7) (sliceRow1 x8) (sliceMat1 x9)
        (sliceRow1 x10) (sliceRow1 x11) (sliceRow1 x12) (sliceRow1 x13)
      = paramsOf 1 x3 x5 x7 x9 x4 x6 x8 x10 x11 x12 x13 := by
  simp only [paramsV, paramsOf, matOf_slice1, rowOf_slice1]

end Cert.Val.Ref

end
-- ==== Proof.Val.KerHost.lean ====
/-
  The host stretches between the kernels, read as plain terms.

  Between two kernels the program slices the stacked parameters (a 2×64×64 stack of weight matrices, 2×64 stacks
  of bias, scale and shift rows) at one layer, lays the four weight matrices side by side as one 64×256 matrix and
  the four bias rows end to end as one 1×256 row, cuts the 100000×256 affine image into its four 100000×64 column
  blocks, runs the edge stage on the first three, divides the accumulated column sums by the row count, and forms
  the reciprocal deviation.  Each array the next kernel reads is stated here as a term of the stretch's entry
  contents, for ANY entry contents, and then read at an index: a slice of a stack at layer `l` reads the stack at
  `(l, ·, ·)`; the side-by-side matrix at column `64 q + j` reads matrix `q` at column `j`; column block `q` at
  column `j` reads the image at column `64 q + j`; the mean at column `j` is the column's sum over the count, and
  the reciprocal deviation the reciprocal square root of the mean of squares less the squared mean plus the offset.
-/
import proofs.«178820_j816043786337_1_alg».proof.Proof.Gen.KernelIdeal.Launch
import proofs.«178820_j816043786337_1_alg».proof.Proof.Val.Agg
import Idealize.ShloMosaic.Lib.StableHlo.Run
import Idealize.ShloMosaic.Lib.ValueLayout

set_option maxRecDepth 16384

noncomputable section

namespace Cert.Val

open Idealize.ShloMosaic Idealize.ShloMosaic.ValueIdx Idealize.ShloMosaic.StableHlo
open Cert.KernelIdeal Cert.KernelIdeal.Gen

/-- Any contents of the TensorCore's buffers. -/
abbrev Vl := Valuation τ sig (Elt Ideal)

/-! ## The pieces -/

/-- A stack of two 64×64 matrices. -/
abbrev Stack3 := (⟨S2x64x64, .f32⟩ : BufTy).Contents (Elt Ideal)
/-- A stack of two rows of 64. -/
abbrev Stack2 := (⟨S2x64, .f32⟩ : BufTy).Contents (Elt Ideal)
/-- The two rows of edge endpoints. -/
abbrev Edges := (⟨S2x1250000, .i32⟩ : BufTy).Contents (Elt Ideal)
/-- The four affine images side by side: 100000 rows of 256. -/
abbrev VecNF4 := (⟨S100000x256, .f32⟩ : BufTy).Contents (Elt Ideal)
/-- A 1×64 row. -/
abbrev Row64 := (⟨S1x64, .f32⟩ : BufTy).Contents (Elt Ideal)

/-- The first matrix of a stack. -/
def mat0 (a : Stack3) : S64x64.Idx → EReal :=
  shapeCast S64x64 (extractStridedSlice S1x64x64 ![0, 0, 0] a slices_S2x64x64_S1x64x64_0_0_0) shapeCasts_S1x64x64_S64x64
/-- The second matrix of a stack. -/
def mat1 (a : Stack3) : S64x64.Idx → EReal :=
  shapeCast S64x64 (extractStridedSlice S1x64x64 ![1, 0, 0] a slices_S2x64x64_S1x64x64_1_0_0) shapeCasts_S1x64x64_S64x64
/-- The first row of a stack, as a vector. -/
def vec0 (a : Stack2) : S64.Idx → EReal :=
  shapeCast S64 (extractStridedSlice S1x64 ![0, 0] a slices_S2x64_S1x64_0_0) shapeCasts_S1x64_S64
/-- The second row of a stack, as a vector. -/
def vec1 (a : Stack2) : S64.Idx → EReal :=
  shapeCast S64 (extractStridedSlice S1x64 ![1, 0] a slices_S2x64_S1x64_1_0) shapeCasts_S1x64_S64
/-- A vector of 64 as a 1×64 row. -/
def asRow (v : S64.Idx → EReal) : Row64 := shapeCast S1x64 v shapeCasts_S64_S1x64
/-- Four 64×64 matrices side by side. -/
def besideW (w0 w1 w2 w3 : S64x64.Idx → EReal) : S64x256.Idx → EReal :=
  concatenate S64x256 1 [⟨S64x64, w0⟩, ⟨S64x64, w1⟩, ⟨S64x64, w2⟩, ⟨S64x64, w3⟩] concatenates_S64x64_S64x64_S64x64_S64x64_S64x256_d1
/-- Four vectors of 64 end to end, as a 1×256 row. -/
def besideB (b0 b1 b2 b3 : S64.Idx → EReal) : S1x256.Idx → EReal :=
  shapeCast S1x256 (concatenate S256 0 [⟨S64, b0⟩, ⟨S64, b1⟩, ⟨S64, b2⟩, ⟨S64, b3⟩] concatenates_S64_S64_S64_S64_S256_d0) shapeCasts_S256_S1x256
/-- The source endpoints: the first row of the edge array, as a vector. -/
def srcOf (a : Edges) : VecE :=
  shapeCast S1250000 (extractStridedSlice S1x1250000 ![0, 0] a slices_S2x1250000_S1x1250000_0_0) shapeCasts_S1x1250000_S1250000
/-- The target endpoints: the second row of the edge array, as a vector. -/
def dstOf (a : Edges) : VecE :=
  shapeCast S1250000 (extractStridedSlice S1x1250000 ![1, 0] a slices_S2x1250000_S1x1250000_1_0) shapeCasts_S1x1250000_S1250000
/-- Columns 0 to 63 of the four images: the key image. -/
def colSlice0 (x : VecNF4) : VecNF := extractStridedSlice S100000x64 ![0, 0] x slices_S100000x256_S100000x64_0_0
/-- Columns 64 to 127: the query image. -/
def colSlice64 (x : VecNF4) : VecNF := extractStridedSlice S100000x64 ![0, 64] x slices_S100000x256_S100000x64_0_64
/-- Columns 128 to 191: the value image. -/
def colSlice128 (x : VecNF4) : VecNF := extractStridedSlice S100000x64 ![0, 128] x slices_S100000x256_S100000x64_0_128
/-- Columns 192 to 255: the skip image. -/
def colSlice192 (x : VecNF4) : VecNF := extractStridedSlice S100000x64 ![0, 192] x slices_S100000x256_S100000x64_0_192
/-- The row count, along a 1×64 row. -/
def cntRow : Row64 := broadcastInDim S1x64 ![] bcast_S_S1x64 (constant (F := Ideal) S_ .f32 0x47C35000#32)
/-- The variance offset, along a 1×64 row. -/
def epsRow : Row64 := broadcastInDim S1x64 ![] bcast_S_S1x64 (constant (F := Ideal) S_ .f32 0x3727C5AC#32)
/-- The column means from the column sums. -/
def meanRow (s : Row64) : Row64 := Host.divf (F := Ideal) (φ := .f32) s cntRow
/-- The reciprocal deviations from the column sums and the column sums of squares. -/
def rdevRow (s ss : Row64) : Row64 :=
  Host.rsqrt (F := Ideal) (φ := .f32)
    (addf (F := Ideal) (φ := .f32)
      (subf (F := Ideal) (φ := .f32) (Host.divf (F := Ideal) (φ := .f32) ss cntRow)
        (mulf (F := Ideal) (φ := .f32) (meanRow s) (meanRow s)))
      epsRow)

/-! ## The pieces at an index -/

theorem mat0_apply (a : Stack3) (k j : Fin 64) : mat0 a (ix2 k j) = a (ix3 (0 : Fin 2) k j) := by
  unfold mat0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem mat1_apply (a : Stack3) (k j : Fin 64) : mat1 a (ix2 k j) = a (ix3 (1 : Fin 2) k j) := by
  unfold mat1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem vec0_apply (a : Stack2) (j : Fin 64) : vec0 a (ix1 j) = a (ix2 (0 : Fin 2) j) := by
  unfold vec0
  rw [shapeCast_1a_a_apply]
  exact slice2_axis0_apply 0 a _ (0 : Fin 1) j (0 : Fin 2) rfl

theorem vec1_apply (a : Stack2) (j : Fin 64) : vec1 a (ix1 j) = a (ix2 (1 : Fin 2) j) := by
  unfold vec1
  rw [shapeCast_1a_a_apply]
  exact slice2_axis0_apply 1 a _ (0 : Fin 1) j (1 : Fin 2) rfl

theorem asRow_apply (v : S64.Idx → EReal) (j : Fin 64) : asRow v (ix2 (0 : Fin 1) j) = v (ix1 j) :=
  shapeCast_a_1a_apply v _ 0 j

/-- Side by side, column `c` of the whole is column `j` of piece 0 when `c = j`. -/
theorem besideW_apply0 (w0 w1 w2 w3 : S64x64.Idx → EReal) (k j : Fin 64) (c : Fin 256) (hc : c.val = j.val) :
    besideW w0 w1 w2 w3 (ix2 k c) = w0 (ix2 k j) :=
  concatenate_apply_piece 1 _ _ (ix2 k c) 0 (by show (0 : ℕ) < 4; omega) S64x64 w0 rfl rfl 0 rfl (ix2 k j)
    (fun b hb => by match b with | ⟨0, _⟩ => rfl | ⟨1, _⟩ => exact absurd rfl hb)
    (by show 0 + j.val = c.val; omega)

/-- Column `64 + j` of the whole is column `j` of piece 1. -/
theorem besideW_apply1 (w0 w1 w2 w3 : S64x64.Idx → EReal) (k j : Fin 64) (c : Fin 256) (hc : c.val = 64 + j.val) :
    besideW w0 w1 w2 w3 (ix2 k c) = w1 (ix2 k j) :=
  concatenate_apply_piece 1 _ _ (ix2 k c) 1 (by show (1 : ℕ) < 4; omega) S64x64 w1 rfl rfl 64 rfl (ix2 k j)
    (fun b hb => by match b with | ⟨0, _⟩ => rfl | ⟨1, _⟩ => exact absurd rfl hb)
    (by show 64 + j.val = c.val; omega)

/-- Column `128 + j` of the whole is column `j` of piece 2. -/
theorem besideW_apply2 (w0 w1 w2 w3 : S64x64.Idx → EReal) (k j : Fin 64) (c : Fin 256) (hc : c.val = 128 + j.val) :
    besideW w0 w1 w2 w3 (ix2 k c) = w2 (ix2 k j) :=
  concatenate_apply_piece 1 _ _ (ix2 k c) 2 (by show (2 : ℕ) < 4; omega) S64x64 w2 rfl rfl 128 rfl (ix2 k j)
    (fun b hb => by match b with | ⟨0, _⟩ => rfl | ⟨1, _⟩ => exact absurd rfl hb)
    (by show 128 + j.val = c.val; omega)

/-- Column `192 + j` of the whole is column `j` of piece 3. -/
theorem besideW_apply3 (w0 w1 w2 w3 : S64x64.Idx → EReal) (k j : Fin 64) (c : Fin 256) (hc : c.val = 192 + j.val) :
    besideW w0 w1 w2 w3 (ix2 k c) = w3 (ix2 k j) :=
  concatenate_apply_piece 1 _ _ (ix2 k c) 3 (by show (3 : ℕ) < 4; omega) S64x64 w3 rfl rfl 192 rfl (ix2 k j)
    (fun b hb => by match b with | ⟨0, _⟩ => rfl | ⟨1, _⟩ => exact absurd rfl hb)
    (by show 192 + j.val = c.val; omega)

/-- End to end, entry `c` of the row is entry `j` of piece 0 when `c = j`. -/
theorem besideB_apply0 (b0 b1 b2 b3 : S64.Idx → EReal) (j : Fin 64) (c : Fin 256) (hc : c.val = j.val) :
    besideB b0 b1 b2 b3 (ix2 (0 : Fin 1) c) = b0 (ix1 j) := by
  unfold besideB
  rw [shapeCast_a_1a_apply]
  exact concatenate_apply_piece 0 _ _ (ix1 c) 0 (by show (0 : ℕ) < 4; omega) S64 b0 rfl rfl 0 rfl (ix1 j)
    (fun b hb => by match b with | ⟨0, _⟩ => exact absurd rfl hb)
    (by show 0 + j.val = c.val; omega)

theorem besideB_apply1 (b0 b1 b2 b3 : S64.Idx → EReal) (j : Fin 64) (c : Fin 256) (hc : c.val = 64 + j.val) :
    besideB b0 b1 b2 b3 (ix2 (0 : Fin 1) c) = b1 (ix1 j) := by
  unfold besideB
  rw [shapeCast_a_1a_apply]
  exact concatenate_apply_piece 0 _ _ (ix1 c) 1 (by show (1 : ℕ) < 4; omega) S64 b1 rfl rfl 64 rfl (ix1 j)
    (fun b hb => by match b with | ⟨0, _⟩ => exact absurd rfl hb)
    (by show 64 + j.val = c.val; omega)

theorem besideB_apply2 (b0 b1 b2 b3 : S64.Idx → EReal) (j : Fin 64) (c : Fin 256) (hc : c.val = 128 + j.val) :
    besideB b0 b1 b2 b3 (ix2 (0 : Fin 1) c) = b2 (ix1 j) := by
  unfold besideB
  rw [shapeCast_a_1a_apply]
  exact concatenate_apply_piece 0 _ _ (ix1 c) 2 (by show (2 : ℕ) < 4; omega) S64 b2 rfl rfl 128 rfl (ix1 j)
    (fun b hb => by match b with | ⟨0, _⟩ => exact absurd rfl hb)
    (by show 128 + j.val = c.val; omega)

theorem besideB_apply3 (b0 b1 b2 b3 : S64.Idx → EReal) (j : Fin 64) (c : Fin 256) (hc : c.val = 192 + j.val) :
    besideB b0 b1 b2 b3 (ix2 (0 : Fin 1) c) = b3 (ix1 j) := by
  unfold besideB
  rw [shapeCast_a_1a_apply]
  exact concatenate_apply_piece 0 _ _ (ix1 c) 3 (by show (3 : ℕ) < 4; omega) S64 b3 rfl rfl 192 rfl (ix1 j)
    (fun b hb => by match b with | ⟨0, _⟩ => exact absurd rfl hb)
    (by show 192 + j.val = c.val; omega)

theorem colSlice0_apply (v : VecNF4) (r : Fin 100000) (j : Fin 64) :
    colSlice0 v (ix2 r j) = v (ix2 r (⟨j.val, by omega⟩ : Fin 256)) :=
  slice2_axis1_apply 0 v _ r j _ (Nat.zero_add _).symm

theorem colSlice64_apply (v : VecNF4) (r : Fin 100000) (j : Fin 64) :
    colSlice64 v (ix2 r j) = v (ix2 r (⟨64 + j.val, by omega⟩ : Fin 256)) :=
  slice2_axis1_apply 64 v _ r j _ rfl

theorem colSlice128_apply (v : VecNF4) (r : Fin 100000) (j : Fin 64) :
    colSlice128 v (ix2 r j) = v (ix2 r (⟨128 + j.val, by omega⟩ : Fin 256)) :=
  slice2_axis1_apply 128 v _ r j _ rfl

theorem colSlice192_apply (v : VecNF4) (r : Fin 100000) (j : Fin 64) :
    colSlice192 v (ix2 r j) = v (ix2 r (⟨192 + j.val, by omega⟩ : Fin 256)) :=
  slice2_axis1_apply 192 v _ r j _ rfl

theorem meanRow_apply (s : Row64) (j : Fin 64) :
    meanRow s (ix2 (0 : Fin 1) j) = Ideal.div (s (ix2 (0 : Fin 1) j)) cntW := rfl

theorem rdevRow_apply (s ss : Row64) (j : Fin 64) :
    rdevRow s ss (ix2 (0 : Fin 1) j)
      = Ideal.rsqrt ((Ideal.div (ss (ix2 (0 : Fin 1) j)) cntW
          - Ideal.div (s (ix2 (0 : Fin 1) j)) cntW * Ideal.div (s (ix2 (0 : Fin 1) j)) cntW) + epsW) := rfl

/-! ## What each stretch leaves for the next kernel -/

/-- Before the first kernel: the source endpoints. -/
theorem H0_src (U : Vl) :
    (StableHlo.after (Gen.hostOps0 (F := Ideal)) U (Proc.devRef .tc main_v1) : VecE)
      = srcOf (U (Proc.devRef .tc main_arg1)) := by
  after_results; rfl

/-- Before the first kernel: the target endpoints. -/
theorem H0_dst (U : Vl) :
    (StableHlo.after (Gen.hostOps0 (F := Ideal)) U (Proc.devRef .tc main_v3) : VecE)
      = dstOf (U (Proc.devRef .tc main_arg1)) := by
  after_results; rfl

/-- Before the first kernel: the first layer's four weight matrices side by side. -/
theorem host0_W (U : Vl) :
    (StableHlo.after (Gen.hostOps0 (F := Ideal)) U (Proc.devRef .tc main_v12) : S64x256.Idx → EReal)
      = besideW (mat0 (U (Proc.devRef .tc main_arg3))) (mat0 (U (Proc.devRef .tc main_arg5)))
          (mat0 (U (Proc.devRef .tc main_arg7))) (mat0 (U (Proc.devRef .tc main_arg9))) := by
  after_results_simp; rfl

/-- Before the first kernel: the first layer's four bias rows end to end. -/
theorem host0_b (U : Vl) :
    (StableHlo.after (Gen.hostOps0 (F := Ideal)) U (Proc.devRef .tc main_v22) : S1x256.Idx → EReal)
      = besideB (vec0 (U (Proc.devRef .tc main_arg4))) (vec0 (U (Proc.devRef .tc main_arg6)))
          (vec0 (U (Proc.devRef .tc main_arg8))) (vec0 (U (Proc.devRef .tc main_arg10))) := by
  after_results_simp; rfl

/-- Before the first statistics kernel: the aggregated messages, the edge stage on the key, query and value
    images at the endpoints the entry contents hold. -/
theorem H1_agg (U : Vl) :
    (StableHlo.after (Gen.hostOps1 (F := Ideal)) U (Proc.devRef .tc main_v64) : VecNF)
      = aggVec (U (Proc.devRef .tc main_v1)) (U (Proc.devRef .tc main_v3))
          (colSlice0 (U (Proc.devRef .tc main_v23))) (colSlice64 (U (Proc.devRef .tc main_v23)))
          (colSlice128 (U (Proc.devRef .tc main_v23))) := by
  after_results_simp; rfl

/-- Before the first statistics kernel: the skip image. -/
theorem H1_skip (U : Vl) :
    (StableHlo.after (Gen.hostOps1 (F := Ideal)) U (Proc.devRef .tc main_v27) : VecNF)
      = colSlice192 (U (Proc.devRef .tc main_v23)) := by
  after_results_simp; rfl

/-- Before the first statistics kernel: the first layer's bias row. -/
theorem host1_bias (U : Vl) :
    (StableHlo.after (Gen.hostOps1 (F := Ideal)) U (Proc.devRef .tc main_v67) : Row64)
      = asRow (vec0 (U (Proc.devRef .tc main_arg11))) := by
  after_results_simp; rfl

/-- Before the first normalising kernel: the column means. -/
theorem host2_mean (U : Vl) :
    (StableHlo.after (Gen.hostOps2 (F := Ideal)) U (Proc.devRef .tc main_v70) : Row64)
      = meanRow (U (Proc.devRef .tc main_v68_1)) := by
  after_results; rfl

/-- Before the first normalising kernel: the reciprocal deviations. -/
theorem host2_rdev (U : Vl) :
    (StableHlo.after (Gen.hostOps2 (F := Ideal)) U (Proc.devRef .tc main_v83) : Row64)
      = rdevRow (U (Proc.devRef .tc main_v68_1)) (U (Proc.devRef .tc main_v68_2)) := by
  after_results; rfl

/-- Before the first normalising kernel: the first layer's scale row. -/
theorem host2_gamma (U : Vl) :
    (StableHlo.after (Gen.hostOps2 (F := Ideal)) U (Proc.devRef .tc main_v77) : Row64)
      = asRow (vec0 (U (Proc.devRef .tc main_arg12))) := by
  after_results; rfl

/-- Before the first normalising kernel: the first layer's shift row. -/
theorem host2_beta (U : Vl) :
    (StableHlo.after (Gen.hostOps2 (F := Ideal)) U (Proc.devRef .tc main_v80) : Row64)
      = asRow (vec0 (U (Proc.devRef .tc main_arg13))) := by
  after_results; rfl

/-- Before the second layer's first kernel: its four weight matrices side by side. -/
theorem host3_W (U : Vl) :
    (StableHlo.after (Gen.hostOps3 (F := Ideal)) U (Proc.devRef .tc main_v93) : S64x256.Idx → EReal)
      = besideW (mat1 (U (Proc.devRef .tc main_arg3))) (mat1 (U (Proc.devRef .tc main_arg5)))
          (mat1 (U (Proc.devRef .tc main_arg7))) (mat1 (U (Proc.devRef .tc main_arg9))) := by
  after_results_simp; rfl

/-- Before the second layer's first kernel: its four bias rows end to end. -/
theorem host3_b (U : Vl) :
    (StableHlo.after (Gen.hostOps3 (F := Ideal)) U (Proc.devRef .tc main_v103) : S1x256.Idx → EReal)
      = besideB (vec1 (U (Proc.devRef .tc main_arg4))) (vec1 (U (Proc.devRef .tc main_arg6)))
          (vec1 (U (Proc.devRef .tc main_arg8))) (vec1 (U (Proc.devRef .tc main_arg10))) := by
  after_results_simp; rfl

/-- Before the second statistics kernel: the aggregated messages. -/
theorem H4_agg (U : Vl) :
    (StableHlo.after (Gen.hostOps4 (F := Ideal)) U (Proc.devRef .tc main_v145) : VecNF)
      = aggVec (U (Proc.devRef .tc main_v1)) (U (Proc.devRef .tc main_v3))
          (colSlice0 (U (Proc.devRef .tc main_v104))) (colSlice64 (U (Proc.devRef .tc main_v104)))
          (colSlice128 (U (Proc.devRef .tc main_v104))) := by
  after_results_simp; rfl

/-- Before the second statistics kernel: the skip image. -/
theorem H4_skip (U : Vl) :
    (StableHlo.after (Gen.hostOps4 (F := Ideal)) U (Proc.devRef .tc main_v108) : VecNF)
      = colSlice192 (U (Proc.devRef .tc main_v104)) := by
  after_results_simp; rfl

/-- Before the second statistics kernel: the second layer's bias row. -/
theorem host4_bias (U : Vl) :
    (StableHlo.after (Gen.hostOps4 (F := Ideal)) U (Proc.devRef .tc main_v148) : Row64)
      = asRow (vec1 (U (Proc.devRef .tc main_arg11))) := by
  after_results_simp; rfl

/-- Before the second normalising kernel: the column means. -/
theorem host5_mean (U : Vl) :
    (StableHlo.after (Gen.hostOps5 (F := Ideal)) U (Proc.devRef .tc main_v151) : Row64)
      = meanRow (U (Proc.devRef .tc main_v149_1)) := by
  after_results; rfl

/-- Before the second normalising kernel: the reciprocal deviations. -/
theorem host5_rdev (U : Vl) :
    (StableHlo.after (Gen.hostOps5 (F := Ideal)) U (Proc.devRef .tc main_v164) : Row64)
      = rdevRow (U (Proc.devRef .tc main_v149_1)) (U (Proc.devRef .tc main_v149_2)) := by
  after_results; rfl

/-- Before the second normalising kernel: the second layer's scale row. -/
theorem host5_gamma (U : Vl) :
    (StableHlo.after (Gen.hostOps5 (F := Ideal)) U (Proc.devRef .tc main_v158) : Row64)
      = asRow (vec1 (U (Proc.devRef .tc main_arg12))) := by
  after_results; rfl

/-- Before the second normalising kernel: the second layer's shift row. -/
theorem host5_beta (U : Vl) :
    (StableHlo.after (Gen.hostOps5 (F := Ideal)) U (Proc.devRef .tc main_v161) : Row64)
      = asRow (vec1 (U (Proc.devRef .tc main_arg13))) := by
  after_results; rfl

/-! ## The same, at an index, in the entry contents' own entries

Column `64 q + j` of the side-by-side weights is column `j` of weight matrix `q`; likewise the bias row; a layer's
bias, scale or shift row at column `j` is the stacked array at `(layer, j)`; the mean and the reciprocal deviation
at column `j` are the scalar formulas on the column's two sums. -/

theorem H0_wcat_k (U : Vl) (k j : Fin 64) :
    (StableHlo.after (Gen.hostOps0 (F := Ideal)) U (Proc.devRef .tc main_v12) : S64x256.Idx → EReal)
        (ix2 k (⟨j.val, by omega⟩ : Fin 256))
      = (U (Proc.devRef .tc main_arg3) : Stack3) (ix3 (0 : Fin 2) k j) := by
  rw [host0_W, besideW_apply0 _ _ _ _ k j _ rfl, mat0_apply]

theorem H0_wcat_q (U : Vl) (k j : Fin 64) :
    (StableHlo.after (Gen.hostOps0 (F := Ideal)) U (Proc.devRef .tc main_v12) : S64x256.Idx → EReal)
        (ix2 k (⟨64 + j.val, by omega⟩ : Fin 256))
      = (U (Proc.devRef .tc main_arg5) : Stack3) (ix3 (0 : Fin 2) k j) := by
  rw [host0_W, besideW_apply1 _ _ _ _ k j _ rfl, mat0_apply]

theorem H0_wcat_v (U : Vl) (k j : Fin 64) :
    (StableHlo.after (Gen.hostOps0 (F := Ideal)) U (Proc.devRef .tc main_v12) : S64x256.Idx → EReal)
        (ix2 k (⟨128 + j.val, by omega⟩ : Fin 256))
      = (U (Proc.devRef .tc main_arg7) : Stack3) (ix3 (0 : Fin 2) k j) := by
  rw [host0_W, besideW_apply2 _ _ _ _ k j _ rfl, mat0_apply]

theorem H0_wcat_s (U : Vl) (k j : Fin 64) :
    (StableHlo.after (Gen.hostOps0 (F := Ideal)) U (Proc.devRef .tc main_v12) : S64x256.Idx → EReal)
        (ix2 k (⟨192 + j.val, by omega⟩ : Fin 256))
      = (U (Proc.devRef .tc main_arg9) : Stack3) (ix3 (0 : Fin 2) k j) := by
  rw [host0_W, besideW_apply3 _ _ _ _ k j _ rfl, mat0_apply]

theorem H0_bcat_k (U : Vl) (j : Fin 64) :
    (StableHlo.after (Gen.hostOps0 (F := Ideal)) U (Proc.devRef .tc main_v22) : S1x256.Idx → EReal)
        (ix2 (0 : Fin 1) (⟨j.val, by omega⟩ : Fin 256))
      = (U (Proc.devRef .tc main_arg4) : Stack2) (ix2 (0 : Fin 2) j) := by
  rw [host0_b, besideB_apply0 _ _ _ _ j _ rfl, vec0_apply]

theorem H0_bcat_q (U : Vl) (j : Fin 64) :
    (StableHlo.after (Gen.hostOps0 (F := Ideal)) U (Proc.devRef .tc main_v22) : S1x256.Idx → EReal)
        (ix2 (0 : Fin 1) (⟨64 + j.val, by omega⟩ : Fin 256))
      = (U (Proc.devRef .tc main_arg6) : Stack2) (ix2 (0 : Fin 2) j) := by
  rw [host0_b, besideB_apply1 _ _ _ _ j _ rfl, vec0_apply]

theorem H0_bcat_v (U : Vl) (j : Fin 64) :
    (StableHlo.after (Gen.hostOps0 (F := Ideal)) U (Proc.devRef .tc main_v22) : S1x256.Idx → EReal)
        (ix2 (0 : Fin 1) (⟨128 + j.val, by omega⟩ : Fin 256))
      = (U (Proc.devRef .tc main_arg8) : Stack2) (ix2 (0 : Fin 2) j) := by
  rw [host0_b, besideB_apply2 _ _ _ _ j _ rfl, vec0_apply]

theorem H0_bcat_s (U : Vl) (j : Fin 64) :
    (StableHlo.after (Gen.hostOps0 (F := Ideal)) U (Proc.devRef .tc main_v22) : S1x256.Idx → EReal)
        (ix2 (0 : Fin 1) (⟨192 + j.val, by omega⟩ : Fin 256))
      = (U (Proc.devRef .tc main_arg10) : Stack2) (ix2 (0 : Fin 2) j) := by
  rw [host0_b, besideB_apply3 _ _ _ _ j _ rfl, vec0_apply]

theorem H1_bias (U : Vl) (j : Fin 64) :
    (StableHlo.after (Gen.hostOps1 (F := Ideal)) U (Proc.devRef .tc main_v67) : Row64) (ix2 (0 : Fin 1) j)
      = (U (Proc.devRef .tc main_arg11) : Stack2) (ix2 (0 : Fin 2) j) := by
  rw [host1_bias, asRow_apply, vec0_apply]

theorem H2_mean (U : Vl) (j : Fin 64) :
    (StableHlo.after (Gen.hostOps2 (F := Ideal)) U (Proc.devRef .tc main_v70) : Row64) (ix2 (0 : Fin 1) j)
      = Ideal.div ((U (Proc.devRef .tc main_v68_1) : Row64) (ix2 (0 : Fin 1) j)) cntW := by
  rw [host2_mean, meanRow_apply]

theorem H2_inv (U : Vl) (j : Fin 64) :
    (StableHlo.after (Gen.hostOps2 (F := Ideal)) U (Proc.devRef .tc main_v83) : Row64) (ix2 (0 : Fin 1) j)
      = Ideal.rsqrt ((Ideal.div ((U (Proc.devRef .tc main_v68_2) : Row64) (ix2 (0 : Fin 1) j)) cntW
          - Ideal.div ((U (Proc.devRef .tc main_v68_1) : Row64) (ix2 (0 : Fin 1) j)) cntW
            * Ideal.div ((U (Proc.devRef .tc main_v68_1) : Row64) (ix2 (0 : Fin 1) j)) cntW) + epsW) := by
  rw [host2_rdev, rdevRow_apply]

theorem H2_gamma (U : Vl) (j : Fin 64) :
    (StableHlo.after (Gen.hostOps2 (F := Ideal)) U (Proc.devRef .tc main_v77) : Row64) (ix2 (0 : Fin 1) j)
      = (U (Proc.devRef .tc main_arg12) : Stack2) (ix2 (0 : Fin 2) j) := by
  rw [host2_gamma, asRow_apply, vec0_apply]

theorem H2_beta (U : Vl) (j : Fin 64) :
    (StableHlo.after (Gen.hostOps2 (F := Ideal)) U (Proc.devRef .tc main_v80) : Row64) (ix2 (0 : Fin 1) j)
      = (U (Proc.devRef .tc main_arg13) : Stack2) (ix2 (0 : Fin 2) j) := by
  rw [host2_beta, asRow_apply, vec0_apply]

theorem H3_wcat_k (U : Vl) (k j : Fin 64) :
    (StableHlo.after (Gen.hostOps3 (F := Ideal)) U (Proc.devRef .tc main_v93) : S64x256.Idx → EReal)
        (ix2 k (⟨j.val, by omega⟩ : Fin 256))
      = (U (Proc.devRef .tc main_arg3) : Stack3) (ix3 (1 : Fin 2) k j) := by
  rw [host3_W, besideW_apply0 _ _ _ _ k j _ rfl, mat1_apply]

theorem H3_wcat_q (U : Vl) (k j : Fin 64) :
    (StableHlo.after (Gen.hostOps3 (F := Ideal)) U (Proc.devRef .tc main_v93) : S64x256.Idx → EReal)
        (ix2 k (⟨64 + j.val, by omega⟩ : Fin 256))
      = (U (Proc.devRef .tc main_arg5) : Stack3) (ix3 (1 : Fin 2) k j) := by
  rw [host3_W, besideW_apply1 _ _ _ _ k j _ rfl, mat1_apply]

theorem H3_wcat_v (U : Vl) (k j : Fin 64) :
    (StableHlo.after (Gen.hostOps3 (F := Ideal)) U (Proc.devRef .tc main_v93) : S64x256.Idx → EReal)
        (ix2 k (⟨128 + j.val, by omega⟩ : Fin 256))
      = (U (Proc.devRef .tc main_arg7) : Stack3) (ix3 (1 : Fin 2) k j) := by
  rw [host3_W, besideW_apply2 _ _ _ _ k j _ rfl, mat1_apply]

theorem H3_wcat_s (U : Vl) (k j : Fin 64) :
    (StableHlo.after (Gen.hostOps3 (F := Ideal)) U (Proc.devRef .tc main_v93) : S64x256.Idx → EReal)
        (ix2 k (⟨192 + j.val, by omega⟩ : Fin 256))
      = (U (Proc.devRef .tc main_arg9) : Stack3) (ix3 (1 : Fin 2) k j) := by
  rw [host3_W, besideW_apply3 _ _ _ _ k j _ rfl, mat1_apply]

theorem H3_bcat_k (U : Vl) (j : Fin 64) :
    (StableHlo.after (Gen.hostOps3 (F := Ideal)) U (Proc.devRef .tc main_v103) : S1x256.Idx → EReal)
        (ix2 (0 : Fin 1) (⟨j.val, by omega⟩ : Fin 256))
      = (U (Proc.devRef .tc main_arg4) : Stack2) (ix2 (1 : Fin 2) j) := by
  rw [host3_b, besideB_apply0 _ _ _ _ j _ rfl, vec1_apply]

theorem H3_bcat_q (U : Vl) (j : Fin 64) :
    (StableHlo.after (Gen.hostOps3 (F := Ideal)) U (Proc.devRef .tc main_v103) : S1x256.Idx → EReal)
        (ix2 (0 : Fin 1) (⟨64 + j.val, by omega⟩ : Fin 256))
      = (U (Proc.devRef .tc main_arg6) : Stack2) (ix2 (1 : Fin 2) j) := by
  rw [host3_b, besideB_apply1 _ _ _ _ j _ rfl, vec1_apply]

theorem H3_bcat_v (U : Vl) (j : Fin 64) :
    (StableHlo.after (Gen.hostOps3 (F := Ideal)) U (Proc.devRef .tc main_v103) : S1x256.Idx → EReal)
        (ix2 (0 : Fin 1) (⟨128 + j.val, by omega⟩ : Fin 256))
      = (U (Proc.devRef .tc main_arg8) : Stack2) (ix2 (1 : Fin 2) j) := by
  rw [host3_b, besideB_apply2 _ _ _ _ j _ rfl, vec1_apply]

theorem H3_bcat_s (U : Vl) (j : Fin 64) :
    (StableHlo.after (Gen.hostOps3 (F := Ideal)) U (Proc.devRef .tc main_v103) : S1x256.Idx → EReal)
        (ix2 (0 : Fin 1) (⟨192 + j.val, by omega⟩ : Fin 256))
      = (U (Proc.devRef .tc main_arg10) : Stack2) (ix2 (1 : Fin 2) j) := by
  rw [host3_b, besideB_apply3 _ _ _ _ j _ rfl, vec1_apply]

theorem H4_bias (U : Vl) (j : Fin 64) :
    (StableHlo.after (Gen.hostOps4 (F := Ideal)) U (Proc.devRef .tc main_v148) : Row64) (ix2 (0 : Fin 1) j)
      = (U (Proc.devRef .tc main_arg11) : Stack2) (ix2 (1 : Fin 2) j) := by
  rw [host4_bias, asRow_apply, vec1_apply]

theorem H5_mean (U : Vl) (j : Fin 64) :
    (StableHlo.after (Gen.hostOps5 (F := Ideal)) U (Proc.devRef .tc main_v151) : Row64) (ix2 (0 : Fin 1) j)
      = Ideal.div ((U (Proc.devRef .tc main_v149_1) : Row64) (ix2 (0 : Fin 1) j)) cntW := by
  rw [host5_mean, meanRow_apply]

theorem H5_inv (U : Vl) (j : Fin 64) :
    (StableHlo.after (Gen.hostOps5 (F := Ideal)) U (Proc.devRef .tc main_v164) : Row64) (ix2 (0 : Fin 1) j)
      = Ideal.rsqrt ((Ideal.div ((U (Proc.devRef .tc main_v149_2) : Row64) (ix2 (0 : Fin 1) j)) cntW
          - Ideal.div ((U (Proc.devRef .tc main_v149_1) : Row64) (ix2 (0 : Fin 1) j)) cntW
            * Ideal.div ((U (Proc.devRef .tc main_v149_1) : Row64) (ix2 (0 : Fin 1) j)) cntW) + epsW) := by
  rw [host5_rdev, rdevRow_apply]

theorem H5_gamma (U : Vl) (j : Fin 64) :
    (StableHlo.after (Gen.hostOps5 (F := Ideal)) U (Proc.devRef .tc main_v158) : Row64) (ix2 (0 : Fin 1) j)
      = (U (Proc.devRef .tc main_arg12) : Stack2) (ix2 (1 : Fin 2) j) := by
  rw [host5_gamma, asRow_apply, vec1_apply]

theorem H5_beta (U : Vl) (j : Fin 64) :
    (StableHlo.after (Gen.hostOps5 (F := Ideal)) U (Proc.devRef .tc main_v161) : Row64) (ix2 (0 : Fin 1) j)
      = (U (Proc.devRef .tc main_arg13) : Stack2) (ix2 (1 : Fin 2) j) := by
  rw [host5_beta, asRow_apply, vec1_apply]

end Cert.Val

end
-- ==== Proof.Val.RefHost.lean ====
/-
  The reference program's parameter slices, affine images and rectified pre-activations, stretch by stretch.

  The reference's operations are read in consecutive stretches.  For ANY contents of its buffers at a stretch's
  entry, each array a later stretch reads is the stretch's own operations applied to the entry contents: a slice of
  a stacked parameter array at one layer; an affine image, the contraction of the features with a weight matrix
  plus a bias row repeated down the rows; the pre-activation, the aggregated messages plus the skip product plus
  its bias row plus the convolution's bias row, cut below at zero.  Each is stated as ONE equation between whole
  arrays, in the named pieces of the one-layer reading, so that the layer composes from them without any index.
-/
import proofs.«178820_j816043786337_1_alg».proof.Proof.Val.RefOps
import proofs.«178820_j816043786337_1_alg».proof.Proof.Val.Ref
import proofs.«178820_j816043786337_1_alg».proof.Proof.Val.KerHost
import Idealize.ShloMosaic.Lib.StableHlo.Run

set_option maxRecDepth 16384

noncomputable section

namespace Cert.Val.Ref

open Idealize.ShloMosaic Idealize.ShloMosaic.StableHlo
open Cert.ReferenceIdeal Cert.ReferenceIdeal.Gen Cert.ReferenceIdeal.ValueH Cert.Val

/-- Any contents of the reference program's buffers. -/
abbrev VR := Valuation τ sig (Elt Ideal)

/-! ## The first layer's parameter slices

The first stretch cuts the two endpoint rows out of the edge array and slice 0 out of every stacked parameter. -/

theorem A1_src (U : VR) :
    (StableHlo.after (opsA1 (F := Ideal)) U (Proc.devRef .tc main_v1) : VecE) = srcOf (U (Proc.devRef .tc main_arg1)) := by
  after_results; rfl

theorem A1_dst (U : VR) :
    (StableHlo.after (opsA1 (F := Ideal)) U (Proc.devRef .tc main_v3) : VecE) = dstOf (U (Proc.devRef .tc main_arg1)) := by
  after_results; rfl

theorem A1_Wk (U : VR) :
    (StableHlo.after (opsA1 (F := Ideal)) U (Proc.devRef .tc main_v5) : W64) = sliceMat0 (U (Proc.devRef .tc main_arg3)) := by
  after_results; rfl

theorem A1_bk (U : VR) :
    (StableHlo.after (opsA1 (F := Ideal)) U (Proc.devRef .tc main_v7) : R64) = sliceRow0 (U (Proc.devRef .tc main_arg4)) := by
  after_results; rfl

theorem A1_Wq (U : VR) :
    (StableHlo.after (opsA1 (F := Ideal)) U (Proc.devRef .tc main_v9) : W64) = sliceMat0 (U (Proc.devRef .tc main_arg5)) := by
  after_results; rfl

theorem A1_bq (U : VR) :
    (StableHlo.after (opsA1 (F := Ideal)) U (Proc.devRef .tc main_v11) : R64) = sliceRow0 (U (Proc.devRef .tc main_arg6)) := by
  after_results; rfl

theorem A1_Wv (U : VR) :
    (StableHlo.after (opsA1 (F := Ideal)) U (Proc.devRef .tc main_v13) : W64) = sliceMat0 (U (Proc.devRef .tc main_arg7)) := by
  after_results; rfl

theorem A1_bv (U : VR) :
    (StableHlo.after (opsA1 (F := Ideal)) U (Proc.devRef .tc main_v15) : R64) = sliceRow0 (U (Proc.devRef .tc main_arg8)) := by
  after_results; rfl

theorem A1_Ws (U : VR) :
    (StableHlo.after (opsA1 (F := Ideal)) U (Proc.devRef .tc main_v17) : W64) = sliceMat0 (U (Proc.devRef .tc main_arg9)) := by
  after_results; rfl

theorem A1_bs (U : VR) :
    (StableHlo.after (opsA1 (F := Ideal)) U (Proc.devRef .tc main_v19) : R64) = sliceRow0 (U (Proc.devRef .tc main_arg10)) := by
  after_results; rfl

theorem A1_bias (U : VR) :
    (StableHlo.after (opsA1 (F := Ideal)) U (Proc.devRef .tc main_v21) : R64) = sliceRow0 (U (Proc.devRef .tc main_arg11)) := by
  after_results; rfl

/-! ## The first layer's key, query and value images

Each is the features times a weight slice plus the matching bias slice, as the entry contents hold them. -/

theorem B1_key (U : VR) :
    (StableHlo.after (opsB1 (F := Ideal)) U (Proc.devRef .tc main_v25) : NF)
      = linV (U (Proc.devRef .tc main_arg0)) (U (Proc.devRef .tc main_v5)) (U (Proc.devRef .tc main_v7)) := by
  after_results; rfl

theorem B1_query (U : VR) :
    (StableHlo.after (opsB1 (F := Ideal)) U (Proc.devRef .tc main_v29) : NF)
      = linV (U (Proc.devRef .tc main_arg0)) (U (Proc.devRef .tc main_v9)) (U (Proc.devRef .tc main_v11)) := by
  after_results; rfl

theorem B1_value (U : VR) :
    (StableHlo.after (opsB1 (F := Ideal)) U (Proc.devRef .tc main_v33) : NF)
      = linV (U (Proc.devRef .tc main_arg0)) (U (Proc.devRef .tc main_v13)) (U (Proc.devRef .tc main_v15)) := by
  after_results; rfl

/-! ## The first layer's rectified pre-activation

The aggregated messages the entry contents hold, plus the skip product, its bias and the convolution's bias, cut
below at zero. -/

theorem D1_act (U : VR) :
    (StableHlo.after (opsD1 (F := Ideal)) U (Proc.devRef .tc main_v79) : NF)
      = preV (U (Proc.devRef .tc main_v70)) (U (Proc.devRef .tc main_arg0)) (U (Proc.devRef .tc main_v17))
          (U (Proc.devRef .tc main_v19)) (U (Proc.devRef .tc main_v21)) := by
  after_results; rfl

/-! ## The second layer's parameter slices: slice 1 of every stacked parameter -/

theorem A2_Wk (U : VR) :
    (StableHlo.after (opsA2 (F := Ideal)) U (Proc.devRef .tc main_v110) : W64) = sliceMat1 (U (Proc.devRef .tc main_arg3)) := by
  after_results; rfl

theorem A2_bk (U : VR) :
    (StableHlo.after (opsA2 (F := Ideal)) U (Proc.devRef .tc main_v112) : R64) = sliceRow1 (U (Proc.devRef .tc main_arg4)) := by
  after_results; rfl

theorem A2_Wq (U : VR) :
    (StableHlo.after (opsA2 (F := Ideal)) U (Proc.devRef .tc main_v114) : W64) = sliceMat1 (U (Proc.devRef .tc main_arg5)) := by
  after_results; rfl

theorem A2_bq (U : VR) :
    (StableHlo.after (opsA2 (F := Ideal)) U (Proc.devRef .tc main_v116) : R64) = sliceRow1 (U (Proc.devRef .tc main_arg6)) := by
  after_results; rfl

theorem A2_Wv (U : VR) :
    (StableHlo.after (opsA2 (F := Ideal)) U (Proc.devRef .tc main_v118) : W64) = sliceMat1 (U (Proc.devRef .tc main_arg7)) := by
  after_results; rfl

theorem A2_bv (U : VR) :
    (StableHlo.after (opsA2 (F := Ideal)) U (Proc.devRef .tc main_v120) : R64) = sliceRow1 (U (Proc.devRef .tc main_arg8)) := by
  after_results; rfl

theorem A2_Ws (U : VR) :
    (StableHlo.after (opsA2 (F := Ideal)) U (Proc.devRef .tc main_v122) : W64) = sliceMat1 (U (Proc.devRef .tc main_arg9)) := by
  after_results; rfl

theorem A2_bs (U : VR) :
    (StableHlo.after (opsA2 (F := Ideal)) U (Proc.devRef .tc main_v124) : R64) = sliceRow1 (U (Proc.devRef .tc main_arg10)) := by
  after_results; rfl

theorem A2_bias (U : VR) :
    (StableHlo.after (opsA2 (F := Ideal)) U (Proc.devRef .tc main_v126) : R64) = sliceRow1 (U (Proc.devRef .tc main_arg11)) := by
  after_results; rfl

/-! ## The second layer's key, query and value images: the same on the first layer's result -/

theorem B2_key (U : VR) :
    (StableHlo.after (opsB2 (F := Ideal)) U (Proc.devRef .tc main_v130) : NF)
      = linV (U (Proc.devRef .tc main_v108)) (U (Proc.devRef .tc main_v110)) (U (Proc.devRef .tc main_v112)) := by
  after_results; rfl

theorem B2_query (U : VR) :
    (StableHlo.after (opsB2 (F := Ideal)) U (Proc.devRef .tc main_v134) : NF)
      = linV (U (Proc.devRef .tc main_v108)) (U (Proc.devRef .tc main_v114)) (U (Proc.devRef .tc main_v116)) := by
  after_results; rfl

theorem B2_value (U : VR) :
    (StableHlo.after (opsB2 (F := Ideal)) U (Proc.devRef .tc main_v138) : NF)
      = linV (U (Proc.devRef .tc main_v108)) (U (Proc.devRef .tc main_v118)) (U (Proc.devRef .tc main_v120)) := by
  after_results; rfl

/-! ## The second layer's rectified pre-activation -/

theorem D2_act (U : VR) :
    (StableHlo.after (opsD2 (F := Ideal)) U (Proc.devRef .tc main_v184) : NF)
      = preV (U (Proc.devRef .tc main_v175)) (U (Proc.devRef .tc main_v108)) (U (Proc.devRef .tc main_v122))
          (U (Proc.devRef .tc main_v124)) (U (Proc.devRef .tc main_v126)) := by
  after_results; rfl

end Cert.Val.Ref

end
-- ==== Proof.Val.RefHostCE.lean ====
/-
  The reference program's edge-stage and normalisation stretches, read as plain terms.

  The reference's host operations are read a stretch at a time, for any contents of the buffers at the stretch's
  start. The edge stretch of a layer wraps the endpoints, gathers the key rows at the targets and the query and
  value rows at the sources, gates, and scatter-adds: operation for operation the shared edge stage, so what it
  leaves is that stage applied to the endpoints and the three images the stretch finds. The normalisation
  stretch takes the column means of the rectified pre-activation, the column means of the squared deviations, and
  scales and shifts: operation for operation the normalisation written once for any arrays, applied to the
  pre-activation the stretch finds and the layer's row of the stacked scales and shifts.
-/
import proofs.«178820_j816043786337_1_alg».proof.Proof.Val.RefOps
import proofs.«178820_j816043786337_1_alg».proof.Proof.Gen.KernelIdeal
import proofs.«178820_j816043786337_1_alg».proof.Proof.Val.Agg
import proofs.«178820_j816043786337_1_alg».proof.Proof.Val.Ref
import Idealize.ShloMosaic.Lib.StableHlo.Run

set_option maxRecDepth 16384

noncomputable section

namespace Cert.Val.Ref

open Idealize.ShloMosaic Idealize.ShloMosaic.ValueIdx Idealize.ShloMosaic.StableHlo
open Cert.ReferenceIdeal Cert.ReferenceIdeal.Gen Cert.Val

/-! ## The edge stage -/

/-- First layer: the aggregated messages are the shared edge stage on the key, query and value images at the
    endpoints the entry contents hold. -/
theorem C1_agg (U : Valuation Cert.ReferenceIdeal.τ Cert.ReferenceIdeal.sig (Elt Ideal)) :
    (StableHlo.after (Cert.ReferenceIdeal.ValueH.opsC1 (F := Ideal)) U (Proc.devRef .tc main_v70) : NF)
      = aggVec (U (Proc.devRef .tc main_v1)) (U (Proc.devRef .tc main_v3)) (U (Proc.devRef .tc main_v25))
          (U (Proc.devRef .tc main_v29)) (U (Proc.devRef .tc main_v33)) := by
  after_results_simp; rfl

/-- Second layer: the same on the second layer's images. -/
theorem C2_agg (U : Valuation Cert.ReferenceIdeal.τ Cert.ReferenceIdeal.sig (Elt Ideal)) :
    (StableHlo.after (Cert.ReferenceIdeal.ValueH.opsC2 (F := Ideal)) U (Proc.devRef .tc main_v175) : NF)
      = aggVec (U (Proc.devRef .tc main_v1)) (U (Proc.devRef .tc main_v3)) (U (Proc.devRef .tc main_v130))
          (U (Proc.devRef .tc main_v134)) (U (Proc.devRef .tc main_v138)) := by
  after_results_simp; rfl

/-! ## The normalisation -/

/-- First layer: the normalised features are the normalisation of the rectified pre-activation with the first rows
    of the stacked scales and shifts. -/
theorem E1_norm (U : Valuation Cert.ReferenceIdeal.τ Cert.ReferenceIdeal.sig (Elt Ideal)) :
    (StableHlo.after (Cert.ReferenceIdeal.ValueH.opsE1 (F := Ideal)) U (Proc.devRef .tc main_v108) : NF)
      = normV (U (Proc.devRef .tc main_v79)) (sliceRow0 (U (Proc.devRef .tc main_arg12)))
          (sliceRow0 (U (Proc.devRef .tc main_arg13))) := by
  after_results_simp; rfl

/-- Second layer: the same with the second rows. -/
theorem E2_norm (U : Valuation Cert.ReferenceIdeal.τ Cert.ReferenceIdeal.sig (Elt Ideal)) :
    (StableHlo.after (Cert.ReferenceIdeal.ValueH.opsE2 (F := Ideal)) U (Proc.devRef .tc main_v213) : NF)
      = normV (U (Proc.devRef .tc main_v184)) (sliceRow1 (U (Proc.devRef .tc main_arg12)))
          (sliceRow1 (U (Proc.devRef .tc main_arg13))) := by
  after_results_simp; rfl

end Cert.Val.Ref

end
-- ==== Proof.Val.RefKeep.lean ====
/-
  The reference program's ten stretches, one after another, and what each leaves untouched.

  The program is one straight line of host operations; it is read in ten stretches, five per layer: the slices of
  the stacked parameters, the key, query and value images, the edge stage, the rectified pre-activation, the
  normalisation. A stretch reads some buffers written by the stretch just before it and some written much earlier
  (the endpoint rows and the parameter slices from the layer's first stretch, the layer's input, the argument
  arrays). A buffer no operation of a stretch writes holds after the stretch what it held before; a buffer none of
  several consecutive stretches writes holds after the last what it held before the first.
-/
import proofs.«178820_j816043786337_1_alg».proof.Proof.Val.RefOps
import Idealize.ShloMosaic.Lib.StableHlo.Run
import Idealize.ShloMosaic.PureOps.Ideal

noncomputable section

namespace Cert.Val.Ref

open Idealize.ShloMosaic Idealize.ShloMosaic.StableHlo
open Cert.ReferenceIdeal Cert.ReferenceIdeal.Gen Cert.ReferenceIdeal.ValueH

/-- A TensorCore reference of the reference program as a device reference. -/
abbrev rd (b : Ref sig .tc) : DevRef τ sig := Proc.devRef .tc b

variable (U : Valuation τ sig (Elt Ideal))

/-! ## The ten stages -/

/-- After the first layer's parameter slices. -/
abbrev sA1 : Valuation τ sig (Elt Ideal) := after (opsA1 (F := Ideal)) U
/-- After the first layer's key, query and value images. -/
abbrev sB1 : Valuation τ sig (Elt Ideal) := after (opsB1 (F := Ideal)) (sA1 U)
/-- After the first layer's edge stage. -/
abbrev sC1 : Valuation τ sig (Elt Ideal) := after (opsC1 (F := Ideal)) (sB1 U)
/-- After the first layer's rectified pre-activation. -/
abbrev sD1 : Valuation τ sig (Elt Ideal) := after (opsD1 (F := Ideal)) (sC1 U)
/-- After the first layer's normalisation. -/
abbrev sE1 : Valuation τ sig (Elt Ideal) := after (opsE1 (F := Ideal)) (sD1 U)
/-- After the second layer's parameter slices. -/
abbrev sA2 : Valuation τ sig (Elt Ideal) := after (opsA2 (F := Ideal)) (sE1 U)
/-- After the second layer's key, query and value images. -/
abbrev sB2 : Valuation τ sig (Elt Ideal) := after (opsB2 (F := Ideal)) (sA2 U)
/-- After the second layer's edge stage. -/
abbrev sC2 : Valuation τ sig (Elt Ideal) := after (opsC2 (F := Ideal)) (sB2 U)
/-- After the second layer's rectified pre-activation. -/
abbrev sD2 : Valuation τ sig (Elt Ideal) := after (opsD2 (F := Ideal)) (sC2 U)
/-- After the second layer's normalisation: the end of the program. -/
abbrev sE2 : Valuation τ sig (Elt Ideal) := after (opsE2 (F := Ideal)) (sD2 U)

/-- All the operations' fold is the last stage. -/
theorem after_ops_stages : after (ops (F := Ideal)) U = sE2 U := after_ops U

/-! ## A stretch keeps what it does not write -/

theorem keepA1 (r : Ref sig .tc) (h : r ∉ opsA1_W) : sA1 U (rd r) = U (rd r) :=
  after_of_writes_sub opsA1 _ opsA1_writes h
theorem keepB1 (r : Ref sig .tc) (h : r ∉ opsB1_W) : sB1 U (rd r) = sA1 U (rd r) :=
  after_of_writes_sub opsB1 _ opsB1_writes h
theorem keepC1 (r : Ref sig .tc) (h : r ∉ opsC1_W) : sC1 U (rd r) = sB1 U (rd r) :=
  after_of_writes_sub opsC1 _ opsC1_writes h
theorem keepD1 (r : Ref sig .tc) (h : r ∉ opsD1_W) : sD1 U (rd r) = sC1 U (rd r) :=
  after_of_writes_sub opsD1 _ opsD1_writes h
theorem keepE1 (r : Ref sig .tc) (h : r ∉ opsE1_W) : sE1 U (rd r) = sD1 U (rd r) :=
  after_of_writes_sub opsE1 _ opsE1_writes h
theorem keepA2 (r : Ref sig .tc) (h : r ∉ opsA2_W) : sA2 U (rd r) = sE1 U (rd r) :=
  after_of_writes_sub opsA2 _ opsA2_writes h
theorem keepB2 (r : Ref sig .tc) (h : r ∉ opsB2_W) : sB2 U (rd r) = sA2 U (rd r) :=
  after_of_writes_sub opsB2 _ opsB2_writes h
theorem keepC2 (r : Ref sig .tc) (h : r ∉ opsC2_W) : sC2 U (rd r) = sB2 U (rd r) :=
  after_of_writes_sub opsC2 _ opsC2_writes h
theorem keepD2 (r : Ref sig .tc) (h : r ∉ opsD2_W) : sD2 U (rd r) = sC2 U (rd r) :=
  after_of_writes_sub opsD2 _ opsD2_writes h

/-! ## Several stretches in a row -/

/-- From the first layer's slices to its edge stage. -/
theorem keepA1_C1 (r : Ref sig .tc) (hB : r ∉ opsB1_W) (hC : r ∉ opsC1_W) : sC1 U (rd r) = sA1 U (rd r) :=
  (keepC1 U r hC).trans (keepB1 U r hB)
/-- From launch to the first layer's edge stage. -/
theorem keep_C1 (r : Ref sig .tc) (hA : r ∉ opsA1_W) (hB : r ∉ opsB1_W) (hC : r ∉ opsC1_W) :
    sC1 U (rd r) = U (rd r) :=
  (keepA1_C1 U r hB hC).trans (keepA1 U r hA)
/-- From launch to the first layer's pre-activation. -/
theorem keep_D1 (r : Ref sig .tc) (hA : r ∉ opsA1_W) (hB : r ∉ opsB1_W) (hC : r ∉ opsC1_W) (hD : r ∉ opsD1_W) :
    sD1 U (rd r) = U (rd r) :=
  (keepD1 U r hD).trans (keep_C1 U r hA hB hC)
/-- From launch to the end of the first layer. -/
theorem keep_E1 (r : Ref sig .tc) (hA : r ∉ opsA1_W) (hB : r ∉ opsB1_W) (hC : r ∉ opsC1_W) (hD : r ∉ opsD1_W)
    (hE : r ∉ opsE1_W) : sE1 U (rd r) = U (rd r) :=
  (keepE1 U r hE).trans (keep_D1 U r hA hB hC hD)
/-- From the end of the first layer to the second layer's edge stage. -/
theorem keepE1_C2 (r : Ref sig .tc) (hA : r ∉ opsA2_W) (hB : r ∉ opsB2_W) (hC : r ∉ opsC2_W) :
    sC2 U (rd r) = sE1 U (rd r) :=
  (keepC2 U r hC).trans ((keepB2 U r hB).trans (keepA2 U r hA))
/-- From the second layer's slices to its edge stage. -/
theorem keepA2_C2 (r : Ref sig .tc) (hB : r ∉ opsB2_W) (hC : r ∉ opsC2_W) : sC2 U (rd r) = sA2 U (rd r) :=
  (keepC2 U r hC).trans (keepB2 U r hB)
/-- From the first layer's slices to the second layer's images: the endpoint rows' span. -/
theorem keepA1_B2 (r : Ref sig .tc) (hB1 : r ∉ opsB1_W) (hC1 : r ∉ opsC1_W) (hD1 : r ∉ opsD1_W) (hE1 : r ∉ opsE1_W)
    (hA2 : r ∉ opsA2_W) (hB2 : r ∉ opsB2_W) : sB2 U (rd r) = sA1 U (rd r) :=
  (keepB2 U r hB2).trans ((keepA2 U r hA2).trans ((keepE1 U r hE1).trans ((keepD1 U r hD1).trans
    (keepA1_C1 U r hB1 hC1))))
/-- From launch to the second layer's pre-activation. -/
theorem keep_D2 (r : Ref sig .tc) (hA1 : r ∉ opsA1_W) (hB1 : r ∉ opsB1_W) (hC1 : r ∉ opsC1_W) (hD1 : r ∉ opsD1_W)
    (hE1 : r ∉ opsE1_W) (hA2 : r ∉ opsA2_W) (hB2 : r ∉ opsB2_W) (hC2 : r ∉ opsC2_W) (hD2 : r ∉ opsD2_W) :
    sD2 U (rd r) = U (rd r) :=
  (keepD2 U r hD2).trans ((keepE1_C2 U r hA2 hB2 hC2).trans (keep_E1 U r hA1 hB1 hC1 hD1 hE1))

/-! ## What each stretch reads from earlier ones -/

/-- The node features, read by the first layer's images and by its pre-activation. -/
theorem sA1_arg0 : sA1 U (rd main_arg0) = U (rd main_arg0) := keepA1 U main_arg0 (by decide)
theorem sC1_arg0 : sC1 U (rd main_arg0) = U (rd main_arg0) := keep_C1 U main_arg0 (by decide) (by decide) (by decide)

/-- The endpoint rows, read by the first layer's edge stage. -/
theorem sB1_src : sB1 U (rd main_v1) = sA1 U (rd main_v1) := keepB1 U main_v1 (by decide)
theorem sB1_dst : sB1 U (rd main_v3) = sA1 U (rd main_v3) := keepB1 U main_v3 (by decide)

/-- The skip weights, skip bias and bias slices, read by the first layer's pre-activation. -/
theorem sC1_Ws : sC1 U (rd main_v17) = sA1 U (rd main_v17) := keepA1_C1 U main_v17 (by decide) (by decide)
theorem sC1_bs : sC1 U (rd main_v19) = sA1 U (rd main_v19) := keepA1_C1 U main_v19 (by decide) (by decide)
theorem sC1_bias : sC1 U (rd main_v21) = sA1 U (rd main_v21) := keepA1_C1 U main_v21 (by decide) (by decide)

/-- The stacked scales and shifts, read by the first layer's normalisation. -/
theorem sD1_arg12 : sD1 U (rd main_arg12) = U (rd main_arg12) :=
  keep_D1 U main_arg12 (by decide) (by decide) (by decide) (by decide)
theorem sD1_arg13 : sD1 U (rd main_arg13) = U (rd main_arg13) :=
  keep_D1 U main_arg13 (by decide) (by decide) (by decide) (by decide)

/-- The argument arrays, read by the second layer's parameter slices. -/
theorem sE1_arg1 : sE1 U (rd main_arg1) = U (rd main_arg1) :=
  keep_E1 U main_arg1 (by decide) (by decide) (by decide) (by decide) (by decide)
theorem sE1_arg3 : sE1 U (rd main_arg3) = U (rd main_arg3) :=
  keep_E1 U main_arg3 (by decide) (by decide) (by decide) (by decide) (by decide)
theorem sE1_arg4 : sE1 U (rd main_arg4) = U (rd main_arg4) :=
  keep_E1 U main_arg4 (by decide) (by decide) (by decide) (by decide) (by decide)
theorem sE1_arg5 : sE1 U (rd main_arg5) = U (rd main_arg5) :=
  keep_E1 U main_arg5 (by decide) (by decide) (by decide) (by decide) (by decide)
theorem sE1_arg6 : sE1 U (rd main_arg6) = U (rd main_arg6) :=
  keep_E1 U main_arg6 (by decide) (by decide) (by decide) (by decide) (by decide)
theorem sE1_arg7 : sE1 U (rd main_arg7) = U (rd main_arg7) :=
  keep_E1 U main_arg7 (by decide) (by decide) (by decide) (by decide) (by decide)
theorem sE1_arg8 : sE1 U (rd main_arg8) = U (rd main_arg8) :=
  keep_E1 U main_arg8 (by decide) (by decide) (by decide) (by decide) (by decide)
theorem sE1_arg9 : sE1 U (rd main_arg9) = U (rd main_arg9) :=
  keep_E1 U main_arg9 (by decide) (by decide) (by decide) (by decide) (by decide)
theorem sE1_arg10 : sE1 U (rd main_arg10) = U (rd main_arg10) :=
  keep_E1 U main_arg10 (by decide) (by decide) (by decide) (by decide) (by decide)
theorem sE1_arg11 : sE1 U (rd main_arg11) = U (rd main_arg11) :=
  keep_E1 U main_arg11 (by decide) (by decide) (by decide) (by decide) (by decide)

/-- The first layer's output, read by the second layer's images and by its pre-activation. -/
theorem sA2_x : sA2 U (rd main_v108) = sE1 U (rd main_v108) := keepA2 U main_v108 (by decide)
theorem sC2_x : sC2 U (rd main_v108) = sE1 U (rd main_v108) :=
  keepE1_C2 U main_v108 (by decide) (by decide) (by decide)

/-- The endpoint rows, read by the second layer's edge stage. -/
theorem sB2_src : sB2 U (rd main_v1) = sA1 U (rd main_v1) :=
  keepA1_B2 U main_v1 (by decide) (by decide) (by decide) (by decide) (by decide) (by decide)
theorem sB2_dst : sB2 U (rd main_v3) = sA1 U (rd main_v3) :=
  keepA1_B2 U main_v3 (by decide) (by decide) (by decide) (by decide) (by decide) (by decide)

/-- The second layer's skip weights, skip bias and bias slices, read by its pre-activation. -/
theorem sC2_Ws : sC2 U (rd main_v122) = sA2 U (rd main_v122) := keepA2_C2 U main_v122 (by decide) (by decide)
theorem sC2_bs : sC2 U (rd main_v124) = sA2 U (rd main_v124) := keepA2_C2 U main_v124 (by decide) (by decide)
theorem sC2_bias : sC2 U (rd main_v126) = sA2 U (rd main_v126) := keepA2_C2 U main_v126 (by decide) (by decide)

/-- The stacked scales and shifts, read by the second layer's normalisation. -/
theorem sD2_arg12 : sD2 U (rd main_arg12) = U (rd main_arg12) :=
  keep_D2 U main_arg12 (by decide) (by decide) (by decide) (by decide) (by decide) (by decide) (by decide) (by decide)
    (by decide)
theorem sD2_arg13 : sD2 U (rd main_arg13) = U (rd main_arg13) :=
  keep_D2 U main_arg13 (by decide) (by decide) (by decide) (by decide) (by decide) (by decide) (by decide) (by decide)
    (by decide)

end Cert.Val.Ref

end
-- ==== Proof.Val.RefChain.lean ====
/-
  The reference program's result: its ten stretches composed.

  The program is read in ten stretches, five per layer. For arbitrary entry contents, each stretch's result buffer is
  one of the layer's stages applied to buffers the stretch reads; a buffer a stretch reads was either written by an
  earlier stretch or is an argument array no stretch writes. Substituting stage by stage, the first layer's last
  buffer holds the layer on arrays applied to the input features and slice 0 of every stacked parameter array, and
  the program's result buffer holds the same layer applied to that and slice 1. Read as matrices, these are two
  layers in the second arrangement.
-/
import proofs.«178820_j816043786337_1_alg».proof.Proof.Val.Ref
import proofs.«178820_j816043786337_1_alg».proof.Proof.Val.RefOps
import proofs.«178820_j816043786337_1_alg».proof.Proof.Val.RefHost
import proofs.«178820_j816043786337_1_alg».proof.Proof.Val.RefHostCE
import proofs.«178820_j816043786337_1_alg».proof.Proof.Val.RefKeep
import proofs.«178820_j816043786337_1_alg».proof.Proof.Val.KerHost
import Idealize.ShloMosaic.Lib.StableHlo.Run

noncomputable section

namespace Cert.Val.Ref

open Idealize.ShloMosaic Idealize.ShloMosaic.StableHlo
open Cert.ReferenceIdeal Cert.ReferenceIdeal.Gen Cert.ReferenceIdeal.ValueH Cert.Val

variable (U : Valuation τ sig (Elt Ideal))

/-! ## The stages as functions of the entry contents -/

/-- The source endpoints: row 0 of the edge array held at entry. -/
def srcU : VecE := srcOf (U (rd main_arg1))
/-- The target endpoints: row 1 of the edge array. -/
def dstU : VecE := dstOf (U (rd main_arg1))

/-- The first layer's key image. -/
def key1 : NF := linV (U (rd main_arg0)) (sliceMat0 (U (rd main_arg3))) (sliceRow0 (U (rd main_arg4)))
/-- The first layer's query image. -/
def query1 : NF := linV (U (rd main_arg0)) (sliceMat0 (U (rd main_arg5))) (sliceRow0 (U (rd main_arg6)))
/-- The first layer's value image. -/
def value1 : NF := linV (U (rd main_arg0)) (sliceMat0 (U (rd main_arg7))) (sliceRow0 (U (rd main_arg8)))
/-- The first layer's aggregated messages. -/
def agg1 : NF := aggVec (srcU U) (dstU U) (key1 U) (query1 U) (value1 U)
/-- The first layer's rectified pre-activation. -/
def act1 : NF :=
  preV (agg1 U) (U (rd main_arg0)) (sliceMat0 (U (rd main_arg9))) (sliceRow0 (U (rd main_arg10))) (sliceRow0 (U (rd main_arg11)))
/-- The first layer's result. -/
def out1 : NF := normV (act1 U) (sliceRow0 (U (rd main_arg12))) (sliceRow0 (U (rd main_arg13)))

/-- The second layer's key image, of the first layer's result. -/
def key2 : NF := linV (out1 U) (sliceMat1 (U (rd main_arg3))) (sliceRow1 (U (rd main_arg4)))
/-- The second layer's query image. -/
def query2 : NF := linV (out1 U) (sliceMat1 (U (rd main_arg5))) (sliceRow1 (U (rd main_arg6)))
/-- The second layer's value image. -/
def value2 : NF := linV (out1 U) (sliceMat1 (U (rd main_arg7))) (sliceRow1 (U (rd main_arg8)))
/-- The second layer's aggregated messages. -/
def agg2 : NF := aggVec (srcU U) (dstU U) (key2 U) (query2 U) (value2 U)
/-- The second layer's rectified pre-activation. -/
def act2 : NF :=
  preV (agg2 U) (out1 U) (sliceMat1 (U (rd main_arg9))) (sliceRow1 (U (rd main_arg10))) (sliceRow1 (U (rd main_arg11)))
/-- The second layer's result. -/
def out2 : NF := normV (act2 U) (sliceRow1 (U (rd main_arg12))) (sliceRow1 (U (rd main_arg13)))

/-! ## The first layer, stage by stage -/

theorem sB1_key : (sB1 U (rd main_v25) : NF) = key1 U := by
  refine (B1_key (sA1 U)).trans ?_
  rw [sA1_arg0 U, show sA1 U (rd main_v5) = _ from A1_Wk U, show sA1 U (rd main_v7) = _ from A1_bk U]
  rfl

theorem sB1_query : (sB1 U (rd main_v29) : NF) = query1 U := by
  refine (B1_query (sA1 U)).trans ?_
  rw [sA1_arg0 U, show sA1 U (rd main_v9) = _ from A1_Wq U, show sA1 U (rd main_v11) = _ from A1_bq U]
  rfl

theorem sB1_value : (sB1 U (rd main_v33) : NF) = value1 U := by
  refine (B1_value (sA1 U)).trans ?_
  rw [sA1_arg0 U, show sA1 U (rd main_v13) = _ from A1_Wv U, show sA1 U (rd main_v15) = _ from A1_bv U]
  rfl

theorem sC1_agg : (sC1 U (rd main_v70) : NF) = agg1 U := by
  refine (C1_agg (sB1 U)).trans ?_
  rw [sB1_src U, sB1_dst U, show sA1 U (rd main_v1) = _ from A1_src U, show sA1 U (rd main_v3) = _ from A1_dst U,
    sB1_key U, sB1_query U, sB1_value U]
  rfl

theorem sD1_act : (sD1 U (rd main_v79) : NF) = act1 U := by
  refine (D1_act (sC1 U)).trans ?_
  rw [sC1_agg U, sC1_arg0 U, sC1_Ws U, sC1_bs U, sC1_bias U, show sA1 U (rd main_v17) = _ from A1_Ws U,
    show sA1 U (rd main_v19) = _ from A1_bs U, show sA1 U (rd main_v21) = _ from A1_bias U]
  rfl

theorem sE1_out : (sE1 U (rd main_v108) : NF) = out1 U := by
  refine (E1_norm (sD1 U)).trans ?_
  rw [sD1_act U, sD1_arg12 U, sD1_arg13 U]
  rfl

/-! ## The second layer's parameter slices -/

theorem sA2_Wk : (sA2 U (rd main_v110) : W64) = sliceMat1 (U (rd main_arg3)) := by
  refine (A2_Wk (sE1 U)).trans ?_
  rw [sE1_arg3 U]

theorem sA2_bk : (sA2 U (rd main_v112) : R64) = sliceRow1 (U (rd main_arg4)) := by
  refine (A2_bk (sE1 U)).trans ?_
  rw [sE1_arg4 U]

theorem sA2_Wq : (sA2 U (rd main_v114) : W64) = sliceMat1 (U (rd main_arg5)) := by
  refine (A2_Wq (sE1 U)).trans ?_
  rw [sE1_arg5 U]

theorem sA2_bq : (sA2 U (rd main_v116) : R64) = sliceRow1 (U (rd main_arg6)) := by
  refine (A2_bq (sE1 U)).trans ?_
  rw [sE1_arg6 U]

theorem sA2_Wv : (sA2 U (rd main_v118) : W64) = sliceMat1 (U (rd main_arg7)) := by
  refine (A2_Wv (sE1 U)).trans ?_
  rw [sE1_arg7 U]

theorem sA2_bv : (sA2 U (rd main_v120) : R64) = sliceRow1 (U (rd main_arg8)) := by
  refine (A2_bv (sE1 U)).trans ?_
  rw [sE1_arg8 U]

theorem sA2_Ws : (sA2 U (rd main_v122) : W64) = sliceMat1 (U (rd main_arg9)) := by
  refine (A2_Ws (sE1 U)).trans ?_
  rw [sE1_arg9 U]

theorem sA2_bs : (sA2 U (rd main_v124) : R64) = sliceRow1 (U (rd main_arg10)) := by
  refine (A2_bs (sE1 U)).trans ?_
  rw [sE1_arg10 U]

theorem sA2_bias : (sA2 U (rd main_v126) : R64) = sliceRow1 (U (rd main_arg11)) := by
  refine (A2_bias (sE1 U)).trans ?_
  rw [sE1_arg11 U]

/-! ## The second layer, stage by stage -/

theorem sB2_key : (sB2 U (rd main_v130) : NF) = key2 U := by
  refine (B2_key (sA2 U)).trans ?_
  rw [sA2_x U, sE1_out U, sA2_Wk U, sA2_bk U]
  rfl

theorem sB2_query : (sB2 U (rd main_v134) : NF) = query2 U := by
  refine (B2_query (sA2 U)).trans ?_
  rw [sA2_x U, sE1_out U, sA2_Wq U, sA2_bq U]
  rfl

theorem sB2_value : (sB2 U (rd main_v138) : NF) = value2 U := by
  refine (B2_value (sA2 U)).trans ?_
  rw [sA2_x U, sE1_out U, sA2_Wv U, sA2_bv U]
  rfl

theorem sC2_agg : (sC2 U (rd main_v175) : NF) = agg2 U := by
  refine (C2_agg (sB2 U)).trans ?_
  rw [sB2_src U, sB2_dst U, show sA1 U (rd main_v1) = _ from A1_src U, show sA1 U (rd main_v3) = _ from A1_dst U,
    sB2_key U, sB2_query U, sB2_value U]
  rfl

theorem sD2_act : (sD2 U (rd main_v184) : NF) = act2 U := by
  refine (D2_act (sC2 U)).trans ?_
  rw [sC2_agg U, sC2_x U, sE1_out U, sC2_Ws U, sC2_bs U, sC2_bias U, sA2_Ws U, sA2_bs U, sA2_bias U]
  rfl

theorem sE2_out : (sE2 U (rd main_v213) : NF) = out2 U := by
  refine (E2_norm (sD2 U)).trans ?_
  rw [sD2_act U, sD2_arg12 U, sD2_arg13 U]
  rfl

/-! ## The two results are the layer on arrays, twice -/

theorem out1_eq : out1 U = layerV (srcU U) (dstU U) (U (rd main_arg0)) (sliceMat0 (U (rd main_arg3)))
    (sliceRow0 (U (rd main_arg4))) (sliceMat0 (U (rd main_arg5))) (sliceRow0 (U (rd main_arg6)))
    (sliceMat0 (U (rd main_arg7))) (sliceRow0 (U (rd main_arg8))) (sliceMat0 (U (rd main_arg9)))
    (sliceRow0 (U (rd main_arg10))) (sliceRow0 (U (rd main_arg11))) (sliceRow0 (U (rd main_arg12)))
    (sliceRow0 (U (rd main_arg13))) := rfl

theorem out2_eq : out2 U = layerV (srcU U) (dstU U) (out1 U) (sliceMat1 (U (rd main_arg3)))
    (sliceRow1 (U (rd main_arg4))) (sliceMat1 (U (rd main_arg5))) (sliceRow1 (U (rd main_arg6)))
    (sliceMat1 (U (rd main_arg7))) (sliceRow1 (U (rd main_arg8))) (sliceMat1 (U (rd main_arg9)))
    (sliceRow1 (U (rd main_arg10))) (sliceRow1 (U (rd main_arg11))) (sliceRow1 (U (rd main_arg12)))
    (sliceRow1 (U (rd main_arg13))) := rfl

/-- The program's result as matrices: the second arrangement twice, layer l on slice l of the parameter arrays. -/
theorem toMat_out2 :
    toMat (out2 U)
      = layerR (aggI (srcU U) (dstU U))
          (paramsOf 1 (U (rd main_arg3)) (U (rd main_arg5)) (U (rd main_arg7)) (U (rd main_arg9)) (U (rd main_arg4))
            (U (rd main_arg6)) (U (rd main_arg8)) (U (rd main_arg10)) (U (rd main_arg11)) (U (rd main_arg12))
            (U (rd main_arg13)))
          (layerR (aggI (srcU U) (dstU U))
            (paramsOf 0 (U (rd main_arg3)) (U (rd main_arg5)) (U (rd main_arg7)) (U (rd main_arg9)) (U (rd main_arg4))
              (U (rd main_arg6)) (U (rd main_arg8)) (U (rd main_arg10)) (U (rd main_arg11)) (U (rd main_arg12))
              (U (rd main_arg13)))
            (toMat (U (rd main_arg0)))) := by
  have h0 : toMat (out1 U) = _ := (congrArg toMat (out1_eq U)).trans (toMat_layerV _ _ _ _ _ _ _ _ _ _ _ _ _ _)
  rw [paramsV_slice0] at h0
  have h1 : toMat (out2 U) = _ := (congrArg toMat (out2_eq U)).trans (toMat_layerV _ _ _ _ _ _ _ _ _ _ _ _ _ _)
  rw [paramsV_slice1, h0] at h1
  exact h1

end Cert.Val.Ref

namespace Cert.Val

open Cert.ReferenceIdeal Cert.ReferenceIdeal.Gen Cert.ReferenceIdeal.ValueH Idealize.ShloMosaic Idealize.ShloMosaic.TcCoe
  Idealize.SL.Sem Idealize.ShloMosaic.StableHlo

/-- The reference's result buffer after all its operations, from the launch memory: two layers in the second
    arrangement on the argument arrays, the edge lists rows 0 and 1 of the edge array. -/
theorem ref_result (m : (ℓ : Loc nD τ sig) → Buf (Elt Ideal) ℓ) (c : Dev nD) :
    StableHlo.after (Cert.ReferenceIdeal.ValueH.ops (F := Ideal)) (StableHlo.launchContents m c)
        (Proc.devRef .tc Cert.ReferenceIdeal.main_v213)
      = toVec (layerR (aggI (srcOf (m ((c.tc : Thread nD τ).loc main_arg1))) (dstOf (m ((c.tc : Thread nD τ).loc main_arg1))))
          (paramsOf 1 (m ((c.tc : Thread nD τ).loc main_arg3)) (m ((c.tc : Thread nD τ).loc main_arg5))
            (m ((c.tc : Thread nD τ).loc main_arg7)) (m ((c.tc : Thread nD τ).loc main_arg9))
            (m ((c.tc : Thread nD τ).loc main_arg4)) (m ((c.tc : Thread nD τ).loc main_arg6))
            (m ((c.tc : Thread nD τ).loc main_arg8)) (m ((c.tc : Thread nD τ).loc main_arg10))
            (m ((c.tc : Thread nD τ).loc main_arg11)) (m ((c.tc : Thread nD τ).loc main_arg12))
            (m ((c.tc : Thread nD τ).loc main_arg13)))
          (layerR (aggI (srcOf (m ((c.tc : Thread nD τ).loc main_arg1))) (dstOf (m ((c.tc : Thread nD τ).loc main_arg1))))
            (paramsOf 0 (m ((c.tc : Thread nD τ).loc main_arg3)) (m ((c.tc : Thread nD τ).loc main_arg5))
              (m ((c.tc : Thread nD τ).loc main_arg7)) (m ((c.tc : Thread nD τ).loc main_arg9))
              (m ((c.tc : Thread nD τ).loc main_arg4)) (m ((c.tc : Thread nD τ).loc main_arg6))
              (m ((c.tc : Thread nD τ).loc main_arg8)) (m ((c.tc : Thread nD τ).loc main_arg10))
              (m ((c.tc : Thread nD τ).loc main_arg11)) (m ((c.tc : Thread nD τ).loc main_arg12))
              (m ((c.tc : Thread nD τ).loc main_arg13)))
            (toMat (m ((c.tc : Thread nD τ).loc main_arg0))))) := by
  rw [Cert.Val.Ref.after_ops_stages, Cert.Val.Ref.sE2_out, ← toVec_toMat (Cert.Val.Ref.out2 _), Cert.Val.Ref.toMat_out2]
  rfl

end Cert.Val

end
-- ==== Proof.Val.KerRegionsA.lean ====
import proofs.«178820_j816043786337_1_alg».proof.Proof.KI.Region0
import proofs.«178820_j816043786337_1_alg».proof.Proof.KI.Region2
import proofs.«178820_j816043786337_1_alg».proof.Proof.KI.Region3
import proofs.«178820_j816043786337_1_alg».proof.Proof.KI.Region5
import proofs.«178820_j816043786337_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-!
# The four stateless regions, read as whole arrays on the extended reals

Each of these regions walks 25 blocks of 4000 rows. Its result block at a point is a function of the input
blocks at that point alone, and the 25 result blocks tile the result array; so after the region the result
array is ONE function of the arrays the region found on entry, index by index:

* a linear region leaves at row `r`, column `j` the inner product of row `r` of its first operand with column
  `j` of the weights, plus entry `j` of the bias row (on the extended reals the narrowing of the operands to
  the short float format is the identity, and the product accumulated into the zero matrix is the plain sum);
* a normalisation region leaves at row `r`, column `j`
  `((y r j − mean j) · rdev j) · scale j + shift j`.

For each region: the block's payload read at explicit coordinates; where each window's block sits in its
array at a grid point (block index × block size + the coordinate inside the block, the block indices decided
once over the grid); hence what the point writes back is the matching block of the whole-array function; the
blocks cover the array (row `r` lies in the block of point `r / 4000`); hence the array.
-/

set_option maxRecDepth 16384

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

-- the TensorCore's buffer contents when a region is entered, arbitrary
variable (V : (c : Dev nD) → (b : Ref sig .tc) → Buf (Elt Ideal) ((c : Thread nD τ).loc b))

/-- The offset vector of a whole-buffer access is zero on both axes. -/
theorem offsets_zero2 : (![0, 0] : Fin 2 → Nat) = fun _ => 0 := funext fun a => by fin_cases a <;> rfl

/-- Product and sum on the extended reals, spelled with their type: an array read at an index has the
    element type of its reference, which is the extended reals only after unfolding. -/
local infixl:70 " *ₑ " => @HMul.hMul EReal EReal EReal instHMul
local infixl:65 " +ₑ " => @HAdd.hAdd EReal EReal EReal instHAdd
local infixl:65 " -ₑ " => @HSub.hSub EReal EReal EReal instHSub

/-! ## The two whole-array functions -/

/-- Rows times weights plus a bias row: at `(r, j)` the inner product of row `r` of `a0` with column `j` of
    `a1`, plus `a2` at `j`. -/
def linearOf (a0 : S100000x64.Idx → EReal) (a1 : S64x256.Idx → EReal) (a2 : S1x256.Idx → EReal) : S100000x256.Idx → EReal :=
  fun i => (∑ k : Fin 64, a0 (ix2 (i 0) k) * a1 (ix2 k (i 1))) + a2 (ix2 (0 : Fin 1) (i 1))

/-- Column-wise scale and shift: at `(r, j)`, `((y r j − mean j) · rdev j) · scale j + shift j`. -/
def scaleShiftOf (y : S100000x64.Idx → EReal) (mean rdev scale shift : S1x64.Idx → EReal) : S100000x64.Idx → EReal :=
  fun i => ((y i - mean (ix2 (0 : Fin 1) (i 1))) * rdev (ix2 (0 : Fin 1) (i 1))) * scale (ix2 (0 : Fin 1) (i 1))
    + shift (ix2 (0 : Fin 1) (i 1))

/-! ## Linear region 0 -/

/-- The result block's payload at row `p`, column `j` of the block: the inner product of row `p` of the row
    block with column `j` of the weights, plus the bias at `j`. -/
theorem linear0_payload_apply (x0 : Vec Ideal S4000x64 .f32) (x1 : Vec Ideal S64x256 .f32) (x2 : Vec Ideal S1x256 .f32)
    (p : Fin 4000) (j : Fin 256) :
    k0_pay1 (F := Ideal) x0 x1 x2 (ix2 p j) = (∑ k : Fin 64, x0 (ix2 p k) * x1 (ix2 k j)) + x2 (ix2 (0 : Fin 1) j) := by
  unfold k0_pay1
  simp only [shapeCast_self]
  exact congrArg₂ (fun a b : EReal => a + b)
    (Cert.LibDot.matmul_zero_plain_apply (M := 4000) (K := 64) (N := 256) dot_S4000x64_S64x256_S4000x256_1_0_0_1_n_n
      rfl rfl rfl rfl rfl rfl none _ _ (ix2 p j))
    (broadcastTo_1b_ab_apply (a := 4000) (b := 256) x2 broadcasts_S1x256_S4000x256 p j)

/-- The block indices over the grid: the row block and the result block move with the point along the rows;
    the weights and the bias stay at block (0, 0). -/
theorem linear0_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array function of the entry contents. -/
theorem linear0_flushed (c : Dev nD) (t : Fin cfg0.N) :
    (dat0 (F := Ideal) V c).flushed 3 t
      = ((cfg0.win 3).blk t).view.read (Elt Ideal) (linearOf (V c main_arg0) (V c main_v12) (V c main_v22)) := by
  show (cfg0.win 3).cut (grid0.coords t) ((dat0 (F := Ideal) V c).after 3 t) = _
  rw [after0_3]
  unfold out0_3
  rw [View.canon_unit_zero offsets_zero2]
  simp only [View.ld_unit_zero (S := S4000x64) offsets_zero2, View.ld_unit_zero (S := S64x256) offsets_zero2,
    View.ld_unit_zero (S := S1x256) offsets_zero2]
  obtain ⟨e00, e01, e10, e11, e20, e21, e30, e31⟩ := linear0_indices t
  funext y
  obtain ⟨p, j, rfl⟩ : ∃ (p : Fin 4000) (j : Fin 256), y = ix2 p j := ⟨y 0, y 1, eq_ix2 y⟩
  show k0_pay1 (F := Ideal) (iblk0 V c 0 t) (iblk0 V c 1 t) (iblk0 V c 2 t) (ix2 p j)
    = linearOf (V c main_arg0) (V c main_v12) (V c main_v22) (((cfg0.win 3).blk t).view.emb (ix2 p j))
  refine (linear0_payload_apply (iblk0 V c 0 t) (iblk0 V c 1 t) (iblk0 V c 2 t) p j).trans ?_
  unfold linearOf
  refine congrArg₂ (fun a b : EReal => a + b) (Finset.sum_congr rfl fun k _ => congrArg₂ (fun a b : EReal => a * b) ?_ ?_) ?_
  · show V c main_arg0 (((cfg0.win 0).blk t).view.emb (ix2 p k)) = V c main_arg0 (ix2 ((((cfg0.win 3).blk t).view.emb (ix2 p j)) 0) k)
    refine congrArg (V c main_arg0) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 64 + 1 * k.val = k.val; omega
  · show V c main_v12 (((cfg0.win 1).blk t).view.emb (ix2 k j)) = V c main_v12 (ix2 k ((((cfg0.win 3).blk t).view.emb (ix2 p j)) 1))
    refine congrArg (V c main_v12) (funext fun a => Fin.ext ?_)
    match a with
    | ⟨0, _⟩ => show win0_1.index t (0 : Fin 2) * 64 + 1 * k.val = k.val; omega
    | ⟨1, _⟩ => show win0_1.index t (1 : Fin 2) * 256 + 1 * j.val = win0_3.index t (1 : Fin 2) * 256 + 1 * j.val; omega
  · show V c main_v22 (((cfg0.win 2).blk t).view.emb (ix2 (0 : Fin 1) j)) = V c main_v22 (ix2 (0 : Fin 1) ((((cfg0.win 3).blk t).view.emb (ix2 p j)) 1))
    refine congrArg (V c main_v22) (funext fun a => Fin.ext ?_)
    match a with
    | ⟨0, _⟩ => show win0_2.index t (0 : Fin 2) * 1 + 1 * 0 = 0; omega
    | ⟨1, _⟩ => show win0_2.index t (1 : Fin 2) * 256 + 1 * j.val = win0_3.index t (1 : Fin 2) * 256 + 1 * j.val; omega

/-- An index of the result array lies in point `t`'s block iff each coordinate lies in the block's range. -/
theorem linear0_mem_block (t : Fin cfg0.N) (i : S100000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v23).slice (win0_3.rect t)).set ↔ _
  rw [View.set_slice_whole, Rect.mem_set_unit]
  exact Iff.rfl

/-- Row `r` lies in the block of point `r / 4000`, and every point writes its block back. -/
theorem linear0_cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := N_0
  have hlt : (i 0).val / 4000 < cfg0.N := by rw [hN]; omega
  obtain ⟨-, -, -, -, -, -, e30, e31⟩ := linear0_indices ⟨(i 0).val / 4000, hlt⟩
  have e30' : win0_3.index ⟨(i 0).val / 4000, hlt⟩ (0 : Fin 2) = (i 0).val / 4000 := e30
  refine ⟨⟨(i 0).val / 4000, hlt⟩, flush0_3 _, ?_⟩
  rw [linear0_mem_block]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    omega
  | ⟨1, _⟩ =>
    show win0_3.index ⟨(i 0).val / 4000, hlt⟩ (1 : Fin 2) * 256 ≤ (i 1).val
      ∧ (i 1).val < win0_3.index ⟨(i 0).val / 4000, hlt⟩ (1 : Fin 2) * 256 + 256
    omega

/-- The result array after the region is the whole-array function of the entry contents. -/
theorem linear0_array (c : Dev nD) :
    (dat0 (F := Ideal) V c).arrAt 3 cfg0.N = linearOf (V c main_arg0) (V c main_v12) (V c main_v22) :=
  (dat0 (F := Ideal) V c).arrAt_eq_of_cover 3 (linearOf (V c main_arg0) (V c main_v12) (V c main_v22))
    (fun t _ => linear0_flushed V c t) linear0_cover

/-- The result array after the region, at row `r`, column `j`. -/
theorem final0 (c : Dev nD) (r : Fin 100000) (j : Fin 256) :
    (dat0 (F := Ideal) V c).arrAt 3 cfg0.N (ix2 r j)
      = (∑ k : Fin 64, V c main_arg0 (ix2 r k) *ₑ V c main_v12 (ix2 k j)) +ₑ V c main_v22 (ix2 (0 : Fin 1) j) :=
  congrFun (linear0_array V c) (ix2 r j)

/-! ## Linear region 3 -/

/-- The result block's payload at row `p`, column `j` of the block: the inner product of row `p` of the row
    block with column `j` of the weights, plus the bias at `j`. -/
theorem linear3_payload_apply (x0 : Vec Ideal S4000x64 .f32) (x1 : Vec Ideal S64x256 .f32) (x2 : Vec Ideal S1x256 .f32)
    (p : Fin 4000) (j : Fin 256) :
    k3_pay1 (F := Ideal) x0 x1 x2 (ix2 p j) = (∑ k : Fin 64, x0 (ix2 p k) * x1 (ix2 k j)) + x2 (ix2 (0 : Fin 1) j) := by
  unfold k3_pay1
  simp only [shapeCast_self]
  exact congrArg₂ (fun a b : EReal => a + b)
    (Cert.LibDot.matmul_zero_plain_apply (M := 4000) (K := 64) (N := 256) dot_S4000x64_S64x256_S4000x256_1_0_0_1_n_n
      rfl rfl rfl rfl rfl rfl none _ _ (ix2 p j))
    (broadcastTo_1b_ab_apply (a := 4000) (b := 256) x2 broadcasts_S1x256_S4000x256 p j)

/-- The block indices over the grid: the row block and the result block move with the point along the rows;
    the weights and the bias stay at block (0, 0). -/
theorem linear3_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array function of the entry contents. -/
theorem linear3_flushed (c : Dev nD) (t : Fin cfg3.N) :
    (dat3 (F := Ideal) V c).flushed 3 t
      = ((cfg3.win 3).blk t).view.read (Elt Ideal) (linearOf (V c main_v84) (V c main_v93) (V c main_v103)) := by
  show (cfg3.win 3).cut (grid3.coords t) ((dat3 (F := Ideal) V c).after 3 t) = _
  rw [after3_3]
  unfold out3_3
  rw [View.canon_unit_zero offsets_zero2]
  simp only [View.ld_unit_zero (S := S4000x64) offsets_zero2, View.ld_unit_zero (S := S64x256) offsets_zero2,
    View.ld_unit_zero (S := S1x256) offsets_zero2]
  obtain ⟨e00, e01, e10, e11, e20, e21, e30, e31⟩ := linear3_indices t
  funext y
  obtain ⟨p, j, rfl⟩ : ∃ (p : Fin 4000) (j : Fin 256), y = ix2 p j := ⟨y 0, y 1, eq_ix2 y⟩
  show k3_pay1 (F := Ideal) (iblk3 V c 0 t) (iblk3 V c 1 t) (iblk3 V c 2 t) (ix2 p j)
    = linearOf (V c main_v84) (V c main_v93) (V c main_v103) (((cfg3.win 3).blk t).view.emb (ix2 p j))
  refine (linear3_payload_apply (iblk3 V c 0 t) (iblk3 V c 1 t) (iblk3 V c 2 t) p j).trans ?_
  unfold linearOf
  refine congrArg₂ (fun a b : EReal => a + b) (Finset.sum_congr rfl fun k _ => congrArg₂ (fun a b : EReal => a * b) ?_ ?_) ?_
  · show V c main_v84 (((cfg3.win 0).blk t).view.emb (ix2 p k)) = V c main_v84 (ix2 ((((cfg3.win 3).blk t).view.emb (ix2 p j)) 0) k)
    refine congrArg (V c main_v84) (funext fun a => Fin.ext ?_)
    match a with
    | ⟨0, _⟩ => show win3_0.index t (0 : Fin 2) * 4000 + 1 * p.val = win3_3.index t (0 : Fin 2) * 4000 + 1 * p.val; omega
    | ⟨1, _⟩ => show win3_0.index t (1 : Fin 2) * 64 + 1 * k.val = k.val; omega
  · show V c main_v93 (((cfg3.win 1).blk t).view.emb (ix2 k j)) = V c main_v93 (ix2 k ((((cfg3.win 3).blk t).view.emb (ix2 p j)) 1))
    refine congrArg (V c main_v93) (funext fun a => Fin.ext ?_)
    match a with
    | ⟨0, _⟩ => show win3_1.index t (0 : Fin 2) * 64 + 1 * k.val = k.val; omega
    | ⟨1, _⟩ => show win3_1.index t (1 : Fin 2) * 256 + 1 * j.val = win3_3.index t (1 : Fin 2) * 256 + 1 * j.val; omega
  · show V c main_v103 (((cfg3.win 2).blk t).view.emb (ix2 (0 : Fin 1) j)) = V c main_v103 (ix2 (0 : Fin 1) ((((cfg3.win 3).blk t).view.emb (ix2 p j)) 1))
    refine congrArg (V c main_v103) (funext fun a => Fin.ext ?_)
    match a with
    | ⟨0, _⟩ => show win3_2.index t (0 : Fin 2) * 1 + 1 * 0 = 0; omega
    | ⟨1, _⟩ => show win3_2.index t (1 : Fin 2) * 256 + 1 * j.val = win3_3.index t (1 : Fin 2) * 256 + 1 * j.val; omega

/-- An index of the result array lies in point `t`'s block iff each coordinate lies in the block's range. -/
theorem linear3_mem_block (t : Fin cfg3.N) (i : S100000x256.Idx) :
    i ∈ ((cfg3.win 3).blk t).view.set ↔ ∀ a : Fin 2, win3_3.index t a * S4000x256.size a ≤ (i a).val
      ∧ (i a).val < win3_3.index t a * S4000x256.size a + S4000x256.size a := by
  show i ∈ ((View.whole main_v104).slice (win3_3.rect t)).set ↔ _
  rw [View.set_slice_whole, Rect.mem_set_unit]
  exact Iff.rfl

/-- Row `r` lies in the block of point `r / 4000`, and every point writes its block back. -/
theorem linear3_cover (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hN : cfg3.N = 25 := N_3
  have hlt : (i 0).val / 4000 < cfg3.N := by rw [hN]; omega
  obtain ⟨-, -, -, -, -, -, e30, e31⟩ := linear3_indices ⟨(i 0).val / 4000, hlt⟩
  have e30' : win3_3.index ⟨(i 0).val / 4000, hlt⟩ (0 : Fin 2) = (i 0).val / 4000 := e30
  refine ⟨⟨(i 0).val / 4000, hlt⟩, flush3_3 _, ?_⟩
  rw [linear3_mem_block]
  intro a
  match a with
  | ⟨0, _⟩ =>
    show win3_3.index ⟨(i 0).val / 4000, hlt⟩ (0 : Fin 2) * 4000 ≤ (i 0).val
      ∧ (i 0).val < win3_3.index ⟨(i 0).val / 4000, hlt⟩ (0 : Fin 2) * 4000 + 4000
    omega
  | ⟨1, _⟩ =>
    show win3_3.index ⟨(i 0).val / 4000, hlt⟩ (1 : Fin 2) * 256 ≤ (i 1).val
      ∧ (i 1).val < win3_3.index ⟨(i 0).val / 4000, hlt⟩ (1 : Fin 2) * 256 + 256
    omega

/-- The result array after the region is the whole-array function of the entry contents. -/
theorem linear3_array (c : Dev nD) :
    (dat3 (F := Ideal) V c).arrAt 3 cfg3.N = linearOf (V c main_v84) (V c main_v93) (V c main_v103) :=
  (dat3 (F := Ideal) V c).arrAt_eq_of_cover 3 (linearOf (V c main_v84) (V c main_v93) (V c main_v103))
    (fun t _ => linear3_flushed V c t) linear3_cover

/-- The result array after the region, at row `r`, column `j`. -/
theorem final3 (c : Dev nD) (r : Fin 100000) (j : Fin 256) :
    (dat3 (F := Ideal) V c).arrAt 3 cfg3.N (ix2 r j)
      = (∑ k : Fin 64, V c main_v84 (ix2 r k) *ₑ V c main_v93 (ix2 k j)) +ₑ V c main_v103 (ix2 (0 : Fin 1) j) :=
  congrFun (linear3_array V c) (ix2 r j)

/-! ## Normalisation region 2 -/

/-- The result block's payload at row `p`, column `j` of the block: the entry minus the mean of its column,
    times the column's reciprocal deviation, times its scale, plus its shift. -/
theorem scale2_payload_apply (x0 : Vec Ideal S4000x64 .f32) (x1 x2 x3 x4 : Vec Ideal S1x64 .f32) (p : Fin 4000) (j : Fin 64) :
    k2_pay1 (F := Ideal) x0 x1 x2 x3 x4 (ix2 p j)
      = ((x0 (ix2 p j) - x1 (ix2 (0 : Fin 1) j)) * x2 (ix2 (0 : Fin 1) j)) * x3 (ix2 (0 : Fin 1) j) + x4 (ix2 (0 : Fin 1) j) := by
  have row (x : Vec Ideal S1x64 .f32) := broadcastTo_1b_ab_apply (a := 4000) (b := 64) x broadcasts_S1x64_S4000x64 p j
  unfold k2_pay1
  simp only [shapeCast_self]
  exact congrArg₂ (fun a b : EReal => a + b)
    (congrArg₂ (fun a b : EReal => a * b)
      (congrArg₂ (fun a b : EReal => a * b)
        (congrArg (fun b : EReal => x0 (ix2 p j) - b) (row x1))
        (row x2))
      (row x3))
    (row x4)

/-- The block indices over the grid: the input block and the result block move with the point along the
    rows; the four rows stay at block (0, 0). -/
theorem scale2_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the whole-array function of the entry contents. -/
theorem scale2_flushed (c : Dev nD) (t : Fin cfg2.N) :
    (dat2 (F := Ideal) V c).flushed 5 t
      = ((cfg2.win 5).blk t).view.read (Elt Ideal) (scaleShiftOf (V c main_v68_0) (V c main_v70) (V c main_v83) (V c main_v77) (V c main_v80)) := by
  show (cfg2.win 5).cut (grid2.coords t) ((dat2 (F := Ideal) V c).after 5 t) = _
  rw [after2_5]
  unfold out2_5
  rw [View.canon_unit_zero offsets_zero2]
  simp only [View.ld_unit_zero (S := S4000x64) offsets_zero2, View.ld_unit_zero (S := S1x64) offsets_zero2]
  obtain ⟨e00, e01, e10, e11, e20, e21, e30, e31, e40, e41, e50, e51⟩ := scale2_indices t
  funext y
  obtain ⟨p, j, rfl⟩ : ∃ (p : Fin 4000) (j : Fin 64), y = ix2 p j := ⟨y 0, y 1, eq_ix2 y⟩
  show k2_pay1 (F := Ideal) (iblk2 V c 0 t) (iblk2 V c 1 t) (iblk2 V c 2 t) (iblk2 V c 3 t) (iblk2 V c 4 t) (ix2 p j)
    = scaleShiftOf (V c main_v68_0) (V c main_v70) (V c main_v83) (V c main_v77) (V c main_v80) (((cfg2.win 5).blk t).view.emb (ix2 p j))
  refine (scale2_payload_apply (iblk2 V c 0 t) (iblk2 V c 1 t) (iblk2 V c 2 t) (iblk2 V c 3 t) (iblk2 V c 4 t) p j).trans ?_
  unfold scaleShiftOf
  refine congrArg₂ (fun a b : EReal => a + b)
    (congrArg₂ (fun a b : EReal => a * b)
      (congrArg₂ (fun a b : EReal => a * b)
        (congrArg₂ (fun a b : EReal => a - b) ?_ ?_) ?_) ?_) ?_
  · show V c main_v68_0 (((cfg2.win 0).blk t).view.emb (ix2 p j)) = V c main_v68_0 (((cfg2.win 5).blk t).view.emb (ix2 p j))
    refine congrArg (V c main_v68_0) (funext fun a => Fin.ext ?_)
    match a with
    | ⟨0, _⟩ => show win2_0.index t (0 : Fin 2) * 4000 + 1 * p.val = win2_5.index t (0 : Fin 2) * 4000 + 1 * p.val; omega
    | ⟨1, _⟩ => show win2_0.index t (1 : Fin 2) * 64 + 1 * j.val = win2_5.index t (1 : Fin 2) * 64 + 1 * j.val; omega
  · show V c main_v70 (((cfg2.win 1).blk t).view.emb (ix2 (0 : Fin 1) j)) = V c main_v70 (ix2 (0 : Fin 1) ((((cfg2.win 5).blk t).view.emb (ix2 p j)) 1))
    refine congrArg (V c main_v70) (funext fun a => Fin.ext ?_)
    match a with
    | ⟨0, _⟩ => show win2_1.index t (0 : Fin 2) * 1 + 1 * 0 = 0; omega
    | ⟨1, _⟩ => show win2_1.index t (1 : Fin 2) * 64 + 1 * j.val = win2_5.index t (1 : Fin 2) * 64 + 1 * j.val; omega
  · show V c main_v83 (((cfg2.win 2).blk t).view.emb (ix2 (0 : Fin 1) j)) = V c main_v83 (ix2 (0 : Fin 1) ((((cfg2.win 5).blk t).view.emb (ix2 p j)) 1))
    refine congrArg (V c main_v83) (funext fun a => Fin.ext ?_)
    match a with
    | ⟨0, _⟩ => show win2_2.index t (0 : Fin 2) * 1 + 1 * 0 = 0; omega
    | ⟨1, _⟩ => show win2_2.index t (1 : Fin 2) * 64 + 1 * j.val = win2_5.index t (1 : Fin 2) * 64 + 1 * j.val; omega
  · show V c main_v77 (((cfg2.win 3).blk t).view.emb (ix2 (0 : Fin 1) j)) = V c main_v77 (ix2 (0 : Fin 1) ((((cfg2.win 5).blk t).view.emb (ix2 p j)) 1))
    refine congrArg (V c main_v77) (funext fun a => Fin.ext ?_)
    match a with
    | ⟨0, _⟩ => show win2_3.index t (0 : Fin 2) * 1 + 1 * 0 = 0; omega
    | ⟨1, _⟩ => show win2_3.index t (1 : Fin 2) * 64 + 1 * j.val = win2_5.index t (1 : Fin 2) * 64 + 1 * j.val; omega
  · show V c main_v80 (((cfg2.win 4).blk t).view.emb (ix2 (0 : Fin 1) j)) = V c main_v80 (ix2 (0 : Fin 1) ((((cfg2.win 5).blk t).view.emb (ix2 p j)) 1))
    refine congrArg (V c main_v80) (funext fun a => Fin.ext ?_)
    match a with
    | ⟨0, _⟩ => show win2_4.index t (0 : Fin 2) * 1 + 1 * 0 = 0; omega
    | ⟨1, _⟩ => show win2_4.index t (1 : Fin 2) * 64 + 1 * j.val = win2_5.index t (1 : Fin 2) * 64 + 1 * j.val; omega

/-- An index of the result array lies in point `t`'s block iff each coordinate lies in the block's range. -/
theorem scale2_mem_block (t : Fin cfg2.N) (i : S100000x64.Idx) :
    i ∈ ((cfg2.win 5).blk t).view.set ↔ ∀ a : Fin 2, win2_5.index t a * S4000x64.size a ≤ (i a).val
      ∧ (i a).val < win2_5.index t a * S4000x64.size a + S4000x64.size a := by
  show i ∈ ((View.whole main_v84).slice (win2_5.rect t)).set ↔ _
  rw [View.set_slice_whole, Rect.mem_set_unit]
  exact Iff.rfl

/-- Row `r` lies in the block of point `r / 4000`, and every point writes its block back. -/
theorem scale2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 25 := N_2
  have hlt : (i 0).val / 4000 < cfg2.N := by rw [hN]; omega
  obtain ⟨-, -, -, -, -, -, -, -, -, -, e50, e51⟩ := scale2_indices ⟨(i 0).val / 4000, hlt⟩
  have e50' : win2_5.index ⟨(i 0).val / 4000, hlt⟩ (0 : Fin 2) = (i 0).val / 4000 := e50
  refine ⟨⟨(i 0).val / 4000, hlt⟩, flush2_5 _, ?_⟩
  rw [scale2_mem_block]
  intro a
  match a with
  | ⟨0, _⟩ =>
    show win2_5.index ⟨(i 0).val / 4000, hlt⟩ (0 : Fin 2) * 4000 ≤ (i 0).val
      ∧ (i 0).val < win2_5.index ⟨(i 0).val / 4000, hlt⟩ (0 : Fin 2) * 4000 + 4000
    omega
  | ⟨1, _⟩ =>
    show win2_5.index ⟨(i 0).val / 4000, hlt⟩ (1 : Fin 2) * 64 ≤ (i 1).val
      ∧ (i 1).val < win2_5.index ⟨(i 0).val / 4000, hlt⟩ (1 : Fin 2) * 64 + 64
    omega

/-- The result array after the region is the whole-array function of the entry contents. -/
theorem scale2_array (c : Dev nD) :
    (dat2 (F := Ideal) V c).arrAt 5 cfg2.N = scaleShiftOf (V c main_v68_0) (V c main_v70) (V c main_v83) (V c main_v77) (V c main_v80) :=
  (dat2 (F := Ideal) V c).arrAt_eq_of_cover 5 (scaleShiftOf (V c main_v68_0) (V c main_v70) (V c main_v83) (V c main_v77) (V c main_v80))
    (fun t _ => scale2_flushed V c t) scale2_cover

/-- The result array after the region, at row `r`, column `j`. -/
theorem final2 (c : Dev nD) (r : Fin 100000) (j : Fin 64) :
    (dat2 (F := Ideal) V c).arrAt 5 cfg2.N (ix2 r j)
      = ((V c main_v68_0 (ix2 r j) -ₑ V c main_v70 (ix2 (0 : Fin 1) j)) *ₑ V c main_v83 (ix2 (0 : Fin 1) j)) *ₑ V c main_v77 (ix2 (0 : Fin 1) j)
        +ₑ V c main_v80 (ix2 (0 : Fin 1) j) :=
  congrFun (scale2_array V c) (ix2 r j)

/-! ## Normalisation region 5 -/

/-- The result block's payload at row `p`, column `j` of the block: the entry minus the mean of its column,
    times the column's reciprocal deviation, times its scale, plus its shift. -/
theorem scale5_payload_apply (x0 : Vec Ideal S4000x64 .f32) (x1 x2 x3 x4 : Vec Ideal S1x64 .f32) (p : Fin 4000) (j : Fin 64) :
    k5_pay1 (F := Ideal) x0 x1 x2 x3 x4 (ix2 p j)
      = ((x0 (ix2 p j) - x1 (ix2 (0 : Fin 1) j)) * x2 (ix2 (0 : Fin 1) j)) * x3 (ix2 (0 : Fin 1) j) + x4 (ix2 (0 : Fin 1) j) := by
  have row (x : Vec Ideal S1x64 .f32) := broadcastTo_1b_ab_apply (a := 4000) (b := 64) x broadcasts_S1x64_S4000x64 p j
  unfold k5_pay1
  simp only [shapeCast_self]
  exact congrArg₂ (fun a b : EReal => a + b)
    (congrArg₂ (fun a b : EReal => a * b)
      (congrArg₂ (fun a b : EReal => a * b)
        (congrArg (fun b : EReal => x0 (ix2 p j) - b) (row x1))
        (row x2))
      (row x3))
    (row x4)

/-- The block indices over the grid: the input block and the result block move with the point along the
    rows; the four rows stay at block (0, 0). -/
theorem scale5_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the whole-array function of the entry contents. -/
theorem scale5_flushed (c : Dev nD) (t : Fin cfg5.N) :
    (dat5 (F := Ideal) V c).flushed 5 t
      = ((cfg5.win 5).blk t).view.read (Elt Ideal) (scaleShiftOf (V c main_v149_0) (V c main_v151) (V c main_v164) (V c main_v158) (V c main_v161)) := by
  show (cfg5.win 5).cut (grid5.coords t) ((dat5 (F := Ideal) V c).after 5 t) = _
  rw [after5_5]
  unfold out5_5
  rw [View.canon_unit_zero offsets_zero2]
  simp only [View.ld_unit_zero (S := S4000x64) offsets_zero2, View.ld_unit_zero (S := S1x64) offsets_zero2]
  obtain ⟨e00, e01, e10, e11, e20, e21, e30, e31, e40, e41, e50, e51⟩ := scale5_indices t
  funext y
  obtain ⟨p, j, rfl⟩ : ∃ (p : Fin 4000) (j : Fin 64), y = ix2 p j := ⟨y 0, y 1, eq_ix2 y⟩
  show k5_pay1 (F := Ideal) (iblk5 V c 0 t) (iblk5 V c 1 t) (iblk5 V c 2 t) (iblk5 V c 3 t) (iblk5 V c 4 t) (ix2 p j)
    = scaleShiftOf (V c main_v149_0) (V c main_v151) (V c main_v164) (V c main_v158) (V c main_v161) (((cfg5.win 5).blk t).view.emb (ix2 p j))
  refine (scale5_payload_apply (iblk5 V c 0 t) (iblk5 V c 1 t) (iblk5 V c 2 t) (iblk5 V c 3 t) (iblk5 V c 4 t) p j).trans ?_
  unfold scaleShiftOf
  refine congrArg₂ (fun a b : EReal => a + b)
    (congrArg₂ (fun a b : EReal => a * b)
      (congrArg₂ (fun a b : EReal => a * b)
        (congrArg₂ (fun a b : EReal => a - b) ?_ ?_) ?_) ?_) ?_
  · show V c main_v149_0 (((cfg5.win 0).blk t).view.emb (ix2 p j)) = V c main_v149_0 (((cfg5.win 5).blk t).view.emb (ix2 p j))
    refine congrArg (V c main_v149_0) (funext fun a => Fin.ext ?_)
    match a with
    | ⟨0, _⟩ => show win5_0.index t (0 : Fin 2) * 4000 + 1 * p.val = win5_5.index t (0 : Fin 2) * 4000 + 1 * p.val; omega
    | ⟨1, _⟩ => show win5_0.index t (1 : Fin 2) * 64 + 1 * j.val = win5_5.index t (1 : Fin 2) * 64 + 1 * j.val; omega
  · show V c main_v151 (((cfg5.win 1).blk t).view.emb (ix2 (0 : Fin 1) j)) = V c main_v151 (ix2 (0 : Fin 1) ((((cfg5.win 5).blk t).view.emb (ix2 p j)) 1))
    refine congrArg (V c main_v151) (funext fun a => Fin.ext ?_)
    match a with
    | ⟨0, _⟩ => show win5_1.index t (0 : Fin 2) * 1 + 1 * 0 = 0; omega
    | ⟨1, _⟩ => show win5_1.index t (1 : Fin 2) * 64 + 1 * j.val = win5_5.index t (1 : Fin 2) * 64 + 1 * j.val; omega
  · show V c main_v164 (((cfg5.win 2).blk t).view.emb (ix2 (0 : Fin 1) j)) = V c main_v164 (ix2 (0 : Fin 1) ((((cfg5.win 5).blk t).view.emb (ix2 p j)) 1))
    refine congrArg (V c main_v164) (funext fun a => Fin.ext ?_)
    match a with
    | ⟨0, _⟩ => show win5_2.index t (0 : Fin 2) * 1 + 1 * 0 = 0; omega
    | ⟨1, _⟩ => show win5_2.index t (1 : Fin 2) * 64 + 1 * j.val = win5_5.index t (1 : Fin 2) * 64 + 1 * j.val; omega
  · show V c main_v158 (((cfg5.win 3).blk t).view.emb (ix2 (0 : Fin 1) j)) = V c main_v158 (ix2 (0 : Fin 1) ((((cfg5.win 5).blk t).view.emb (ix2 p j)) 1))
    refine congrArg (V c main_v158) (funext fun a => Fin.ext ?_)
    match a with
    | ⟨0, _⟩ => show win5_3.index t (0 : Fin 2) * 1 + 1 * 0 = 0; omega
    | ⟨1, _⟩ => show win5_3.index t (1 : Fin 2) * 64 + 1 * j.val = win5_5.index t (1 : Fin 2) * 64 + 1 * j.val; omega
  · show V c main_v161 (((cfg5.win 4).blk t).view.emb (ix2 (0 : Fin 1) j)) = V c main_v161 (ix2 (0 : Fin 1) ((((cfg5.win 5).blk t).view.emb (ix2 p j)) 1))
    refine congrArg (V c main_v161) (funext fun a => Fin.ext ?_)
    match a with
    | ⟨0, _⟩ => show win5_4.index t (0 : Fin 2) * 1 + 1 * 0 = 0; omega
    | ⟨1, _⟩ => show win5_4.index t (1 : Fin 2) * 64 + 1 * j.val = win5_5.index t (1 : Fin 2) * 64 + 1 * j.val; omega

/-- An index of the result array lies in point `t`'s block iff each coordinate lies in the block's range. -/
theorem scale5_mem_block (t : Fin cfg5.N) (i : S100000x64.Idx) :
    i ∈ ((cfg5.win 5).blk t).view.set ↔ ∀ a : Fin 2, win5_5.index t a * S4000x64.size a ≤ (i a).val
      ∧ (i a).val < win5_5.index t a * S4000x64.size a + S4000x64.size a := by
  show i ∈ ((View.whole main_v165).slice (win5_5.rect t)).set ↔ _
  rw [View.set_slice_whole, Rect.mem_set_unit]
  exact Iff.rfl

/-- Row `r` lies in the block of point `r / 4000`, and every point writes its block back. -/
theorem scale5_cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 25 := N_5
  have hlt : (i 0).val / 4000 < cfg5.N := by rw [hN]; omega
  obtain ⟨-, -, -, -, -, -, -, -, -, -, e50, e51⟩ := scale5_indices ⟨(i 0).val / 4000, hlt⟩
  have e50' : win5_5.index ⟨(i 0).val / 4000, hlt⟩ (0 : Fin 2) = (i 0).val / 4000 := e50
  refine ⟨⟨(i 0).val / 4000, hlt⟩, flush5_5 _, ?_⟩
  rw [scale5_mem_block]
  intro a
  match a with
  | ⟨0, _⟩ =>
    show win5_5.index ⟨(i 0).val / 4000, hlt⟩ (0 : Fin 2) * 4000 ≤ (i 0).val
      ∧ (i 0).val < win5_5.index ⟨(i 0).val / 4000, hlt⟩ (0 : Fin 2) * 4000 + 4000
    omega
  | ⟨1, _⟩ =>
    show win5_5.index ⟨(i 0).val / 4000, hlt⟩ (1 : Fin 2) * 64 ≤ (i 1).val
      ∧ (i 1).val < win5_5.index ⟨(i 0).val / 4000, hlt⟩ (1 : Fin 2) * 64 + 64
    omega

/-- The result array after the region is the whole-array function of the entry contents. -/
theorem scale5_array (c : Dev nD) :
    (dat5 (F := Ideal) V c).arrAt 5 cfg5.N = scaleShiftOf (V c main_v149_0) (V c main_v151) (V c main_v164) (V c main_v158) (V c main_v161) :=
  (dat5 (F := Ideal) V c).arrAt_eq_of_cover 5 (scaleShiftOf (V c main_v149_0) (V c main_v151) (V c main_v164) (V c main_v158) (V c main_v161))
    (fun t _ => scale5_flushed V c t) scale5_cover

/-- The result array after the region, at row `r`, column `j`. -/
theorem final5 (c : Dev nD) (r : Fin 100000) (j : Fin 64) :
    (dat5 (F := Ideal) V c).arrAt 5 cfg5.N (ix2 r j)
      = ((V c main_v149_0 (ix2 r j) -ₑ V c main_v151 (ix2 (0 : Fin 1) j)) *ₑ V c main_v164 (ix2 (0 : Fin 1) j)) *ₑ V c main_v158 (ix2 (0 : Fin 1) j)
        +ₑ V c main_v161 (ix2 (0 : Fin 1) j) :=
  congrFun (scale5_array V c) (ix2 r j)

end Cert.Val

end
-- ==== Proof.Val.Payloads.lean ====
/-
  The statistics kernel's stored values, entry by entry on the extended reals.

  Each call of the kernel sees one block of 4000 rows. It stores the rectified pre-activation of the block,
  max ((a + s) + bias, 0), and keeps two rows of 64 running totals: the column sums of those values and of their
  squares. A total after a block is what it held before plus the block's column sum; at the first block the totals are
  set to zero.
-/
import proofs.«178820_j816043786337_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen

/-- A row of 64 spread down 4000 rows reads, at row `r` and column `j`, the row's entry `j`. -/
theorem row_bcast_apply {α : Type} (x : S1x64.Idx → α) (r : Fin 4000) (j : Fin 64) :
    broadcastTo S4000x64 x broadcasts_S1x64_S4000x64 (ix2 r j) = x (ix2 (0 : Fin 1) j) :=
  broadcastTo_apply x broadcasts_S1x64_S4000x64 (ix2 r j) (ix2 (0 : Fin 1) j) (by
    intro a
    match a with
    | ⟨0, _⟩ =>
      show (0 : ℕ) = if (1 : ℕ) = 1 then 0 else _
      exact (if_pos rfl).symm
    | ⟨1, _⟩ =>
      show j.val = if (64 : ℕ) = 1 then 0 else j.val
      exact (if_neg (by decide)).symm)

/-- A block's column sum: the sum over the 4000 rows, kept as a row of 64, read at column `j`. The sum over the
    row axis reads the block at (r, j) for every row r, and the cast to a 1 × 64 row keeps the column. -/
theorem colsum_apply (y : FVec Ideal S4000x64 .f32) (hφ : FKind.Formats .f32)
    (hacc : (0x00000000#32 : BitVec FTy.f32.bits) = FKind.add.neutral .f32 hφ) (j : Fin 64) :
    shapeCast S1x64 (multiReduction .add [0] S64 y 0x00000000#32 reduces_S4000x64_S64 hφ hacc) shapeCasts_S64_S1x64
        (ix2 (0 : Fin 1) j)
      = ∑ r : Fin 4000, y (ix2 r j) := by
  refine (shapeCast_addUnit_apply (n := 1) ![64] _ shapeCasts_S64_S1x64 (ix2 (0 : Fin 1) j)).trans ?_
  refine (Ideal.multiReduction_add_single y 0x00000000#32 reduces_S4000x64_S64 hφ hacc _).trans ?_
  refine Finset.sum_congr rfl fun r _ => congrArg y ?_
  funext a
  match a with
  | ⟨0, _⟩ => rfl
  | ⟨1, _⟩ => rfl

/-! ## The statistics kernel, call one -/

/-- The rectified pre-activation of a block at row `r`, column `j`: the two blocks' entries added, the bias row's entry
    added to that, and the maximum with zero. -/
theorem k1_pay1_apply (x0 x1 : Vec Ideal S4000x64 .f32) (x2 : Vec Ideal S1x64 .f32) (r : Fin 4000) (j : Fin 64) :
    k1_pay1 (F := Ideal) x0 x1 x2 (ix2 r j)
      = max (((x0 (ix2 r j) : EReal) + x1 (ix2 r j)) + x2 (ix2 (0 : Fin 1) j)) 0 := by
  unfold k1_pay1
  simp only [shapeCast_self]
  show max (((x0 (ix2 r j) : EReal) + x1 (ix2 r j)) + broadcastTo S4000x64 x2 broadcasts_S1x64_S4000x64 (ix2 r j))
      (Ideal.ofBits .f32 0x00000000#32) = _
  rw [row_bcast_apply, Ideal.ofBits_zero_f32]

/-- The statistics rows start from zero. -/
theorem k1_pay2_apply (i : S1x64.Idx) : k1_pay2 (F := Ideal) i = 0 := by
  show Ideal.ofBits .f32 0x00000000#32 = 0
  exact Ideal.ofBits_zero_f32

theorem k1_pay3_apply (i : S1x64.Idx) : k1_pay3 (F := Ideal) i = 0 := by
  show Ideal.ofBits .f32 0x00000000#32 = 0
  exact Ideal.ofBits_zero_f32

/-- The running column sum after a block: what it held plus the block's column sum of the rectified values. -/
theorem k1_pay4_apply (x0 x1 : Vec Ideal S4000x64 .f32) (x2 acc : Vec Ideal S1x64 .f32) (j : Fin 64) :
    k1_pay4 (F := Ideal) x0 x1 x2 acc (ix2 (0 : Fin 1) j)
      = (acc (ix2 (0 : Fin 1) j) : EReal) + ∑ r : Fin 4000, k1_pay1 (F := Ideal) x0 x1 x2 (ix2 r j) := by
  unfold k1_pay4
  simp only [shapeCast_self]
  show (acc (ix2 (0 : Fin 1) j) : EReal)
      + shapeCast S1x64 (multiReduction .add [0] S64 (k1_pay1 (F := Ideal) x0 x1 x2) 0x00000000#32 reduces_S4000x64_S64
          (.inl rfl) rfl) shapeCasts_S64_S1x64 (ix2 (0 : Fin 1) j) = _
  exact congrArg ((acc (ix2 (0 : Fin 1) j) : EReal) + ·) (colsum_apply (k1_pay1 (F := Ideal) x0 x1 x2) (.inl rfl) rfl j)

/-- The running column sum of squares after a block: what it held plus the block's column sum of the squared
    rectified values. -/
theorem k1_pay5_apply (x0 x1 : Vec Ideal S4000x64 .f32) (x2 acc : Vec Ideal S1x64 .f32) (j : Fin 64) :
    k1_pay5 (F := Ideal) x0 x1 x2 acc (ix2 (0 : Fin 1) j)
      = (acc (ix2 (0 : Fin 1) j) : EReal)
        + ∑ r : Fin 4000, k1_pay1 (F := Ideal) x0 x1 x2 (ix2 r j) * k1_pay1 (F := Ideal) x0 x1 x2 (ix2 r j) := by
  unfold k1_pay5
  simp only [shapeCast_self]
  show (acc (ix2 (0 : Fin 1) j) : EReal)
      + shapeCast S1x64 (multiReduction .add [0] S64
          (mulf (k1_pay1 (F := Ideal) x0 x1 x2) (k1_pay1 (F := Ideal) x0 x1 x2)) 0x00000000#32 reduces_S4000x64_S64
          (.inl rfl) rfl) shapeCasts_S64_S1x64 (ix2 (0 : Fin 1) j) = _
  exact congrArg ((acc (ix2 (0 : Fin 1) j) : EReal) + ·)
    (colsum_apply (mulf (k1_pay1 (F := Ideal) x0 x1 x2) (k1_pay1 (F := Ideal) x0 x1 x2)) (.inl rfl) rfl j)

/-! ## The statistics kernel, call two -/

/-- The rectified pre-activation of a block at row `r`, column `j`: the two blocks' entries added, the bias row's entry
    added to that, and the maximum with zero. -/
theorem k4_pay1_apply (x0 x1 : Vec Ideal S4000x64 .f32) (x2 : Vec Ideal S1x64 .f32) (r : Fin 4000) (j : Fin 64) :
    k4_pay1 (F := Ideal) x0 x1 x2 (ix2 r j)
      = max (((x0 (ix2 r j) : EReal) + x1 (ix2 r j)) + x2 (ix2 (0 : Fin 1) j)) 0 := by
  unfold k4_pay1
  simp only [shapeCast_self]
  show max (((x0 (ix2 r j) : EReal) + x1 (ix2 r j)) + broadcastTo S4000x64 x2 broadcasts_S1x64_S4000x64 (ix2 r j))
      (Ideal.ofBits .f32 0x00000000#32) = _
  rw [row_bcast_apply, Ideal.ofBits_zero_f32]

/-- The statistics rows start from zero. -/
theorem k4_pay2_apply (i : S1x64.Idx) : k4_pay2 (F := Ideal) i = 0 := by
  show Ideal.ofBits .f32 0x00000000#32 = 0
  exact Ideal.ofBits_zero_f32

theorem k4_pay3_apply (i : S1x64.Idx) : k4_pay3 (F := Ideal) i = 0 := by
  show Ideal.ofBits .f32 0x00000000#32 = 0
  exact Ideal.ofBits_zero_f32

/-- The running column sum after a block: what it held plus the block's column sum of the rectified values. -/
theorem k4_pay4_apply (x0 x1 : Vec Ideal S4000x64 .f32) (x2 acc : Vec Ideal S1x64 .f32) (j : Fin 64) :
    k4_pay4 (F := Ideal) x0 x1 x2 acc (ix2 (0 : Fin 1) j)
      = (acc (ix2 (0 : Fin 1) j) : EReal) + ∑ r : Fin 4000, k4_pay1 (F := Ideal) x0 x1 x2 (ix2 r j) := by
  unfold k4_pay4
  simp only [shapeCast_self]
  show (acc (ix2 (0 : Fin 1) j) : EReal)
      + shapeCast S1x64 (multiReduction .add [0] S64 (k4_pay1 (F := Ideal) x0 x1 x2) 0x00000000#32 reduces_S4000x64_S64
          (.inl rfl) rfl) shapeCasts_S64_S1x64 (ix2 (0 : Fin 1) j) = _
  exact congrArg ((acc (ix2 (0 : Fin 1) j) : EReal) + ·) (colsum_apply (k4_pay1 (F := Ideal) x0 x1 x2) (.inl rfl) rfl j)

/-- The running column sum of squares after a block: what it held plus the block's column sum of the squared
    rectified values. -/
theorem k4_pay5_apply (x0 x1 : Vec Ideal S4000x64 .f32) (x2 acc : Vec Ideal S1x64 .f32) (j : Fin 64) :
    k4_pay5 (F := Ideal) x0 x1 x2 acc (ix2 (0 : Fin 1) j)
      = (acc (ix2 (0 : Fin 1) j) : EReal)
        + ∑ r : Fin 4000, k4_pay1 (F := Ideal) x0 x1 x2 (ix2 r j) * k4_pay1 (F := Ideal) x0 x1 x2 (ix2 r j) := by
  unfold k4_pay5
  simp only [shapeCast_self]
  show (acc (ix2 (0 : Fin 1) j) : EReal)
      + shapeCast S1x64 (multiReduction .add [0] S64
          (mulf (k4_pay1 (F := Ideal) x0 x1 x2) (k4_pay1 (F := Ideal) x0 x1 x2)) 0x00000000#32 reduces_S4000x64_S64
          (.inl rfl) rfl) shapeCasts_S64_S1x64 (ix2 (0 : Fin 1) j) = _
  exact congrArg ((acc (ix2 (0 : Fin 1) j) : EReal) + ·)
    (colsum_apply (mulf (k4_pay1 (F := Ideal) x0 x1 x2) (k4_pay1 (F := Ideal) x0 x1 x2)) (.inl rfl) rfl j)

end Cert.Val

end
-- ==== Proof.Val.BlockSum.lean ====
/-
  Sums over the rows, taken block by block and carried from block to block.

  A column sum over N·B rows can be taken as N block sums of B rows each: the row number r = B·t + i runs over
  all rows exactly once as the block t and the offset i run over their ranges. And an accumulator that starts
  at zero on the first block and adds one block's sum at every block holds, after the last block, the sum of
  all the block sums. Both facts need only that the values form a commutative additive monoid, so they hold
  on the extended reals with no finiteness assumption.
-/
import Idealize.ShloMosaic.PureOps.Ideal
import Mathlib.Algebra.BigOperators.Fin
import Mathlib.Tactic

noncomputable section

namespace Cert.Val

open scoped BigOperators

/-! ## A sum over the rows as a sum of block sums -/

/-- BLOCKS, in general. With M = N·B, the sum over t < N of the sums over i < B of f (B·t + i) is the sum of f
    over all M rows: (t, i) ↦ B·t + i is a bijection from pairs onto rows. -/
theorem blocks_sum_gen {α : Type*} [AddCommMonoid α] (N B M : ℕ) (hM : M = N * B) (f : Fin M → α)
    (hlt : ∀ (t : Fin N) (i : Fin B), B * t.val + i.val < M) :
    (∑ t : Fin N, ∑ i : Fin B, f ⟨B * t.val + i.val, hlt t i⟩) = ∑ r : Fin M, f r := by
  subst hM
  rw [← Equiv.sum_comp finProdFinEquiv f, Fintype.sum_prod_type]
  refine Finset.sum_congr rfl fun t _ => Finset.sum_congr rfl fun i _ => ?_
  refine congrArg f (Fin.ext ?_)
  show B * t.val + i.val = i.val + B * t.val
  exact Nat.add_comm _ _

/-- BLOCKS: 100000 rows as 25 blocks of 4000. -/
theorem blocks_sum (f : Fin 100000 → EReal) :
    (∑ t : Fin 25, ∑ i : Fin 4000, f ⟨4000 * t.val + i.val, by omega⟩) = ∑ r : Fin 100000, f r :=
  blocks_sum_gen 25 4000 100000 (by norm_num) f (fun t i => by omega)

/-! ## An accumulator carried over the blocks -/

/-- CARRIED, in general. If the accumulator is 0 + s 0 after the first block and grows by s (n+1) at block n+1,
    then after the last of K+1 blocks it is the sum of all the s t. -/
theorem carried_sum_gen {α : Type*} [AddCommMonoid α] (K : ℕ) (acc : (n : ℕ) → n < K + 1 → α)
    (s : Fin (K + 1) → α) (h0 : acc 0 (Nat.succ_pos K) = 0 + s ⟨0, Nat.succ_pos K⟩)
    (hs : ∀ n (h : n + 1 < K + 1), acc (n + 1) h = acc n (Nat.lt_of_succ_lt h) + s ⟨n + 1, h⟩) :
    acc K (Nat.lt_succ_self K) = ∑ t : Fin (K + 1), s t := by
  have key : ∀ n (h : n < K + 1), acc n h = ∑ t : Fin (n + 1), s ⟨t.val, Nat.lt_of_lt_of_le t.isLt h⟩ := by
    intro n
    induction n with
    | zero =>
      intro h
      rw [h0, zero_add, Fin.sum_univ_one]
      rfl
    | succ n ih =>
      intro h
      rw [hs n h, ih (Nat.lt_of_succ_lt h)]
      exact (Fin.sum_univ_castSucc
        (fun t : Fin (n + 1 + 1) => s ⟨t.val, Nat.lt_of_lt_of_le t.isLt h⟩)).symm
  rw [key K (Nat.lt_succ_self K)]

/-- CARRIED: 25 blocks. -/
theorem carried_sum (acc : (n : ℕ) → n < 25 → EReal) (s : Fin 25 → EReal)
    (h0 : acc 0 (by omega) = 0 + s ⟨0, by omega⟩)
    (hs : ∀ n (h : n + 1 < 25), acc (n + 1) h = acc n (by omega) + s ⟨n + 1, h⟩) :
    acc 24 (by omega) = ∑ t : Fin 25, s t :=
  carried_sum_gen 24 acc s h0 hs

/-! ## Both together: the carried column sum is the sum over all rows -/

/-- In general: when each block's contribution is its own sum taken onto a zero accumulator, the carried
    accumulator ends as the sum over all the rows. -/
theorem carried_blocks_sum_gen {α : Type*} [AddCommMonoid α] (K B M : ℕ) (hM : M = (K + 1) * B) (f : Fin M → α)
    (hlt : ∀ (t : Fin (K + 1)) (i : Fin B), B * t.val + i.val < M)
    (acc : (n : ℕ) → n < K + 1 → α) (s : Fin (K + 1) → α)
    (hsf : ∀ t : Fin (K + 1), s t = 0 + ∑ i : Fin B, f ⟨B * t.val + i.val, hlt t i⟩)
    (h0 : acc 0 (Nat.succ_pos K) = 0 + s ⟨0, Nat.succ_pos K⟩)
    (hs : ∀ n (h : n + 1 < K + 1), acc (n + 1) h = acc n (Nat.lt_of_succ_lt h) + s ⟨n + 1, h⟩) :
    acc K (Nat.lt_succ_self K) = ∑ r : Fin M, f r := by
  rw [carried_sum_gen K acc s h0 hs, ← blocks_sum_gen (K + 1) B M hM f hlt]
  exact Finset.sum_congr rfl fun t _ => by rw [hsf t, zero_add]

/-- 25 blocks of 4000 rows: the accumulator that is zeroed at the first block and adds, at every block, that
    block's sum (itself started from a zero accumulator) ends as the sum over the 100000 rows. -/
theorem carried_blocks_sum (f : Fin 100000 → EReal) (acc : (n : ℕ) → n < 25 → EReal) (s : Fin 25 → EReal)
    (hsf : ∀ t : Fin 25, s t = 0 + ∑ i : Fin 4000, f ⟨4000 * t.val + i.val, by omega⟩)
    (h0 : acc 0 (by omega) = 0 + s ⟨0, by omega⟩)
    (hs : ∀ n (h : n + 1 < 25), acc (n + 1) h = acc n (by omega) + s ⟨n + 1, h⟩) :
    acc 24 (by omega) = ∑ r : Fin 100000, f r :=
  carried_blocks_sum_gen 24 4000 100000 (by norm_num) f (fun t i => by omega) acc s hsf h0 hs

/-- The same with the block sums named directly (no zero accumulator under them). -/
theorem carried_blocks_sum' (f : Fin 100000 → EReal) (acc : (n : ℕ) → n < 25 → EReal) (s : Fin 25 → EReal)
    (hsf : ∀ t : Fin 25, s t = ∑ i : Fin 4000, f ⟨4000 * t.val + i.val, by omega⟩)
    (h0 : acc 0 (by omega) = 0 + s ⟨0, by omega⟩)
    (hs : ∀ n (h : n + 1 < 25), acc (n + 1) h = acc n (by omega) + s ⟨n + 1, h⟩) :
    acc 24 (by omega) = ∑ r : Fin 100000, f r :=
  carried_blocks_sum f acc s (fun t => by rw [hsf t, zero_add]) h0 hs

end Cert.Val

end
-- ==== Proof.Val.KerRegionsR.lean ====
import proofs.«178820_j816043786337_1_alg».proof.Proof.KI.Region1
import proofs.«178820_j816043786337_1_alg».proof.Proof.KI.Region4
import proofs.«178820_j816043786337_1_alg».proof.Proof.Val.Payloads
import proofs.«178820_j816043786337_1_alg».proof.Proof.Val.BlockSum
import Idealize.ShloMosaic.Lib.Pipeline.Value
import Idealize.ShloMosaic.Lib.ValueIdx

/-!
# The two statistics regions, read as whole arrays on the extended reals

A statistics region walks 25 blocks of 4000 rows. At every block it stores the rectified pre-activation
`max ((a + s) + bias, 0)` of the block, and it keeps two rows of 64 running totals — the column sums of those values
and of their squares — which the first block starts from zero and only the last block writes back.

So after the region the result array is one function of the arrays found on entry, index by index, because the 25
result blocks tile it (row `r` lies in the block of point `r / 4000`); and each row of totals holds, at column `j`,
the sum over ALL 100000 rows of the value (or of its square) at column `j`, because the totals are carried from block
to block and the blocks are all the rows.
-/

set_option maxRecDepth 16384

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

-- the TensorCore's buffer contents when a region is entered, arbitrary
variable (V : (c : Dev nD) → (b : Ref sig .tc) → Buf (Elt Ideal) ((c : Thread nD τ).loc b))

/-- Sum on the extended reals, spelled with its type: an array read at an index has the element type of its
    reference, which is the extended reals only after unfolding. -/
local infixl:65 " +ₑ " => @HAdd.hAdd EReal EReal EReal instHAdd

/-! ## The whole-array functions -/

/-- The rectified pre-activation: at `(r, j)`, `max ((a r j + s r j) + bias j, 0)`. -/
def actOf (a s : S100000x64.Idx → EReal) (b : S1x64.Idx → EReal) : S100000x64.Idx → EReal :=
  fun i => max ((a i + s i) + b (ix2 (0 : Fin 1) (i 1))) 0

/-- The row of column sums of an array of 100000 rows. -/
def colSumOf (f : S100000x64.Idx → EReal) : S1x64.Idx → EReal :=
  fun i => ∑ r : Fin 100000, f (ix2 r (i 1))

/-- The row of column sums of squares. -/
def colSumSqOf (f : S100000x64.Idx → EReal) : S1x64.Idx → EReal :=
  colSumOf fun i => f i * f i

theorem actOf_apply (a s : S100000x64.Idx → EReal) (b : S1x64.Idx → EReal) (r : Fin 100000) (j : Fin 64) :
    actOf a s b (ix2 r j) = max ((a (ix2 r j) + s (ix2 r j)) + b (ix2 (0 : Fin 1) j)) 0 := rfl

/-! ## Statistics region 1 (first layer) -/

/-- The block indices over the grid: the two row blocks and the result block move with the point along the rows;
    the bias row and the two rows of totals stay at block (0, 0). -/
theorem stats1_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The region has 25 points. -/
theorem stats1_N : cfg1.N = 25 := N_1

/-- Point number `n` of the 25. -/
abbrev pt1 (n : ℕ) (h : n < 25) : Fin cfg1.N := ⟨n, lt_of_lt_of_eq h stats1_N.symm⟩

/-- The rectified value a point computes at row `p`, column `j` of its block is the whole-array function at row
    `4000 · t + p`: each input block sits in its array at block index × block size + the coordinate inside. -/
theorem stats1_block_apply (c : Dev nD) (t : Fin cfg1.N) (p : Fin 4000) (j : Fin 64)
    (hlt : 4000 * t.val + p.val < 100000) :
    k1_pay1 (F := Ideal) (iblk1 V c 0 t) (iblk1 V c 1 t) (iblk1 V c 2 t) (ix2 p j)
      = actOf (V c main_v64) (V c main_v27) (V c main_v67) (ix2 (⟨4000 * t.val + p.val, hlt⟩ : Fin 100000) j) := by
  obtain ⟨e00, e01, e10, e11, e20, e21, -, -, -, -, -, -⟩ := stats1_indices t
  refine (k1_pay1_apply (iblk1 V c 0 t) (iblk1 V c 1 t) (iblk1 V c 2 t) p j).trans ?_
  unfold actOf
  refine congrArg₂ (fun a b : EReal => max a b) (congrArg₂ (fun a b : EReal => a + b)
    (congrArg₂ (fun a b : EReal => a + b) ?_ ?_) ?_) rfl
  · show V c main_v64 (((cfg1.win 0).blk t).view.emb (ix2 p j)) = V c main_v64 (ix2 (⟨4000 * t.val + p.val, hlt⟩ : Fin 100000) j)
    refine congrArg (V c main_v64) (funext fun a => Fin.ext ?_)
    match a with
    | ⟨0, _⟩ => show win1_0.index t (0 : Fin 2) * 4000 + 1 * p.val = 4000 * t.val + p.val; omega
    | ⟨1, _⟩ => show win1_0.index t (1 : Fin 2) * 64 + 1 * j.val = j.val; omega
  · show V c main_v27 (((cfg1.win 1).blk t).view.emb (ix2 p j)) = V c main_v27 (ix2 (⟨4000 * t.val + p.val, hlt⟩ : Fin 100000) j)
    refine congrArg (V c main_v27) (funext fun a => Fin.ext ?_)
    match a with
    | ⟨0, _⟩ => show win1_1.index t (0 : Fin 2) * 4000 + 1 * p.val = 4000 * t.val + p.val; omega
    | ⟨1, _⟩ => show win1_1.index t (1 : Fin 2) * 64 + 1 * j.val = j.val; omega
  · show V c main_v67 (((cfg1.win 2).blk t).view.emb (ix2 (0 : Fin 1) j)) = V c main_v67 (ix2 (0 : Fin 1) j)
    refine congrArg (V c main_v67) (funext fun a => Fin.ext ?_)
    match a with
    | ⟨0, _⟩ => show win1_2.index t (0 : Fin 2) * 1 + 1 * 0 = 0; omega
    | ⟨1, _⟩ => show win1_2.index t (1 : Fin 2) * 64 + 1 * j.val = j.val; omega

/-- What point `t` writes back into the result array is block `t` of the whole-array function. -/
theorem stats1_flushed (c : Dev nD) (t : Fin cfg1.N) :
    (dat1 (F := Ideal) V c).flushed 3 t
      = ((cfg1.win 3).blk t).view.read (Elt Ideal) (actOf (V c main_v64) (V c main_v27) (V c main_v67)) := by
  show (cfg1.win 3).cut (grid1.coords t) ((dat1 (F := Ideal) V c).after 3 t) = _
  rw [after1_3]
  obtain ⟨-, -, -, -, -, -, e30, e31, -, -, -, -⟩ := stats1_indices t
  have hN : t.val < 25 := lt_of_lt_of_eq t.isLt stats1_N
  funext y
  obtain ⟨p, j, rfl⟩ : ∃ (p : Fin 4000) (j : Fin 64), y = ix2 p j := ⟨y 0, y 1, eq_ix2 y⟩
  have hp : p.val < 4000 := p.isLt
  show k1_pay1 (F := Ideal) (iblk1 V c 0 t) (iblk1 V c 1 t) (iblk1 V c 2 t) (ix2 p j)
    = actOf (V c main_v64) (V c main_v27) (V c main_v67) (((cfg1.win 3).blk t).view.emb (ix2 p j))
  refine (stats1_block_apply V c t p j (by omega)).trans ?_
  refine congrArg (actOf (V c main_v64) (V c main_v27) (V c main_v67)) (funext fun a => Fin.ext ?_)
  match a with
  | ⟨0, _⟩ => show 4000 * t.val + p.val = win1_3.index t (0 : Fin 2) * 4000 + 1 * p.val; omega
  | ⟨1, _⟩ => show j.val = win1_3.index t (1 : Fin 2) * 64 + 1 * j.val; omega

/-- An index of the result array lies in point `t`'s block iff each coordinate lies in the block's range. -/
theorem stats1_mem_block (t : Fin cfg1.N) (i : S100000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v68_0).slice (win1_3.rect t)).set ↔ _
  rw [View.set_slice_whole, Rect.mem_set_unit]
  exact Iff.rfl

/-- Row `r` lies in the block of point `r / 4000`, and every point writes its block back. -/
theorem stats1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 4000 < cfg1.N := by rw [stats1_N]; omega
  obtain ⟨-, -, -, -, -, -, e30, e31, -, -, -, -⟩ := stats1_indices ⟨(i 0).val / 4000, hlt⟩
  have e30' : win1_3.index ⟨(i 0).val / 4000, hlt⟩ (0 : Fin 2) = (i 0).val / 4000 := e30
  refine ⟨⟨(i 0).val / 4000, hlt⟩, flush1_3 _, ?_⟩
  rw [stats1_mem_block]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    omega
  | ⟨1, _⟩ =>
    show win1_3.index ⟨(i 0).val / 4000, hlt⟩ (1 : Fin 2) * 64 ≤ (i 1).val
      ∧ (i 1).val < win1_3.index ⟨(i 0).val / 4000, hlt⟩ (1 : Fin 2) * 64 + 64
    omega

/-- The result array after the region is the whole-array function of the entry contents. -/
theorem stats1_array (c : Dev nD) :
    (dat1 (F := Ideal) V c).arrAt 3 cfg1.N = actOf (V c main_v64) (V c main_v27) (V c main_v67) :=
  (dat1 (F := Ideal) V c).arrAt_eq_of_cover 3 (actOf (V c main_v64) (V c main_v27) (V c main_v67))
    (fun t _ => stats1_flushed V c t) stats1_cover

/-- The result array after the region, at row `r`, column `j`. -/
theorem final1_y (c : Dev nD) (r : Fin 100000) (j : Fin 64) :
    (dat1 (F := Ideal) V c).arrAt 3 cfg1.N (ix2 r j)
      = max ((V c main_v64 (ix2 r j) +ₑ V c main_v27 (ix2 r j)) +ₑ V c main_v67 (ix2 (0 : Fin 1) j)) (0 : EReal) :=
  congrFun (stats1_array V c) (ix2 r j)

/-- The running column sum the last point leaves, at column `j`: the sum of the rectified values over all 100000 rows.
    The first point starts from the zero row, every point adds its block's column sum, and the 25 blocks of 4000 rows
    are all the rows. -/
theorem stats1_sum_last (c : Dev nD) (j : Fin 64) :
    acc1_4 (F := Ideal) V c 24 (lt_of_lt_of_eq (by omega : 24 < 25) stats1_N.symm) (ix2 (0 : Fin 1) j)
      = ∑ r : Fin 100000, actOf (V c main_v64) (V c main_v27) (V c main_v67) (ix2 r j) := by
  refine carried_blocks_sum' (fun r : Fin 100000 => actOf (V c main_v64) (V c main_v27) (V c main_v67) (ix2 r j))
    (fun n h => acc1_4 (F := Ideal) V c n (lt_of_lt_of_eq h stats1_N.symm) (ix2 (0 : Fin 1) j))
    (fun t => ∑ p : Fin 4000, k1_pay1 (F := Ideal) (iblk1 V c 0 (pt1 t.val t.isLt)) (iblk1 V c 1 (pt1 t.val t.isLt))
      (iblk1 V c 2 (pt1 t.val t.isLt)) (ix2 p j)) ?_ ?_ ?_
  · intro t
    exact Finset.sum_congr rfl fun p _ => stats1_block_apply V c (pt1 t.val t.isLt) p j _
  · exact (k1_pay4_apply (iblk1 V c 0 (pt1 0 (by omega))) (iblk1 V c 1 (pt1 0 (by omega)))
        (iblk1 V c 2 (pt1 0 (by omega))) (k1_pay2 (F := Ideal)) j).trans
      (congrArg (fun z : EReal => z + _) (k1_pay2_apply (ix2 (0 : Fin 1) j)))
  · intro n h
    show k1_pay4 (F := Ideal) (iblk1 V c 0 (pt1 (n + 1) h)) (iblk1 V c 1 (pt1 (n + 1) h))
        (iblk1 V c 2 (pt1 (n + 1) h)) (acc1_4 (F := Ideal) V c n (lt_of_lt_of_eq (by omega : n < 25) stats1_N.symm))
        (ix2 (0 : Fin 1) j) = _
    exact k1_pay4_apply _ _ _ _ j

/-- The running column sum of squares the last point leaves, at column `j`: the sum of the squared rectified values
    over all 100000 rows. -/
theorem stats1_sumsq_last (c : Dev nD) (j : Fin 64) :
    acc1_5 (F := Ideal) V c 24 (lt_of_lt_of_eq (by omega : 24 < 25) stats1_N.symm) (ix2 (0 : Fin 1) j)
      = ∑ r : Fin 100000, actOf (V c main_v64) (V c main_v27) (V c main_v67) (ix2 r j) * actOf (V c main_v64) (V c main_v27) (V c main_v67) (ix2 r j) := by
  refine carried_blocks_sum'
    (fun r : Fin 100000 => actOf (V c main_v64) (V c main_v27) (V c main_v67) (ix2 r j) * actOf (V c main_v64) (V c main_v27) (V c main_v67) (ix2 r j))
    (fun n h => acc1_5 (F := Ideal) V c n (lt_of_lt_of_eq h stats1_N.symm) (ix2 (0 : Fin 1) j))
    (fun t => ∑ p : Fin 4000,
      k1_pay1 (F := Ideal) (iblk1 V c 0 (pt1 t.val t.isLt)) (iblk1 V c 1 (pt1 t.val t.isLt))
          (iblk1 V c 2 (pt1 t.val t.isLt)) (ix2 p j)
        * k1_pay1 (F := Ideal) (iblk1 V c 0 (pt1 t.val t.isLt)) (iblk1 V c 1 (pt1 t.val t.isLt))
          (iblk1 V c 2 (pt1 t.val t.isLt)) (ix2 p j)) ?_ ?_ ?_
  · intro t
    exact Finset.sum_congr rfl fun p _ => by rw [stats1_block_apply V c (pt1 t.val t.isLt) p j _]
  · exact (k1_pay5_apply (iblk1 V c 0 (pt1 0 (by omega))) (iblk1 V c 1 (pt1 0 (by omega)))
        (iblk1 V c 2 (pt1 0 (by omega))) (k1_pay3 (F := Ideal)) j).trans
      (congrArg (fun z : EReal => z + _) (k1_pay3_apply (ix2 (0 : Fin 1) j)))
  · intro n h
    show k1_pay5 (F := Ideal) (iblk1 V c 0 (pt1 (n + 1) h)) (iblk1 V c 1 (pt1 (n + 1) h))
        (iblk1 V c 2 (pt1 (n + 1) h)) (acc1_5 (F := Ideal) V c n (lt_of_lt_of_eq (by omega : n < 25) stats1_N.symm))
        (ix2 (0 : Fin 1) j) = _
    exact k1_pay5_apply _ _ _ _ j

/-- The same at point number `n`, known to be the last. -/
theorem stats1_sum_at (c : Dev nD) (j : Fin 64) (n : ℕ) (h : n < cfg1.N) (e : n = 24) :
    acc1_4 (F := Ideal) V c n h (ix2 (0 : Fin 1) j) = ∑ r : Fin 100000, actOf (V c main_v64) (V c main_v27) (V c main_v67) (ix2 r j) := by
  subst e
  exact stats1_sum_last V c j

theorem stats1_sumsq_at (c : Dev nD) (j : Fin 64) (n : ℕ) (h : n < cfg1.N) (e : n = 24) :
    acc1_5 (F := Ideal) V c n h (ix2 (0 : Fin 1) j)
      = ∑ r : Fin 100000, actOf (V c main_v64) (V c main_v27) (V c main_v67) (ix2 r j) * actOf (V c main_v64) (V c main_v27) (V c main_v67) (ix2 r j) := by
  subst e
  exact stats1_sumsq_last V c j

/-- Only the last point writes the totals back. -/
theorem stats1_last_of_flush4 (t : Fin cfg1.N) (hf : (cfg1.win 4).flush t = true) : t.val = 24 := by
  have hN : t.val < 25 := lt_of_lt_of_eq t.isLt stats1_N
  have := (flush1_4 t).mp hf
  omega

theorem stats1_last_of_flush5 (t : Fin cfg1.N) (hf : (cfg1.win 5).flush t = true) : t.val = 24 := by
  have hN : t.val < 25 := lt_of_lt_of_eq t.isLt stats1_N
  have := (flush1_5 t).mp hf
  omega

/-- A row of totals read through a point's block of it: the row at the block's place. Stated for an arbitrary row, so
    that nothing about the row's entries (sums over all the rows) is ever unfolded. -/
theorem stats1_read4 (G : S1x64.Idx → EReal) (t : Fin cfg1.N) (y : ((cfg1.win 4).xblock (grid1.coords t)).Idx) :
    ((cfg1.win 4).blk t).view.read (Elt Ideal) G y = G (((cfg1.win 4).blk t).view.emb y) := rfl

theorem stats1_read5 (G : S1x64.Idx → EReal) (t : Fin cfg1.N) (y : ((cfg1.win 5).xblock (grid1.coords t)).Idx) :
    ((cfg1.win 5).blk t).view.read (Elt Ideal) G y = G (((cfg1.win 5).blk t).view.emb y) := rfl

/-- What the last point writes back into the row of column sums is the row of whole-array column sums. -/
theorem stats1_sum_flushed (c : Dev nD) (t : Fin cfg1.N) (hf : (cfg1.win 4).flush t = true) :
    (dat1 (F := Ideal) V c).flushed 4 t
      = ((cfg1.win 4).blk t).view.read (Elt Ideal) (colSumOf (actOf (V c main_v64) (V c main_v27) (V c main_v67))) := by
  have h24 := stats1_last_of_flush4 t hf
  obtain ⟨-, -, -, -, -, -, -, -, e40, e41, -, -⟩ := stats1_indices t
  show (cfg1.win 4).cut (grid1.coords t) ((dat1 (F := Ideal) V c).after 4 t) = _
  rw [after1_4]
  funext y
  obtain ⟨z, j, rfl⟩ : ∃ (z : Fin 1) (j : Fin 64), y = ix2 z j := ⟨y 0, y 1, eq_ix2 y⟩
  obtain rfl : z = 0 := Subsingleton.elim _ _
  refine Eq.trans ?_ (stats1_read4 _ t (ix2 (0 : Fin 1) j)).symm
  show acc1_4 (F := Ideal) V c t.val t.isLt (ix2 (0 : Fin 1) j) = _
  refine (stats1_sum_at V c j t.val t.isLt h24).trans ?_
  unfold colSumOf
  refine Finset.sum_congr rfl fun r _ => congrArg (actOf (V c main_v64) (V c main_v27) (V c main_v67)) (funext fun a => Fin.ext ?_)
  match a with
  | ⟨0, _⟩ => rfl
  | ⟨1, _⟩ => show j.val = win1_4.index t (1 : Fin 2) * 64 + 1 * j.val; omega

/-- What the last point writes back into the row of column sums of squares. -/
theorem stats1_sumsq_flushed (c : Dev nD) (t : Fin cfg1.N) (hf : (cfg1.win 5).flush t = true) :
    (dat1 (F := Ideal) V c).flushed 5 t
      = ((cfg1.win 5).blk t).view.read (Elt Ideal) (colSumSqOf (actOf (V c main_v64) (V c main_v27) (V c main_v67))) := by
  have h24 := stats1_last_of_flush5 t hf
  obtain ⟨-, -, -, -, -, -, -, -, -, -, e50, e51⟩ := stats1_indices t
  show (cfg1.win 5).cut (grid1.coords t) ((dat1 (F := Ideal) V c).after 5 t) = _
  rw [after1_5]
  funext y
  obtain ⟨z, j, rfl⟩ : ∃ (z : Fin 1) (j : Fin 64), y = ix2 z j := ⟨y 0, y 1, eq_ix2 y⟩
  obtain rfl : z = 0 := Subsingleton.elim _ _
  refine Eq.trans ?_ (stats1_read5 _ t (ix2 (0 : Fin 1) j)).symm
  show acc1_5 (F := Ideal) V c t.val t.isLt (ix2 (0 : Fin 1) j) = _
  refine (stats1_sumsq_at V c j t.val t.isLt h24).trans ?_
  unfold colSumSqOf colSumOf
  refine Finset.sum_congr rfl fun r _ => congrArg
    (fun i : S100000x64.Idx => actOf (V c main_v64) (V c main_v27) (V c main_v67) i * actOf (V c main_v64) (V c main_v27) (V c main_v67) i)
    (funext fun a => Fin.ext ?_)
  match a with
  | ⟨0, _⟩ => rfl
  | ⟨1, _⟩ => show j.val = win1_5.index t (1 : Fin 2) * 64 + 1 * j.val; omega

/-- The one block of a row of totals is the whole row, and the last point writes it back. -/
theorem stats1_sum_mem_block (t : Fin cfg1.N) (i : S1x64.Idx) :
    i ∈ ((cfg1.win 4).blk t).view.set ↔ ∀ a : Fin 2, win1_4.index t a * S1x64.size a ≤ (i a).val
      ∧ (i a).val < win1_4.index t a * S1x64.size a + S1x64.size a := by
  show i ∈ ((View.whole main_v68_1).slice (win1_4.rect t)).set ↔ _
  rw [View.set_slice_whole, Rect.mem_set_unit]
  exact Iff.rfl

theorem stats1_sum_cover (i : S1x64.Idx) :
    ∃ t : Fin cfg1.N, (cfg1.win 4).flush t = true ∧ i ∈ ((cfg1.win 4).blk t).view.set := by
  have hi0 : (i 0).val < 1 := (i 0).isLt
  have hi1 : (i 1).val < 64 := (i 1).isLt
  have h24 : (24 : ℕ) < 25 := by omega
  obtain ⟨-, -, -, -, -, -, -, -, e40, e41, -, -⟩ := stats1_indices (pt1 24 h24)
  refine ⟨pt1 24 h24, (flush1_4 _).mpr rfl, ?_⟩
  rw [stats1_sum_mem_block]
  intro a
  match a with
  | ⟨0, _⟩ =>
    show win1_4.index (pt1 24 h24) (0 : Fin 2) * 1 ≤ (i 0).val
      ∧ (i 0).val < win1_4.index (pt1 24 h24) (0 : Fin 2) * 1 + 1
    omega
  | ⟨1, _⟩ =>
    show win1_4.index (pt1 24 h24) (1 : Fin 2) * 64 ≤ (i 1).val
      ∧ (i 1).val < win1_4.index (pt1 24 h24) (1 : Fin 2) * 64 + 64
    omega

theorem stats1_sumsq_mem_block (t : Fin cfg1.N) (i : S1x64.Idx) :
    i ∈ ((cfg1.win 5).blk t).view.set ↔ ∀ a : Fin 2, win1_5.index t a * S1x64.size a ≤ (i a).val
      ∧ (i a).val < win1_5.index t a * S1x64.size a + S1x64.size a := by
  show i ∈ ((View.whole main_v68_2).slice (win1_5.rect t)).set ↔ _
  rw [View.set_slice_whole, Rect.mem_set_unit]
  exact Iff.rfl

theorem stats1_sumsq_cover (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  have h24 : (24 : ℕ) < 25 := by omega
  obtain ⟨-, -, -, -, -, -, -, -, -, -, e50, e51⟩ := stats1_indices (pt1 24 h24)
  refine ⟨pt1 24 h24, (flush1_5 _).mpr rfl, ?_⟩
  rw [stats1_sumsq_mem_block]
  intro a
  match a with
  | ⟨0, _⟩ =>
    show win1_5.index (pt1 24 h24) (0 : Fin 2) * 1 ≤ (i 0).val
      ∧ (i 0).val < win1_5.index (pt1 24 h24) (0 : Fin 2) * 1 + 1
    omega
  | ⟨1, _⟩ =>
    show win1_5.index (pt1 24 h24) (1 : Fin 2) * 64 ≤ (i 1).val
      ∧ (i 1).val < win1_5.index (pt1 24 h24) (1 : Fin 2) * 64 + 64
    omega

/-- The rows of totals after the region. -/
theorem stats1_sum_array (c : Dev nD) :
    (dat1 (F := Ideal) V c).arrAt 4 cfg1.N = colSumOf (actOf (V c main_v64) (V c main_v27) (V c main_v67)) :=
  (dat1 (F := Ideal) V c).arrAt_eq_of_cover 4 (colSumOf (actOf (V c main_v64) (V c main_v27) (V c main_v67)))
    (fun t hf => stats1_sum_flushed V c t hf) stats1_sum_cover

theorem stats1_sumsq_array (c : Dev nD) :
    (dat1 (F := Ideal) V c).arrAt 5 cfg1.N = colSumSqOf (actOf (V c main_v64) (V c main_v27) (V c main_v67)) :=
  (dat1 (F := Ideal) V c).arrAt_eq_of_cover 5 (colSumSqOf (actOf (V c main_v64) (V c main_v27) (V c main_v67)))
    (fun t hf => stats1_sumsq_flushed V c t hf) stats1_sumsq_cover

/-- The column sums after the region, at column `j`. -/
theorem final1_sum (c : Dev nD) (j : Fin 64) :
    (dat1 (F := Ideal) V c).arrAt 4 cfg1.N (ix2 (0 : Fin 1) j)
      = ∑ r : Fin 100000, actOf (V c main_v64) (V c main_v27) (V c main_v67) (ix2 r j) :=
  congrFun (stats1_sum_array V c) (ix2 (0 : Fin 1) j)

/-- The column sums of squares after the region, at column `j`. -/
theorem final1_sumsq (c : Dev nD) (j : Fin 64) :
    (dat1 (F := Ideal) V c).arrAt 5 cfg1.N (ix2 (0 : Fin 1) j)
      = ∑ r : Fin 100000, actOf (V c main_v64) (V c main_v27) (V c main_v67) (ix2 r j) * actOf (V c main_v64) (V c main_v27) (V c main_v67) (ix2 r j) :=
  congrFun (stats1_sumsq_array V c) (ix2 (0 : Fin 1) j)

/-! ## Statistics region 4 (second layer) -/

/-- The block indices over the grid: the two row blocks and the result block move with the point along the rows;
    the bias row and the two rows of totals stay at block (0, 0). -/
theorem stats4_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The region has 25 points. -/
theorem stats4_N : cfg4.N = 25 := N_4

/-- Point number `n` of the 25. -/
abbrev pt4 (n : ℕ) (h : n < 25) : Fin cfg4.N := ⟨n, lt_of_lt_of_eq h stats4_N.symm⟩

/-- The rectified value a point computes at row `p`, column `j` of its block is the whole-array function at row
    `4000 · t + p`: each input block sits in its array at block index × block size + the coordinate inside. -/
theorem stats4_block_apply (c : Dev nD) (t : Fin cfg4.N) (p : Fin 4000) (j : Fin 64)
    (hlt : 4000 * t.val + p.val < 100000) :
    k4_pay1 (F := Ideal) (iblk4 V c 0 t) (iblk4 V c 1 t) (iblk4 V c 2 t) (ix2 p j)
      = actOf (V c main_v145) (V c main_v108) (V c main_v148) (ix2 (⟨4000 * t.val + p.val, hlt⟩ : Fin 100000) j) := by
  obtain ⟨e00, e01, e10, e11, e20, e21, -, -, -, -, -, -⟩ := stats4_indices t
  refine (k4_pay1_apply (iblk4 V c 0 t) (iblk4 V c 1 t) (iblk4 V c 2 t) p j).trans ?_
  unfold actOf
  refine congrArg₂ (fun a b : EReal => max a b) (congrArg₂ (fun a b : EReal => a + b)
    (congrArg₂ (fun a b : EReal => a + b) ?_ ?_) ?_) rfl
  · show V c main_v145 (((cfg4.win 0).blk t).view.emb (ix2 p j)) = V c main_v145 (ix2 (⟨4000 * t.val + p.val, hlt⟩ : Fin 100000) j)
    refine congrArg (V c main_v145) (funext fun a => Fin.ext ?_)
    match a with
    | ⟨0, _⟩ => show win4_0.index t (0 : Fin 2) * 4000 + 1 * p.val = 4000 * t.val + p.val; omega
    | ⟨1, _⟩ => show win4_0.index t (1 : Fin 2) * 64 + 1 * j.val = j.val; omega
  · show V c main_v108 (((cfg4.win 1).blk t).view.emb (ix2 p j)) = V c main_v108 (ix2 (⟨4000 * t.val + p.val, hlt⟩ : Fin 100000) j)
    refine congrArg (V c main_v108) (funext fun a => Fin.ext ?_)
    match a with
    | ⟨0, _⟩ => show win4_1.index t (0 : Fin 2) * 4000 + 1 * p.val = 4000 * t.val + p.val; omega
    | ⟨1, _⟩ => show win4_1.index t (1 : Fin 2) * 64 + 1 * j.val = j.val; omega
  · show V c main_v148 (((cfg4.win 2).blk t).view.emb (ix2 (0 : Fin 1) j)) = V c main_v148 (ix2 (0 : Fin 1) j)
    refine congrArg (V c main_v148) (funext fun a => Fin.ext ?_)
    match a with
    | ⟨0, _⟩ => show win4_2.index t (0 : Fin 2) * 1 + 1 * 0 = 0; omega
    | ⟨1, _⟩ => show win4_2.index t (1 : Fin 2) * 64 + 1 * j.val = j.val; omega

/-- What point `t` writes back into the result array is block `t` of the whole-array function. -/
theorem stats4_flushed (c : Dev nD) (t : Fin cfg4.N) :
    (dat4 (F := Ideal) V c).flushed 3 t
      = ((cfg4.win 3).blk t).view.read (Elt Ideal) (actOf (V c main_v145) (V c main_v108) (V c main_v148)) := by
  show (cfg4.win 3).cut (grid4.coords t) ((dat4 (F := Ideal) V c).after 3 t) = _
  rw [after4_3]
  obtain ⟨-, -, -, -, -, -, e30, e31, -, -, -, -⟩ := stats4_indices t
  have hN : t.val < 25 := lt_of_lt_of_eq t.isLt stats4_N
  funext y
  obtain ⟨p, j, rfl⟩ : ∃ (p : Fin 4000) (j : Fin 64), y = ix2 p j := ⟨y 0, y 1, eq_ix2 y⟩
  have hp : p.val < 4000 := p.isLt
  show k4_pay1 (F := Ideal) (iblk4 V c 0 t) (iblk4 V c 1 t) (iblk4 V c 2 t) (ix2 p j)
    = actOf (V c main_v145) (V c main_v108) (V c main_v148) (((cfg4.win 3).blk t).view.emb (ix2 p j))
  refine (stats4_block_apply V c t p j (by omega)).trans ?_
  refine congrArg (actOf (V c main_v145) (V c main_v108) (V c main_v148)) (funext fun a => Fin.ext ?_)
  match a with
  | ⟨0, _⟩ => show 4000 * t.val + p.val = win4_3.index t (0 : Fin 2) * 4000 + 1 * p.val; omega
  | ⟨1, _⟩ => show j.val = win4_3.index t (1 : Fin 2) * 64 + 1 * j.val; omega

/-- An index of the result array lies in point `t`'s block iff each coordinate lies in the block's range. -/
theorem stats4_mem_block (t : Fin cfg4.N) (i : S100000x64.Idx) :
    i ∈ ((cfg4.win 3).blk t).view.set ↔ ∀ a : Fin 2, win4_3.index t a * S4000x64.size a ≤ (i a).val
      ∧ (i a).val < win4_3.index t a * S4000x64.size a + S4000x64.size a := by
  show i ∈ ((View.whole main_v149_0).slice (win4_3.rect t)).set ↔ _
  rw [View.set_slice_whole, Rect.mem_set_unit]
  exact Iff.rfl

/-- Row `r` lies in the block of point `r / 4000`, and every point writes its block back. -/
theorem stats4_cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hlt : (i 0).val / 4000 < cfg4.N := by rw [stats4_N]; omega
  obtain ⟨-, -, -, -, -, -, e30, e31, -, -, -, -⟩ := stats4_indices ⟨(i 0).val / 4000, hlt⟩
  have e30' : win4_3.index ⟨(i 0).val / 4000, hlt⟩ (0 : Fin 2) = (i 0).val / 4000 := e30
  refine ⟨⟨(i 0).val / 4000, hlt⟩, flush4_3 _, ?_⟩
  rw [stats4_mem_block]
  intro a
  match a with
  | ⟨0, _⟩ =>
    show win4_3.index ⟨(i 0).val / 4000, hlt⟩ (0 : Fin 2) * 4000 ≤ (i 0).val
      ∧ (i 0).val < win4_3.index ⟨(i 0).val / 4000, hlt⟩ (0 : Fin 2) * 4000 + 4000
    omega
  | ⟨1, _⟩ =>
    show win4_3.index ⟨(i 0).val / 4000, hlt⟩ (1 : Fin 2) * 64 ≤ (i 1).val
      ∧ (i 1).val < win4_3.index ⟨(i 0).val / 4000, hlt⟩ (1 : Fin 2) * 64 + 64
    omega

/-- The result array after the region is the whole-array function of the entry contents. -/
theorem stats4_array (c : Dev nD) :
    (dat4 (F := Ideal) V c).arrAt 3 cfg4.N = actOf (V c main_v145) (V c main_v108) (V c main_v148) :=
  (dat4 (F := Ideal) V c).arrAt_eq_of_cover 3 (actOf (V c main_v145) (V c main_v108) (V c main_v148))
    (fun t _ => stats4_flushed V c t) stats4_cover

/-- The result array after the region, at row `r`, column `j`. -/
theorem final4_y (c : Dev nD) (r : Fin 100000) (j : Fin 64) :
    (dat4 (F := Ideal) V c).arrAt 3 cfg4.N (ix2 r j)
      = max ((V c main_v145 (ix2 r j) +ₑ V c main_v108 (ix2 r j)) +ₑ V c main_v148 (ix2 (0 : Fin 1) j)) (0 : EReal) :=
  congrFun (stats4_array V c) (ix2 r j)

/-- The running column sum the last point leaves, at column `j`: the sum of the rectified values over all 100000 rows.
    The first point starts from the zero row, every point adds its block's column sum, and the 25 blocks of 4000 rows
    are all the rows. -/
theorem stats4_sum_last (c : Dev nD) (j : Fin 64) :
    acc4_4 (F := Ideal) V c 24 (lt_of_lt_of_eq (by omega : 24 < 25) stats4_N.symm) (ix2 (0 : Fin 1) j)
      = ∑ r : Fin 100000, actOf (V c main_v145) (V c main_v108) (V c main_v148) (ix2 r j) := by
  refine carried_blocks_sum' (fun r : Fin 100000 => actOf (V c main_v145) (V c main_v108) (V c main_v148) (ix2 r j))
    (fun n h => acc4_4 (F := Ideal) V c n (lt_of_lt_of_eq h stats4_N.symm) (ix2 (0 : Fin 1) j))
    (fun t => ∑ p : Fin 4000, k4_pay1 (F := Ideal) (iblk4 V c 0 (pt4 t.val t.isLt)) (iblk4 V c 1 (pt4 t.val t.isLt))
      (iblk4 V c 2 (pt4 t.val t.isLt)) (ix2 p j)) ?_ ?_ ?_
  · intro t
    exact Finset.sum_congr rfl fun p _ => stats4_block_apply V c (pt4 t.val t.isLt) p j _
  · exact (k4_pay4_apply (iblk4 V c 0 (pt4 0 (by omega))) (iblk4 V c 1 (pt4 0 (by omega)))
        (iblk4 V c 2 (pt4 0 (by omega))) (k4_pay2 (F := Ideal)) j).trans
      (congrArg (fun z : EReal => z + _) (k4_pay2_apply (ix2 (0 : Fin 1) j)))
  · intro n h
    show k4_pay4 (F := Ideal) (iblk4 V c 0 (pt4 (n + 1) h)) (iblk4 V c 1 (pt4 (n + 1) h))
        (iblk4 V c 2 (pt4 (n + 1) h)) (acc4_4 (F := Ideal) V c n (lt_of_lt_of_eq (by omega : n < 25) stats4_N.symm))
        (ix2 (0 : Fin 1) j) = _
    exact k4_pay4_apply _ _ _ _ j

/-- The running column sum of squares the last point leaves, at column `j`: the sum of the squared rectified values
    over all 100000 rows. -/
theorem stats4_sumsq_last (c : Dev nD) (j : Fin 64) :
    acc4_5 (F := Ideal) V c 24 (lt_of_lt_of_eq (by omega : 24 < 25) stats4_N.symm) (ix2 (0 : Fin 1) j)
      = ∑ r : Fin 100000, actOf (V c main_v145) (V c main_v108) (V c main_v148) (ix2 r j) * actOf (V c main_v145) (V c main_v108) (V c main_v148) (ix2 r j) := by
  refine carried_blocks_sum'
    (fun r : Fin 100000 => actOf (V c main_v145) (V c main_v108) (V c main_v148) (ix2 r j) * actOf (V c main_v145) (V c main_v108) (V c main_v148) (ix2 r j))
    (fun n h => acc4_5 (F := Ideal) V c n (lt_of_lt_of_eq h stats4_N.symm) (ix2 (0 : Fin 1) j))
    (fun t => ∑ p : Fin 4000,
      k4_pay1 (F := Ideal) (iblk4 V c 0 (pt4 t.val t.isLt)) (iblk4 V c 1 (pt4 t.val t.isLt))
          (iblk4 V c 2 (pt4 t.val t.isLt)) (ix2 p j)
        * k4_pay1 (F := Ideal) (iblk4 V c 0 (pt4 t.val t.isLt)) (iblk4 V c 1 (pt4 t.val t.isLt))
          (iblk4 V c 2 (pt4 t.val t.isLt)) (ix2 p j)) ?_ ?_ ?_
  · intro t
    exact Finset.sum_congr rfl fun p _ => by rw [stats4_block_apply V c (pt4 t.val t.isLt) p j _]
  · exact (k4_pay5_apply (iblk4 V c 0 (pt4 0 (by omega))) (iblk4 V c 1 (pt4 0 (by omega)))
        (iblk4 V c 2 (pt4 0 (by omega))) (k4_pay3 (F := Ideal)) j).trans
      (congrArg (fun z : EReal => z + _) (k4_pay3_apply (ix2 (0 : Fin 1) j)))
  · intro n h
    show k4_pay5 (F := Ideal) (iblk4 V c 0 (pt4 (n + 1) h)) (iblk4 V c 1 (pt4 (n + 1) h))
        (iblk4 V c 2 (pt4 (n + 1) h)) (acc4_5 (F := Ideal) V c n (lt_of_lt_of_eq (by omega : n < 25) stats4_N.symm))
        (ix2 (0 : Fin 1) j) = _
    exact k4_pay5_apply _ _ _ _ j

/-- The same at point number `n`, known to be the last. -/
theorem stats4_sum_at (c : Dev nD) (j : Fin 64) (n : ℕ) (h : n < cfg4.N) (e : n = 24) :
    acc4_4 (F := Ideal) V c n h (ix2 (0 : Fin 1) j) = ∑ r : Fin 100000, actOf (V c main_v145) (V c main_v108) (V c main_v148) (ix2 r j) := by
  subst e
  exact stats4_sum_last V c j

theorem stats4_sumsq_at (c : Dev nD) (j : Fin 64) (n : ℕ) (h : n < cfg4.N) (e : n = 24) :
    acc4_5 (F := Ideal) V c n h (ix2 (0 : Fin 1) j)
      = ∑ r : Fin 100000, actOf (V c main_v145) (V c main_v108) (V c main_v148) (ix2 r j) * actOf (V c main_v145) (V c main_v108) (V c main_v148) (ix2 r j) := by
  subst e
  exact stats4_sumsq_last V c j

/-- Only the last point writes the totals back. -/
theorem stats4_last_of_flush4 (t : Fin cfg4.N) (hf : (cfg4.win 4).flush t = true) : t.val = 24 := by
  have hN : t.val < 25 := lt_of_lt_of_eq t.isLt stats4_N
  have := (flush4_4 t).mp hf
  omega

theorem stats4_last_of_flush5 (t : Fin cfg4.N) (hf : (cfg4.win 5).flush t = true) : t.val = 24 := by
  have hN : t.val < 25 := lt_of_lt_of_eq t.isLt stats4_N
  have := (flush4_5 t).mp hf
  omega

/-- A row of totals read through a point's block of it: the row at the block's place. Stated for an arbitrary row, so
    that nothing about the row's entries (sums over all the rows) is ever unfolded. -/
theorem stats4_read4 (G : S1x64.Idx → EReal) (t : Fin cfg4.N) (y : ((cfg4.win 4).xblock (grid4.coords t)).Idx) :
    ((cfg4.win 4).blk t).view.read (Elt Ideal) G y = G (((cfg4.win 4).blk t).view.emb y) := rfl

theorem stats4_read5 (G : S1x64.Idx → EReal) (t : Fin cfg4.N) (y : ((cfg4.win 5).xblock (grid4.coords t)).Idx) :
    ((cfg4.win 5).blk t).view.read (Elt Ideal) G y = G (((cfg4.win 5).blk t).view.emb y) := rfl

/-- What the last point writes back into the row of column sums is the row of whole-array column sums. -/
theorem stats4_sum_flushed (c : Dev nD) (t : Fin cfg4.N) (hf : (cfg4.win 4).flush t = true) :
    (dat4 (F := Ideal) V c).flushed 4 t
      = ((cfg4.win 4).blk t).view.read (Elt Ideal) (colSumOf (actOf (V c main_v145) (V c main_v108) (V c main_v148))) := by
  have h24 := stats4_last_of_flush4 t hf
  obtain ⟨-, -, -, -, -, -, -, -, e40, e41, -, -⟩ := stats4_indices t
  show (cfg4.win 4).cut (grid4.coords t) ((dat4 (F := Ideal) V c).after 4 t) = _
  rw [after4_4]
  funext y
  obtain ⟨z, j, rfl⟩ : ∃ (z : Fin 1) (j : Fin 64), y = ix2 z j := ⟨y 0, y 1, eq_ix2 y⟩
  obtain rfl : z = 0 := Subsingleton.elim _ _
  refine Eq.trans ?_ (stats4_read4 _ t (ix2 (0 : Fin 1) j)).symm
  show acc4_4 (F := Ideal) V c t.val t.isLt (ix2 (0 : Fin 1) j) = _
  refine (stats4_sum_at V c j t.val t.isLt h24).trans ?_
  unfold colSumOf
  refine Finset.sum_congr rfl fun r _ => congrArg (actOf (V c main_v145) (V c main_v108) (V c main_v148)) (funext fun a => Fin.ext ?_)
  match a with
  | ⟨0, _⟩ => rfl
  | ⟨1, _⟩ => show j.val = win4_4.index t (1 : Fin 2) * 64 + 1 * j.val; omega

/-- What the last point writes back into the row of column sums of squares. -/
theorem stats4_sumsq_flushed (c : Dev nD) (t : Fin cfg4.N) (hf : (cfg4.win 5).flush t = true) :
    (dat4 (F := Ideal) V c).flushed 5 t
      = ((cfg4.win 5).blk t).view.read (Elt Ideal) (colSumSqOf (actOf (V c main_v145) (V c main_v108) (V c main_v148))) := by
  have h24 := stats4_last_of_flush5 t hf
  obtain ⟨-, -, -, -, -, -, -, -, -, -, e50, e51⟩ := stats4_indices t
  show (cfg4.win 5).cut (grid4.coords t) ((dat4 (F := Ideal) V c).after 5 t) = _
  rw [after4_5]
  funext y
  obtain ⟨z, j, rfl⟩ : ∃ (z : Fin 1) (j : Fin 64), y = ix2 z j := ⟨y 0, y 1, eq_ix2 y⟩
  obtain rfl : z = 0 := Subsingleton.elim _ _
  refine Eq.trans ?_ (stats4_read5 _ t (ix2 (0 : Fin 1) j)).symm
  show acc4_5 (F := Ideal) V c t.val t.isLt (ix2 (0 : Fin 1) j) = _
  refine (stats4_sumsq_at V c j t.val t.isLt h24).trans ?_
  unfold colSumSqOf colSumOf
  refine Finset.sum_congr rfl fun r _ => congrArg
    (fun i : S100000x64.Idx => actOf (V c main_v145) (V c main_v108) (V c main_v148) i * actOf (V c main_v145) (V c main_v108) (V c main_v148) i)
    (funext fun a => Fin.ext ?_)
  match a with
  | ⟨0, _⟩ => rfl
  | ⟨1, _⟩ => show j.val = win4_5.index t (1 : Fin 2) * 64 + 1 * j.val; omega

/-- The one block of a row of totals is the whole row, and the last point writes it back. -/
theorem stats4_sum_mem_block (t : Fin cfg4.N) (i : S1x64.Idx) :
    i ∈ ((cfg4.win 4).blk t).view.set ↔ ∀ a : Fin 2, win4_4.index t a * S1x64.size a ≤ (i a).val
      ∧ (i a).val < win4_4.index t a * S1x64.size a + S1x64.size a := by
  show i ∈ ((View.whole main_v149_1).slice (win4_4.rect t)).set ↔ _
  rw [View.set_slice_whole, Rect.mem_set_unit]
  exact Iff.rfl

theorem stats4_sum_cover (i : S1x64.Idx) :
    ∃ t : Fin cfg4.N, (cfg4.win 4).flush t = true ∧ i ∈ ((cfg4.win 4).blk t).view.set := by
  have hi0 : (i 0).val < 1 := (i 0).isLt
  have hi1 : (i 1).val < 64 := (i 1).isLt
  have h24 : (24 : ℕ) < 25 := by omega
  obtain ⟨-, -, -, -, -, -, -, -, e40, e41, -, -⟩ := stats4_indices (pt4 24 h24)
  refine ⟨pt4 24 h24, (flush4_4 _).mpr rfl, ?_⟩
  rw [stats4_sum_mem_block]
  intro a
  match a with
  | ⟨0, _⟩ =>
    show win4_4.index (pt4 24 h24) (0 : Fin 2) * 1 ≤ (i 0).val
      ∧ (i 0).val < win4_4.index (pt4 24 h24) (0 : Fin 2) * 1 + 1
    omega
  | ⟨1, _⟩ =>
    show win4_4.index (pt4 24 h24) (1 : Fin 2) * 64 ≤ (i 1).val
      ∧ (i 1).val < win4_4.index (pt4 24 h24) (1 : Fin 2) * 64 + 64
    omega

theorem stats4_sumsq_mem_block (t : Fin cfg4.N) (i : S1x64.Idx) :
    i ∈ ((cfg4.win 5).blk t).view.set ↔ ∀ a : Fin 2, win4_5.index t a * S1x64.size a ≤ (i a).val
      ∧ (i a).val < win4_5.index t a * S1x64.size a + S1x64.size a := by
  show i ∈ ((View.whole main_v149_2).slice (win4_5.rect t)).set ↔ _
  rw [View.set_slice_whole, Rect.mem_set_unit]
  exact Iff.rfl

theorem stats4_sumsq_cover (i : S1x64.Idx) :
    ∃ t : Fin cfg4.N, (cfg4.win 5).flush t = true ∧ i ∈ ((cfg4.win 5).blk t).view.set := by
  have hi0 : (i 0).val < 1 := (i 0).isLt
  have hi1 : (i 1).val < 64 := (i 1).isLt
  have h24 : (24 : ℕ) < 25 := by omega
  obtain ⟨-, -, -, -, -, -, -, -, -, -, e50, e51⟩ := stats4_indices (pt4 24 h24)
  refine ⟨pt4 24 h24, (flush4_5 _).mpr rfl, ?_⟩
  rw [stats4_sumsq_mem_block]
  intro a
  match a with
  | ⟨0, _⟩ =>
    show win4_5.index (pt4 24 h24) (0 : Fin 2) * 1 ≤ (i 0).val
      ∧ (i 0).val < win4_5.index (pt4 24 h24) (0 : Fin 2) * 1 + 1
    omega
  | ⟨1, _⟩ =>
    show win4_5.index (pt4 24 h24) (1 : Fin 2) * 64 ≤ (i 1).val
      ∧ (i 1).val < win4_5.index (pt4 24 h24) (1 : Fin 2) * 64 + 64
    omega

/-- The rows of totals after the region. -/
theorem stats4_sum_array (c : Dev nD) :
    (dat4 (F := Ideal) V c).arrAt 4 cfg4.N = colSumOf (actOf (V c main_v145) (V c main_v108) (V c main_v148)) :=
  (dat4 (F := Ideal) V c).arrAt_eq_of_cover 4 (colSumOf (actOf (V c main_v145) (V c main_v108) (V c main_v148)))
    (fun t hf => stats4_sum_flushed V c t hf) stats4_sum_cover

theorem stats4_sumsq_array (c : Dev nD) :
    (dat4 (F := Ideal) V c).arrAt 5 cfg4.N = colSumSqOf (actOf (V c main_v145) (V c main_v108) (V c main_v148)) :=
  (dat4 (F := Ideal) V c).arrAt_eq_of_cover 5 (colSumSqOf (actOf (V c main_v145) (V c main_v108) (V c main_v148)))
    (fun t hf => stats4_sumsq_flushed V c t hf) stats4_sumsq_cover

/-- The column sums after the region, at column `j`. -/
theorem final4_sum (c : Dev nD) (j : Fin 64) :
    (dat4 (F := Ideal) V c).arrAt 4 cfg4.N (ix2 (0 : Fin 1) j)
      = ∑ r : Fin 100000, actOf (V c main_v145) (V c main_v108) (V c main_v148) (ix2 r j) :=
  congrFun (stats4_sum_array V c) (ix2 (0 : Fin 1) j)

/-- The column sums of squares after the region, at column `j`. -/
theorem final4_sumsq (c : Dev nD) (j : Fin 64) :
    (dat4 (F := Ideal) V c).arrAt 5 cfg4.N (ix2 (0 : Fin 1) j)
      = ∑ r : Fin 100000, actOf (V c main_v145) (V c main_v108) (V c main_v148) (ix2 r j) * actOf (V c main_v145) (V c main_v108) (V c main_v148) (ix2 r j) :=
  congrFun (stats4_sumsq_array V c) (ix2 (0 : Fin 1) j)

end Cert.Val

end
-- ==== Proof.Val.KerChain1.lean ====
/-
  The kernel program's first layer, read through its run. Between two items of the program the device's buffers
  hold known contents: after the first host stretch the concatenated weights and biases and the two endpoint
  rows of the edge list; after the first kernel the four affine images side by side in one 100000×256 array;
  after the second stretch the aggregated messages, the skip image and the bias row; after the second kernel
  the rectified pre-activation and its two column sums; after the third stretch the column mean, the
  reciprocal standard deviation and the scale and shift rows; after the third kernel the normalised layer.
  Each fact is the next stretch's (or kernel's) own reading applied to the facts before it; a buffer that an
  item does not write keeps its contents.
-/
import proofs.«178820_j816043786337_1_alg».proof.Proof.KI.Run
import proofs.«178820_j816043786337_1_alg».proof.Proof.Gen.KernelIdeal.Regions
import proofs.«178820_j816043786337_1_alg».proof.Proof.Val.KerRegionsA
import proofs.«178820_j816043786337_1_alg».proof.Proof.Val.KerRegionsR
import proofs.«178820_j816043786337_1_alg».proof.Proof.Val.KerHost

noncomputable section

namespace Cert.Val

open Idealize.ShloMosaic Idealize.ShloMosaic.TcCoe Idealize.SL.Sem
open Cert.KernelIdeal Cert.KernelIdeal.Gen Cert.KernelIdeal.Frame
open Idealize.ShloMosaic.ValueIdx

/-- A TensorCore reference as a device reference. -/
abbrev dr (b : Ref sig .tc) : DevRef τ sig := Proc.devRef .tc b

variable [Facts]
variable (m : (ℓ : Loc nD τ sig) → Buf (Elt Ideal) ℓ) (ρ : Dev nD → PrngReg) (c : Dev nD)

/-! ## The arguments, the parameters and the layers they determine -/

/-- The edge list's source row. -/
abbrev srcM : VecE := srcOf (m ((c : Thread nD τ).loc main_arg1))
/-- The edge list's target row. -/
abbrev dstM : VecE := dstOf (m ((c : Thread nD τ).loc main_arg1))
/-- The edge stage of this run. -/
abbrev GM : Agg := aggI (srcM m c) (dstM m c)
/-- Layer `l`'s parameters, sliced out of the stacked arguments. -/
abbrev PM (l : Fin 2) : Params :=
  paramsOf l (m ((c : Thread nD τ).loc main_arg3)) (m ((c : Thread nD τ).loc main_arg5)) (m ((c : Thread nD τ).loc main_arg7))
    (m ((c : Thread nD τ).loc main_arg9)) (m ((c : Thread nD τ).loc main_arg4)) (m ((c : Thread nD τ).loc main_arg6))
    (m ((c : Thread nD τ).loc main_arg8)) (m ((c : Thread nD τ).loc main_arg10)) (m ((c : Thread nD τ).loc main_arg11))
    (m ((c : Thread nD τ).loc main_arg12)) (m ((c : Thread nD τ).loc main_arg13))
/-- The node features as launched. -/
abbrev X0 : Mat 100000 64 := toMat (m ((c : Thread nD τ).loc main_arg0))
/-- The first layer's output. -/
abbrev X1 : Mat 100000 64 := layerK (GM m c) (PM m c 0) (X0 m c)

/-! ## What an item does not write it keeps -/

theorem W1_keep (r : Ref sig .tc) (h : r ∉ hostOps0_W) : W1 m ρ c (dr r) = W0 m ρ c (dr r) :=
  StableHlo.after_of_writes_sub hostOps0 _ hostOps0_writes h
theorem W2_keep (r : Ref sig .tc) (h : ∀ w, Pipeline.arrRef spec0 w ≠ r) : W2 m ρ c (dr r) = W1 m ρ c (dr r) :=
  W2_of_ne m ρ c r h
theorem W3_keep (r : Ref sig .tc) (h : r ∉ hostOps1_W) : W3 m ρ c (dr r) = W2 m ρ c (dr r) :=
  StableHlo.after_of_writes_sub hostOps1 _ hostOps1_writes h
theorem W4_keep (r : Ref sig .tc) (h : ∀ w, Pipeline.arrRef spec1 w ≠ r) : W4 m ρ c (dr r) = W3 m ρ c (dr r) :=
  W4_of_ne m ρ c r h
theorem W5_keep (r : Ref sig .tc) (h : r ∉ hostOps2_W) : W5 m ρ c (dr r) = W4 m ρ c (dr r) :=
  StableHlo.after_of_writes_sub hostOps2 _ hostOps2_writes h
theorem W6_keep (r : Ref sig .tc) (h : ∀ w, Pipeline.arrRef spec2 w ≠ r) : W6 m ρ c (dr r) = W5 m ρ c (dr r) :=
  W6_of_ne m ρ c r h

/-- An argument's buffer at launch. -/
theorem W0_arg (r : Ref sig .tc) : W0 m ρ c (dr r) = m ((c : Thread nD τ).loc r) := rfl

/-! ## After the first host stretch -/

theorem W1_src : W1 m ρ c (dr main_v1) = srcM m c := H0_src (W0 m ρ c)
theorem W1_dst : W1 m ρ c (dr main_v3) = dstM m c := H0_dst (W0 m ρ c)
theorem W1_x : W1 m ρ c (dr main_arg0) = m ((c : Thread nD τ).loc main_arg0) :=
  (W1_keep m ρ c main_arg0 (by decide)).trans (W0_arg m ρ c main_arg0)

/-! ## After the first kernel: the four affine images, side by side -/

/-- The 100000×256 array at an index: the contraction with the concatenated weights plus the concatenated bias. -/
theorem W2_images (r : Fin 100000) (j : Fin 256) :
    W2 m ρ c (dr main_v23) (ix2 r j)
      = HAdd.hAdd (α := EReal) (β := EReal) (γ := EReal)
          (∑ k : Fin 64, HMul.hMul (α := EReal) (β := EReal) (γ := EReal)
            (m ((c : Thread nD τ).loc main_arg0) (ix2 r k)) (W1 m ρ c (dr main_v12) (ix2 k j)))
          (W1 m ρ c (dr main_v22) (ix2 0 j)) := by
  have h := final0 (U1 m ρ) c r j
  rw [← W2_arr m ρ c 3] at h
  rw [show W2 m ρ c (dr main_v23) = W2 m ρ c (dr (Pipeline.arrRef spec0 3)) from rfl, h]
  rw [show U1 m ρ c main_arg0 = W1 m ρ c (dr main_arg0) from rfl, W1_x m ρ c]

theorem W2_key (r : Fin 100000) (j : Fin 64) :
    W2 m ρ c (dr main_v23) (ix2 r ⟨j.val, by omega⟩) = lin (X0 m c) (PM m c 0).Wk (PM m c 0).bk r j := by
  rw [W2_images]
  simp only [H0_bcat_k (W0 m ρ c) j, H0_wcat_k (W0 m ρ c) _ j]
  rfl
theorem W2_query (r : Fin 100000) (j : Fin 64) :
    W2 m ρ c (dr main_v23) (ix2 r ⟨64 + j.val, by omega⟩) = lin (X0 m c) (PM m c 0).Wq (PM m c 0).bq r j := by
  rw [W2_images]
  simp only [H0_bcat_q (W0 m ρ c) j, H0_wcat_q (W0 m ρ c) _ j]
  rfl
theorem W2_value (r : Fin 100000) (j : Fin 64) :
    W2 m ρ c (dr main_v23) (ix2 r ⟨128 + j.val, by omega⟩) = lin (X0 m c) (PM m c 0).Wv (PM m c 0).bv r j := by
  rw [W2_images]
  simp only [H0_bcat_v (W0 m ρ c) j, H0_wcat_v (W0 m ρ c) _ j]
  rfl
theorem W2_skip (r : Fin 100000) (j : Fin 64) :
    W2 m ρ c (dr main_v23) (ix2 r ⟨192 + j.val, by omega⟩) = lin (X0 m c) (PM m c 0).Ws (PM m c 0).bs r j := by
  rw [W2_images]
  simp only [H0_bcat_s (W0 m ρ c) j, H0_wcat_s (W0 m ρ c) _ j]
  rfl

/-- A 100000×64 array that is a given function entry by entry. -/
theorem eq_toVec (v : VecNF) (f : Mat 100000 64) (h : ∀ r j, v (ix2 r j) = f r j) : v = toVec f := by
  rw [← toVec_toMat v]; congr 1; funext r j; exact h r j

theorem W2_src : W2 m ρ c (dr main_v1) = srcM m c := (W2_keep m ρ c main_v1 (by decide)).trans (W1_src m ρ c)
theorem W2_dst : W2 m ρ c (dr main_v3) = dstM m c := (W2_keep m ρ c main_v3 (by decide)).trans (W1_dst m ρ c)

/-! ## After the second host stretch: the aggregated messages, the skip image, the bias row -/

theorem W3_agg : W3 m ρ c (dr main_v64) = toVec (aggOf (GM m c) (PM m c 0) (X0 m c)) := by
  rw [show W3 m ρ c = StableHlo.after hostOps1 (W2 m ρ c) from rfl, H1_agg (W2 m ρ c), W2_src, W2_dst,
    eq_toVec _ _ (fun r j => (colSlice0_apply _ r j).trans (W2_key m ρ c r j)),
    eq_toVec _ _ (fun r j => (colSlice64_apply _ r j).trans (W2_query m ρ c r j)),
    eq_toVec _ _ (fun r j => (colSlice128_apply _ r j).trans (W2_value m ρ c r j))]
  exact (toVec_toMat _).symm

theorem W3_skip : W3 m ρ c (dr main_v27) = toVec (lin (X0 m c) (PM m c 0).Ws (PM m c 0).bs) := by
  rw [show W3 m ρ c = StableHlo.after hostOps1 (W2 m ρ c) from rfl, H1_skip (W2 m ρ c)]
  exact eq_toVec _ _ (fun r j => (colSlice192_apply _ r j).trans (W2_skip m ρ c r j))

theorem W3_bias (j : Fin 64) : W3 m ρ c (dr main_v67) (ix2 0 j) = (PM m c 0).bias j := by
  rw [show W3 m ρ c = StableHlo.after hostOps1 (W2 m ρ c) from rfl, H1_bias (W2 m ρ c) j,
    W2_keep m ρ c main_arg11 (by decide), W1_keep m ρ c main_arg11 (by decide)]
  rfl

theorem toVec_apply (f : Mat 100000 64) (r : Fin 100000) (j : Fin 64) : toVec f (ix2 r j) = f r j :=
  congrFun (congrFun (toMat_toVec f) r) j

/-! ## After the second kernel: the rectified pre-activation and its column sums -/

theorem W4_act (r : Fin 100000) (j : Fin 64) :
    W4 m ρ c (dr main_v68_0) (ix2 r j) = actK (GM m c) (PM m c 0) (X0 m c) r j := by
  have h := final1_y (U3 m ρ) c r j
  rw [← W4_arr m ρ c 3] at h
  rw [show W4 m ρ c (dr main_v68_0) = W4 m ρ c (dr (Pipeline.arrRef spec1 3)) from rfl, h,
    show U3 m ρ c main_v64 = W3 m ρ c (dr main_v64) from rfl, show U3 m ρ c main_v27 = W3 m ρ c (dr main_v27) from rfl,
    show U3 m ρ c main_v67 = W3 m ρ c (dr main_v67) from rfl,
    W3_agg, W3_skip, W3_bias, toVec_apply, toVec_apply]
  rfl

theorem W4_sum (j : Fin 64) :
    (W4 m ρ c (dr main_v68_1) (ix2 0 j) : EReal) = ∑ r : Fin 100000, actK (GM m c) (PM m c 0) (X0 m c) r j := by
  have h := final1_sum (U3 m ρ) c j
  rw [← W4_arr m ρ c 4] at h
  rw [show W4 m ρ c (dr main_v68_1) = W4 m ρ c (dr (Pipeline.arrRef spec1 4)) from rfl, h]
  show (_ : EReal) = _
  refine Finset.sum_congr rfl fun r _ => ?_
  rw [actOf_apply, show U3 m ρ c main_v64 = W3 m ρ c (dr main_v64) from rfl,
    show U3 m ρ c main_v27 = W3 m ρ c (dr main_v27) from rfl,
    show U3 m ρ c main_v67 = W3 m ρ c (dr main_v67) from rfl,
    W3_agg, W3_skip, W3_bias, toVec_apply, toVec_apply]
  rfl

theorem W4_sumsq (j : Fin 64) :
    (W4 m ρ c (dr main_v68_2) (ix2 0 j) : EReal)
      = ∑ r : Fin 100000, actK (GM m c) (PM m c 0) (X0 m c) r j * actK (GM m c) (PM m c 0) (X0 m c) r j := by
  have h := final1_sumsq (U3 m ρ) c j
  rw [← W4_arr m ρ c 5] at h
  rw [show W4 m ρ c (dr main_v68_2) = W4 m ρ c (dr (Pipeline.arrRef spec1 5)) from rfl, h]
  show (_ : EReal) = _
  refine Finset.sum_congr rfl fun r _ => ?_
  rw [actOf_apply, show U3 m ρ c main_v64 = W3 m ρ c (dr main_v64) from rfl,
    show U3 m ρ c main_v27 = W3 m ρ c (dr main_v27) from rfl,
    show U3 m ρ c main_v67 = W3 m ρ c (dr main_v67) from rfl,
    W3_agg, W3_skip, W3_bias, toVec_apply, toVec_apply]
  rfl

/-! ## After the third host stretch: mean, reciprocal deviation, scale and shift -/

theorem W5_mean (j : Fin 64) :
    W5 m ρ c (dr main_v70) (ix2 0 j) = mean (actK (GM m c) (PM m c 0) (X0 m c)) j := by
  rw [show W5 m ρ c = StableHlo.after hostOps2 (W4 m ρ c) from rfl, H2_mean (W4 m ρ c) j, W4_sum]
  rfl

theorem W5_inv (j : Fin 64) :
    W5 m ρ c (dr main_v83) (ix2 0 j)
      = Ideal.rsqrt (varK (actK (GM m c) (PM m c 0) (X0 m c)) j + epsW) := by
  rw [show W5 m ρ c = StableHlo.after hostOps2 (W4 m ρ c) from rfl, H2_inv (W4 m ρ c) j, W4_sum, W4_sumsq]
  rfl

theorem W5_gamma (j : Fin 64) : W5 m ρ c (dr main_v77) (ix2 0 j) = (PM m c 0).gamma j := by
  rw [show W5 m ρ c = StableHlo.after hostOps2 (W4 m ρ c) from rfl, H2_gamma (W4 m ρ c) j,
    W4_keep m ρ c main_arg12 (by decide), W3_keep m ρ c main_arg12 (by decide), W2_keep m ρ c main_arg12 (by decide),
    W1_keep m ρ c main_arg12 (by decide)]
  rfl

theorem W5_beta (j : Fin 64) : W5 m ρ c (dr main_v80) (ix2 0 j) = (PM m c 0).beta j := by
  rw [show W5 m ρ c = StableHlo.after hostOps2 (W4 m ρ c) from rfl, H2_beta (W4 m ρ c) j,
    W4_keep m ρ c main_arg13 (by decide), W3_keep m ρ c main_arg13 (by decide), W2_keep m ρ c main_arg13 (by decide),
    W1_keep m ρ c main_arg13 (by decide)]
  rfl

theorem W5_act (r : Fin 100000) (j : Fin 64) :
    W5 m ρ c (dr main_v68_0) (ix2 r j) = actK (GM m c) (PM m c 0) (X0 m c) r j := by
  rw [W5_keep m ρ c main_v68_0 (by decide), W4_act]

/-! ## After the third kernel: the first layer -/

theorem W6_layer : W6 m ρ c (dr main_v84) = toVec (X1 m c) := by
  refine eq_toVec _ _ fun r j => ?_
  have h := final2 (U5 m ρ) c r j
  rw [← W6_arr m ρ c 5] at h
  rw [show W6 m ρ c (dr main_v84) = W6 m ρ c (dr (Pipeline.arrRef spec2 5)) from rfl, h,
    show U5 m ρ c main_v68_0 = W5 m ρ c (dr main_v68_0) from rfl, show U5 m ρ c main_v70 = W5 m ρ c (dr main_v70) from rfl,
    show U5 m ρ c main_v83 = W5 m ρ c (dr main_v83) from rfl, show U5 m ρ c main_v77 = W5 m ρ c (dr main_v77) from rfl,
    show U5 m ρ c main_v80 = W5 m ρ c (dr main_v80) from rfl,
    W5_act, W5_mean, W5_inv, W5_gamma, W5_beta]
  rfl

end Cert.Val

end
-- ==== Proof.Val.KerChain2.lean ====
/-
  The kernel program's second layer, read through its run. The second layer repeats the first on the first
  layer's output: after the fourth host stretch the second layer's weights and biases lie side by side; after
  the fourth kernel the four affine images of the first layer's output; after the fifth stretch the aggregated
  messages (along the same edges: the endpoint rows are kept from the first stretch on), the skip image and the
  bias row; after the fifth kernel the rectified pre-activation and its two column sums; after the sixth stretch
  the column mean, the reciprocal standard deviation and the scale and shift rows; after the sixth kernel the
  normalised second layer, which is the program's result. The argument arrays are written by no item, so each
  is read at launch however late it is used.
-/
import proofs.«178820_j816043786337_1_alg».proof.Proof.Val.KerChain1

noncomputable section

namespace Cert.Val

open Idealize.ShloMosaic Idealize.ShloMosaic.TcCoe Idealize.SL.Sem
open Cert.KernelIdeal Cert.KernelIdeal.Gen Cert.KernelIdeal.Frame
open Idealize.ShloMosaic.ValueIdx

variable [Facts]
variable (m : (ℓ : Loc nD τ sig) → Buf (Elt Ideal) ℓ) (ρ : Dev nD → PrngReg) (c : Dev nD)

/-! ## What an item does not write it keeps -/

theorem W7_keep (r : Ref sig .tc) (h : r ∉ hostOps3_W) : W7 m ρ c (dr r) = W6 m ρ c (dr r) :=
  StableHlo.after_of_writes_sub hostOps3 _ hostOps3_writes h
theorem W8_keep (r : Ref sig .tc) (h : ∀ w, Pipeline.arrRef spec3 w ≠ r) : W8 m ρ c (dr r) = W7 m ρ c (dr r) :=
  W8_of_ne m ρ c r h
theorem W9_keep (r : Ref sig .tc) (h : r ∉ hostOps4_W) : W9 m ρ c (dr r) = W8 m ρ c (dr r) :=
  StableHlo.after_of_writes_sub hostOps4 _ hostOps4_writes h
theorem W10_keep (r : Ref sig .tc) (h : ∀ w, Pipeline.arrRef spec4 w ≠ r) : W10 m ρ c (dr r) = W9 m ρ c (dr r) :=
  W10_of_ne m ρ c r h
theorem W11_keep (r : Ref sig .tc) (h : r ∉ hostOps5_W) : W11 m ρ c (dr r) = W10 m ρ c (dr r) :=
  StableHlo.after_of_writes_sub hostOps5 _ hostOps5_writes h
theorem W12_keep (r : Ref sig .tc) (h : ∀ w, Pipeline.arrRef spec5 w ≠ r) : W12 m ρ c (dr r) = W11 m ρ c (dr r) :=
  W12_of_ne m ρ c r h

/-- A buffer that none of the first layer's six items writes holds, after them, what it held at launch. -/
theorem W6_arg (r : Ref sig .tc) (h1 : r ∉ hostOps0_W) (h2 : ∀ w, Pipeline.arrRef spec0 w ≠ r) (h3 : r ∉ hostOps1_W)
    (h4 : ∀ w, Pipeline.arrRef spec1 w ≠ r) (h5 : r ∉ hostOps2_W) (h6 : ∀ w, Pipeline.arrRef spec2 w ≠ r) :
    W6 m ρ c (dr r) = m ((c : Thread nD τ).loc r) := by
  rw [W6_keep m ρ c r h6, W5_keep m ρ c r h5, W4_keep m ρ c r h4, W3_keep m ρ c r h3, W2_keep m ρ c r h2,
    W1_keep m ρ c r h1]

/-! ## The endpoint rows, kept from the first stretch on -/

theorem W3_src : W3 m ρ c (dr main_v1) = srcM m c := (W3_keep m ρ c main_v1 (by decide)).trans (W2_src m ρ c)
theorem W3_dst : W3 m ρ c (dr main_v3) = dstM m c := (W3_keep m ρ c main_v3 (by decide)).trans (W2_dst m ρ c)
theorem W4_src : W4 m ρ c (dr main_v1) = srcM m c := (W4_keep m ρ c main_v1 (by decide)).trans (W3_src m ρ c)
theorem W4_dst : W4 m ρ c (dr main_v3) = dstM m c := (W4_keep m ρ c main_v3 (by decide)).trans (W3_dst m ρ c)
theorem W5_src : W5 m ρ c (dr main_v1) = srcM m c := (W5_keep m ρ c main_v1 (by decide)).trans (W4_src m ρ c)
theorem W5_dst : W5 m ρ c (dr main_v3) = dstM m c := (W5_keep m ρ c main_v3 (by decide)).trans (W4_dst m ρ c)
theorem W6_src : W6 m ρ c (dr main_v1) = srcM m c := (W6_keep m ρ c main_v1 (by decide)).trans (W5_src m ρ c)
theorem W6_dst : W6 m ρ c (dr main_v3) = dstM m c := (W6_keep m ρ c main_v3 (by decide)).trans (W5_dst m ρ c)
theorem W7_src : W7 m ρ c (dr main_v1) = srcM m c := (W7_keep m ρ c main_v1 (by decide)).trans (W6_src m ρ c)
theorem W7_dst : W7 m ρ c (dr main_v3) = dstM m c := (W7_keep m ρ c main_v3 (by decide)).trans (W6_dst m ρ c)
theorem W8_src : W8 m ρ c (dr main_v1) = srcM m c := (W8_keep m ρ c main_v1 (by decide)).trans (W7_src m ρ c)
theorem W8_dst : W8 m ρ c (dr main_v3) = dstM m c := (W8_keep m ρ c main_v3 (by decide)).trans (W7_dst m ρ c)

/-! ## After the fourth host stretch -/

/-- The first layer's output is still in place. -/
theorem W7_x : W7 m ρ c (dr main_v84) = toVec (X1 m c) :=
  (W7_keep m ρ c main_v84 (by decide)).trans (W6_layer m ρ c)

/-! ## After the fourth kernel: the four affine images of the first layer's output, side by side -/

/-- The 100000×256 array at an index: the contraction with the concatenated weights plus the concatenated bias. -/
theorem W8_images (r : Fin 100000) (j : Fin 256) :
    W8 m ρ c (dr main_v104) (ix2 r j)
      = (∑ k : Fin 64, X1 m c r k * (W7 m ρ c (dr main_v93) (ix2 k j) : EReal))
        + (W7 m ρ c (dr main_v103) (ix2 0 j) : EReal) := by
  have h := final3 (U7 m ρ) c r j
  rw [← W8_arr m ρ c 3] at h
  rw [show W8 m ρ c (dr main_v104) = W8 m ρ c (dr (Pipeline.arrRef spec3 3)) from rfl, h]
  rw [show U7 m ρ c main_v84 = W7 m ρ c (dr main_v84) from rfl, W7_x m ρ c]
  simp only [toVec_apply]

theorem W8_key (r : Fin 100000) (j : Fin 64) :
    W8 m ρ c (dr main_v104) (ix2 r ⟨j.val, by omega⟩) = lin (X1 m c) (PM m c 1).Wk (PM m c 1).bk r j := by
  rw [W8_images]
  simp only [H3_bcat_k (W6 m ρ c) j, H3_wcat_k (W6 m ρ c) _ j]
  rw [W6_arg m ρ c main_arg3 (by decide) (by decide) (by decide) (by decide) (by decide) (by decide),
    W6_arg m ρ c main_arg4 (by decide) (by decide) (by decide) (by decide) (by decide) (by decide)]
  rfl
theorem W8_query (r : Fin 100000) (j : Fin 64) :
    W8 m ρ c (dr main_v104) (ix2 r ⟨64 + j.val, by omega⟩) = lin (X1 m c) (PM m c 1).Wq (PM m c 1).bq r j := by
  rw [W8_images]
  simp only [H3_bcat_q (W6 m ρ c) j, H3_wcat_q (W6 m ρ c) _ j]
  rw [W6_arg m ρ c main_arg5 (by decide) (by decide) (by decide) (by decide) (by decide) (by decide),
    W6_arg m ρ c main_arg6 (by decide) (by decide) (by decide) (by decide) (by decide) (by decide)]
  rfl
theorem W8_value (r : Fin 100000) (j : Fin 64) :
    W8 m ρ c (dr main_v104) (ix2 r ⟨128 + j.val, by omega⟩) = lin (X1 m c) (PM m c 1).Wv (PM m c 1).bv r j := by
  rw [W8_images]
  simp only [H3_bcat_v (W6 m ρ c) j, H3_wcat_v (W6 m ρ c) _ j]
  rw [W6_arg m ρ c main_arg7 (by decide) (by decide) (by decide) (by decide) (by decide) (by decide),
    W6_arg m ρ c main_arg8 (by decide) (by decide) (by decide) (by decide) (by decide) (by decide)]
  rfl
theorem W8_skip (r : Fin 100000) (j : Fin 64) :
    W8 m ρ c (dr main_v104) (ix2 r ⟨192 + j.val, by omega⟩) = lin (X1 m c) (PM m c 1).Ws (PM m c 1).bs r j := by
  rw [W8_images]
  simp only [H3_bcat_s (W6 m ρ c) j, H3_wcat_s (W6 m ρ c) _ j]
  rw [W6_arg m ρ c main_arg9 (by decide) (by decide) (by decide) (by decide) (by decide) (by decide),
    W6_arg m ρ c main_arg10 (by decide) (by decide) (by decide) (by decide) (by decide) (by decide)]
  rfl

/-! ## After the fifth host stretch: the aggregated messages, the skip image, the bias row -/

theorem W9_agg : W9 m ρ c (dr main_v145) = toVec (aggOf (GM m c) (PM m c 1) (X1 m c)) := by
  rw [show W9 m ρ c = StableHlo.after hostOps4 (W8 m ρ c) from rfl, H4_agg (W8 m ρ c), W8_src, W8_dst,
    eq_toVec _ _ (fun r j => (colSlice0_apply _ r j).trans (W8_key m ρ c r j)),
    eq_toVec _ _ (fun r j => (colSlice64_apply _ r j).trans (W8_query m ρ c r j)),
    eq_toVec _ _ (fun r j => (colSlice128_apply _ r j).trans (W8_value m ρ c r j))]
  exact (toVec_toMat _).symm

theorem W9_skip : W9 m ρ c (dr main_v108) = toVec (lin (X1 m c) (PM m c 1).Ws (PM m c 1).bs) := by
  rw [show W9 m ρ c = StableHlo.after hostOps4 (W8 m ρ c) from rfl, H4_skip (W8 m ρ c)]
  exact eq_toVec _ _ (fun r j => (colSlice192_apply _ r j).trans (W8_skip m ρ c r j))

theorem W9_bias (j : Fin 64) : W9 m ρ c (dr main_v148) (ix2 0 j) = (PM m c 1).bias j := by
  rw [show W9 m ρ c = StableHlo.after hostOps4 (W8 m ρ c) from rfl, H4_bias (W8 m ρ c) j,
    W8_keep m ρ c main_arg11 (by decide), W7_keep m ρ c main_arg11 (by decide),
    W6_arg m ρ c main_arg11 (by decide) (by decide) (by decide) (by decide) (by decide) (by decide)]
  rfl

/-! ## After the fifth kernel: the rectified pre-activation and its column sums -/

theorem W10_act (r : Fin 100000) (j : Fin 64) :
    W10 m ρ c (dr main_v149_0) (ix2 r j) = actK (GM m c) (PM m c 1) (X1 m c) r j := by
  have h := final4_y (U9 m ρ) c r j
  rw [← W10_arr m ρ c 3] at h
  rw [show W10 m ρ c (dr main_v149_0) = W10 m ρ c (dr (Pipeline.arrRef spec4 3)) from rfl, h,
    show U9 m ρ c main_v145 = W9 m ρ c (dr main_v145) from rfl, show U9 m ρ c main_v108 = W9 m ρ c (dr main_v108) from rfl,
    show U9 m ρ c main_v148 = W9 m ρ c (dr main_v148) from rfl,
    W9_agg, W9_skip, W9_bias, toVec_apply, toVec_apply]
  rfl

theorem W10_sum (j : Fin 64) :
    (W10 m ρ c (dr main_v149_1) (ix2 0 j) : EReal) = ∑ r : Fin 100000, actK (GM m c) (PM m c 1) (X1 m c) r j := by
  have h := final4_sum (U9 m ρ) c j
  rw [← W10_arr m ρ c 4] at h
  rw [show W10 m ρ c (dr main_v149_1) = W10 m ρ c (dr (Pipeline.arrRef spec4 4)) from rfl, h]
  show (_ : EReal) = _
  refine Finset.sum_congr rfl fun r _ => ?_
  rw [actOf_apply, show U9 m ρ c main_v145 = W9 m ρ c (dr main_v145) from rfl,
    show U9 m ρ c main_v108 = W9 m ρ c (dr main_v108) from rfl,
    show U9 m ρ c main_v148 = W9 m ρ c (dr main_v148) from rfl,
    W9_agg, W9_skip, W9_bias, toVec_apply, toVec_apply]
  rfl

theorem W10_sumsq (j : Fin 64) :
    (W10 m ρ c (dr main_v149_2) (ix2 0 j) : EReal)
      = ∑ r : Fin 100000, actK (GM m c) (PM m c 1) (X1 m c) r j * actK (GM m c) (PM m c 1) (X1 m c) r j := by
  have h := final4_sumsq (U9 m ρ) c j
  rw [← W10_arr m ρ c 5] at h
  rw [show W10 m ρ c (dr main_v149_2) = W10 m ρ c (dr (Pipeline.arrRef spec4 5)) from rfl, h]
  show (_ : EReal) = _
  refine Finset.sum_congr rfl fun r _ => ?_
  rw [actOf_apply, show U9 m ρ c main_v145 = W9 m ρ c (dr main_v145) from rfl,
    show U9 m ρ c main_v108 = W9 m ρ c (dr main_v108) from rfl,
    show U9 m ρ c main_v148 = W9 m ρ c (dr main_v148) from rfl,
    W9_agg, W9_skip, W9_bias, toVec_apply, toVec_apply]
  rfl

/-! ## After the sixth host stretch: mean, reciprocal deviation, scale and shift -/

theorem W11_mean (j : Fin 64) :
    W11 m ρ c (dr main_v151) (ix2 0 j) = mean (actK (GM m c) (PM m c 1) (X1 m c)) j := by
  rw [show W11 m ρ c = StableHlo.after hostOps5 (W10 m ρ c) from rfl, H5_mean (W10 m ρ c) j, W10_sum]
  rfl

theorem W11_inv (j : Fin 64) :
    W11 m ρ c (dr main_v164) (ix2 0 j)
      = Ideal.rsqrt (varK (actK (GM m c) (PM m c 1) (X1 m c)) j + epsW) := by
  rw [show W11 m ρ c = StableHlo.after hostOps5 (W10 m ρ c) from rfl, H5_inv (W10 m ρ c) j, W10_sum, W10_sumsq]
  rfl

theorem W11_gamma (j : Fin 64) : W11 m ρ c (dr main_v158) (ix2 0 j) = (PM m c 1).gamma j := by
  rw [show W11 m ρ c = StableHlo.after hostOps5 (W10 m ρ c) from rfl, H5_gamma (W10 m ρ c) j,
    W10_keep m ρ c main_arg12 (by decide), W9_keep m ρ c main_arg12 (by decide), W8_keep m ρ c main_arg12 (by decide),
    W7_keep m ρ c main_arg12 (by decide),
    W6_arg m ρ c main_arg12 (by decide) (by decide) (by decide) (by decide) (by decide) (by decide)]
  rfl

theorem W11_beta (j : Fin 64) : W11 m ρ c (dr main_v161) (ix2 0 j) = (PM m c 1).beta j := by
  rw [show W11 m ρ c = StableHlo.after hostOps5 (W10 m ρ c) from rfl, H5_beta (W10 m ρ c) j,
    W10_keep m ρ c main_arg13 (by decide), W9_keep m ρ c main_arg13 (by decide), W8_keep m ρ c main_arg13 (by decide),
    W7_keep m ρ c main_arg13 (by decide),
    W6_arg m ρ c main_arg13 (by decide) (by decide) (by decide) (by decide) (by decide) (by decide)]
  rfl

theorem W11_act (r : Fin 100000) (j : Fin 64) :
    W11 m ρ c (dr main_v149_0) (ix2 r j) = actK (GM m c) (PM m c 1) (X1 m c) r j := by
  rw [W11_keep m ρ c main_v149_0 (by decide), W10_act]

/-! ## After the sixth kernel: the second layer, the program's result -/

theorem ker_result : W12 m ρ c (dr main_v165) = toVec (layerK (GM m c) (PM m c 1) (X1 m c)) := by
  refine eq_toVec _ _ fun r j => ?_
  have h := final5 (U11 m ρ) c r j
  rw [← W12_arr m ρ c 5] at h
  rw [show W12 m ρ c (dr main_v165) = W12 m ρ c (dr (Pipeline.arrRef spec5 5)) from rfl, h,
    show U11 m ρ c main_v149_0 = W11 m ρ c (dr main_v149_0) from rfl, show U11 m ρ c main_v151 = W11 m ρ c (dr main_v151) from rfl,
    show U11 m ρ c main_v164 = W11 m ρ c (dr main_v164) from rfl, show U11 m ρ c main_v158 = W11 m ρ c (dr main_v158) from rfl,
    show U11 m ρ c main_v161 = W11 m ρ c (dr main_v161) from rfl,
    W11_act, W11_mean, W11_inv, W11_gamma, W11_beta]
  rfl

end Cert.Val

end
-- ==== Proof.lean ====
/-
  The certificate: two layers of a gated graph convolution with training-mode batch normalisation, computed by
  three kernels per layer (the four affine images as one product with the concatenated weights; the rectified
  pre-activation with its column sums accumulated over the row blocks; the normalisation) around a host edge
  stage, against the same two layers written with whole-array operations.

  The frames of the two kernel programs are the runs of their six kernel regions among the host stretches
  (Proof/K, Proof/KI); the reference's is its run read back. The idealisation rewrote nothing. At the
  extended reals the two programs are one function of finite arguments: they differ in the grouping of a sum,
  which is associativity, and in the form of the variance — the mean of the squares less the square of the mean
  against the mean of the squared deviations —, which agree on real numbers by expanding the square; the
  precondition makes every argument real, and every operation of a layer keeps reals real (the reciprocal
  square root because a variance of reals is a nonnegative real and the offset is positive), so the second
  layer meets real inputs too (Proof/Val).
-/
import proofs.«178820_j816043786337_1_alg».proof.Defs
import proofs.«178820_j816043786337_1_alg».proof.Proof.Gen.Kernel
import proofs.«178820_j816043786337_1_alg».proof.Proof.Gen.KernelIdeal
import proofs.«178820_j816043786337_1_alg».proof.Proof.Gen.ReferenceIdeal
import proofs.«178820_j816043786337_1_alg».proof.Proof.Gen.Pre_finite_inputs
import proofs.«178820_j816043786337_1_alg».proof.Proof.K.Run
import proofs.«178820_j816043786337_1_alg».proof.Proof.KI.Run
import proofs.«178820_j816043786337_1_alg».proof.Proof.Val.Algebra
import proofs.«178820_j816043786337_1_alg».proof.Proof.Val.Finite
import proofs.«178820_j816043786337_1_alg».proof.Proof.Val.AggReal
import proofs.«178820_j816043786337_1_alg».proof.Proof.Val.RefChain
import proofs.«178820_j816043786337_1_alg».proof.Proof.Val.KerChain2
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Frame.frame m ρ

/-- So does its reading at the extended reals. -/
theorem frame_ki : Cert.frame_KernelIdeal := fun m ρ _ => Cert.KernelIdeal.Frame.frame m ρ

/-- The reference is host operations only, none of which writes an argument. -/
theorem frame_ri : Cert.frame_ReferenceIdeal := fun m ρ _ => Cert.ReferenceIdeal.ValueH.frame_post (F := Ideal) m ρ

/-- The two programs end with one result: both are two layers of the same real-valued function of the arguments. -/
theorem algebraic : Cert.algebraic_KernelIdeal_ReferenceIdeal := by
  intro m ρ m' ρ' hpre hagree
  refine ⟨fun c => Cert.KernelIdeal.Frame.W12 m ρ c (Proc.devRef .tc Cert.KernelIdeal.main_v165),
    Cert.KernelIdeal.Frame.run_value m ρ, ?_⟩
  refine (θ_run Cert.ReferenceIdeal.defs _ _).mono (fun _ h c => ⟨(h c).1.trans ?_, (h c).2⟩)
    (Cert.ReferenceIdeal.ValueH.run_value (F := Ideal) m' ρ')
  obtain ⟨h0, h1, _, h3, h4, h5, h6, h7, h8, h9, h10, h11, h12, h13⟩ := hagree c
  obtain ⟨hx, hp⟩ := Cert.Val.pre_real _ _ _ _ _ _ _ _ _ _ _ _ _ _ (hpre c)
  show StableHlo.after Cert.ReferenceIdeal.ValueH.ops (StableHlo.launchContents m' c) (Proc.devRef .tc Cert.ReferenceIdeal.main_v213)
    = Cert.KernelIdeal.Frame.W12 m ρ c (Proc.devRef .tc Cert.KernelIdeal.main_v165)
  rw [Cert.Val.ref_result m' c, Cert.Val.ker_result m ρ c, h0, h1, h3, h4, h5, h6, h7, h8, h9, h10, h11, h12, h13]
  exact congrArg Cert.Val.toVec
    (Cert.Val.two_layers _ (Cert.Val.aggI_keepsReal _ _) _ _ (hp 0) (hp 1) _ hx).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
